-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1128) = v0 c
          ∧ r.2.mem ((c.tc : Thread Cert.ReferenceIdeal.nD Cert.ReferenceIdeal.τ).loc Cert.ReferenceIdeal.main_v1130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32767x512 : Shape := ⟨2, ![32767, 512]⟩
abbrev S512x1024 : Shape := ⟨2, ![512, 1024]⟩
abbrev S512 : Shape := ⟨1, ![512]⟩
abbrev S_ : Shape := ⟨0, ![]⟩

class Facts : Prop where
  bcast_S_S32767x512 : S_.BroadcastsInDim S32767x512 (![] : Fin 0 → Fin S32767x512.rank)
  reducesTo_S32767x512_S_d0_1 : S32767x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x1024 .f32) (main_arg8 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32767x512 .f32) (main_arg1 : FVec F S512x1024 .f32) (main_arg2 : FVec F S512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) : IVec S_ 1 :=
  let main_v0 : FVec F S32767x512 .f32 := Host.absf main_arg0
  let main_cst : FVec F S_ .f32 := constant S_ .f32 0x7F800000#32
  let main_v1 : FVec F S32767x512 .f32 := broadcastInDim S32767x512 ![] bcast_S_S32767x512 main_cst
  let main_v2 : IVec S32767x512 1 := cmpf .olt main_v0 main_v1
  let main_c : IVec S_ 1 := constantI S_ 1 1#1
  let main_v3 : IVec S_ 1 := (fun x v => Host.reduce IntOp.andi x v reducesTo_S32767x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_v13 main_v16
-- ==== Kernel.lean ====
abbrev S32767x512 : Shape := ⟨2, ![32767, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S16384x512 : Shape := ⟨2, ![16384, 512]⟩
abbrev S8192x512 : Shape := ⟨2, ![8192, 512]⟩
abbrev S8192x2x512 : Shape := ⟨3, ![8192, 2, 512]⟩
abbrev S4096x512 : Shape := ⟨2, ![4096, 512]⟩
abbrev S4096x2x512 : Shape := ⟨3, ![4096, 2, 512]⟩
abbrev S2048x512 : Shape := ⟨2, ![2048, 512]⟩
abbrev S2048x2x512 : Shape := ⟨3, ![2048, 2, 512]⟩
abbrev S1024x512 : Shape := ⟨2, ![1024, 512]⟩
abbrev S1024x2x512 : Shape := ⟨3, ![1024, 2, 512]⟩
abbrev S1023x512 : Shape := ⟨2, ![1023, 512]⟩
abbrev S512x2x512 : Shape := ⟨3, ![512, 2, 512]⟩
abbrev S512x1x512 : Shape := ⟨3, ![512, 1, 512]⟩
abbrev S256x512 : Shape := ⟨2, ![256, 512]⟩
abbrev S256x2x512 : Shape := ⟨3, ![256, 2, 512]⟩
abbrev S256x1x512 : Shape := ⟨3, ![256, 1, 512]⟩
abbrev S128x512 : Shape := ⟨2, ![128, 512]⟩
abbrev S128x2x512 : Shape := ⟨3, ![128, 2, 512]⟩
abbrev S128x1x512 : Shape := ⟨3, ![128, 1, 512]⟩
abbrev S64x512 : Shape := ⟨2, ![64, 512]⟩
abbrev S64x2x512 : Shape := ⟨3, ![64, 2, 512]⟩
abbrev S64x1x512 : Shape := ⟨3, ![64, 1, 512]⟩
abbrev S32x512 : Shape := ⟨2, ![32, 512]⟩
abbrev S32x2x512 : Shape := ⟨3, ![32, 2, 512]⟩
abbrev S32x1x512 : Shape := ⟨3, ![32, 1, 512]⟩
abbrev S16x512 : Shape := ⟨2, ![16, 512]⟩
abbrev S16x2x512 : Shape := ⟨3, ![16, 2, 512]⟩
abbrev S16x1x512 : Shape := ⟨3, ![16, 1, 512]⟩
abbrev S8x512 : Shape := ⟨2, ![8, 512]⟩
abbrev S8x2x512 : Shape := ⟨3, ![8, 2, 512]⟩
abbrev S8x1x512 : Shape := ⟨3, ![8, 1, 512]⟩
abbrev S4x512 : Shape := ⟨2, ![4, 512]⟩
abbrev S4x2x512 : Shape := ⟨3, ![4, 2, 512]⟩
abbrev S4x1x512 : Shape := ⟨3, ![4, 1, 512]⟩
abbrev S2x512 : Shape := ⟨2, ![2, 512]⟩
abbrev S2x2x512 : Shape := ⟨3, ![2, 2, 512]⟩
abbrev S2x1x512 : Shape := ⟨3, ![2, 1, 512]⟩
abbrev S1x2x512 : Shape := ⟨3, ![1, 2, 512]⟩
abbrev S1x1x512 : Shape := ⟨3, ![1, 1, 512]⟩

abbrev nBuf : Space → Nat
  | .hbm => 57
  | .vmem => 117
  | .smem => 0
  | _ => 0

abbrev bufTy : (tb : Table) → Fin (tcTables nBuf tb) → BufTy
  | .hbm, ⟨0, _⟩ => ⟨S32767x512, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S8192x512, .f32⟩
  | .hbm, ⟨33, _⟩ => ⟨S8192x2x512, .f32⟩
  | .hbm, ⟨34, _⟩ => ⟨S8192x2x512, .f32⟩
  | .hbm, ⟨35, _⟩ => ⟨S8192x512, .f32⟩
  | .hbm, ⟨36, _⟩ => ⟨S8192x512, .f32⟩
  | .hbm, ⟨37, _⟩ => ⟨S4096x512, .f32⟩
  | .hbm, ⟨38, _⟩ => ⟨S4096x2x512, .f32⟩
  | .hbm, ⟨39, _⟩ => ⟨S4096x2x512, .f32⟩
  | .hbm, ⟨40, _⟩ => ⟨S4096x512, .f32⟩
  | .hbm, ⟨41, _⟩ => ⟨S4096x512, .f32⟩
  | .hbm, ⟨42, _⟩ => ⟨S2048x512, .f32⟩
  | .hbm, ⟨43, _⟩ => ⟨S2048x2x512, .f32⟩
  | .hbm, ⟨44, _⟩ => ⟨S2048x2x512, .f32⟩
  | .hbm, ⟨45, _⟩ => ⟨S2048x512, .f32⟩
  | .hbm, ⟨46, _⟩ => ⟨S2048x512, .f32⟩
  | .hbm, ⟨47, _⟩ => ⟨S1024x512, .f32⟩
  | .hbm, ⟨48, _⟩ => ⟨S1024x2x512, .f32⟩
  | .hbm, ⟨49, _⟩ => ⟨S1024x2x512, .f32⟩
  | .hbm, ⟨50, _⟩ => ⟨S1024x512, .f32⟩
  | .hbm, ⟨51, _⟩ => ⟨S1024x512, .f32⟩
  | .hbm, ⟨52, _⟩ => ⟨S1023x512, .f32⟩
  | .hbm, ⟨53, _⟩ => ⟨S1x512, .f32⟩
  | .hbm, ⟨54, _⟩ => ⟨S1x512, .f32⟩
  | .hbm, ⟨55, _⟩ => ⟨S512, .f32⟩
  | .hbm, ⟨56, _⟩ => ⟨S512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S512x512, .f32⟩
  | .local _ .vmem, ⟨13, _⟩ => ⟨S512x512, .f32⟩
  | .local _ .vmem, ⟨14, _⟩ => ⟨S512x2x512, .f32⟩
  | .local _ .vmem, ⟨15, _⟩ => ⟨S512x2x512, .f32⟩
  | .local _ .vmem, ⟨16, _⟩ => ⟨S512x2x512, .f32⟩
  | .local _ .vmem, ⟨17, _⟩ => ⟨S512x2x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x2x512, .f32⟩
  | .local _ .vmem, ⟨37, _⟩ => ⟨S512x2x512, .f32⟩
  | .local _ .vmem, ⟨38, _⟩ => ⟨S512x2x512, .f32⟩
  | .local _ .vmem, ⟨39, _⟩ => ⟨S512x2x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S512x512, .f32⟩
  | .local _ .vmem, ⟨57, _⟩ => ⟨S512x512, .f32⟩
  | .local _ .vmem, ⟨58, _⟩ => ⟨S512x2x512, .f32⟩
  | .local _ .vmem, ⟨59, _⟩ => ⟨S512x2x512, .f32⟩
  | .local _ .vmem, ⟨60, _⟩ => ⟨S512x2x512, .f32⟩
  | .local _ .vmem, ⟨61, _⟩ => ⟨S512x2x512, .f32⟩
  | .local _ .vmem, ⟨62, _⟩ => ⟨S512x512, .f32⟩
  | .local _ .vmem, ⟨63, _⟩ => ⟨S512x512, .f32⟩
  | .local _ .vmem, ⟨64, _⟩ => ⟨S512x512, .f32⟩
  | .local _ .vmem, ⟨65, _⟩ => ⟨S512x512, .f32⟩
  | .local _ .vmem, ⟨66, _⟩ => ⟨S512x512, .f32⟩
  | .local _ .vmem, ⟨67, _⟩ => ⟨S512x512, .f32⟩
  | .local _ .vmem, ⟨68, _⟩ => ⟨S512x512, .f32⟩
  | .local _ .vmem, ⟨69, _⟩ => ⟨S512x512, .f32⟩
  | .local _ .vmem, ⟨70, _⟩ => ⟨S1x512, .f32⟩
  | .local _ .vmem, ⟨71, _⟩ => ⟨S1x512, .f32⟩
  | .local _ .vmem, ⟨72, _⟩ => ⟨S1x512, .f32⟩
  | .local _ .vmem, ⟨73, _⟩ => ⟨S1x512, .f32⟩
  | .local _ .vmem, ⟨74, _⟩ => ⟨S512x512, .f32⟩
  | .local _ .vmem, ⟨75, _⟩ => ⟨S512x512, .f32⟩
  | .local _ .vmem, ⟨76, _⟩ => ⟨S512x512, .f32⟩
  | .local _ .vmem, ⟨77, _⟩ => ⟨S512x512, .f32⟩
  | .local _ .vmem, ⟨78, _⟩ => ⟨S512x512, .f32⟩
  | .local _ .vmem, ⟨79, _⟩ => ⟨S512x512, .f32⟩
  | .local _ .vmem, ⟨80, _⟩ => ⟨S512x2x512, .f32⟩
  | .local _ .vmem, ⟨81, _⟩ => ⟨S512x2x512, .f32⟩
  | .local _ .vmem, ⟨82, _⟩ => ⟨S512x2x512, .f32⟩
  | .local _ .vmem, ⟨83, _⟩ => ⟨S512x2x512, .f32⟩
  | .local _ .vmem, ⟨84, _⟩ => ⟨S512x512, .f32⟩
  | .local _ .vmem, ⟨85, _⟩ => ⟨S512x512, .f32⟩
  | .local _ .vmem, ⟨86, _⟩ => ⟨S512x512, .f32⟩
  | .local _ .vmem, ⟨87, _⟩ => ⟨S512x512, .f32⟩
  | .local _ .vmem, ⟨88, _⟩ => ⟨S512x512, .f32⟩
  | .local _ .vmem, ⟨89, _⟩ => ⟨S512x512, .f32⟩
  | .local _ .vmem, ⟨90, _⟩ => ⟨S512x512, .f32⟩
  | .local _ .vmem, ⟨91, _⟩ => ⟨S512x512, .f32⟩
  | .local _ .vmem, ⟨92, _⟩ => ⟨S1x512, .f32⟩
  | .local _ .vmem, ⟨93, _⟩ => ⟨S1x512, .f32⟩
  | .local _ .vmem, ⟨94, _⟩ => ⟨S1x512, .f32⟩
  | .local _ .vmem, ⟨95, _⟩ => ⟨S1x512, .f32⟩
  | .local _ .vmem, ⟨96, _⟩ => ⟨S512x512, .f32⟩
  | .local _ .vmem, ⟨97, _⟩ => ⟨S512x512, .f32⟩
  | .local _ .vmem, ⟨98, _⟩ => ⟨S512x512, .f32⟩
  | .local _ .vmem, ⟨99, _⟩ => ⟨S512x512, .f32⟩
  | .local _ .vmem, ⟨100, _⟩ => ⟨S1023x512, .f32⟩
  | .local _ .vmem, ⟨101, _⟩ => ⟨S1024x512, .f32⟩
  | .local _ .vmem, ⟨102, _⟩ => ⟨S1024x512, .f32⟩
  | .local _ .vmem, ⟨103, _⟩ => ⟨S512x512, .f32⟩
  | .local _ .vmem, ⟨104, _⟩ => ⟨S512x512, .f32⟩
  | .local _ .vmem, ⟨105, _⟩ => ⟨S512x512, .f32⟩
  | .local _ .vmem, ⟨106, _⟩ => ⟨S512x512, .f32⟩
  | .local _ .vmem, ⟨107, _⟩ => ⟨S512x512, .f32⟩
  | .local _ .vmem, ⟨108, _⟩ => ⟨S512x512, .f32⟩
  | .local _ .vmem, ⟨109, _⟩ => ⟨S512x512, .f32⟩
  | .local _ .vmem, ⟨110, _⟩ => ⟨S512x512, .f32⟩
  | .local _ .vmem, ⟨111, _⟩ => ⟨S1x512, .f32⟩
  | .local _ .vmem, ⟨112, _⟩ => ⟨S1x512, .f32⟩
  | .local _ .vmem, ⟨113, _⟩ => ⟨S1x512, .f32⟩
  | .local _ .vmem, ⟨114, _⟩ => ⟨S1x512, .f32⟩
  | .local _ .vmem, ⟨115, _⟩ => ⟨S1x512, .f32⟩
  | .local _ .vmem, ⟨116, _⟩ => ⟨S1x512, .f32⟩
  | _, _ => ⟨S32767x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21_0 : Ref sig .tc := ⟨.hbm, 30, rfl⟩
abbrev main_call0_v21_1 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25_0 : Ref sig .tc := ⟨.hbm, 35, rfl⟩
abbrev main_call0_v25_1 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29_0 : Ref sig .tc := ⟨.hbm, 40, rfl⟩
abbrev main_call0_v29_1 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_v33_0 : Ref sig .tc := ⟨.hbm, 45, rfl⟩
abbrev main_call0_v33_1 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37_0 : Ref sig .tc := ⟨.hbm, 50, rfl⟩
abbrev main_call0_v37_1 : Ref sig .tc := ⟨.hbm, 51, rfl⟩
abbrev main_call0_v38 : Ref sig .tc := ⟨.hbm, 52, rfl⟩
abbrev main_call0_v39_0 : Ref sig .tc := ⟨.hbm, 53, rfl⟩
abbrev main_call0_v39_1 : Ref sig .tc := ⟨.hbm, 54, rfl⟩
abbrev main_v0_0 : Ref sig .tc := ⟨.hbm, 55, rfl⟩
abbrev main_v0_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc1_stg16_0 : Ref sig .tc := ⟨.vmem, 32, rfl⟩
abbrev cc1_stg16_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg12_0 : Ref sig .tc := ⟨.vmem, 49, rfl⟩
abbrev cc2_stg13_0 : Ref sig .tc := ⟨.vmem, 50, rfl⟩
abbrev cc2_stg14_0 : Ref sig .tc := ⟨.vmem, 51, rfl⟩
abbrev cc2_stg15_0 : Ref sig .tc := ⟨.vmem, 52, rfl⟩
abbrev cc2_stg15_1 : Ref sig .tc := ⟨.vmem, 53, rfl⟩
abbrev cc2_stg16_0 : Ref sig .tc := ⟨.vmem, 54, rfl⟩
abbrev cc2_stg16_1 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg1_1 : Ref sig .tc := ⟨.vmem, 59, rfl⟩
abbrev cc3_stg2_0 : Ref sig .tc := ⟨.vmem, 60, rfl⟩
abbrev cc3_stg2_1 : Ref sig .tc := ⟨.vmem, 61, rfl⟩
abbrev cc3_stg3_0 : Ref sig .tc := ⟨.vmem, 62, rfl⟩
abbrev cc3_stg4_0 : Ref sig .tc := ⟨.vmem, 63, rfl⟩
abbrev cc3_stg5_0 : Ref sig .tc := ⟨.vmem, 64, rfl⟩
abbrev cc3_stg6_0 : Ref sig .tc := ⟨.vmem, 65, rfl⟩
abbrev cc3_stg7_0 : Ref sig .tc := ⟨.vmem, 66, rfl⟩
abbrev cc3_stg8_0 : Ref sig .tc := ⟨.vmem, 67, rfl⟩
abbrev cc3_stg9_0 : Ref sig .tc := ⟨.vmem, 68, rfl⟩
abbrev cc3_stg10_0 : Ref sig .tc := ⟨.vmem, 69, rfl⟩
abbrev cc3_stg11_0 : Ref sig .tc := ⟨.vmem, 70, rfl⟩
abbrev cc3_stg12_0 : Ref sig .tc := ⟨.vmem, 71, rfl⟩
abbrev cc3_stg13_0 : Ref sig .tc := ⟨.vmem, 72, rfl⟩
abbrev cc3_stg14_0 : Ref sig .tc := ⟨.vmem, 73, rfl⟩
abbrev cc3_stg15_0 : Ref sig .tc := ⟨.vmem, 74, rfl⟩
abbrev cc3_stg15_1 : Ref sig .tc := ⟨.vmem, 75, rfl⟩
abbrev cc3_stg16_0 : Ref sig .tc := ⟨.vmem, 76, rfl⟩
abbrev cc3_stg16_1 : Ref sig .tc := ⟨.vmem, 77, rfl⟩
abbrev cc4_stg0_0 : Ref sig .tc := ⟨.vmem, 78, rfl⟩
abbrev cc4_stg0_1 : Ref sig .tc := ⟨.vmem, 79, rfl⟩
abbrev cc4_stg1_0 : Ref sig .tc := ⟨.vmem, 80, rfl⟩
abbrev cc4_stg1_1 : Ref sig .tc := ⟨.vmem, 81, rfl⟩
abbrev cc4_stg2_0 : Ref sig .tc := ⟨.vmem, 82, rfl⟩
abbrev cc4_stg2_1 : Ref sig .tc := ⟨.vmem, 83, rfl⟩
abbrev cc4_stg3_0 : Ref sig .tc := ⟨.vmem, 84, rfl⟩
abbrev cc4_stg4_0 : Ref sig .tc := ⟨.vmem, 85, rfl⟩
abbrev cc4_stg5_0 : Ref sig .tc := ⟨.vmem, 86, rfl⟩
abbrev cc4_stg6_0 : Ref sig .tc := ⟨.vmem, 87, rfl⟩
abbrev cc4_stg7_0 : Ref sig .tc := ⟨.vmem, 88, rfl⟩
abbrev cc4_stg8_0 : Ref sig .tc := ⟨.vmem, 89, rfl⟩
abbrev cc4_stg9_0 : Ref sig .tc := ⟨.vmem, 90, rfl⟩
abbrev cc4_stg10_0 : Ref sig .tc := ⟨.vmem, 91, rfl⟩
abbrev cc4_stg11_0 : Ref sig .tc := ⟨.vmem, 92, rfl⟩
abbrev cc4_stg12_0 : Ref sig .tc := ⟨.vmem, 93, rfl⟩
abbrev cc4_stg13_0 : Ref sig .tc := ⟨.vmem, 94, rfl⟩
abbrev cc4_stg14_0 : Ref sig .tc := ⟨.vmem, 95, rfl⟩
abbrev cc4_stg15_0 : Ref sig .tc := ⟨.vmem, 96, rfl⟩
abbrev cc4_stg15_1 : Ref sig .tc := ⟨.vmem, 97, rfl⟩
abbrev cc4_stg16_0 : Ref sig .tc := ⟨.vmem, 98, rfl⟩
abbrev cc4_stg16_1 : Ref sig .tc := ⟨.vmem, 99, rfl⟩
abbrev cc5_stg0_0 : Ref sig .tc := ⟨.vmem, 100, rfl⟩
abbrev cc5_stg1_0 : Ref sig .tc := ⟨.vmem, 101, rfl⟩
abbrev cc5_stg2_0 : Ref sig .tc := ⟨.vmem, 102, rfl⟩
abbrev cc5_stg3_0 : Ref sig .tc := ⟨.vmem, 103, rfl⟩
abbrev cc5_stg4_0 : Ref sig .tc := ⟨.vmem, 104, rfl⟩
abbrev cc5_stg5_0 : Ref sig .tc := ⟨.vmem, 105, rfl⟩
abbrev cc5_stg6_0 : Ref sig .tc := ⟨.vmem, 106, rfl⟩
abbrev cc5_stg7_0 : Ref sig .tc := ⟨.vmem, 107, rfl⟩
abbrev cc5_stg8_0 : Ref sig .tc := ⟨.vmem, 108, rfl⟩
abbrev cc5_stg9_0 : Ref sig .tc := ⟨.vmem, 109, rfl⟩
abbrev cc5_stg10_0 : Ref sig .tc := ⟨.vmem, 110, rfl⟩
abbrev cc5_stg11_0 : Ref sig .tc := ⟨.vmem, 111, rfl⟩
abbrev cc5_stg12_0 : Ref sig .tc := ⟨.vmem, 112, rfl⟩
abbrev cc5_stg13_0 : Ref sig .tc := ⟨.vmem, 113, rfl⟩
abbrev cc5_stg14_0 : Ref sig .tc := ⟨.vmem, 114, rfl⟩
abbrev cc5_stg15_0 : Ref sig .tc := ⟨.vmem, 115, rfl⟩
abbrev cc5_stg16_0 : Ref sig .tc := ⟨.vmem, 116, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem15_1 : DmaSem sig := 31
abbrev cc1_sem16_0 : DmaSem sig := 32
abbrev cc1_sem16_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem10_0 : DmaSem sig := 47
abbrev cc2_sem11_0 : DmaSem sig := 48
abbrev cc2_sem12_0 : DmaSem sig := 49
abbrev cc2_sem13_0 : DmaSem sig := 50
abbrev cc2_sem14_0 : DmaSem sig := 51
abbrev cc2_sem15_0 : DmaSem sig := 52
abbrev cc2_sem15_1 : DmaSem sig := 53
abbrev cc2_sem16_0 : DmaSem sig := 54
abbrev cc2_sem16_1 : DmaSem sig := 55
abbrev cc3_sem0_0 : DmaSem sig := 56
abbrev cc3_sem0_1 : DmaSem sig := 57
abbrev cc3_sem1_0 : DmaSem sig := 58
abbrev cc3_sem1_1 : DmaSem sig := 59
abbrev cc3_sem2_0 : DmaSem sig := 60
abbrev cc3_sem2_1 : DmaSem sig := 61
abbrev cc3_sem3_0 : DmaSem sig := 62
abbrev cc3_sem4_0 : DmaSem sig := 63
abbrev cc3_sem5_0 : DmaSem sig := 64
abbrev cc3_sem6_0 : DmaSem sig := 65
abbrev cc3_sem7_0 : DmaSem sig := 66
abbrev cc3_sem8_0 : DmaSem sig := 67
abbrev cc3_sem9_0 : DmaSem sig := 68
abbrev cc3_sem10_0 : DmaSem sig := 69
abbrev cc3_sem11_0 : DmaSem sig := 70
abbrev cc3_sem12_0 : DmaSem sig := 71
abbrev cc3_sem13_0 : DmaSem sig := 72
abbrev cc3_sem14_0 : DmaSem sig := 73
abbrev cc3_sem15_0 : DmaSem sig := 74
abbrev cc3_sem15_1 : DmaSem sig := 75
abbrev cc3_sem16_0 : DmaSem sig := 76
abbrev cc3_sem16_1 : DmaSem sig := 77
abbrev cc4_sem0_0 : DmaSem sig := 78
abbrev cc4_sem0_1 : DmaSem sig := 79
abbrev cc4_sem1_0 : DmaSem sig := 80
abbrev cc4_sem1_1 : DmaSem sig := 81
abbrev cc4_sem2_0 : DmaSem sig := 82
abbrev cc4_sem2_1 : DmaSem sig := 83
abbrev cc4_sem3_0 : DmaSem sig := 84
abbrev cc4_sem4_0 : DmaSem sig := 85
abbrev cc4_sem5_0 : DmaSem sig := 86
abbrev cc4_sem6_0 : DmaSem sig := 87
abbrev cc4_sem7_0 : DmaSem sig := 88
abbrev cc4_sem8_0 : DmaSem sig := 89
abbrev cc4_sem9_0 : DmaSem sig := 90
abbrev cc4_sem10_0 : DmaSem sig := 91
abbrev cc4_sem11_0 : DmaSem sig := 92
abbrev cc4_sem12_0 : DmaSem sig := 93
abbrev cc4_sem13_0 : DmaSem sig := 94
abbrev cc4_sem14_0 : DmaSem sig := 95
abbrev cc4_sem15_0 : DmaSem sig := 96
abbrev cc4_sem15_1 : DmaSem sig := 97
abbrev cc4_sem16_0 : DmaSem sig := 98
abbrev cc4_sem16_1 : DmaSem sig := 99
abbrev cc5_sem0_0 : DmaSem sig := 100
abbrev cc5_sem1_0 : DmaSem sig := 101
abbrev cc5_sem2_0 : DmaSem sig := 102
abbrev cc5_sem3_0 : DmaSem sig := 103
abbrev cc5_sem4_0 : DmaSem sig := 104
abbrev cc5_sem5_0 : DmaSem sig := 105
abbrev cc5_sem6_0 : DmaSem sig := 106
abbrev cc5_sem7_0 : DmaSem sig := 107
abbrev cc5_sem8_0 : DmaSem sig := 108
abbrev cc5_sem9_0 : DmaSem sig := 109
abbrev cc5_sem10_0 : DmaSem sig := 110
abbrev cc5_sem11_0 : DmaSem sig := 111
abbrev cc5_sem12_0 : DmaSem sig := 112
abbrev cc5_sem13_0 : DmaSem sig := 113
abbrev cc5_sem14_0 : DmaSem sig := 114
abbrev cc5_sem15_0 : DmaSem sig := 115
abbrev cc5_sem16_0 : DmaSem sig := 116

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S512x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S512x512 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S512x512 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x2x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x2x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x512 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x512 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S512x512 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S512x512 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x2x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x2x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S512x512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S512x512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x512 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x512 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x512 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x512 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 2 → Memref sig .tc .vmem S512x512 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S512x512 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1023x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1024x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1024x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S512x512 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S512x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S512x512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x512 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x512 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x512 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x512 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S1x512 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x512 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

class Facts₀ : Prop where
  slices_S512x1024_S512x512_0_0 : S512x1024.Slices ![0, 0] S512x512
  transposes_S512x512_S512x512_1_0 : S512x512.Transposes [1, 0] S512x512
  slices_S512x1024_S512x512_0_512 : S512x1024.Slices ![0, 512] S512x512
  shapeCasts_S512_S1x512 : S512.ShapeCasts S1x512
  slices_S32767x512_S16384x512_16383_0 : S32767x512.Slices ![16383, 0] S16384x512
  slices_S32767x512_S8192x512_8191_0 : S32767x512.Slices ![8191, 0] S8192x512
  shapeCasts_S16384x512_S8192x2x512 : S16384x512.ShapeCasts S8192x2x512
  slices_S32767x512_S4096x512_4095_0 : S32767x512.Slices ![4095, 0] S4096x512
  shapeCasts_S8192x512_S4096x2x512 : S8192x512.ShapeCasts S4096x2x512
  slices_S32767x512_S2048x512_2047_0 : S32767x512.Slices ![2047, 0] S2048x512
  shapeCasts_S4096x512_S2048x2x512 : S4096x512.ShapeCasts S2048x2x512
  slices_S32767x512_S1024x512_1023_0 : S32767x512.Slices ![1023, 0] S1024x512
  shapeCasts_S2048x512_S1024x2x512 : S2048x512.ShapeCasts S1024x2x512
  slices_S32767x512_S1023x512_0_0 : S32767x512.Slices ![0, 0] S1023x512
  shapeCasts_S1x512_S512 : S1x512.ShapeCasts S512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x2x512_S512x1x512_0_0_0 : ∀ a, (![0, 0, 0] : Fin 3 → Nat) a + S512x1x512.size a ≤ S512x2x512.size a
  h_S512x1x512 : 0 < S512x1x512.numel
  shapeCasts_S512x1x512_S512x512 : S512x1x512.ShapeCasts S512x512
  inb_S512x2x512_S512x1x512_0_1_0 : ∀ a, (![0, 1, 0] : Fin 3 → Nat) a + S512x1x512.size a ≤ S512x2x512.size a
  broadcasts_S1x512_S512x512 : S1x512.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1023x512_S512x512_511_0 : ∀ a, (![511, 0] : Fin 2 → Nat) a + S512x512.size a ≤ S1023x512.size a
  shapeCasts_S1024x512_S512x2x512 : S1024x512.ShapeCasts S512x2x512
  slices_S512x2x512_o0_0_0_S512x1x512 : S512x2x512.Slices ![0, 0, 0] S512x1x512
  slices_S512x2x512_o0_1_0_S512x1x512 : S512x2x512.Slices ![0, 1, 0] S512x1x512
  inb_S1023x512_S256x512_255_0 : ∀ a, (![255, 0] : Fin 2 → Nat) a + S256x512.size a ≤ S1023x512.size a
  h_S256x512 : 0 < S256x512.numel
  shapeCasts_S256x512_S256x512 : S256x512.ShapeCasts S256x512
  shapeCasts_S512x512_S256x2x512 : S512x512.ShapeCasts S256x2x512
  slices_S256x2x512_o0_0_0_S256x1x512 : S256x2x512.Slices ![0, 0, 0] S256x1x512
  shapeCasts_S256x1x512_S256x512 : S256x1x512.ShapeCasts S256x512
  slices_S256x2x512_o0_1_0_S256x1x512 : S256x2x512.Slices ![0, 1, 0] S256x1x512
  broadcasts_S1x512_S256x512 : S1x512.Broadcasts S256x512
  inb_S1023x512_S128x512_127_0 : ∀ a, (![127, 0] : Fin 2 → Nat) a + S128x512.size a ≤ S1023x512.size a
  h_S128x512 : 0 < S128x512.numel
  shapeCasts_S128x512_S128x512 : S128x512.ShapeCasts S128x512
  shapeCasts_S256x512_S128x2x512 : S256x512.ShapeCasts S128x2x512
  slices_S128x2x512_o0_0_0_S128x1x512 : S128x2x512.Slices ![0, 0, 0] S128x1x512
  shapeCasts_S128x1x512_S128x512 : S128x1x512.ShapeCasts S128x512
  slices_S128x2x512_o0_1_0_S128x1x512 : S128x2x512.Slices ![0, 1, 0] S128x1x512
  broadcasts_S1x512_S128x512 : S1x512.Broadcasts S128x512
  inb_S1023x512_S64x512_63_0 : ∀ a, (![63, 0] : Fin 2 → Nat) a + S64x512.size a ≤ S1023x512.size a
  h_S64x512 : 0 < S64x512.numel
  shapeCasts_S64x512_S64x512 : S64x512.ShapeCasts S64x512
  shapeCasts_S128x512_S64x2x512 : S128x512.ShapeCasts S64x2x512
  slices_S64x2x512_o0_0_0_S64x1x512 : S64x2x512.Slices ![0, 0, 0] S64x1x512
  shapeCasts_S64x1x512_S64x512 : S64x1x512.ShapeCasts S64x512
  slices_S64x2x512_o0_1_0_S64x1x512 : S64x2x512.Slices ![0, 1, 0] S64x1x512
  broadcasts_S1x512_S64x512 : S1x512.Broadcasts S64x512
  inb_S1023x512_S32x512_31_0 : ∀ a, (![31, 0] : Fin 2 → Nat) a + S32x512.size a ≤ S1023x512.size a
  h_S32x512 : 0 < S32x512.numel
  shapeCasts_S32x512_S32x512 : S32x512.ShapeCasts S32x512
  shapeCasts_S64x512_S32x2x512 : S64x512.ShapeCasts S32x2x512
  slices_S32x2x512_o0_0_0_S32x1x512 : S32x2x512.Slices ![0, 0, 0] S32x1x512
  shapeCasts_S32x1x512_S32x512 : S32x1x512.ShapeCasts S32x512
  slices_S32x2x512_o0_1_0_S32x1x512 : S32x2x512.Slices ![0, 1, 0] S32x1x512
  broadcasts_S1x512_S32x512 : S1x512.Broadcasts S32x512
  inb_S1023x512_S16x512_15_0 : ∀ a, (![15, 0] : Fin 2 → Nat) a + S16x512.size a ≤ S1023x512.size a
  h_S16x512 : 0 < S16x512.numel
  shapeCasts_S16x512_S16x512 : S16x512.ShapeCasts S16x512
  shapeCasts_S32x512_S16x2x512 : S32x512.ShapeCasts S16x2x512
  slices_S16x2x512_o0_0_0_S16x1x512 : S16x2x512.Slices ![0, 0, 0] S16x1x512
  shapeCasts_S16x1x512_S16x512 : S16x1x512.ShapeCasts S16x512
  slices_S16x2x512_o0_1_0_S16x1x512 : S16x2x512.Slices ![0, 1, 0] S16x1x512
  broadcasts_S1x512_S16x512 : S1x512.Broadcasts S16x512
  inb_S1023x512_S8x512_7_0 : ∀ a, (![7, 0] : Fin 2 → Nat) a + S8x512.size a ≤ S1023x512.size a
  h_S8x512 : 0 < S8x512.numel
  shapeCasts_S8x512_S8x512 : S8x512.ShapeCasts S8x512
  shapeCasts_S16x512_S8x2x512 : S16x512.ShapeCasts S8x2x512
  slices_S8x2x512_o0_0_0_S8x1x512 : S8x2x512.Slices ![0, 0, 0] S8x1x512
  shapeCasts_S8x1x512_S8x512 : S8x1x512.ShapeCasts S8x512
  slices_S8x2x512_o0_1_0_S8x1x512 : S8x2x512.Slices ![0, 1, 0] S8x1x512
  broadcasts_S1x512_S8x512 : S1x512.Broadcasts S8x512
  inb_S1023x512_S4x512_3_0 : ∀ a, (![3, 0] : Fin 2 → Nat) a + S4x512.size a ≤ S1023x512.size a
  h_S4x512 : 0 < S4x512.numel
  shapeCasts_S4x512_S4x512 : S4x512.ShapeCasts S4x512
  shapeCasts_S8x512_S4x2x512 : S8x512.ShapeCasts S4x2x512
  slices_S4x2x512_o0_0_0_S4x1x512 : S4x2x512.Slices ![0, 0, 0] S4x1x512
  shapeCasts_S4x1x512_S4x512 : S4x1x512.ShapeCasts S4x512
  slices_S4x2x512_o0_1_0_S4x1x512 : S4x2x512.Slices ![0, 1, 0] S4x1x512
  broadcasts_S1x512_S4x512 : S1x512.Broadcasts S4x512
  inb_S1023x512_S2x512_1_0 : ∀ a, (![1, 0] : Fin 2 → Nat) a + S2x512.size a ≤ S1023x512.size a
  h_S2x512 : 0 < S2x512.numel
  shapeCasts_S2x512_S2x512 : S2x512.ShapeCasts S2x512
  shapeCasts_S4x512_S2x2x512 : S4x512.ShapeCasts S2x2x512
  slices_S2x2x512_o0_0_0_S2x1x512 : S2x2x512.Slices ![0, 0, 0] S2x1x512
  shapeCasts_S2x1x512_S2x512 : S2x1x512.ShapeCasts S2x512
  slices_S2x2x512_o0_1_0_S2x1x512 : S2x2x512.Slices ![0, 1, 0] S2x1x512
  broadcasts_S1x512_S2x512 : S1x512.Broadcasts S2x512
  inb_S1023x512_S1x512_0_0 : ∀ a, (![0, 0] : Fin 2 → Nat) a + S1x512.size a ≤ S1023x512.size a
  shapeCasts_S2x512_S1x2x512 : S2x512.ShapeCasts S1x2x512
  slices_S1x2x512_o0_0_0_S1x1x512 : S1x2x512.Slices ![0, 0, 0] S1x1x512
  shapeCasts_S1x1x512_S1x512 : S1x1x512.ShapeCasts S1x512
  slices_S1x2x512_o0_1_0_S1x1x512 : S1x2x512.Slices ![0, 1, 0] S1x1x512
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S256x512_S512x512_S256x512_1_0_0_1_n_n_wf : DotDims.WF S256x512 S512x512 S256x512 [1] [0] [0] [1] [] []
  dot_S128x512_S512x512_S128x512_1_0_0_1_n_n_wf : DotDims.WF S128x512 S512x512 S128x512 [1] [0] [0] [1] [] []
  dot_S64x512_S512x512_S64x512_1_0_0_1_n_n_wf : DotDims.WF S64x512 S512x512 S64x512 [1] [0] [0] [1] [] []
  dot_S32x512_S512x512_S32x512_1_0_0_1_n_n_wf : DotDims.WF S32x512 S512x512 S32x512 [1] [0] [0] [1] [] []
  dot_S16x512_S512x512_S16x512_1_0_0_1_n_n_wf : DotDims.WF S16x512 S512x512 S16x512 [1] [0] [0] [1] [] []
  dot_S8x512_S512x512_S8x512_1_0_0_1_n_n_wf : DotDims.WF S8x512 S512x512 S8x512 [1] [0] [0] [1] [] []
  dot_S4x512_S512x512_S4x512_1_0_0_1_n_n_wf : DotDims.WF S4x512 S512x512 S4x512 [1] [0] [0] [1] [] []
  dot_S2x512_S512x512_S2x512_1_0_0_1_n_n_wf : DotDims.WF S2x512 S512x512 S2x512 [1] [0] [0] [1] [] []
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S16384x512.size a
  hwx0_7 : ∀ i : grid0.Coords, EltTy.bits .f32 = 32 ∨ (Rect.block (s := S16384x512) S2048x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S16384x512.size a
  hwx0_8 : ∀ i : grid0.Coords, EltTy.bits .f32 = 32 ∨ (Rect.block (s := S16384x512) S2048x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2x512.size a ≤ S8192x2x512.size a
  hwx1_1 : ∀ i : grid1.Coords, EltTy.bits .f32 = 32 ∨ (Rect.block (s := S8192x2x512) S512x2x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2x512.size a ≤ S8192x2x512.size a
  hwx1_2 : ∀ i : grid1.Coords, EltTy.bits .f32 = 32 ∨ (Rect.block (s := S8192x2x512) S512x2x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .f32 = 32 ∨ (Rect.block (s := S512x512) S512x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S512x512.size a
  hwx1_8 : ∀ i : grid1.Coords, EltTy.bits .f32 = 32 ∨ (Rect.block (s := S512x512) S512x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .f32 = 32 ∨ (Rect.block (s := S512x512) S512x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S512x512.size a
  hwx1_10 : ∀ i : grid1.Coords, EltTy.bits .f32 = 32 ∨ (Rect.block (s := S512x512) S512x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x512.size a
  hwx1_11 : ∀ i : grid1.Coords, EltTy.bits .f32 = 32 ∨ (Rect.block (s := S1x512) S1x512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x512.size a ≤ S1x512.size a
  hwx1_12 : ∀ i : grid1.Coords, EltTy.bits .f32 = 32 ∨ (Rect.block (s := S1x512) S1x512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x512.size a
  hwx1_13 : ∀ i : grid1.Coords, EltTy.bits .f32 = 32 ∨ (Rect.block (s := S1x512) S1x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x512.size a ≤ S1x512.size a
  hwx1_14 : ∀ i : grid1.Coords, EltTy.bits .f32 = 32 ∨ (Rect.block (s := S1x512) S1x512.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S512x512.size a ≤ S8192x512.size a
  hwx1_15 : ∀ i : grid1.Coords, EltTy.bits .f32 = 32 ∨ (Rect.block (s := S8192x512) S512x512.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S512x512.size a ≤ S8192x512.size a
  hwx1_16 : ∀ i : grid1.Coords, EltTy.bits .f32 = 32 ∨ (Rect.block (s := S8192x512) S512x512.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2x512.size a ≤ S4096x2x512.size a
  hwx2_1 : ∀ i : grid2.Coords, EltTy.bits .f32 = 32 ∨ (Rect.block (s := S4096x2x512) S512x2x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2x512.size a ≤ S4096x2x512.size a
  hwx2_2 : ∀ i : grid2.Coords, EltTy.bits .f32 = 32 ∨ (Rect.block (s := S4096x2x512) S512x2x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .f32 = 32 ∨ (Rect.block (s := S512x512) S512x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S512x512.size a
  hwx2_6 : ∀ i : grid2.Coords, EltTy.bits .f32 = 32 ∨ (Rect.block (s := S512x512) S512x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S512x512.size a
  hwx2_7 : ∀ i : grid2.Coords, EltTy.bits .f32 = 32 ∨ (Rect.block (s := S512x512) S512x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x512.size a ≤ S512x512.size a
  hwx2_8 : ∀ i : grid2.Coords, EltTy.bits .f32 = 32 ∨ (Rect.block (s := S512x512) S512x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x512.size a ≤ S512x512.size a
  hwx2_9 : ∀ i : grid2.Coords, EltTy.bits .f32 = 32 ∨ (Rect.block (s := S512x512) S512x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x512.size a ≤ S512x512.size a
  hwx2_10 : ∀ i : grid2.Coords, EltTy.bits .f32 = 32 ∨ (Rect.block (s := S512x512) S512x512.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x512.size a ≤ S1x512.size a
  hwx2_11 : ∀ i : grid2.Coords, EltTy.bits .f32 = 32 ∨ (Rect.block (s := S1x512) S1x512.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x512.size a ≤ S1x512.size a
  hwx2_12 : ∀ i : grid2.Coords, EltTy.bits .f32 = 32 ∨ (Rect.block (s := S1x512) S1x512.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x512.size a ≤ S1x512.size a
  hwx2_13 : ∀ i : grid2.Coords, EltTy.bits .f32 = 32 ∨ (Rect.block (s := S1x512) S1x512.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x512.size a ≤ S1x512.size a
  hwx2_14 : ∀ i : grid2.Coords, EltTy.bits .f32 = 32 ∨ (Rect.block (s := S1x512) S1x512.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S512x512.size a ≤ S4096x512.size a
  hwx2_15 : ∀ i : grid2.Coords, EltTy.bits .f32 = 32 ∨ (Rect.block (s := S4096x512) S512x512.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S512x512.size a ≤ S4096x512.size a
  hwx2_16 : ∀ i : grid2.Coords, EltTy.bits .f32 = 32 ∨ (Rect.block (s := S4096x512) S512x512.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S2048x512.size a
  hwx3_0 : ∀ i : grid3.Coords, EltTy.bits .f32 = 32 ∨ (Rect.block (s := S2048x512) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2x512.size a ≤ S2048x2x512.size a
  hwx3_1 : ∀ i : grid3.Coords, EltTy.bits .f32 = 32 ∨ (Rect.block (s := S2048x2x512) S512x2x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2x512.size a ≤ S2048x2x512.size a
  hwx3_2 : ∀ i : grid3.Coords, EltTy.bits .f32 = 32 ∨ (Rect.block (s := S2048x2x512) S512x2x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .f32 = 32 ∨ (Rect.block (s := S512x512) S512x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x512.size a ≤ S512x512.size a
  hwx3_6 : ∀ i : grid3.Coords, EltTy.bits .f32 = 32 ∨ (Rect.block (s := S512x512) S512x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x512.size a ≤ S512x512.size a
  hwx3_7 : ∀ i : grid3.Coords, EltTy.bits .f32 = 32 ∨ (Rect.block (s := S512x512) S512x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x512.size a ≤ S512x512.size a
  hwx3_8 : ∀ i : grid3.Coords, EltTy.bits .f32 = 32 ∨ (Rect.block (s := S512x512) S512x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x512.size a ≤ S512x512.size a
  hwx3_9 : ∀ i : grid3.Coords, EltTy.bits .f32 = 32 ∨ (Rect.block (s := S512x512) S512x512.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S512x512.size a ≤ S512x512.size a
  hwx3_10 : ∀ i : grid3.Coords, EltTy.bits .f32 = 32 ∨ (Rect.block (s := S512x512) S512x512.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x512.size a ≤ S1x512.size a
  hwx3_11 : ∀ i : grid3.Coords, EltTy.bits .f32 = 32 ∨ (Rect.block (s := S1x512) S1x512.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x512.size a ≤ S1x512.size a
  hwx3_12 : ∀ i : grid3.Coords, EltTy.bits .f32 = 32 ∨ (Rect.block (s := S1x512) S1x512.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x512.size a ≤ S1x512.size a
  hwx3_13 : ∀ i : grid3.Coords, EltTy.bits .f32 = 32 ∨ (Rect.block (s := S1x512) S1x512.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x512.size a ≤ S1x512.size a
  hwx3_14 : ∀ i : grid3.Coords, EltTy.bits .f32 = 32 ∨ (Rect.block (s := S1x512) S1x512.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S512x512.size a ≤ S2048x512.size a
  hwx3_15 : ∀ i : grid3.Coords, EltTy.bits .f32 = 32 ∨ (Rect.block (s := S2048x512) S512x512.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S512x512.size a ≤ S2048x512.size a
  hwx3_16 : ∀ i : grid3.Coords, EltTy.bits .f32 = 32 ∨ (Rect.block (s := S2048x512) S512x512.size (cc3_transform_16 i) (hinb3_16 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S1024x512.size a
  hwx4_0 : ∀ i : grid4.Coords, EltTy.bits .f32 = 32 ∨ (Rect.block (s := S1024x512) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2x512.size a ≤ S1024x2x512.size a
  hwx4_1 : ∀ i : grid4.Coords, EltTy.bits .f32 = 32 ∨ (Rect.block (s := S1024x2x512) S512x2x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x2x512.size a ≤ S1024x2x512.size a
  hwx4_2 : ∀ i : grid4.Coords, EltTy.bits .f32 = 32 ∨ (Rect.block (s := S1024x2x512) S512x2x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .f32 = 32 ∨ (Rect.block (s := S512x512) S512x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x512.size a ≤ S512x512.size a
  hwx4_4 : ∀ i : grid4.Coords, EltTy.bits .f32 = 32 ∨ (Rect.block (s := S512x512) S512x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x512.size a ≤ S512x512.size a
  hwx4_5 : ∀ i : grid4.Coords, EltTy.bits .f32 = 32 ∨ (Rect.block (s := S512x512) S512x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x512.size a ≤ S512x512.size a
  hwx4_6 : ∀ i : grid4.Coords, EltTy.bits .f32 = 32 ∨ (Rect.block (s := S512x512) S512x512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x512.size a ≤ S512x512.size a
  hwx4_7 : ∀ i : grid4.Coords, EltTy.bits .f32 = 32 ∨ (Rect.block (s := S512x512) S512x512.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S512x512.size a ≤ S512x512.size a
  hwx4_8 : ∀ i : grid4.Coords, EltTy.bits .f32 = 32 ∨ (Rect.block (s := S512x512) S512x512.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S512x512.size a ≤ S512x512.size a
  hwx4_9 : ∀ i : grid4.Coords, EltTy.bits .f32 = 32 ∨ (Rect.block (s := S512x512) S512x512.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S512x512.size a ≤ S512x512.size a
  hwx4_10 : ∀ i : grid4.Coords, EltTy.bits .f32 = 32 ∨ (Rect.block (s := S512x512) S512x512.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x512.size a ≤ S1x512.size a
  hwx4_11 : ∀ i : grid4.Coords, EltTy.bits .f32 = 32 ∨ (Rect.block (s := S1x512) S1x512.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x512.size a ≤ S1x512.size a
  hwx4_12 : ∀ i : grid4.Coords, EltTy.bits .f32 = 32 ∨ (Rect.block (s := S1x512) S1x512.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x512.size a ≤ S1x512.size a
  hwx4_13 : ∀ i : grid4.Coords, EltTy.bits .f32 = 32 ∨ (Rect.block (s := S1x512) S1x512.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x512.size a ≤ S1x512.size a
  hwx4_14 : ∀ i : grid4.Coords, EltTy.bits .f32 = 32 ∨ (Rect.block (s := S1x512) S1x512.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S512x512.size a ≤ S1024x512.size a
  hwx4_15 : ∀ i : grid4.Coords, EltTy.bits .f32 = 32 ∨ (Rect.block (s := S1024x512) S512x512.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S512x512.size a ≤ S1024x512.size a
  hwx4_16 : ∀ i : grid4.Coords, EltTy.bits .f32 = 32 ∨ (Rect.block (s := S1024x512) S512x512.size (cc4_transform_16 i) (hinb4_16 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1023x512.size a ≤ S1023x512.size a
  hwx5_0 : ∀ i : grid5.Coords, EltTy.bits .f32 = 32 ∨ (Rect.block (s := S1023x512) S1023x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S1024x512.size a
  hwx5_1 : ∀ i : grid5.Coords, EltTy.bits .f32 = 32 ∨ (Rect.block (s := S1024x512) S1024x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S1024x512.size a
  hwx5_2 : ∀ i : grid5.Coords, EltTy.bits .f32 = 32 ∨ (Rect.block (s := S1024x512) S1024x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S512x512.size a
  hwx5_3 : ∀ i : grid5.Coords, EltTy.bits .f32 = 32 ∨ (Rect.block (s := S512x512) S512x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x512.size a ≤ S512x512.size a
  hwx5_4 : ∀ i : grid5.Coords, EltTy.bits .f32 = 32 ∨ (Rect.block (s := S512x512) S512x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S512x512.size a
  hwx5_5 : ∀ i : grid5.Coords, EltTy.bits .f32 = 32 ∨ (Rect.block (s := S512x512) S512x512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x512.size a ≤ S512x512.size a
  hwx5_6 : ∀ i : grid5.Coords, EltTy.bits .f32 = 32 ∨ (Rect.block (s := S512x512) S512x512.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x512.size a ≤ S512x512.size a
  hwx5_7 : ∀ i : grid5.Coords, EltTy.bits .f32 = 32 ∨ (Rect.block (s := S512x512) S512x512.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S512x512.size a ≤ S512x512.size a
  hwx5_8 : ∀ i : grid5.Coords, EltTy.bits .f32 = 32 ∨ (Rect.block (s := S512x512) S512x512.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S512x512.size a ≤ S512x512.size a
  hwx5_9 : ∀ i : grid5.Coords, EltTy.bits .f32 = 32 ∨ (Rect.block (s := S512x512) S512x512.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S512x512.size a ≤ S512x512.size a
  hwx5_10 : ∀ i : grid5.Coords, EltTy.bits .f32 = 32 ∨ (Rect.block (s := S512x512) S512x512.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x512.size a ≤ S1x512.size a
  hwx5_11 : ∀ i : grid5.Coords, EltTy.bits .f32 = 32 ∨ (Rect.block (s := S1x512) S1x512.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x512.size a ≤ S1x512.size a
  hwx5_12 : ∀ i : grid5.Coords, EltTy.bits .f32 = 32 ∨ (Rect.block (s := S1x512) S1x512.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x512.size a ≤ S1x512.size a
  hwx5_13 : ∀ i : grid5.Coords, EltTy.bits .f32 = 32 ∨ (Rect.block (s := S1x512) S1x512.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x512.size a ≤ S1x512.size a
  hwx5_14 : ∀ i : grid5.Coords, EltTy.bits .f32 = 32 ∨ (Rect.block (s := S1x512) S1x512.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S1x512.size a ≤ S1x512.size a
  hwx5_15 : ∀ i : grid5.Coords, EltTy.bits .f32 = 32 ∨ (Rect.block (s := S1x512) S1x512.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S1x512.size a ≤ S1x512.size a
  hwx5_16 : ∀ i : grid5.Coords, EltTy.bits .f32 = 32 ∨ (Rect.block (s := S1x512) S1x512.size (cc5_transform_16 i) (hinb5_16 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def dot_S2x512_S512x512_S2x512_1_0_0_1_n_n : DotDims S2x512 S512x512 S2x512 where
  lhsContracting := [1]
  rhsContracting := [0]
  lhsNonContracting := [0]
  rhsNonContracting := [1]
  lhsBatch := []
  rhsBatch := []
  wf := dot_S2x512_S512x512_S2x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_call0_v20) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v19) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v21_0) S2048x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v21_1) S2048x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_call0_v22) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v23) S512x2x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v24) S512x2x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v5) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v7) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v9) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v11) S512x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v13) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v15) S512x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_call0_v16) S1x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_call0_v17) S1x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_call0_v18) S1x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_call0_v19) S1x512.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_call0_v25_0) S512x512.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_call0_v25_1) S512x512.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_call0_v26) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v27) S512x2x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v28) S512x2x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v1) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v3) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v5) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v7) S512x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v9) S512x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v11) S512x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_call0_v13) S512x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_call0_v15) S512x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_call0_v16) S1x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_call0_v17) S1x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_call0_v18) S1x512.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_call0_v19) S1x512.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_call0_v29_0) S512x512.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_call0_v29_1) S512x512.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_call0_v30) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v31) S512x2x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v32) S512x2x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v1) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v3) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v5) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v7) S512x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v9) S512x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v11) S512x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_call0_v13) S512x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_call0_v15) S512x512.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_call0_v16) S1x512.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_call0_v17) S1x512.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_call0_v18) S1x512.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_call0_v19) S1x512.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_call0_v33_0) S512x512.size cc3_transform_15 reads3_15 true false 2 stage3_15 sem3_15
    hrank3 hreads3_15 hinb3_15 nbuf3_15 (Memref.isWhole_whole _) hwx3_15 hstage3_15

abbrev win3_16 : Pipeline.Window sig grid3 :=
  Pipeline.Window.ofSpec (Memref.whole main_call0_v33_1) S512x512.size cc3_transform_16 reads3_16 true false 2 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

abbrev win4_0 : Pipeline.Window sig grid4 :=
  Pipeline.Window.ofSpec (Memref.whole main_call0_v34) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v35) S512x2x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v36) S512x2x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v1) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v3) S512x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v5) S512x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v7) S512x512.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_call0_v9) S512x512.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_call0_v11) S512x512.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_call0_v13) S512x512.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_call0_v15) S512x512.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_call0_v16) S1x512.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_call0_v17) S1x512.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_call0_v18) S1x512.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_call0_v19) S1x512.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_call0_v37_0) S512x512.size cc4_transform_15 reads4_15 true false 2 stage4_15 sem4_15
    hrank4 hreads4_15 hinb4_15 nbuf4_15 (Memref.isWhole_whole _) hwx4_15 hstage4_15

abbrev win4_16 : Pipeline.Window sig grid4 :=
  Pipeline.Window.ofSpec (Memref.whole main_call0_v37_1) S512x512.size cc4_transform_16 reads4_16 true false 2 stage4_16 sem4_16
    hrank4 hreads4_16 hinb4_16 nbuf4_16 (Memref.isWhole_whole _) hwx4_16 hstage4_16

abbrev win4 : Fin 17 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | ⟨_ + 17, h⟩ => absurd h (Nat.not_lt.2 (Nat.le_add_left _ _))
abbrev spec4 : Fin 17 → Pipeline.WinSpec sig grid4.rank := fun w => (win4 w).toWinSpec

abbrev win5_0 : Pipeline.Window sig grid5 :=
  Pipeline.Window.ofSpec (Memref.whole main_call0_v38) S1023x512.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_call0_v37_0) S1024x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v37_1) S1024x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v1) S512x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v3) S512x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call0_v5) S512x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_call0_v7) S512x512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_call0_v9) S512x512.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_call0_v11) S512x512.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_call0_v13) S512x512.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_call0_v15) S512x512.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_call0_v16) S1x512.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_call0_v17) S1x512.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_call0_v18) S1x512.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_call0_v19) S1x512.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_call0_v39_0) S1x512.size cc5_transform_15 reads5_15 true true 1 stage5_15 sem5_15
    hrank5 hreads5_15 hinb5_15 nbuf5_15 (Memref.isWhole_whole _) hwx5_15 hstage5_15

abbrev win5_16 : Pipeline.Window sig grid5 :=
  Pipeline.Window.ofSpec (Memref.whole main_call0_v39_1) S1x512.size cc5_transform_16 reads5_16 true true 1 stage5_16 sem5_16
    hrank5 hreads5_16 hinb5_16 nbuf5_16 (Memref.isWhole_whole _) hwx5_16 hstage5_16

abbrev win5 : Fin 17 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | ⟨_ + 17, h⟩ => absurd h (Nat.not_lt.2 (Nat.le_add_left _ _))
abbrev spec5 : Fin 17 → Pipeline.WinSpec sig grid5.rank := fun w => (win5 w).toWinSpec

class Facts : Prop extends Facts₀ where

variable [Facts]
-- ==== ReferenceIdeal.lean ====
abbrev S32767x512 : Shape := ⟨2, ![32767, 512]⟩
abbrev S512x1024 : Shape := ⟨2, ![512, 1024]⟩
abbrev S512 : Shape := ⟨1, ![512]⟩
abbrev S_ : Shape := ⟨0, ![]⟩
abbrev S16384x512 : Shape := ⟨2, ![16384, 512]⟩
abbrev S16384x1024 : Shape := ⟨2, ![16384, 1024]⟩
abbrev S1024x512 : Shape := ⟨2, ![1024, 512]⟩
abbrev S1x512 : Shape := ⟨2, ![1, 512]⟩
abbrev S1 : Shape := ⟨1, ![1]⟩
abbrev S8192x512 : Shape := ⟨2, ![8192, 512]⟩
abbrev S8192x2x512 : Shape := ⟨3, ![8192, 2, 512]⟩
abbrev S8192x1x512 : Shape := ⟨3, ![8192, 1, 512]⟩
abbrev S8192x1024 : Shape := ⟨2, ![8192, 1024]⟩
abbrev S4096x512 : Shape := ⟨2, ![4096, 512]⟩
abbrev S4096x2x512 : Shape := ⟨3, ![4096, 2, 512]⟩
abbrev S4096x1x512 : Shape := ⟨3, ![4096, 1, 512]⟩
abbrev S4096x1024 : Shape := ⟨2, ![4096, 1024]⟩
abbrev S2048x512 : Shape := ⟨2, ![2048, 512]⟩
abbrev S2048x2x512 : Shape := ⟨3, ![2048, 2, 512]⟩
abbrev S2048x1x512 : Shape := ⟨3, ![2048, 1, 512]⟩
abbrev S2048x1024 : Shape := ⟨2, ![2048, 1024]⟩
abbrev S1024x2x512 : Shape := ⟨3, ![1024, 2, 512]⟩
abbrev S1024x1x512 : Shape := ⟨3, ![1024, 1, 512]⟩
abbrev S1024x1024 : Shape := ⟨2, ![1024, 1024]⟩
abbrev S512x512 : Shape := ⟨2, ![512, 512]⟩
abbrev S512x2x512 : Shape := ⟨3, ![512, 2, 512]⟩
abbrev S512x1x512 : Shape := ⟨3, ![512, 1, 512]⟩
abbrev S256x512 : Shape := ⟨2, ![256, 512]⟩
abbrev S256x2x512 : Shape := ⟨3, ![256, 2, 512]⟩
abbrev S256x1x512 : Shape := ⟨3, ![256, 1, 512]⟩
abbrev S256x1024 : Shape := ⟨2, ![256, 1024]⟩
abbrev S128x512 : Shape := ⟨2, ![128, 512]⟩
abbrev S128x2x512 : Shape := ⟨3, ![128, 2, 512]⟩
abbrev S128x1x512 : Shape := ⟨3, ![128, 1, 512]⟩
abbrev S128x1024 : Shape := ⟨2, ![128, 1024]⟩
abbrev S64x512 : Shape := ⟨2, ![64, 512]⟩
abbrev S64x2x512 : Shape := ⟨3, ![64, 2, 512]⟩
abbrev S64x1x512 : Shape := ⟨3, ![64, 1, 512]⟩
abbrev S64x1024 : Shape := ⟨2, ![64, 1024]⟩
abbrev S32x512 : Shape := ⟨2, ![32, 512]⟩
abbrev S32x2x512 : Shape := ⟨3, ![32, 2, 512]⟩
abbrev S32x1x512 : Shape := ⟨3, ![32, 1, 512]⟩
abbrev S32x1024 : Shape := ⟨2, ![32, 1024]⟩
abbrev S16x512 : Shape := ⟨2, ![16, 512]⟩
abbrev S16x2x512 : Shape := ⟨3, ![16, 2, 512]⟩
abbrev S16x1x512 : Shape := ⟨3, ![16, 1, 512]⟩
abbrev S16x1024 : Shape := ⟨2, ![16, 1024]⟩
abbrev S8x512 : Shape := ⟨2, ![8, 512]⟩
abbrev S8x2x512 : Shape := ⟨3, ![8, 2, 512]⟩
abbrev S8x1x512 : Shape := ⟨3, ![8, 1, 512]⟩
abbrev S8x1024 : Shape := ⟨2, ![8, 1024]⟩
abbrev S4x512 : Shape := ⟨2, ![4, 512]⟩
abbrev S4x2x512 : Shape := ⟨3, ![4, 2, 512]⟩
abbrev S4x1x512 : Shape := ⟨3, ![4, 1, 512]⟩
abbrev S4x1024 : Shape := ⟨2, ![4, 1024]⟩
abbrev S2x512 : Shape := ⟨2, ![2, 512]⟩
abbrev S2x2x512 : Shape := ⟨3, ![2, 2, 512]⟩
abbrev S2x1x512 : Shape := ⟨3, ![2, 1, 512]⟩
abbrev S2x1024 : Shape := ⟨2, ![2, 1024]⟩
abbrev S1x2x512 : Shape := ⟨3, ![1, 2, 512]⟩
abbrev S1x1x512 : Shape := ⟨3, ![1, 1, 512]⟩
abbrev S1x1024 : Shape := ⟨2, ![1, 1024]⟩

abbrev nBuf : Space → Nat
  | .hbm => 1289
  | .vmem => 0
  | .smem => 0
  | _ => 0

abbrev hbmTy0_0 (i : Nat) : BufTy := match i % 128 with
  | 0 => ⟨S32767x512, .f32⟩
  | 1 => ⟨S512x1024, .f32⟩
  | 2 => ⟨S512, .f32⟩
  | 3 => ⟨S512x1024, .f32⟩
  | 4 => ⟨S512, .f32⟩
  | 5 => ⟨S512x1024, .f32⟩
  | 6 => ⟨S512, .f32⟩
  | 7 => ⟨S512x1024, .f32⟩
  | 8 => ⟨S512, .f32⟩
  | 9 => ⟨S_, .f32⟩
  | 10 => ⟨S32767x512, .f32⟩
  | 11 => ⟨S_, .f32⟩
  | 12 => ⟨S32767x512, .f32⟩
  | 13 => ⟨S16384x512, .f32⟩
  | 14 => ⟨S_, .f32⟩
  | 15 => ⟨S16384x512, .f32⟩
  | 16 => ⟨S16384x1024, .f32⟩
  | 17 => ⟨S1024x512, .f32⟩
  | 18 => ⟨S16384x512, .f32⟩
  | 19 => ⟨S1x512, .f32⟩
  | 20 => ⟨S16384x512, .f32⟩
  | 21 => ⟨S16384x512, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S1024x512, .f32⟩
  | 31 => ⟨S16384x512, .f32⟩
  | 32 => ⟨S1x512, .f32⟩
  | 33 => ⟨S16384x512, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S1024x512, .f32⟩
  | 44 => ⟨S16384x512, .f32⟩
  | 45 => ⟨S1x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S16384x512, .f32⟩
  | 52 => ⟨S_, .i32⟩
  | 53 => ⟨S1, .i32⟩
  | 54 => ⟨S32767x512, .f32⟩
  | 55 => ⟨S_, .i32⟩
  | 56 => ⟨S1, .i32⟩
  | 57 => ⟨S32767x512, .f32⟩
  | 58 => ⟨S8192x512, .f32⟩
  | 59 => ⟨S16384x512, .f32⟩
  | 60 => ⟨S8192x2x512, .f32⟩
  | 61 => ⟨S16384x512, .f32⟩
  | 62 => ⟨S8192x2x512, .f32⟩
  | 63 => ⟨S8192x1x512, .f32⟩
  | 64 => ⟨S8192x512, .f32⟩
  | 65 => ⟨S8192x1x512, .f32⟩
  | 66 => ⟨S8192x512, .f32⟩
  | 67 => ⟨S8192x512, .f32⟩
  | 68 => ⟨S8192x1024, .f32⟩
  | 69 => ⟨S1024x512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S1024x512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S1024x512, .f32⟩
  | 96 => ⟨S8192x512, .f32⟩
  | 97 => ⟨S1x512, .f32⟩
  | 98 => ⟨S8192x512, .f32⟩
  | 99 => ⟨S8192x512, .f32⟩
  | 100 => ⟨S8192x512, .f32⟩
  | 101 => ⟨S8192x1024, .f32⟩
  | 102 => ⟨S1024x512, .f32⟩
  | 103 => ⟨S8192x512, .f32⟩
  | 104 => ⟨S1x512, .f32⟩
  | 105 => ⟨S8192x512, .f32⟩
  | 106 => ⟨S8192x512, .f32⟩
  | 107 => ⟨S8192x512, .f32⟩
  | 108 => ⟨S8192x512, .f32⟩
  | 109 => ⟨S_, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x1024, .f32⟩
  | 116 => ⟨S1024x512, .f32⟩
  | 117 => ⟨S8192x512, .f32⟩
  | 118 => ⟨S1x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S32767x512, .f32⟩

abbrev hbmTy0_1 (i : Nat) : BufTy := match i % 128 with
  | 0 => ⟨S8192x512, .f32⟩
  | 1 => ⟨S8192x512, .f32⟩
  | 2 => ⟨S8192x1x512, .f32⟩
  | 3 => ⟨S8192x512, .f32⟩
  | 4 => ⟨S8192x512, .f32⟩
  | 5 => ⟨S8192x512, .f32⟩
  | 6 => ⟨S8192x1x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .i32⟩
  | 13 => ⟨S1, .i32⟩
  | 14 => ⟨S32767x512, .f32⟩
  | 15 => ⟨S_, .i32⟩
  | 16 => ⟨S1, .i32⟩
  | 17 => ⟨S32767x512, .f32⟩
  | 18 => ⟨S4096x512, .f32⟩
  | 19 => ⟨S8192x512, .f32⟩
  | 20 => ⟨S4096x2x512, .f32⟩
  | 21 => ⟨S8192x512, .f32⟩
  | 22 => ⟨S4096x2x512, .f32⟩
  | 23 => ⟨S4096x1x512, .f32⟩
  | 24 => ⟨S4096x512, .f32⟩
  | 25 => ⟨S4096x1x512, .f32⟩
  | 26 => ⟨S4096x512, .f32⟩
  | 27 => ⟨S4096x512, .f32⟩
  | 28 => ⟨S4096x1024, .f32⟩
  | 29 => ⟨S1024x512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S1024x512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S1024x512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S4096x1024, .f32⟩
  | 62 => ⟨S1024x512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x1024, .f32⟩
  | 76 => ⟨S1024x512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S4096x1x512, .f32⟩
  | 91 => ⟨S4096x512, .f32⟩
  | 92 => ⟨S4096x512, .f32⟩
  | 93 => ⟨S4096x512, .f32⟩
  | 94 => ⟨S4096x1x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S_, .i32⟩
  | 101 => ⟨S1, .i32⟩
  | 102 => ⟨S32767x512, .f32⟩
  | 103 => ⟨S_, .i32⟩
  | 104 => ⟨S1, .i32⟩
  | 105 => ⟨S32767x512, .f32⟩
  | 106 => ⟨S2048x512, .f32⟩
  | 107 => ⟨S4096x512, .f32⟩
  | 108 => ⟨S2048x2x512, .f32⟩
  | 109 => ⟨S4096x512, .f32⟩
  | 110 => ⟨S2048x2x512, .f32⟩
  | 111 => ⟨S2048x1x512, .f32⟩
  | 112 => ⟨S2048x512, .f32⟩
  | 113 => ⟨S2048x1x512, .f32⟩
  | 114 => ⟨S2048x512, .f32⟩
  | 115 => ⟨S2048x512, .f32⟩
  | 116 => ⟨S2048x1024, .f32⟩
  | 117 => ⟨S1024x512, .f32⟩
  | 118 => ⟨S2048x512, .f32⟩
  | 119 => ⟨S1x512, .f32⟩
  | 120 => ⟨S2048x512, .f32⟩
  | 121 => ⟨S2048x512, .f32⟩
  | 122 => ⟨S2048x512, .f32⟩
  | 123 => ⟨S2048x512, .f32⟩
  | 124 => ⟨S_, .f32⟩
  | 125 => ⟨S2048x512, .f32⟩
  | 126 => ⟨S2048x512, .f32⟩
  | 127 => ⟨S_, .f32⟩
  | _ => ⟨S32767x512, .f32⟩

abbrev hbmTy0_2 (i : Nat) : BufTy := match i % 128 with
  | 0 => ⟨S2048x512, .f32⟩
  | 1 => ⟨S2048x512, .f32⟩
  | 2 => ⟨S1024x512, .f32⟩
  | 3 => ⟨S2048x512, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S1024x512, .f32⟩
  | 16 => ⟨S2048x512, .f32⟩
  | 17 => ⟨S1x512, .f32⟩
  | 18 => ⟨S2048x512, .f32⟩
  | 19 => ⟨S2048x512, .f32⟩
  | 20 => ⟨S2048x512, .f32⟩
  | 21 => ⟨S2048x1024, .f32⟩
  | 22 => ⟨S1024x512, .f32⟩
  | 23 => ⟨S2048x512, .f32⟩
  | 24 => ⟨S1x512, .f32⟩
  | 25 => ⟨S2048x512, .f32⟩
  | 26 => ⟨S2048x512, .f32⟩
  | 27 => ⟨S2048x512, .f32⟩
  | 28 => ⟨S2048x512, .f32⟩
  | 29 => ⟨S_, .f32⟩
  | 30 => ⟨S2048x512, .f32⟩
  | 31 => ⟨S2048x512, .f32⟩
  | 32 => ⟨S_, .f32⟩
  | 33 => ⟨S2048x512, .f32⟩
  | 34 => ⟨S2048x512, .f32⟩
  | 35 => ⟨S2048x1024, .f32⟩
  | 36 => ⟨S1024x512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S2048x512, .f32⟩
  | 50 => ⟨S2048x1x512, .f32⟩
  | 51 => ⟨S2048x512, .f32⟩
  | 52 => ⟨S2048x512, .f32⟩
  | 53 => ⟨S2048x512, .f32⟩
  | 54 => ⟨S2048x1x512, .f32⟩
  | 55 => ⟨S2048x512, .f32⟩
  | 56 => ⟨S2048x512, .f32⟩
  | 57 => ⟨S2048x512, .f32⟩
  | 58 => ⟨S2048x512, .f32⟩
  | 59 => ⟨S2048x512, .f32⟩
  | 60 => ⟨S_, .i32⟩
  | 61 => ⟨S1, .i32⟩
  | 62 => ⟨S32767x512, .f32⟩
  | 63 => ⟨S_, .i32⟩
  | 64 => ⟨S1, .i32⟩
  | 65 => ⟨S32767x512, .f32⟩
  | 66 => ⟨S1024x512, .f32⟩
  | 67 => ⟨S2048x512, .f32⟩
  | 68 => ⟨S1024x2x512, .f32⟩
  | 69 => ⟨S2048x512, .f32⟩
  | 70 => ⟨S1024x2x512, .f32⟩
  | 71 => ⟨S1024x1x512, .f32⟩
  | 72 => ⟨S1024x512, .f32⟩
  | 73 => ⟨S1024x1x512, .f32⟩
  | 74 => ⟨S1024x512, .f32⟩
  | 75 => ⟨S1024x512, .f32⟩
  | 76 => ⟨S1024x1024, .f32⟩
  | 77 => ⟨S1024x512, .f32⟩
  | 78 => ⟨S1024x512, .f32⟩
  | 79 => ⟨S1x512, .f32⟩
  | 80 => ⟨S1024x512, .f32⟩
  | 81 => ⟨S1024x512, .f32⟩
  | 82 => ⟨S1024x512, .f32⟩
  | 83 => ⟨S1024x512, .f32⟩
  | 84 => ⟨S_, .f32⟩
  | 85 => ⟨S1024x512, .f32⟩
  | 86 => ⟨S1024x512, .f32⟩
  | 87 => ⟨S_, .f32⟩
  | 88 => ⟨S1024x512, .f32⟩
  | 89 => ⟨S1024x512, .f32⟩
  | 90 => ⟨S1024x512, .f32⟩
  | 91 => ⟨S1024x512, .f32⟩
  | 92 => ⟨S1x512, .f32⟩
  | 93 => ⟨S1024x512, .f32⟩
  | 94 => ⟨S1024x512, .f32⟩
  | 95 => ⟨S1024x512, .f32⟩
  | 96 => ⟨S1024x512, .f32⟩
  | 97 => ⟨S_, .f32⟩
  | 98 => ⟨S1024x512, .f32⟩
  | 99 => ⟨S1024x512, .f32⟩
  | 100 => ⟨S_, .f32⟩
  | 101 => ⟨S1024x512, .f32⟩
  | 102 => ⟨S1024x512, .f32⟩
  | 103 => ⟨S1024x512, .f32⟩
  | 104 => ⟨S1024x512, .f32⟩
  | 105 => ⟨S1x512, .f32⟩
  | 106 => ⟨S1024x512, .f32⟩
  | 107 => ⟨S1024x512, .f32⟩
  | 108 => ⟨S1024x512, .f32⟩
  | 109 => ⟨S1024x1024, .f32⟩
  | 110 => ⟨S1024x512, .f32⟩
  | 111 => ⟨S1024x512, .f32⟩
  | 112 => ⟨S1x512, .f32⟩
  | 113 => ⟨S1024x512, .f32⟩
  | 114 => ⟨S1024x512, .f32⟩
  | 115 => ⟨S1024x512, .f32⟩
  | 116 => ⟨S1024x512, .f32⟩
  | 117 => ⟨S_, .f32⟩
  | 118 => ⟨S1024x512, .f32⟩
  | 119 => ⟨S1024x512, .f32⟩
  | 120 => ⟨S_, .f32⟩
  | 121 => ⟨S1024x512, .f32⟩
  | 122 => ⟨S1024x512, .f32⟩
  | 123 => ⟨S1024x1024, .f32⟩
  | 124 => ⟨S1024x512, .f32⟩
  | 125 => ⟨S1024x512, .f32⟩
  | 126 => ⟨S1x512, .f32⟩
  | 127 => ⟨S1024x512, .f32⟩
  | _ => ⟨S32767x512, .f32⟩

abbrev hbmTy0_3 (i : Nat) : BufTy := match i % 128 with
  | 0 => ⟨S1024x512, .f32⟩
  | 1 => ⟨S1024x512, .f32⟩
  | 2 => ⟨S1024x512, .f32⟩
  | 3 => ⟨S_, .f32⟩
  | 4 => ⟨S1024x512, .f32⟩
  | 5 => ⟨S1024x512, .f32⟩
  | 6 => ⟨S_, .f32⟩
  | 7 => ⟨S1024x512, .f32⟩
  | 8 => ⟨S1024x512, .f32⟩
  | 9 => ⟨S1024x512, .f32⟩
  | 10 => ⟨S1024x1x512, .f32⟩
  | 11 => ⟨S1024x512, .f32⟩
  | 12 => ⟨S1024x512, .f32⟩
  | 13 => ⟨S1024x512, .f32⟩
  | 14 => ⟨S1024x1x512, .f32⟩
  | 15 => ⟨S1024x512, .f32⟩
  | 16 => ⟨S1024x512, .f32⟩
  | 17 => ⟨S1024x512, .f32⟩
  | 18 => ⟨S1024x512, .f32⟩
  | 19 => ⟨S1024x512, .f32⟩
  | 20 => ⟨S_, .i32⟩
  | 21 => ⟨S1, .i32⟩
  | 22 => ⟨S32767x512, .f32⟩
  | 23 => ⟨S_, .i32⟩
  | 24 => ⟨S1, .i32⟩
  | 25 => ⟨S32767x512, .f32⟩
  | 26 => ⟨S512x512, .f32⟩
  | 27 => ⟨S1024x512, .f32⟩
  | 28 => ⟨S512x2x512, .f32⟩
  | 29 => ⟨S1024x512, .f32⟩
  | 30 => ⟨S512x2x512, .f32⟩
  | 31 => ⟨S512x1x512, .f32⟩
  | 32 => ⟨S512x512, .f32⟩
  | 33 => ⟨S512x1x512, .f32⟩
  | 34 => ⟨S512x512, .f32⟩
  | 35 => ⟨S512x512, .f32⟩
  | 36 => ⟨S512x1024, .f32⟩
  | 37 => ⟨S1024x512, .f32⟩
  | 38 => ⟨S512x512, .f32⟩
  | 39 => ⟨S1x512, .f32⟩
  | 40 => ⟨S512x512, .f32⟩
  | 41 => ⟨S512x512, .f32⟩
  | 42 => ⟨S512x512, .f32⟩
  | 43 => ⟨S512x512, .f32⟩
  | 44 => ⟨S_, .f32⟩
  | 45 => ⟨S512x512, .f32⟩
  | 46 => ⟨S512x512, .f32⟩
  | 47 => ⟨S_, .f32⟩
  | 48 => ⟨S512x512, .f32⟩
  | 49 => ⟨S512x512, .f32⟩
  | 50 => ⟨S1024x512, .f32⟩
  | 51 => ⟨S512x512, .f32⟩
  | 52 => ⟨S1x512, .f32⟩
  | 53 => ⟨S512x512, .f32⟩
  | 54 => ⟨S512x512, .f32⟩
  | 55 => ⟨S512x512, .f32⟩
  | 56 => ⟨S512x512, .f32⟩
  | 57 => ⟨S_, .f32⟩
  | 58 => ⟨S512x512, .f32⟩
  | 59 => ⟨S512x512, .f32⟩
  | 60 => ⟨S_, .f32⟩
  | 61 => ⟨S512x512, .f32⟩
  | 62 => ⟨S512x512, .f32⟩
  | 63 => ⟨S1024x512, .f32⟩
  | 64 => ⟨S512x512, .f32⟩
  | 65 => ⟨S1x512, .f32⟩
  | 66 => ⟨S512x512, .f32⟩
  | 67 => ⟨S512x512, .f32⟩
  | 68 => ⟨S512x512, .f32⟩
  | 69 => ⟨S512x1024, .f32⟩
  | 70 => ⟨S1024x512, .f32⟩
  | 71 => ⟨S512x512, .f32⟩
  | 72 => ⟨S1x512, .f32⟩
  | 73 => ⟨S512x512, .f32⟩
  | 74 => ⟨S512x512, .f32⟩
  | 75 => ⟨S512x512, .f32⟩
  | 76 => ⟨S512x512, .f32⟩
  | 77 => ⟨S_, .f32⟩
  | 78 => ⟨S512x512, .f32⟩
  | 79 => ⟨S512x512, .f32⟩
  | 80 => ⟨S_, .f32⟩
  | 81 => ⟨S512x512, .f32⟩
  | 82 => ⟨S512x512, .f32⟩
  | 83 => ⟨S512x1024, .f32⟩
  | 84 => ⟨S1024x512, .f32⟩
  | 85 => ⟨S512x512, .f32⟩
  | 86 => ⟨S1x512, .f32⟩
  | 87 => ⟨S512x512, .f32⟩
  | 88 => ⟨S512x512, .f32⟩
  | 89 => ⟨S512x512, .f32⟩
  | 90 => ⟨S512x512, .f32⟩
  | 91 => ⟨S_, .f32⟩
  | 92 => ⟨S512x512, .f32⟩
  | 93 => ⟨S512x512, .f32⟩
  | 94 => ⟨S_, .f32⟩
  | 95 => ⟨S512x512, .f32⟩
  | 96 => ⟨S512x512, .f32⟩
  | 97 => ⟨S512x512, .f32⟩
  | 98 => ⟨S512x1x512, .f32⟩
  | 99 => ⟨S512x512, .f32⟩
  | 100 => ⟨S512x512, .f32⟩
  | 101 => ⟨S512x512, .f32⟩
  | 102 => ⟨S512x1x512, .f32⟩
  | 103 => ⟨S512x512, .f32⟩
  | 104 => ⟨S512x512, .f32⟩
  | 105 => ⟨S512x512, .f32⟩
  | 106 => ⟨S512x512, .f32⟩
  | 107 => ⟨S512x512, .f32⟩
  | 108 => ⟨S_, .i32⟩
  | 109 => ⟨S1, .i32⟩
  | 110 => ⟨S32767x512, .f32⟩
  | 111 => ⟨S_, .i32⟩
  | 112 => ⟨S1, .i32⟩
  | 113 => ⟨S32767x512, .f32⟩
  | 114 => ⟨S256x512, .f32⟩
  | 115 => ⟨S512x512, .f32⟩
  | 116 => ⟨S256x2x512, .f32⟩
  | 117 => ⟨S512x512, .f32⟩
  | 118 => ⟨S256x2x512, .f32⟩
  | 119 => ⟨S256x1x512, .f32⟩
  | 120 => ⟨S256x512, .f32⟩
  | 121 => ⟨S256x1x512, .f32⟩
  | 122 => ⟨S256x512, .f32⟩
  | 123 => ⟨S256x512, .f32⟩
  | 124 => ⟨S256x1024, .f32⟩
  | 125 => ⟨S1024x512, .f32⟩
  | 126 => ⟨S256x512, .f32⟩
  | 127 => ⟨S1x512, .f32⟩
  | _ => ⟨S32767x512, .f32⟩

abbrev hbmTy0_4 (i : Nat) : BufTy := match i % 128 with
  | 0 => ⟨S256x512, .f32⟩
  | 1 => ⟨S256x512, .f32⟩
  | 2 => ⟨S256x512, .f32⟩
  | 3 => ⟨S256x512, .f32⟩
  | 4 => ⟨S_, .f32⟩
  | 5 => ⟨S256x512, .f32⟩
  | 6 => ⟨S256x512, .f32⟩
  | 7 => ⟨S_, .f32⟩
  | 8 => ⟨S256x512, .f32⟩
  | 9 => ⟨S256x512, .f32⟩
  | 10 => ⟨S1024x512, .f32⟩
  | 11 => ⟨S256x512, .f32⟩
  | 12 => ⟨S1x512, .f32⟩
  | 13 => ⟨S256x512, .f32⟩
  | 14 => ⟨S256x512, .f32⟩
  | 15 => ⟨S256x512, .f32⟩
  | 16 => ⟨S256x512, .f32⟩
  | 17 => ⟨S_, .f32⟩
  | 18 => ⟨S256x512, .f32⟩
  | 19 => ⟨S256x512, .f32⟩
  | 20 => ⟨S_, .f32⟩
  | 21 => ⟨S256x512, .f32⟩
  | 22 => ⟨S256x512, .f32⟩
  | 23 => ⟨S1024x512, .f32⟩
  | 24 => ⟨S256x512, .f32⟩
  | 25 => ⟨S1x512, .f32⟩
  | 26 => ⟨S256x512, .f32⟩
  | 27 => ⟨S256x512, .f32⟩
  | 28 => ⟨S256x512, .f32⟩
  | 29 => ⟨S256x1024, .f32⟩
  | 30 => ⟨S1024x512, .f32⟩
  | 31 => ⟨S256x512, .f32⟩
  | 32 => ⟨S1x512, .f32⟩
  | 33 => ⟨S256x512, .f32⟩
  | 34 => ⟨S256x512, .f32⟩
  | 35 => ⟨S256x512, .f32⟩
  | 36 => ⟨S256x512, .f32⟩
  | 37 => ⟨S_, .f32⟩
  | 38 => ⟨S256x512, .f32⟩
  | 39 => ⟨S256x512, .f32⟩
  | 40 => ⟨S_, .f32⟩
  | 41 => ⟨S256x512, .f32⟩
  | 42 => ⟨S256x512, .f32⟩
  | 43 => ⟨S256x1024, .f32⟩
  | 44 => ⟨S1024x512, .f32⟩
  | 45 => ⟨S256x512, .f32⟩
  | 46 => ⟨S1x512, .f32⟩
  | 47 => ⟨S256x512, .f32⟩
  | 48 => ⟨S256x512, .f32⟩
  | 49 => ⟨S256x512, .f32⟩
  | 50 => ⟨S256x512, .f32⟩
  | 51 => ⟨S_, .f32⟩
  | 52 => ⟨S256x512, .f32⟩
  | 53 => ⟨S256x512, .f32⟩
  | 54 => ⟨S_, .f32⟩
  | 55 => ⟨S256x512, .f32⟩
  | 56 => ⟨S256x512, .f32⟩
  | 57 => ⟨S256x512, .f32⟩
  | 58 => ⟨S256x1x512, .f32⟩
  | 59 => ⟨S256x512, .f32⟩
  | 60 => ⟨S256x512, .f32⟩
  | 61 => ⟨S256x512, .f32⟩
  | 62 => ⟨S256x1x512, .f32⟩
  | 63 => ⟨S256x512, .f32⟩
  | 64 => ⟨S256x512, .f32⟩
  | 65 => ⟨S256x512, .f32⟩
  | 66 => ⟨S256x512, .f32⟩
  | 67 => ⟨S256x512, .f32⟩
  | 68 => ⟨S_, .i32⟩
  | 69 => ⟨S1, .i32⟩
  | 70 => ⟨S32767x512, .f32⟩
  | 71 => ⟨S_, .i32⟩
  | 72 => ⟨S1, .i32⟩
  | 73 => ⟨S32767x512, .f32⟩
  | 74 => ⟨S128x512, .f32⟩
  | 75 => ⟨S256x512, .f32⟩
  | 76 => ⟨S128x2x512, .f32⟩
  | 77 => ⟨S256x512, .f32⟩
  | 78 => ⟨S128x2x512, .f32⟩
  | 79 => ⟨S128x1x512, .f32⟩
  | 80 => ⟨S128x512, .f32⟩
  | 81 => ⟨S128x1x512, .f32⟩
  | 82 => ⟨S128x512, .f32⟩
  | 83 => ⟨S128x512, .f32⟩
  | 84 => ⟨S128x1024, .f32⟩
  | 85 => ⟨S1024x512, .f32⟩
  | 86 => ⟨S128x512, .f32⟩
  | 87 => ⟨S1x512, .f32⟩
  | 88 => ⟨S128x512, .f32⟩
  | 89 => ⟨S128x512, .f32⟩
  | 90 => ⟨S128x512, .f32⟩
  | 91 => ⟨S128x512, .f32⟩
  | 92 => ⟨S_, .f32⟩
  | 93 => ⟨S128x512, .f32⟩
  | 94 => ⟨S128x512, .f32⟩
  | 95 => ⟨S_, .f32⟩
  | 96 => ⟨S128x512, .f32⟩
  | 97 => ⟨S128x512, .f32⟩
  | 98 => ⟨S1024x512, .f32⟩
  | 99 => ⟨S128x512, .f32⟩
  | 100 => ⟨S1x512, .f32⟩
  | 101 => ⟨S128x512, .f32⟩
  | 102 => ⟨S128x512, .f32⟩
  | 103 => ⟨S128x512, .f32⟩
  | 104 => ⟨S128x512, .f32⟩
  | 105 => ⟨S_, .f32⟩
  | 106 => ⟨S128x512, .f32⟩
  | 107 => ⟨S128x512, .f32⟩
  | 108 => ⟨S_, .f32⟩
  | 109 => ⟨S128x512, .f32⟩
  | 110 => ⟨S128x512, .f32⟩
  | 111 => ⟨S1024x512, .f32⟩
  | 112 => ⟨S128x512, .f32⟩
  | 113 => ⟨S1x512, .f32⟩
  | 114 => ⟨S128x512, .f32⟩
  | 115 => ⟨S128x512, .f32⟩
  | 116 => ⟨S128x512, .f32⟩
  | 117 => ⟨S128x1024, .f32⟩
  | 118 => ⟨S1024x512, .f32⟩
  | 119 => ⟨S128x512, .f32⟩
  | 120 => ⟨S1x512, .f32⟩
  | 121 => ⟨S128x512, .f32⟩
  | 122 => ⟨S128x512, .f32⟩
  | 123 => ⟨S128x512, .f32⟩
  | 124 => ⟨S128x512, .f32⟩
  | 125 => ⟨S_, .f32⟩
  | 126 => ⟨S128x512, .f32⟩
  | 127 => ⟨S128x512, .f32⟩
  | _ => ⟨S32767x512, .f32⟩

abbrev hbmTy0_5 (i : Nat) : BufTy := match i % 128 with
  | 0 => ⟨S_, .f32⟩
  | 1 => ⟨S128x512, .f32⟩
  | 2 => ⟨S128x512, .f32⟩
  | 3 => ⟨S128x1024, .f32⟩
  | 4 => ⟨S1024x512, .f32⟩
  | 5 => ⟨S128x512, .f32⟩
  | 6 => ⟨S1x512, .f32⟩
  | 7 => ⟨S128x512, .f32⟩
  | 8 => ⟨S128x512, .f32⟩
  | 9 => ⟨S128x512, .f32⟩
  | 10 => ⟨S128x512, .f32⟩
  | 11 => ⟨S_, .f32⟩
  | 12 => ⟨S128x512, .f32⟩
  | 13 => ⟨S128x512, .f32⟩
  | 14 => ⟨S_, .f32⟩
  | 15 => ⟨S128x512, .f32⟩
  | 16 => ⟨S128x512, .f32⟩
  | 17 => ⟨S128x512, .f32⟩
  | 18 => ⟨S128x1x512, .f32⟩
  | 19 => ⟨S128x512, .f32⟩
  | 20 => ⟨S128x512, .f32⟩
  | 21 => ⟨S128x512, .f32⟩
  | 22 => ⟨S128x1x512, .f32⟩
  | 23 => ⟨S128x512, .f32⟩
  | 24 => ⟨S128x512, .f32⟩
  | 25 => ⟨S128x512, .f32⟩
  | 26 => ⟨S128x512, .f32⟩
  | 27 => ⟨S128x512, .f32⟩
  | 28 => ⟨S_, .i32⟩
  | 29 => ⟨S1, .i32⟩
  | 30 => ⟨S32767x512, .f32⟩
  | 31 => ⟨S_, .i32⟩
  | 32 => ⟨S1, .i32⟩
  | 33 => ⟨S32767x512, .f32⟩
  | 34 => ⟨S64x512, .f32⟩
  | 35 => ⟨S128x512, .f32⟩
  | 36 => ⟨S64x2x512, .f32⟩
  | 37 => ⟨S128x512, .f32⟩
  | 38 => ⟨S64x2x512, .f32⟩
  | 39 => ⟨S64x1x512, .f32⟩
  | 40 => ⟨S64x512, .f32⟩
  | 41 => ⟨S64x1x512, .f32⟩
  | 42 => ⟨S64x512, .f32⟩
  | 43 => ⟨S64x512, .f32⟩
  | 44 => ⟨S64x1024, .f32⟩
  | 45 => ⟨S1024x512, .f32⟩
  | 46 => ⟨S64x512, .f32⟩
  | 47 => ⟨S1x512, .f32⟩
  | 48 => ⟨S64x512, .f32⟩
  | 49 => ⟨S64x512, .f32⟩
  | 50 => ⟨S64x512, .f32⟩
  | 51 => ⟨S64x512, .f32⟩
  | 52 => ⟨S_, .f32⟩
  | 53 => ⟨S64x512, .f32⟩
  | 54 => ⟨S64x512, .f32⟩
  | 55 => ⟨S_, .f32⟩
  | 56 => ⟨S64x512, .f32⟩
  | 57 => ⟨S64x512, .f32⟩
  | 58 => ⟨S1024x512, .f32⟩
  | 59 => ⟨S64x512, .f32⟩
  | 60 => ⟨S1x512, .f32⟩
  | 61 => ⟨S64x512, .f32⟩
  | 62 => ⟨S64x512, .f32⟩
  | 63 => ⟨S64x512, .f32⟩
  | 64 => ⟨S64x512, .f32⟩
  | 65 => ⟨S_, .f32⟩
  | 66 => ⟨S64x512, .f32⟩
  | 67 => ⟨S64x512, .f32⟩
  | 68 => ⟨S_, .f32⟩
  | 69 => ⟨S64x512, .f32⟩
  | 70 => ⟨S64x512, .f32⟩
  | 71 => ⟨S1024x512, .f32⟩
  | 72 => ⟨S64x512, .f32⟩
  | 73 => ⟨S1x512, .f32⟩
  | 74 => ⟨S64x512, .f32⟩
  | 75 => ⟨S64x512, .f32⟩
  | 76 => ⟨S64x512, .f32⟩
  | 77 => ⟨S64x1024, .f32⟩
  | 78 => ⟨S1024x512, .f32⟩
  | 79 => ⟨S64x512, .f32⟩
  | 80 => ⟨S1x512, .f32⟩
  | 81 => ⟨S64x512, .f32⟩
  | 82 => ⟨S64x512, .f32⟩
  | 83 => ⟨S64x512, .f32⟩
  | 84 => ⟨S64x512, .f32⟩
  | 85 => ⟨S_, .f32⟩
  | 86 => ⟨S64x512, .f32⟩
  | 87 => ⟨S64x512, .f32⟩
  | 88 => ⟨S_, .f32⟩
  | 89 => ⟨S64x512, .f32⟩
  | 90 => ⟨S64x512, .f32⟩
  | 91 => ⟨S64x1024, .f32⟩
  | 92 => ⟨S1024x512, .f32⟩
  | 93 => ⟨S64x512, .f32⟩
  | 94 => ⟨S1x512, .f32⟩
  | 95 => ⟨S64x512, .f32⟩
  | 96 => ⟨S64x512, .f32⟩
  | 97 => ⟨S64x512, .f32⟩
  | 98 => ⟨S64x512, .f32⟩
  | 99 => ⟨S_, .f32⟩
  | 100 => ⟨S64x512, .f32⟩
  | 101 => ⟨S64x512, .f32⟩
  | 102 => ⟨S_, .f32⟩
  | 103 => ⟨S64x512, .f32⟩
  | 104 => ⟨S64x512, .f32⟩
  | 105 => ⟨S64x512, .f32⟩
  | 106 => ⟨S64x1x512, .f32⟩
  | 107 => ⟨S64x512, .f32⟩
  | 108 => ⟨S64x512, .f32⟩
  | 109 => ⟨S64x512, .f32⟩
  | 110 => ⟨S64x1x512, .f32⟩
  | 111 => ⟨S64x512, .f32⟩
  | 112 => ⟨S64x512, .f32⟩
  | 113 => ⟨S64x512, .f32⟩
  | 114 => ⟨S64x512, .f32⟩
  | 115 => ⟨S64x512, .f32⟩
  | 116 => ⟨S_, .i32⟩
  | 117 => ⟨S1, .i32⟩
  | 118 => ⟨S32767x512, .f32⟩
  | 119 => ⟨S_, .i32⟩
  | 120 => ⟨S1, .i32⟩
  | 121 => ⟨S32767x512, .f32⟩
  | 122 => ⟨S32x512, .f32⟩
  | 123 => ⟨S64x512, .f32⟩
  | 124 => ⟨S32x2x512, .f32⟩
  | 125 => ⟨S64x512, .f32⟩
  | 126 => ⟨S32x2x512, .f32⟩
  | 127 => ⟨S32x1x512, .f32⟩
  | _ => ⟨S32767x512, .f32⟩

abbrev hbmTy0_6 (i : Nat) : BufTy := match i % 128 with
  | 0 => ⟨S32x512, .f32⟩
  | 1 => ⟨S32x1x512, .f32⟩
  | 2 => ⟨S32x512, .f32⟩
  | 3 => ⟨S32x512, .f32⟩
  | 4 => ⟨S32x1024, .f32⟩
  | 5 => ⟨S1024x512, .f32⟩
  | 6 => ⟨S32x512, .f32⟩
  | 7 => ⟨S1x512, .f32⟩
  | 8 => ⟨S32x512, .f32⟩
  | 9 => ⟨S32x512, .f32⟩
  | 10 => ⟨S32x512, .f32⟩
  | 11 => ⟨S32x512, .f32⟩
  | 12 => ⟨S_, .f32⟩
  | 13 => ⟨S32x512, .f32⟩
  | 14 => ⟨S32x512, .f32⟩
  | 15 => ⟨S_, .f32⟩
  | 16 => ⟨S32x512, .f32⟩
  | 17 => ⟨S32x512, .f32⟩
  | 18 => ⟨S1024x512, .f32⟩
  | 19 => ⟨S32x512, .f32⟩
  | 20 => ⟨S1x512, .f32⟩
  | 21 => ⟨S32x512, .f32⟩
  | 22 => ⟨S32x512, .f32⟩
  | 23 => ⟨S32x512, .f32⟩
  | 24 => ⟨S32x512, .f32⟩
  | 25 => ⟨S_, .f32⟩
  | 26 => ⟨S32x512, .f32⟩
  | 27 => ⟨S32x512, .f32⟩
  | 28 => ⟨S_, .f32⟩
  | 29 => ⟨S32x512, .f32⟩
  | 30 => ⟨S32x512, .f32⟩
  | 31 => ⟨S1024x512, .f32⟩
  | 32 => ⟨S32x512, .f32⟩
  | 33 => ⟨S1x512, .f32⟩
  | 34 => ⟨S32x512, .f32⟩
  | 35 => ⟨S32x512, .f32⟩
  | 36 => ⟨S32x512, .f32⟩
  | 37 => ⟨S32x1024, .f32⟩
  | 38 => ⟨S1024x512, .f32⟩
  | 39 => ⟨S32x512, .f32⟩
  | 40 => ⟨S1x512, .f32⟩
  | 41 => ⟨S32x512, .f32⟩
  | 42 => ⟨S32x512, .f32⟩
  | 43 => ⟨S32x512, .f32⟩
  | 44 => ⟨S32x512, .f32⟩
  | 45 => ⟨S_, .f32⟩
  | 46 => ⟨S32x512, .f32⟩
  | 47 => ⟨S32x512, .f32⟩
  | 48 => ⟨S_, .f32⟩
  | 49 => ⟨S32x512, .f32⟩
  | 50 => ⟨S32x512, .f32⟩
  | 51 => ⟨S32x1024, .f32⟩
  | 52 => ⟨S1024x512, .f32⟩
  | 53 => ⟨S32x512, .f32⟩
  | 54 => ⟨S1x512, .f32⟩
  | 55 => ⟨S32x512, .f32⟩
  | 56 => ⟨S32x512, .f32⟩
  | 57 => ⟨S32x512, .f32⟩
  | 58 => ⟨S32x512, .f32⟩
  | 59 => ⟨S_, .f32⟩
  | 60 => ⟨S32x512, .f32⟩
  | 61 => ⟨S32x512, .f32⟩
  | 62 => ⟨S_, .f32⟩
  | 63 => ⟨S32x512, .f32⟩
  | 64 => ⟨S32x512, .f32⟩
  | 65 => ⟨S32x512, .f32⟩
  | 66 => ⟨S32x1x512, .f32⟩
  | 67 => ⟨S32x512, .f32⟩
  | 68 => ⟨S32x512, .f32⟩
  | 69 => ⟨S32x512, .f32⟩
  | 70 => ⟨S32x1x512, .f32⟩
  | 71 => ⟨S32x512, .f32⟩
  | 72 => ⟨S32x512, .f32⟩
  | 73 => ⟨S32x512, .f32⟩
  | 74 => ⟨S32x512, .f32⟩
  | 75 => ⟨S32x512, .f32⟩
  | 76 => ⟨S_, .i32⟩
  | 77 => ⟨S1, .i32⟩
  | 78 => ⟨S32767x512, .f32⟩
  | 79 => ⟨S_, .i32⟩
  | 80 => ⟨S1, .i32⟩
  | 81 => ⟨S32767x512, .f32⟩
  | 82 => ⟨S16x512, .f32⟩
  | 83 => ⟨S32x512, .f32⟩
  | 84 => ⟨S16x2x512, .f32⟩
  | 85 => ⟨S32x512, .f32⟩
  | 86 => ⟨S16x2x512, .f32⟩
  | 87 => ⟨S16x1x512, .f32⟩
  | 88 => ⟨S16x512, .f32⟩
  | 89 => ⟨S16x1x512, .f32⟩
  | 90 => ⟨S16x512, .f32⟩
  | 91 => ⟨S16x512, .f32⟩
  | 92 => ⟨S16x1024, .f32⟩
  | 93 => ⟨S1024x512, .f32⟩
  | 94 => ⟨S16x512, .f32⟩
  | 95 => ⟨S1x512, .f32⟩
  | 96 => ⟨S16x512, .f32⟩
  | 97 => ⟨S16x512, .f32⟩
  | 98 => ⟨S16x512, .f32⟩
  | 99 => ⟨S16x512, .f32⟩
  | 100 => ⟨S_, .f32⟩
  | 101 => ⟨S16x512, .f32⟩
  | 102 => ⟨S16x512, .f32⟩
  | 103 => ⟨S_, .f32⟩
  | 104 => ⟨S16x512, .f32⟩
  | 105 => ⟨S16x512, .f32⟩
  | 106 => ⟨S1024x512, .f32⟩
  | 107 => ⟨S16x512, .f32⟩
  | 108 => ⟨S1x512, .f32⟩
  | 109 => ⟨S16x512, .f32⟩
  | 110 => ⟨S16x512, .f32⟩
  | 111 => ⟨S16x512, .f32⟩
  | 112 => ⟨S16x512, .f32⟩
  | 113 => ⟨S_, .f32⟩
  | 114 => ⟨S16x512, .f32⟩
  | 115 => ⟨S16x512, .f32⟩
  | 116 => ⟨S_, .f32⟩
  | 117 => ⟨S16x512, .f32⟩
  | 118 => ⟨S16x512, .f32⟩
  | 119 => ⟨S1024x512, .f32⟩
  | 120 => ⟨S16x512, .f32⟩
  | 121 => ⟨S1x512, .f32⟩
  | 122 => ⟨S16x512, .f32⟩
  | 123 => ⟨S16x512, .f32⟩
  | 124 => ⟨S16x512, .f32⟩
  | 125 => ⟨S16x1024, .f32⟩
  | 126 => ⟨S1024x512, .f32⟩
  | 127 => ⟨S16x512, .f32⟩
  | _ => ⟨S32767x512, .f32⟩

abbrev hbmTy0_7 (i : Nat) : BufTy := match i % 128 with
  | 0 => ⟨S1x512, .f32⟩
  | 1 => ⟨S16x512, .f32⟩
  | 2 => ⟨S16x512, .f32⟩
  | 3 => ⟨S16x512, .f32⟩
  | 4 => ⟨S16x512, .f32⟩
  | 5 => ⟨S_, .f32⟩
  | 6 => ⟨S16x512, .f32⟩
  | 7 => ⟨S16x512, .f32⟩
  | 8 => ⟨S_, .f32⟩
  | 9 => ⟨S16x512, .f32⟩
  | 10 => ⟨S16x512, .f32⟩
  | 11 => ⟨S16x1024, .f32⟩
  | 12 => ⟨S1024x512, .f32⟩
  | 13 => ⟨S16x512, .f32⟩
  | 14 => ⟨S1x512, .f32⟩
  | 15 => ⟨S16x512, .f32⟩
  | 16 => ⟨S16x512, .f32⟩
  | 17 => ⟨S16x512, .f32⟩
  | 18 => ⟨S16x512, .f32⟩
  | 19 => ⟨S_, .f32⟩
  | 20 => ⟨S16x512, .f32⟩
  | 21 => ⟨S16x512, .f32⟩
  | 22 => ⟨S_, .f32⟩
  | 23 => ⟨S16x512, .f32⟩
  | 24 => ⟨S16x512, .f32⟩
  | 25 => ⟨S16x512, .f32⟩
  | 26 => ⟨S16x1x512, .f32⟩
  | 27 => ⟨S16x512, .f32⟩
  | 28 => ⟨S16x512, .f32⟩
  | 29 => ⟨S16x512, .f32⟩
  | 30 => ⟨S16x1x512, .f32⟩
  | 31 => ⟨S16x512, .f32⟩
  | 32 => ⟨S16x512, .f32⟩
  | 33 => ⟨S16x512, .f32⟩
  | 34 => ⟨S16x512, .f32⟩
  | 35 => ⟨S16x512, .f32⟩
  | 36 => ⟨S_, .i32⟩
  | 37 => ⟨S1, .i32⟩
  | 38 => ⟨S32767x512, .f32⟩
  | 39 => ⟨S_, .i32⟩
  | 40 => ⟨S1, .i32⟩
  | 41 => ⟨S32767x512, .f32⟩
  | 42 => ⟨S8x512, .f32⟩
  | 43 => ⟨S16x512, .f32⟩
  | 44 => ⟨S8x2x512, .f32⟩
  | 45 => ⟨S16x512, .f32⟩
  | 46 => ⟨S8x2x512, .f32⟩
  | 47 => ⟨S8x1x512, .f32⟩
  | 48 => ⟨S8x512, .f32⟩
  | 49 => ⟨S8x1x512, .f32⟩
  | 50 => ⟨S8x512, .f32⟩
  | 51 => ⟨S8x512, .f32⟩
  | 52 => ⟨S8x1024, .f32⟩
  | 53 => ⟨S1024x512, .f32⟩
  | 54 => ⟨S8x512, .f32⟩
  | 55 => ⟨S1x512, .f32⟩
  | 56 => ⟨S8x512, .f32⟩
  | 57 => ⟨S8x512, .f32⟩
  | 58 => ⟨S8x512, .f32⟩
  | 59 => ⟨S8x512, .f32⟩
  | 60 => ⟨S_, .f32⟩
  | 61 => ⟨S8x512, .f32⟩
  | 62 => ⟨S8x512, .f32⟩
  | 63 => ⟨S_, .f32⟩
  | 64 => ⟨S8x512, .f32⟩
  | 65 => ⟨S8x512, .f32⟩
  | 66 => ⟨S1024x512, .f32⟩
  | 67 => ⟨S8x512, .f32⟩
  | 68 => ⟨S1x512, .f32⟩
  | 69 => ⟨S8x512, .f32⟩
  | 70 => ⟨S8x512, .f32⟩
  | 71 => ⟨S8x512, .f32⟩
  | 72 => ⟨S8x512, .f32⟩
  | 73 => ⟨S_, .f32⟩
  | 74 => ⟨S8x512, .f32⟩
  | 75 => ⟨S8x512, .f32⟩
  | 76 => ⟨S_, .f32⟩
  | 77 => ⟨S8x512, .f32⟩
  | 78 => ⟨S8x512, .f32⟩
  | 79 => ⟨S1024x512, .f32⟩
  | 80 => ⟨S8x512, .f32⟩
  | 81 => ⟨S1x512, .f32⟩
  | 82 => ⟨S8x512, .f32⟩
  | 83 => ⟨S8x512, .f32⟩
  | 84 => ⟨S8x512, .f32⟩
  | 85 => ⟨S8x1024, .f32⟩
  | 86 => ⟨S1024x512, .f32⟩
  | 87 => ⟨S8x512, .f32⟩
  | 88 => ⟨S1x512, .f32⟩
  | 89 => ⟨S8x512, .f32⟩
  | 90 => ⟨S8x512, .f32⟩
  | 91 => ⟨S8x512, .f32⟩
  | 92 => ⟨S8x512, .f32⟩
  | 93 => ⟨S_, .f32⟩
  | 94 => ⟨S8x512, .f32⟩
  | 95 => ⟨S8x512, .f32⟩
  | 96 => ⟨S_, .f32⟩
  | 97 => ⟨S8x512, .f32⟩
  | 98 => ⟨S8x512, .f32⟩
  | 99 => ⟨S8x1024, .f32⟩
  | 100 => ⟨S1024x512, .f32⟩
  | 101 => ⟨S8x512, .f32⟩
  | 102 => ⟨S1x512, .f32⟩
  | 103 => ⟨S8x512, .f32⟩
  | 104 => ⟨S8x512, .f32⟩
  | 105 => ⟨S8x512, .f32⟩
  | 106 => ⟨S8x512, .f32⟩
  | 107 => ⟨S_, .f32⟩
  | 108 => ⟨S8x512, .f32⟩
  | 109 => ⟨S8x512, .f32⟩
  | 110 => ⟨S_, .f32⟩
  | 111 => ⟨S8x512, .f32⟩
  | 112 => ⟨S8x512, .f32⟩
  | 113 => ⟨S8x512, .f32⟩
  | 114 => ⟨S8x1x512, .f32⟩
  | 115 => ⟨S8x512, .f32⟩
  | 116 => ⟨S8x512, .f32⟩
  | 117 => ⟨S8x512, .f32⟩
  | 118 => ⟨S8x1x512, .f32⟩
  | 119 => ⟨S8x512, .f32⟩
  | 120 => ⟨S8x512, .f32⟩
  | 121 => ⟨S8x512, .f32⟩
  | 122 => ⟨S8x512, .f32⟩
  | 123 => ⟨S8x512, .f32⟩
  | 124 => ⟨S_, .i32⟩
  | 125 => ⟨S1, .i32⟩
  | 126 => ⟨S32767x512, .f32⟩
  | 127 => ⟨S_, .i32⟩
  | _ => ⟨S32767x512, .f32⟩

abbrev hbmTy0_8 (i : Nat) : BufTy := match i % 128 with
  | 0 => ⟨S1, .i32⟩
  | 1 => ⟨S32767x512, .f32⟩
  | 2 => ⟨S4x512, .f32⟩
  | 3 => ⟨S8x512, .f32⟩
  | 4 => ⟨S4x2x512, .f32⟩
  | 5 => ⟨S8x512, .f32⟩
  | 6 => ⟨S4x2x512, .f32⟩
  | 7 => ⟨S4x1x512, .f32⟩
  | 8 => ⟨S4x512, .f32⟩
  | 9 => ⟨S4x1x512, .f32⟩
  | 10 => ⟨S4x512, .f32⟩
  | 11 => ⟨S4x512, .f32⟩
  | 12 => ⟨S4x1024, .f32⟩
  | 13 => ⟨S1024x512, .f32⟩
  | 14 => ⟨S4x512, .f32⟩
  | 15 => ⟨S1x512, .f32⟩
  | 16 => ⟨S4x512, .f32⟩
  | 17 => ⟨S4x512, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S_, .f32⟩
  | 24 => ⟨S4x512, .f32⟩
  | 25 => ⟨S4x512, .f32⟩
  | 26 => ⟨S1024x512, .f32⟩
  | 27 => ⟨S4x512, .f32⟩
  | 28 => ⟨S1x512, .f32⟩
  | 29 => ⟨S4x512, .f32⟩
  | 30 => ⟨S4x512, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S_, .f32⟩
  | 37 => ⟨S4x512, .f32⟩
  | 38 => ⟨S4x512, .f32⟩
  | 39 => ⟨S1024x512, .f32⟩
  | 40 => ⟨S4x512, .f32⟩
  | 41 => ⟨S1x512, .f32⟩
  | 42 => ⟨S4x512, .f32⟩
  | 43 => ⟨S4x512, .f32⟩
  | 44 => ⟨S4x512, .f32⟩
  | 45 => ⟨S4x1024, .f32⟩
  | 46 => ⟨S1024x512, .f32⟩
  | 47 => ⟨S4x512, .f32⟩
  | 48 => ⟨S1x512, .f32⟩
  | 49 => ⟨S4x512, .f32⟩
  | 50 => ⟨S4x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S_, .f32⟩
  | 57 => ⟨S4x512, .f32⟩
  | 58 => ⟨S4x512, .f32⟩
  | 59 => ⟨S4x1024, .f32⟩
  | 60 => ⟨S1024x512, .f32⟩
  | 61 => ⟨S4x512, .f32⟩
  | 62 => ⟨S1x512, .f32⟩
  | 63 => ⟨S4x512, .f32⟩
  | 64 => ⟨S4x512, .f32⟩
  | 65 => ⟨S4x512, .f32⟩
  | 66 => ⟨S4x512, .f32⟩
  | 67 => ⟨S_, .f32⟩
  | 68 => ⟨S4x512, .f32⟩
  | 69 => ⟨S4x512, .f32⟩
  | 70 => ⟨S_, .f32⟩
  | 71 => ⟨S4x512, .f32⟩
  | 72 => ⟨S4x512, .f32⟩
  | 73 => ⟨S4x512, .f32⟩
  | 74 => ⟨S4x1x512, .f32⟩
  | 75 => ⟨S4x512, .f32⟩
  | 76 => ⟨S4x512, .f32⟩
  | 77 => ⟨S4x512, .f32⟩
  | 78 => ⟨S4x1x512, .f32⟩
  | 79 => ⟨S4x512, .f32⟩
  | 80 => ⟨S4x512, .f32⟩
  | 81 => ⟨S4x512, .f32⟩
  | 82 => ⟨S4x512, .f32⟩
  | 83 => ⟨S4x512, .f32⟩
  | 84 => ⟨S_, .i32⟩
  | 85 => ⟨S1, .i32⟩
  | 86 => ⟨S32767x512, .f32⟩
  | 87 => ⟨S_, .i32⟩
  | 88 => ⟨S1, .i32⟩
  | 89 => ⟨S32767x512, .f32⟩
  | 90 => ⟨S2x512, .f32⟩
  | 91 => ⟨S4x512, .f32⟩
  | 92 => ⟨S2x2x512, .f32⟩
  | 93 => ⟨S4x512, .f32⟩
  | 94 => ⟨S2x2x512, .f32⟩
  | 95 => ⟨S2x1x512, .f32⟩
  | 96 => ⟨S2x512, .f32⟩
  | 97 => ⟨S2x1x512, .f32⟩
  | 98 => ⟨S2x512, .f32⟩
  | 99 => ⟨S2x512, .f32⟩
  | 100 => ⟨S2x1024, .f32⟩
  | 101 => ⟨S1024x512, .f32⟩
  | 102 => ⟨S2x512, .f32⟩
  | 103 => ⟨S1x512, .f32⟩
  | 104 => ⟨S2x512, .f32⟩
  | 105 => ⟨S2x512, .f32⟩
  | 106 => ⟨S2x512, .f32⟩
  | 107 => ⟨S2x512, .f32⟩
  | 108 => ⟨S_, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S1024x512, .f32⟩
  | 115 => ⟨S2x512, .f32⟩
  | 116 => ⟨S1x512, .f32⟩
  | 117 => ⟨S2x512, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S1024x512, .f32⟩
  | _ => ⟨S32767x512, .f32⟩

abbrev hbmTy0_9 (i : Nat) : BufTy := match i % 128 with
  | 0 => ⟨S2x512, .f32⟩
  | 1 => ⟨S1x512, .f32⟩
  | 2 => ⟨S2x512, .f32⟩
  | 3 => ⟨S2x512, .f32⟩
  | 4 => ⟨S2x512, .f32⟩
  | 5 => ⟨S2x1024, .f32⟩
  | 6 => ⟨S1024x512, .f32⟩
  | 7 => ⟨S2x512, .f32⟩
  | 8 => ⟨S1x512, .f32⟩
  | 9 => ⟨S2x512, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x1024, .f32⟩
  | 20 => ⟨S1024x512, .f32⟩
  | 21 => ⟨S2x512, .f32⟩
  | 22 => ⟨S1x512, .f32⟩
  | 23 => ⟨S2x512, .f32⟩
  | 24 => ⟨S2x512, .f32⟩
  | 25 => ⟨S2x512, .f32⟩
  | 26 => ⟨S2x512, .f32⟩
  | 27 => ⟨S_, .f32⟩
  | 28 => ⟨S2x512, .f32⟩
  | 29 => ⟨S2x512, .f32⟩
  | 30 => ⟨S_, .f32⟩
  | 31 => ⟨S2x512, .f32⟩
  | 32 => ⟨S2x512, .f32⟩
  | 33 => ⟨S2x512, .f32⟩
  | 34 => ⟨S2x1x512, .f32⟩
  | 35 => ⟨S2x512, .f32⟩
  | 36 => ⟨S2x512, .f32⟩
  | 37 => ⟨S2x512, .f32⟩
  | 38 => ⟨S2x1x512, .f32⟩
  | 39 => ⟨S2x512, .f32⟩
  | 40 => ⟨S2x512, .f32⟩
  | 41 => ⟨S2x512, .f32⟩
  | 42 => ⟨S2x512, .f32⟩
  | 43 => ⟨S2x512, .f32⟩
  | 44 => ⟨S_, .i32⟩
  | 45 => ⟨S1, .i32⟩
  | 46 => ⟨S32767x512, .f32⟩
  | 47 => ⟨S_, .i32⟩
  | 48 => ⟨S1, .i32⟩
  | 49 => ⟨S32767x512, .f32⟩
  | 50 => ⟨S1x512, .f32⟩
  | 51 => ⟨S2x512, .f32⟩
  | 52 => ⟨S1x2x512, .f32⟩
  | 53 => ⟨S2x512, .f32⟩
  | 54 => ⟨S1x2x512, .f32⟩
  | 55 => ⟨S1x1x512, .f32⟩
  | 56 => ⟨S1x512, .f32⟩
  | 57 => ⟨S1x1x512, .f32⟩
  | 58 => ⟨S1x512, .f32⟩
  | 59 => ⟨S1x512, .f32⟩
  | 60 => ⟨S1x1024, .f32⟩
  | 61 => ⟨S1024x512, .f32⟩
  | 62 => ⟨S1x512, .f32⟩
  | 63 => ⟨S1x512, .f32⟩
  | 64 => ⟨S1x512, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1024x512, .f32⟩
  | 74 => ⟨S1x512, .f32⟩
  | 75 => ⟨S1x512, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S1024x512, .f32⟩
  | 86 => ⟨S1x512, .f32⟩
  | 87 => ⟨S1x512, .f32⟩
  | 88 => ⟨S1x512, .f32⟩
  | 89 => ⟨S1x512, .f32⟩
  | 90 => ⟨S1x1024, .f32⟩
  | 91 => ⟨S1024x512, .f32⟩
  | 92 => ⟨S1x512, .f32⟩
  | 93 => ⟨S1x512, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x1024, .f32⟩
  | 104 => ⟨S1024x512, .f32⟩
  | 105 => ⟨S1x512, .f32⟩
  | 106 => ⟨S1x512, .f32⟩
  | 107 => ⟨S1x512, .f32⟩
  | 108 => ⟨S1x512, .f32⟩
  | 109 => ⟨S1x512, .f32⟩
  | 110 => ⟨S_, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S1x1x512, .f32⟩
  | 118 => ⟨S1x512, .f32⟩
  | 119 => ⟨S1x512, .f32⟩
  | 120 => ⟨S1x512, .f32⟩
  | 121 => ⟨S1x1x512, .f32⟩
  | 122 => ⟨S1x512, .f32⟩
  | 123 => ⟨S1x512, .f32⟩
  | 124 => ⟨S1x512, .f32⟩
  | 125 => ⟨S1x512, .f32⟩
  | 126 => ⟨S1x512, .f32⟩
  | 127 => ⟨S_, .i32⟩
  | _ => ⟨S32767x512, .f32⟩

abbrev hbmTy0_10 (i : Nat) : BufTy := match i % 128 with
  | 0 => ⟨S1, .i32⟩
  | 1 => ⟨S32767x512, .f32⟩
  | 2 => ⟨S_, .i32⟩
  | 3 => ⟨S1, .i32⟩
  | 4 => ⟨S32767x512, .f32⟩
  | 5 => ⟨S1x512, .f32⟩
  | 6 => ⟨S512, .f32⟩
  | 7 => ⟨S1x512, .f32⟩
  | 8 => ⟨S512, .f32⟩
  | _ => ⟨S32767x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S32767x512, .f32⟩

abbrev bufTy : (tb : Table) → Fin (tcTables nBuf tb) → BufTy
  | .hbm, ⟨i, _⟩ => hbmTy i
  | _, _ => ⟨S32767x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_11 : Ref sig .tc := ⟨.hbm, 109, rfl⟩
abbrev main_v87 : Ref sig .tc := ⟨.hbm, 110, rfl⟩
abbrev main_v88 : Ref sig .tc := ⟨.hbm, 111, rfl⟩
abbrev main_cst_12 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_cst_14 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_c_15 : Ref sig .tc := ⟨.hbm, 140, rfl⟩
abbrev main_v114 : Ref sig .tc := ⟨.hbm, 141, rfl⟩
abbrev main_v115 : Ref sig .tc := ⟨.hbm, 142, rfl⟩
abbrev main_c_16 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_17 : Ref sig .tc := ⟨.hbm, 164, rfl⟩
abbrev main_v136 : Ref sig .tc := ⟨.hbm, 165, rfl⟩
abbrev main_v137 : Ref sig .tc := ⟨.hbm, 166, rfl⟩
abbrev main_cst_18 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_21 : Ref sig .tc := ⟨.hbm, 197, rfl⟩
abbrev main_v165 : Ref sig .tc := ⟨.hbm, 198, rfl⟩
abbrev main_v166 : Ref sig .tc := ⟨.hbm, 199, rfl⟩
abbrev main_cst_22 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_cst_23 : Ref sig .tc := ⟨.hbm, 211, rfl⟩
abbrev main_v177 : Ref sig .tc := ⟨.hbm, 212, rfl⟩
abbrev main_v178 : Ref sig .tc := ⟨.hbm, 213, rfl⟩
abbrev main_cst_24 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_c_25 : Ref sig .tc := ⟨.hbm, 228, rfl⟩
abbrev main_v192 : Ref sig .tc := ⟨.hbm, 229, rfl⟩
abbrev main_v193 : Ref sig .tc := ⟨.hbm, 230, rfl⟩
abbrev main_c_26 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_cst_27 : Ref sig .tc := ⟨.hbm, 252, rfl⟩
abbrev main_v214 : Ref sig .tc := ⟨.hbm, 253, rfl⟩
abbrev main_v215 : Ref sig .tc := ⟨.hbm, 254, rfl⟩
abbrev main_cst_28 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_cst_29 : Ref sig .tc := ⟨.hbm, 265, rfl⟩
abbrev main_v225 : Ref sig .tc := ⟨.hbm, 266, rfl⟩
abbrev main_v226 : Ref sig .tc := ⟨.hbm, 267, rfl⟩
abbrev main_cst_30 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_cst_31 : Ref sig .tc := ⟨.hbm, 285, rfl⟩
abbrev main_v243 : Ref sig .tc := ⟨.hbm, 286, rfl⟩
abbrev main_v244 : Ref sig .tc := ⟨.hbm, 287, rfl⟩
abbrev main_cst_32 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_cst_33 : Ref sig .tc := ⟨.hbm, 299, rfl⟩
abbrev main_v255 : Ref sig .tc := ⟨.hbm, 300, rfl⟩
abbrev main_v256 : Ref sig .tc := ⟨.hbm, 301, rfl⟩
abbrev main_cst_34 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_c_35 : Ref sig .tc := ⟨.hbm, 316, rfl⟩
abbrev main_v270 : Ref sig .tc := ⟨.hbm, 317, rfl⟩
abbrev main_v271 : Ref sig .tc := ⟨.hbm, 318, rfl⟩
abbrev main_c_36 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_cst_37 : Ref sig .tc := ⟨.hbm, 340, rfl⟩
abbrev main_v292 : Ref sig .tc := ⟨.hbm, 341, rfl⟩
abbrev main_v293 : Ref sig .tc := ⟨.hbm, 342, rfl⟩
abbrev main_cst_38 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_cst_39 : Ref sig .tc := ⟨.hbm, 353, rfl⟩
abbrev main_v303 : Ref sig .tc := ⟨.hbm, 354, rfl⟩
abbrev main_v304 : Ref sig .tc := ⟨.hbm, 355, rfl⟩
abbrev main_cst_40 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_cst_41 : Ref sig .tc := ⟨.hbm, 373, rfl⟩
abbrev main_v321 : Ref sig .tc := ⟨.hbm, 374, rfl⟩
abbrev main_v322 : Ref sig .tc := ⟨.hbm, 375, rfl⟩
abbrev main_cst_42 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_cst_43 : Ref sig .tc := ⟨.hbm, 387, rfl⟩
abbrev main_v333 : Ref sig .tc := ⟨.hbm, 388, rfl⟩
abbrev main_v334 : Ref sig .tc := ⟨.hbm, 389, rfl⟩
abbrev main_cst_44 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_v346 : Ref sig .tc := ⟨.hbm, 402, rfl⟩
abbrev main_v347 : Ref sig .tc := ⟨.hbm, 403, rfl⟩
abbrev main_c_45 : Ref sig .tc := ⟨.hbm, 404, rfl⟩
abbrev main_v348 : Ref sig .tc := ⟨.hbm, 405, rfl⟩
abbrev main_v349 : Ref sig .tc := ⟨.hbm, 406, rfl⟩
abbrev main_c_46 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_cst_47 : Ref sig .tc := ⟨.hbm, 428, rfl⟩
abbrev main_v370 : Ref sig .tc := ⟨.hbm, 429, rfl⟩
abbrev main_v371 : Ref sig .tc := ⟨.hbm, 430, rfl⟩
abbrev main_cst_48 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_cst_49 : Ref sig .tc := ⟨.hbm, 441, rfl⟩
abbrev main_v381 : Ref sig .tc := ⟨.hbm, 442, rfl⟩
abbrev main_v382 : Ref sig .tc := ⟨.hbm, 443, rfl⟩
abbrev main_cst_50 : Ref sig .tc := ⟨.hbm, 444, rfl⟩
abbrev main_v383 : Ref sig .tc := ⟨.hbm, 445, rfl⟩
abbrev main_v384 : Ref sig .tc := ⟨.hbm, 446, rfl⟩
abbrev main_v385 : Ref sig .tc := ⟨.hbm, 447, rfl⟩
abbrev main_v386 : Ref sig .tc := ⟨.hbm, 448, rfl⟩
abbrev main_v387 : Ref sig .tc := ⟨.hbm, 449, rfl⟩
abbrev main_v388 : Ref sig .tc := ⟨.hbm, 450, rfl⟩
abbrev main_v389 : Ref sig .tc := ⟨.hbm, 451, rfl⟩
abbrev main_v390 : Ref sig .tc := ⟨.hbm, 452, rfl⟩
abbrev main_v391 : Ref sig .tc := ⟨.hbm, 453, rfl⟩
abbrev main_v392 : Ref sig .tc := ⟨.hbm, 454, rfl⟩
abbrev main_v393 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_v397 : Ref sig .tc := ⟨.hbm, 459, rfl⟩
abbrev main_v398 : Ref sig .tc := ⟨.hbm, 460, rfl⟩
abbrev main_cst_51 : Ref sig .tc := ⟨.hbm, 461, rfl⟩
abbrev main_v399 : Ref sig .tc := ⟨.hbm, 462, rfl⟩
abbrev main_v400 : Ref sig .tc := ⟨.hbm, 463, rfl⟩
abbrev main_cst_52 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_v409 : Ref sig .tc := ⟨.hbm, 473, rfl⟩
abbrev main_v410 : Ref sig .tc := ⟨.hbm, 474, rfl⟩
abbrev main_cst_53 : Ref sig .tc := ⟨.hbm, 475, rfl⟩
abbrev main_v411 : Ref sig .tc := ⟨.hbm, 476, rfl⟩
abbrev main_v412 : Ref sig .tc := ⟨.hbm, 477, rfl⟩
abbrev main_cst_54 : Ref sig .tc := ⟨.hbm, 478, rfl⟩
abbrev main_v413 : Ref sig .tc := ⟨.hbm, 479, rfl⟩
abbrev main_v414 : Ref sig .tc := ⟨.hbm, 480, rfl⟩
abbrev main_v415 : Ref sig .tc := ⟨.hbm, 481, rfl⟩
abbrev main_v416 : Ref sig .tc := ⟨.hbm, 482, rfl⟩
abbrev main_v417 : Ref sig .tc := ⟨.hbm, 483, rfl⟩
abbrev main_v418 : Ref sig .tc := ⟨.hbm, 484, rfl⟩
abbrev main_v419 : Ref sig .tc := ⟨.hbm, 485, rfl⟩
abbrev main_v420 : Ref sig .tc := ⟨.hbm, 486, rfl⟩
abbrev main_v421 : Ref sig .tc := ⟨.hbm, 487, rfl⟩
abbrev main_v422 : Ref sig .tc := ⟨.hbm, 488, rfl⟩
abbrev main_v423 : Ref sig .tc := ⟨.hbm, 489, rfl⟩
abbrev main_v424 : Ref sig .tc := ⟨.hbm, 490, rfl⟩
abbrev main_v425 : Ref sig .tc := ⟨.hbm, 491, rfl⟩
abbrev main_c_55 : Ref sig .tc := ⟨.hbm, 492, rfl⟩
abbrev main_v426 : Ref sig .tc := ⟨.hbm, 493, rfl⟩
abbrev main_v427 : Ref sig .tc := ⟨.hbm, 494, rfl⟩
abbrev main_c_56 : Ref sig .tc := ⟨.hbm, 495, rfl⟩
abbrev main_v428 : Ref sig .tc := ⟨.hbm, 496, rfl⟩
abbrev main_v429 : Ref sig .tc := ⟨.hbm, 497, rfl⟩
abbrev main_v430 : Ref sig .tc := ⟨.hbm, 498, rfl⟩
abbrev main_v431 : Ref sig .tc := ⟨.hbm, 499, rfl⟩
abbrev main_v432 : Ref sig .tc := ⟨.hbm, 500, rfl⟩
abbrev main_v433 : Ref sig .tc := ⟨.hbm, 501, rfl⟩
abbrev main_v434 : Ref sig .tc := ⟨.hbm, 502, rfl⟩
abbrev main_v435 : Ref sig .tc := ⟨.hbm, 503, rfl⟩
abbrev main_v436 : Ref sig .tc := ⟨.hbm, 504, rfl⟩
abbrev main_v437 : Ref sig .tc := ⟨.hbm, 505, rfl⟩
abbrev main_v438 : Ref sig .tc := ⟨.hbm, 506, rfl⟩
abbrev main_v439 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_v443 : Ref sig .tc := ⟨.hbm, 511, rfl⟩
abbrev main_v444 : Ref sig .tc := ⟨.hbm, 512, rfl⟩
abbrev main_v445 : Ref sig .tc := ⟨.hbm, 513, rfl⟩
abbrev main_v446 : Ref sig .tc := ⟨.hbm, 514, rfl⟩
abbrev main_v447 : Ref sig .tc := ⟨.hbm, 515, rfl⟩
abbrev main_cst_57 : Ref sig .tc := ⟨.hbm, 516, rfl⟩
abbrev main_v448 : Ref sig .tc := ⟨.hbm, 517, rfl⟩
abbrev main_v449 : Ref sig .tc := ⟨.hbm, 518, rfl⟩
abbrev main_cst_58 : Ref sig .tc := ⟨.hbm, 519, rfl⟩
abbrev main_v450 : Ref sig .tc := ⟨.hbm, 520, rfl⟩
abbrev main_v451 : Ref sig .tc := ⟨.hbm, 521, rfl⟩
abbrev main_v452 : Ref sig .tc := ⟨.hbm, 522, rfl⟩
abbrev main_v453 : Ref sig .tc := ⟨.hbm, 523, rfl⟩
abbrev main_v454 : Ref sig .tc := ⟨.hbm, 524, rfl⟩
abbrev main_v455 : Ref sig .tc := ⟨.hbm, 525, rfl⟩
abbrev main_v456 : Ref sig .tc := ⟨.hbm, 526, rfl⟩
abbrev main_v457 : Ref sig .tc := ⟨.hbm, 527, rfl⟩
abbrev main_v458 : Ref sig .tc := ⟨.hbm, 528, rfl⟩
abbrev main_cst_59 : Ref sig .tc := ⟨.hbm, 529, rfl⟩
abbrev main_v459 : Ref sig .tc := ⟨.hbm, 530, rfl⟩
abbrev main_v460 : Ref sig .tc := ⟨.hbm, 531, rfl⟩
abbrev main_cst_60 : Ref sig .tc := ⟨.hbm, 532, rfl⟩
abbrev main_v461 : Ref sig .tc := ⟨.hbm, 533, rfl⟩
abbrev main_v462 : Ref sig .tc := ⟨.hbm, 534, rfl⟩
abbrev main_v463 : Ref sig .tc := ⟨.hbm, 535, rfl⟩
abbrev main_v464 : Ref sig .tc := ⟨.hbm, 536, rfl⟩
abbrev main_v465 : Ref sig .tc := ⟨.hbm, 537, rfl⟩
abbrev main_v466 : Ref sig .tc := ⟨.hbm, 538, rfl⟩
abbrev main_v467 : Ref sig .tc := ⟨.hbm, 539, rfl⟩
abbrev main_v468 : Ref sig .tc := ⟨.hbm, 540, rfl⟩
abbrev main_v469 : Ref sig .tc := ⟨.hbm, 541, rfl⟩
abbrev main_v470 : Ref sig .tc := ⟨.hbm, 542, rfl⟩
abbrev main_v471 : Ref sig .tc := ⟨.hbm, 543, rfl⟩
abbrev main_v472 : Ref sig .tc := ⟨.hbm, 544, rfl⟩
abbrev main_v473 : Ref sig .tc := ⟨.hbm, 545, rfl⟩
abbrev main_v474 : Ref sig .tc := ⟨.hbm, 546, rfl⟩
abbrev main_v475 : Ref sig .tc := ⟨.hbm, 547, rfl⟩
abbrev main_v476 : Ref sig .tc := ⟨.hbm, 548, rfl⟩
abbrev main_cst_61 : Ref sig .tc := ⟨.hbm, 549, rfl⟩
abbrev main_v477 : Ref sig .tc := ⟨.hbm, 550, rfl⟩
abbrev main_v478 : Ref sig .tc := ⟨.hbm, 551, rfl⟩
abbrev main_cst_62 : Ref sig .tc := ⟨.hbm, 552, rfl⟩
abbrev main_v479 : Ref sig .tc := ⟨.hbm, 553, rfl⟩
abbrev main_v480 : Ref sig .tc := ⟨.hbm, 554, rfl⟩
abbrev main_v481 : Ref sig .tc := ⟨.hbm, 555, rfl⟩
abbrev main_v482 : Ref sig .tc := ⟨.hbm, 556, rfl⟩
abbrev main_v483 : Ref sig .tc := ⟨.hbm, 557, rfl⟩
abbrev main_v484 : Ref sig .tc := ⟨.hbm, 558, rfl⟩
abbrev main_v485 : Ref sig .tc := ⟨.hbm, 559, rfl⟩
abbrev main_v486 : Ref sig .tc := ⟨.hbm, 560, rfl⟩
abbrev main_v487 : Ref sig .tc := ⟨.hbm, 561, rfl⟩
abbrev main_v488 : Ref sig .tc := ⟨.hbm, 562, rfl⟩
abbrev main_cst_63 : Ref sig .tc := ⟨.hbm, 563, rfl⟩
abbrev main_v489 : Ref sig .tc := ⟨.hbm, 564, rfl⟩
abbrev main_v490 : Ref sig .tc := ⟨.hbm, 565, rfl⟩
abbrev main_cst_64 : Ref sig .tc := ⟨.hbm, 566, rfl⟩
abbrev main_v491 : Ref sig .tc := ⟨.hbm, 567, rfl⟩
abbrev main_v492 : Ref sig .tc := ⟨.hbm, 568, rfl⟩
abbrev main_v493 : Ref sig .tc := ⟨.hbm, 569, rfl⟩
abbrev main_v494 : Ref sig .tc := ⟨.hbm, 570, rfl⟩
abbrev main_v495 : Ref sig .tc := ⟨.hbm, 571, rfl⟩
abbrev main_v496 : Ref sig .tc := ⟨.hbm, 572, rfl⟩
abbrev main_v497 : Ref sig .tc := ⟨.hbm, 573, rfl⟩
abbrev main_v498 : Ref sig .tc := ⟨.hbm, 574, rfl⟩
abbrev main_v499 : Ref sig .tc := ⟨.hbm, 575, rfl⟩
abbrev main_v500 : Ref sig .tc := ⟨.hbm, 576, rfl⟩
abbrev main_v501 : Ref sig .tc := ⟨.hbm, 577, rfl⟩
abbrev main_v502 : Ref sig .tc := ⟨.hbm, 578, rfl⟩
abbrev main_v503 : Ref sig .tc := ⟨.hbm, 579, rfl⟩
abbrev main_c_65 : Ref sig .tc := ⟨.hbm, 580, rfl⟩
abbrev main_v504 : Ref sig .tc := ⟨.hbm, 581, rfl⟩
abbrev main_v505 : Ref sig .tc := ⟨.hbm, 582, rfl⟩
abbrev main_c_66 : Ref sig .tc := ⟨.hbm, 583, rfl⟩
abbrev main_v506 : Ref sig .tc := ⟨.hbm, 584, rfl⟩
abbrev main_v507 : Ref sig .tc := ⟨.hbm, 585, rfl⟩
abbrev main_v508 : Ref sig .tc := ⟨.hbm, 586, rfl⟩
abbrev main_v509 : Ref sig .tc := ⟨.hbm, 587, rfl⟩
abbrev main_v510 : Ref sig .tc := ⟨.hbm, 588, rfl⟩
abbrev main_v511 : Ref sig .tc := ⟨.hbm, 589, rfl⟩
abbrev main_v512 : Ref sig .tc := ⟨.hbm, 590, rfl⟩
abbrev main_v513 : Ref sig .tc := ⟨.hbm, 591, rfl⟩
abbrev main_v514 : Ref sig .tc := ⟨.hbm, 592, rfl⟩
abbrev main_v515 : Ref sig .tc := ⟨.hbm, 593, rfl⟩
abbrev main_v516 : Ref sig .tc := ⟨.hbm, 594, rfl⟩
abbrev main_v517 : Ref sig .tc := ⟨.hbm, 595, rfl⟩
abbrev main_v518 : Ref sig .tc := ⟨.hbm, 596, rfl⟩
abbrev main_v519 : Ref sig .tc := ⟨.hbm, 597, rfl⟩
abbrev main_v520 : Ref sig .tc := ⟨.hbm, 598, rfl⟩
abbrev main_v521 : Ref sig .tc := ⟨.hbm, 599, rfl⟩
abbrev main_v522 : Ref sig .tc := ⟨.hbm, 600, rfl⟩
abbrev main_v523 : Ref sig .tc := ⟨.hbm, 601, rfl⟩
abbrev main_v524 : Ref sig .tc := ⟨.hbm, 602, rfl⟩
abbrev main_v525 : Ref sig .tc := ⟨.hbm, 603, rfl⟩
abbrev main_cst_67 : Ref sig .tc := ⟨.hbm, 604, rfl⟩
abbrev main_v526 : Ref sig .tc := ⟨.hbm, 605, rfl⟩
abbrev main_v527 : Ref sig .tc := ⟨.hbm, 606, rfl⟩
abbrev main_cst_68 : Ref sig .tc := ⟨.hbm, 607, rfl⟩
abbrev main_v528 : Ref sig .tc := ⟨.hbm, 608, rfl⟩
abbrev main_v529 : Ref sig .tc := ⟨.hbm, 609, rfl⟩
abbrev main_v530 : Ref sig .tc := ⟨.hbm, 610, rfl⟩
abbrev main_v531 : Ref sig .tc := ⟨.hbm, 611, rfl⟩
abbrev main_v532 : Ref sig .tc := ⟨.hbm, 612, rfl⟩
abbrev main_v533 : Ref sig .tc := ⟨.hbm, 613, rfl⟩
abbrev main_v534 : Ref sig .tc := ⟨.hbm, 614, rfl⟩
abbrev main_v535 : Ref sig .tc := ⟨.hbm, 615, rfl⟩
abbrev main_v536 : Ref sig .tc := ⟨.hbm, 616, rfl⟩
abbrev main_cst_69 : Ref sig .tc := ⟨.hbm, 617, rfl⟩
abbrev main_v537 : Ref sig .tc := ⟨.hbm, 618, rfl⟩
abbrev main_v538 : Ref sig .tc := ⟨.hbm, 619, rfl⟩
abbrev main_cst_70 : Ref sig .tc := ⟨.hbm, 620, rfl⟩
abbrev main_v539 : Ref sig .tc := ⟨.hbm, 621, rfl⟩
abbrev main_v540 : Ref sig .tc := ⟨.hbm, 622, rfl⟩
abbrev main_v541 : Ref sig .tc := ⟨.hbm, 623, rfl⟩
abbrev main_v542 : Ref sig .tc := ⟨.hbm, 624, rfl⟩
abbrev main_v543 : Ref sig .tc := ⟨.hbm, 625, rfl⟩
abbrev main_v544 : Ref sig .tc := ⟨.hbm, 626, rfl⟩
abbrev main_v545 : Ref sig .tc := ⟨.hbm, 627, rfl⟩
abbrev main_v546 : Ref sig .tc := ⟨.hbm, 628, rfl⟩
abbrev main_v547 : Ref sig .tc := ⟨.hbm, 629, rfl⟩
abbrev main_v548 : Ref sig .tc := ⟨.hbm, 630, rfl⟩
abbrev main_v549 : Ref sig .tc := ⟨.hbm, 631, rfl⟩
abbrev main_v550 : Ref sig .tc := ⟨.hbm, 632, rfl⟩
abbrev main_v551 : Ref sig .tc := ⟨.hbm, 633, rfl⟩
abbrev main_v552 : Ref sig .tc := ⟨.hbm, 634, rfl⟩
abbrev main_v553 : Ref sig .tc := ⟨.hbm, 635, rfl⟩
abbrev main_v554 : Ref sig .tc := ⟨.hbm, 636, rfl⟩
abbrev main_cst_71 : Ref sig .tc := ⟨.hbm, 637, rfl⟩
abbrev main_v555 : Ref sig .tc := ⟨.hbm, 638, rfl⟩
abbrev main_v556 : Ref sig .tc := ⟨.hbm, 639, rfl⟩
abbrev main_cst_72 : Ref sig .tc := ⟨.hbm, 640, rfl⟩
abbrev main_v557 : Ref sig .tc := ⟨.hbm, 641, rfl⟩
abbrev main_v558 : Ref sig .tc := ⟨.hbm, 642, rfl⟩
abbrev main_v559 : Ref sig .tc := ⟨.hbm, 643, rfl⟩
abbrev main_v560 : Ref sig .tc := ⟨.hbm, 644, rfl⟩
abbrev main_v561 : Ref sig .tc := ⟨.hbm, 645, rfl⟩
abbrev main_v562 : Ref sig .tc := ⟨.hbm, 646, rfl⟩
abbrev main_v563 : Ref sig .tc := ⟨.hbm, 647, rfl⟩
abbrev main_v564 : Ref sig .tc := ⟨.hbm, 648, rfl⟩
abbrev main_v565 : Ref sig .tc := ⟨.hbm, 649, rfl⟩
abbrev main_v566 : Ref sig .tc := ⟨.hbm, 650, rfl⟩
abbrev main_cst_73 : Ref sig .tc := ⟨.hbm, 651, rfl⟩
abbrev main_v567 : Ref sig .tc := ⟨.hbm, 652, rfl⟩
abbrev main_v568 : Ref sig .tc := ⟨.hbm, 653, rfl⟩
abbrev main_cst_74 : Ref sig .tc := ⟨.hbm, 654, rfl⟩
abbrev main_v569 : Ref sig .tc := ⟨.hbm, 655, rfl⟩
abbrev main_v570 : Ref sig .tc := ⟨.hbm, 656, rfl⟩
abbrev main_v571 : Ref sig .tc := ⟨.hbm, 657, rfl⟩
abbrev main_v572 : Ref sig .tc := ⟨.hbm, 658, rfl⟩
abbrev main_v573 : Ref sig .tc := ⟨.hbm, 659, rfl⟩
abbrev main_v574 : Ref sig .tc := ⟨.hbm, 660, rfl⟩
abbrev main_v575 : Ref sig .tc := ⟨.hbm, 661, rfl⟩
abbrev main_v576 : Ref sig .tc := ⟨.hbm, 662, rfl⟩
abbrev main_v577 : Ref sig .tc := ⟨.hbm, 663, rfl⟩
abbrev main_v578 : Ref sig .tc := ⟨.hbm, 664, rfl⟩
abbrev main_v579 : Ref sig .tc := ⟨.hbm, 665, rfl⟩
abbrev main_v580 : Ref sig .tc := ⟨.hbm, 666, rfl⟩
abbrev main_v581 : Ref sig .tc := ⟨.hbm, 667, rfl⟩
abbrev main_c_75 : Ref sig .tc := ⟨.hbm, 668, rfl⟩
abbrev main_v582 : Ref sig .tc := ⟨.hbm, 669, rfl⟩
abbrev main_v583 : Ref sig .tc := ⟨.hbm, 670, rfl⟩
abbrev main_c_76 : Ref sig .tc := ⟨.hbm, 671, rfl⟩
abbrev main_v584 : Ref sig .tc := ⟨.hbm, 672, rfl⟩
abbrev main_v585 : Ref sig .tc := ⟨.hbm, 673, rfl⟩
abbrev main_v586 : Ref sig .tc := ⟨.hbm, 674, rfl⟩
abbrev main_v587 : Ref sig .tc := ⟨.hbm, 675, rfl⟩
abbrev main_v588 : Ref sig .tc := ⟨.hbm, 676, rfl⟩
abbrev main_v589 : Ref sig .tc := ⟨.hbm, 677, rfl⟩
abbrev main_v590 : Ref sig .tc := ⟨.hbm, 678, rfl⟩
abbrev main_v591 : Ref sig .tc := ⟨.hbm, 679, rfl⟩
abbrev main_v592 : Ref sig .tc := ⟨.hbm, 680, rfl⟩
abbrev main_v593 : Ref sig .tc := ⟨.hbm, 681, rfl⟩
abbrev main_v594 : Ref sig .tc := ⟨.hbm, 682, rfl⟩
abbrev main_v595 : Ref sig .tc := ⟨.hbm, 683, rfl⟩
abbrev main_v596 : Ref sig .tc := ⟨.hbm, 684, rfl⟩
abbrev main_v597 : Ref sig .tc := ⟨.hbm, 685, rfl⟩
abbrev main_v598 : Ref sig .tc := ⟨.hbm, 686, rfl⟩
abbrev main_v599 : Ref sig .tc := ⟨.hbm, 687, rfl⟩
abbrev main_v600 : Ref sig .tc := ⟨.hbm, 688, rfl⟩
abbrev main_v601 : Ref sig .tc := ⟨.hbm, 689, rfl⟩
abbrev main_v602 : Ref sig .tc := ⟨.hbm, 690, rfl⟩
abbrev main_v603 : Ref sig .tc := ⟨.hbm, 691, rfl⟩
abbrev main_cst_77 : Ref sig .tc := ⟨.hbm, 692, rfl⟩
abbrev main_v604 : Ref sig .tc := ⟨.hbm, 693, rfl⟩
abbrev main_v605 : Ref sig .tc := ⟨.hbm, 694, rfl⟩
abbrev main_cst_78 : Ref sig .tc := ⟨.hbm, 695, rfl⟩
abbrev main_v606 : Ref sig .tc := ⟨.hbm, 696, rfl⟩
abbrev main_v607 : Ref sig .tc := ⟨.hbm, 697, rfl⟩
abbrev main_v608 : Ref sig .tc := ⟨.hbm, 698, rfl⟩
abbrev main_v609 : Ref sig .tc := ⟨.hbm, 699, rfl⟩
abbrev main_v610 : Ref sig .tc := ⟨.hbm, 700, rfl⟩
abbrev main_v611 : Ref sig .tc := ⟨.hbm, 701, rfl⟩
abbrev main_v612 : Ref sig .tc := ⟨.hbm, 702, rfl⟩
abbrev main_v613 : Ref sig .tc := ⟨.hbm, 703, rfl⟩
abbrev main_v614 : Ref sig .tc := ⟨.hbm, 704, rfl⟩
abbrev main_cst_79 : Ref sig .tc := ⟨.hbm, 705, rfl⟩
abbrev main_v615 : Ref sig .tc := ⟨.hbm, 706, rfl⟩
abbrev main_v616 : Ref sig .tc := ⟨.hbm, 707, rfl⟩
abbrev main_cst_80 : Ref sig .tc := ⟨.hbm, 708, rfl⟩
abbrev main_v617 : Ref sig .tc := ⟨.hbm, 709, rfl⟩
abbrev main_v618 : Ref sig .tc := ⟨.hbm, 710, rfl⟩
abbrev main_v619 : Ref sig .tc := ⟨.hbm, 711, rfl⟩
abbrev main_v620 : Ref sig .tc := ⟨.hbm, 712, rfl⟩
abbrev main_v621 : Ref sig .tc := ⟨.hbm, 713, rfl⟩
abbrev main_v622 : Ref sig .tc := ⟨.hbm, 714, rfl⟩
abbrev main_v623 : Ref sig .tc := ⟨.hbm, 715, rfl⟩
abbrev main_v624 : Ref sig .tc := ⟨.hbm, 716, rfl⟩
abbrev main_v625 : Ref sig .tc := ⟨.hbm, 717, rfl⟩
abbrev main_v626 : Ref sig .tc := ⟨.hbm, 718, rfl⟩
abbrev main_v627 : Ref sig .tc := ⟨.hbm, 719, rfl⟩
abbrev main_v628 : Ref sig .tc := ⟨.hbm, 720, rfl⟩
abbrev main_v629 : Ref sig .tc := ⟨.hbm, 721, rfl⟩
abbrev main_v630 : Ref sig .tc := ⟨.hbm, 722, rfl⟩
abbrev main_v631 : Ref sig .tc := ⟨.hbm, 723, rfl⟩
abbrev main_v632 : Ref sig .tc := ⟨.hbm, 724, rfl⟩
abbrev main_cst_81 : Ref sig .tc := ⟨.hbm, 725, rfl⟩
abbrev main_v633 : Ref sig .tc := ⟨.hbm, 726, rfl⟩
abbrev main_v634 : Ref sig .tc := ⟨.hbm, 727, rfl⟩
abbrev main_cst_82 : Ref sig .tc := ⟨.hbm, 728, rfl⟩
abbrev main_v635 : Ref sig .tc := ⟨.hbm, 729, rfl⟩
abbrev main_v636 : Ref sig .tc := ⟨.hbm, 730, rfl⟩
abbrev main_v637 : Ref sig .tc := ⟨.hbm, 731, rfl⟩
abbrev main_v638 : Ref sig .tc := ⟨.hbm, 732, rfl⟩
abbrev main_v639 : Ref sig .tc := ⟨.hbm, 733, rfl⟩
abbrev main_v640 : Ref sig .tc := ⟨.hbm, 734, rfl⟩
abbrev main_v641 : Ref sig .tc := ⟨.hbm, 735, rfl⟩
abbrev main_v642 : Ref sig .tc := ⟨.hbm, 736, rfl⟩
abbrev main_v643 : Ref sig .tc := ⟨.hbm, 737, rfl⟩
abbrev main_v644 : Ref sig .tc := ⟨.hbm, 738, rfl⟩
abbrev main_cst_83 : Ref sig .tc := ⟨.hbm, 739, rfl⟩
abbrev main_v645 : Ref sig .tc := ⟨.hbm, 740, rfl⟩
abbrev main_v646 : Ref sig .tc := ⟨.hbm, 741, rfl⟩
abbrev main_cst_84 : Ref sig .tc := ⟨.hbm, 742, rfl⟩
abbrev main_v647 : Ref sig .tc := ⟨.hbm, 743, rfl⟩
abbrev main_v648 : Ref sig .tc := ⟨.hbm, 744, rfl⟩
abbrev main_v649 : Ref sig .tc := ⟨.hbm, 745, rfl⟩
abbrev main_v650 : Ref sig .tc := ⟨.hbm, 746, rfl⟩
abbrev main_v651 : Ref sig .tc := ⟨.hbm, 747, rfl⟩
abbrev main_v652 : Ref sig .tc := ⟨.hbm, 748, rfl⟩
abbrev main_v653 : Ref sig .tc := ⟨.hbm, 749, rfl⟩
abbrev main_v654 : Ref sig .tc := ⟨.hbm, 750, rfl⟩
abbrev main_v655 : Ref sig .tc := ⟨.hbm, 751, rfl⟩
abbrev main_v656 : Ref sig .tc := ⟨.hbm, 752, rfl⟩
abbrev main_v657 : Ref sig .tc := ⟨.hbm, 753, rfl⟩
abbrev main_v658 : Ref sig .tc := ⟨.hbm, 754, rfl⟩
abbrev main_v659 : Ref sig .tc := ⟨.hbm, 755, rfl⟩
abbrev main_c_85 : Ref sig .tc := ⟨.hbm, 756, rfl⟩
abbrev main_v660 : Ref sig .tc := ⟨.hbm, 757, rfl⟩
abbrev main_v661 : Ref sig .tc := ⟨.hbm, 758, rfl⟩
abbrev main_c_86 : Ref sig .tc := ⟨.hbm, 759, rfl⟩
abbrev main_v662 : Ref sig .tc := ⟨.hbm, 760, rfl⟩
abbrev main_v663 : Ref sig .tc := ⟨.hbm, 761, rfl⟩
abbrev main_v664 : Ref sig .tc := ⟨.hbm, 762, rfl⟩
abbrev main_v665 : Ref sig .tc := ⟨.hbm, 763, rfl⟩
abbrev main_v666 : Ref sig .tc := ⟨.hbm, 764, rfl⟩
abbrev main_v667 : Ref sig .tc := ⟨.hbm, 765, rfl⟩
abbrev main_v668 : Ref sig .tc := ⟨.hbm, 766, rfl⟩
abbrev main_v669 : Ref sig .tc := ⟨.hbm, 767, rfl⟩
abbrev main_v670 : Ref sig .tc := ⟨.hbm, 768, rfl⟩
abbrev main_v671 : Ref sig .tc := ⟨.hbm, 769, rfl⟩
abbrev main_v672 : Ref sig .tc := ⟨.hbm, 770, rfl⟩
abbrev main_v673 : Ref sig .tc := ⟨.hbm, 771, rfl⟩
abbrev main_v674 : Ref sig .tc := ⟨.hbm, 772, rfl⟩
abbrev main_v675 : Ref sig .tc := ⟨.hbm, 773, rfl⟩
abbrev main_v676 : Ref sig .tc := ⟨.hbm, 774, rfl⟩
abbrev main_v677 : Ref sig .tc := ⟨.hbm, 775, rfl⟩
abbrev main_v678 : Ref sig .tc := ⟨.hbm, 776, rfl⟩
abbrev main_v679 : Ref sig .tc := ⟨.hbm, 777, rfl⟩
abbrev main_v680 : Ref sig .tc := ⟨.hbm, 778, rfl⟩
abbrev main_v681 : Ref sig .tc := ⟨.hbm, 779, rfl⟩
abbrev main_cst_87 : Ref sig .tc := ⟨.hbm, 780, rfl⟩
abbrev main_v682 : Ref sig .tc := ⟨.hbm, 781, rfl⟩
abbrev main_v683 : Ref sig .tc := ⟨.hbm, 782, rfl⟩
abbrev main_cst_88 : Ref sig .tc := ⟨.hbm, 783, rfl⟩
abbrev main_v684 : Ref sig .tc := ⟨.hbm, 784, rfl⟩
abbrev main_v685 : Ref sig .tc := ⟨.hbm, 785, rfl⟩
abbrev main_v686 : Ref sig .tc := ⟨.hbm, 786, rfl⟩
abbrev main_v687 : Ref sig .tc := ⟨.hbm, 787, rfl⟩
abbrev main_v688 : Ref sig .tc := ⟨.hbm, 788, rfl⟩
abbrev main_v689 : Ref sig .tc := ⟨.hbm, 789, rfl⟩
abbrev main_v690 : Ref sig .tc := ⟨.hbm, 790, rfl⟩
abbrev main_v691 : Ref sig .tc := ⟨.hbm, 791, rfl⟩
abbrev main_v692 : Ref sig .tc := ⟨.hbm, 792, rfl⟩
abbrev main_cst_89 : Ref sig .tc := ⟨.hbm, 793, rfl⟩
abbrev main_v693 : Ref sig .tc := ⟨.hbm, 794, rfl⟩
abbrev main_v694 : Ref sig .tc := ⟨.hbm, 795, rfl⟩
abbrev main_cst_90 : Ref sig .tc := ⟨.hbm, 796, rfl⟩
abbrev main_v695 : Ref sig .tc := ⟨.hbm, 797, rfl⟩
abbrev main_v696 : Ref sig .tc := ⟨.hbm, 798, rfl⟩
abbrev main_v697 : Ref sig .tc := ⟨.hbm, 799, rfl⟩
abbrev main_v698 : Ref sig .tc := ⟨.hbm, 800, rfl⟩
abbrev main_v699 : Ref sig .tc := ⟨.hbm, 801, rfl⟩
abbrev main_v700 : Ref sig .tc := ⟨.hbm, 802, rfl⟩
abbrev main_v701 : Ref sig .tc := ⟨.hbm, 803, rfl⟩
abbrev main_v702 : Ref sig .tc := ⟨.hbm, 804, rfl⟩
abbrev main_v703 : Ref sig .tc := ⟨.hbm, 805, rfl⟩
abbrev main_v704 : Ref sig .tc := ⟨.hbm, 806, rfl⟩
abbrev main_v705 : Ref sig .tc := ⟨.hbm, 807, rfl⟩
abbrev main_v706 : Ref sig .tc := ⟨.hbm, 808, rfl⟩
abbrev main_v707 : Ref sig .tc := ⟨.hbm, 809, rfl⟩
abbrev main_v708 : Ref sig .tc := ⟨.hbm, 810, rfl⟩
abbrev main_v709 : Ref sig .tc := ⟨.hbm, 811, rfl⟩
abbrev main_v710 : Ref sig .tc := ⟨.hbm, 812, rfl⟩
abbrev main_cst_91 : Ref sig .tc := ⟨.hbm, 813, rfl⟩
abbrev main_v711 : Ref sig .tc := ⟨.hbm, 814, rfl⟩
abbrev main_v712 : Ref sig .tc := ⟨.hbm, 815, rfl⟩
abbrev main_cst_92 : Ref sig .tc := ⟨.hbm, 816, rfl⟩
abbrev main_v713 : Ref sig .tc := ⟨.hbm, 817, rfl⟩
abbrev main_v714 : Ref sig .tc := ⟨.hbm, 818, rfl⟩
abbrev main_v715 : Ref sig .tc := ⟨.hbm, 819, rfl⟩
abbrev main_v716 : Ref sig .tc := ⟨.hbm, 820, rfl⟩
abbrev main_v717 : Ref sig .tc := ⟨.hbm, 821, rfl⟩
abbrev main_v718 : Ref sig .tc := ⟨.hbm, 822, rfl⟩
abbrev main_v719 : Ref sig .tc := ⟨.hbm, 823, rfl⟩
abbrev main_v720 : Ref sig .tc := ⟨.hbm, 824, rfl⟩
abbrev main_v721 : Ref sig .tc := ⟨.hbm, 825, rfl⟩
abbrev main_v722 : Ref sig .tc := ⟨.hbm, 826, rfl⟩
abbrev main_cst_93 : Ref sig .tc := ⟨.hbm, 827, rfl⟩
abbrev main_v723 : Ref sig .tc := ⟨.hbm, 828, rfl⟩
abbrev main_v724 : Ref sig .tc := ⟨.hbm, 829, rfl⟩
abbrev main_cst_94 : Ref sig .tc := ⟨.hbm, 830, rfl⟩
abbrev main_v725 : Ref sig .tc := ⟨.hbm, 831, rfl⟩
abbrev main_v726 : Ref sig .tc := ⟨.hbm, 832, rfl⟩
abbrev main_v727 : Ref sig .tc := ⟨.hbm, 833, rfl⟩
abbrev main_v728 : Ref sig .tc := ⟨.hbm, 834, rfl⟩
abbrev main_v729 : Ref sig .tc := ⟨.hbm, 835, rfl⟩
abbrev main_v730 : Ref sig .tc := ⟨.hbm, 836, rfl⟩
abbrev main_v731 : Ref sig .tc := ⟨.hbm, 837, rfl⟩
abbrev main_v732 : Ref sig .tc := ⟨.hbm, 838, rfl⟩
abbrev main_v733 : Ref sig .tc := ⟨.hbm, 839, rfl⟩
abbrev main_v734 : Ref sig .tc := ⟨.hbm, 840, rfl⟩
abbrev main_v735 : Ref sig .tc := ⟨.hbm, 841, rfl⟩
abbrev main_v736 : Ref sig .tc := ⟨.hbm, 842, rfl⟩
abbrev main_v737 : Ref sig .tc := ⟨.hbm, 843, rfl⟩
abbrev main_c_95 : Ref sig .tc := ⟨.hbm, 844, rfl⟩
abbrev main_v738 : Ref sig .tc := ⟨.hbm, 845, rfl⟩
abbrev main_v739 : Ref sig .tc := ⟨.hbm, 846, rfl⟩
abbrev main_c_96 : Ref sig .tc := ⟨.hbm, 847, rfl⟩
abbrev main_v740 : Ref sig .tc := ⟨.hbm, 848, rfl⟩
abbrev main_v741 : Ref sig .tc := ⟨.hbm, 849, rfl⟩
abbrev main_v742 : Ref sig .tc := ⟨.hbm, 850, rfl⟩
abbrev main_v743 : Ref sig .tc := ⟨.hbm, 851, rfl⟩
abbrev main_v744 : Ref sig .tc := ⟨.hbm, 852, rfl⟩
abbrev main_v745 : Ref sig .tc := ⟨.hbm, 853, rfl⟩
abbrev main_v746 : Ref sig .tc := ⟨.hbm, 854, rfl⟩
abbrev main_v747 : Ref sig .tc := ⟨.hbm, 855, rfl⟩
abbrev main_v748 : Ref sig .tc := ⟨.hbm, 856, rfl⟩
abbrev main_v749 : Ref sig .tc := ⟨.hbm, 857, rfl⟩
abbrev main_v750 : Ref sig .tc := ⟨.hbm, 858, rfl⟩
abbrev main_v751 : Ref sig .tc := ⟨.hbm, 859, rfl⟩
abbrev main_v752 : Ref sig .tc := ⟨.hbm, 860, rfl⟩
abbrev main_v753 : Ref sig .tc := ⟨.hbm, 861, rfl⟩
abbrev main_v754 : Ref sig .tc := ⟨.hbm, 862, rfl⟩
abbrev main_v755 : Ref sig .tc := ⟨.hbm, 863, rfl⟩
abbrev main_v756 : Ref sig .tc := ⟨.hbm, 864, rfl⟩
abbrev main_v757 : Ref sig .tc := ⟨.hbm, 865, rfl⟩
abbrev main_v758 : Ref sig .tc := ⟨.hbm, 866, rfl⟩
abbrev main_v759 : Ref sig .tc := ⟨.hbm, 867, rfl⟩
abbrev main_cst_97 : Ref sig .tc := ⟨.hbm, 868, rfl⟩
abbrev main_v760 : Ref sig .tc := ⟨.hbm, 869, rfl⟩
abbrev main_v761 : Ref sig .tc := ⟨.hbm, 870, rfl⟩
abbrev main_cst_98 : Ref sig .tc := ⟨.hbm, 871, rfl⟩
abbrev main_v762 : Ref sig .tc := ⟨.hbm, 872, rfl⟩
abbrev main_v763 : Ref sig .tc := ⟨.hbm, 873, rfl⟩
abbrev main_v764 : Ref sig .tc := ⟨.hbm, 874, rfl⟩
abbrev main_v765 : Ref sig .tc := ⟨.hbm, 875, rfl⟩
abbrev main_v766 : Ref sig .tc := ⟨.hbm, 876, rfl⟩
abbrev main_v767 : Ref sig .tc := ⟨.hbm, 877, rfl⟩
abbrev main_v768 : Ref sig .tc := ⟨.hbm, 878, rfl⟩
abbrev main_v769 : Ref sig .tc := ⟨.hbm, 879, rfl⟩
abbrev main_v770 : Ref sig .tc := ⟨.hbm, 880, rfl⟩
abbrev main_cst_99 : Ref sig .tc := ⟨.hbm, 881, rfl⟩
abbrev main_v771 : Ref sig .tc := ⟨.hbm, 882, rfl⟩
abbrev main_v772 : Ref sig .tc := ⟨.hbm, 883, rfl⟩
abbrev main_cst_100 : Ref sig .tc := ⟨.hbm, 884, rfl⟩
abbrev main_v773 : Ref sig .tc := ⟨.hbm, 885, rfl⟩
abbrev main_v774 : Ref sig .tc := ⟨.hbm, 886, rfl⟩
abbrev main_v775 : Ref sig .tc := ⟨.hbm, 887, rfl⟩
abbrev main_v776 : Ref sig .tc := ⟨.hbm, 888, rfl⟩
abbrev main_v777 : Ref sig .tc := ⟨.hbm, 889, rfl⟩
abbrev main_v778 : Ref sig .tc := ⟨.hbm, 890, rfl⟩
abbrev main_v779 : Ref sig .tc := ⟨.hbm, 891, rfl⟩
abbrev main_v780 : Ref sig .tc := ⟨.hbm, 892, rfl⟩
abbrev main_v781 : Ref sig .tc := ⟨.hbm, 893, rfl⟩
abbrev main_v782 : Ref sig .tc := ⟨.hbm, 894, rfl⟩
abbrev main_v783 : Ref sig .tc := ⟨.hbm, 895, rfl⟩
abbrev main_v784 : Ref sig .tc := ⟨.hbm, 896, rfl⟩
abbrev main_v785 : Ref sig .tc := ⟨.hbm, 897, rfl⟩
abbrev main_v786 : Ref sig .tc := ⟨.hbm, 898, rfl⟩
abbrev main_v787 : Ref sig .tc := ⟨.hbm, 899, rfl⟩
abbrev main_v788 : Ref sig .tc := ⟨.hbm, 900, rfl⟩
abbrev main_cst_101 : Ref sig .tc := ⟨.hbm, 901, rfl⟩
abbrev main_v789 : Ref sig .tc := ⟨.hbm, 902, rfl⟩
abbrev main_v790 : Ref sig .tc := ⟨.hbm, 903, rfl⟩
abbrev main_cst_102 : Ref sig .tc := ⟨.hbm, 904, rfl⟩
abbrev main_v791 : Ref sig .tc := ⟨.hbm, 905, rfl⟩
abbrev main_v792 : Ref sig .tc := ⟨.hbm, 906, rfl⟩
abbrev main_v793 : Ref sig .tc := ⟨.hbm, 907, rfl⟩
abbrev main_v794 : Ref sig .tc := ⟨.hbm, 908, rfl⟩
abbrev main_v795 : Ref sig .tc := ⟨.hbm, 909, rfl⟩
abbrev main_v796 : Ref sig .tc := ⟨.hbm, 910, rfl⟩
abbrev main_v797 : Ref sig .tc := ⟨.hbm, 911, rfl⟩
abbrev main_v798 : Ref sig .tc := ⟨.hbm, 912, rfl⟩
abbrev main_v799 : Ref sig .tc := ⟨.hbm, 913, rfl⟩
abbrev main_v800 : Ref sig .tc := ⟨.hbm, 914, rfl⟩
abbrev main_cst_103 : Ref sig .tc := ⟨.hbm, 915, rfl⟩
abbrev main_v801 : Ref sig .tc := ⟨.hbm, 916, rfl⟩
abbrev main_v802 : Ref sig .tc := ⟨.hbm, 917, rfl⟩
abbrev main_cst_104 : Ref sig .tc := ⟨.hbm, 918, rfl⟩
abbrev main_v803 : Ref sig .tc := ⟨.hbm, 919, rfl⟩
abbrev main_v804 : Ref sig .tc := ⟨.hbm, 920, rfl⟩
abbrev main_v805 : Ref sig .tc := ⟨.hbm, 921, rfl⟩
abbrev main_v806 : Ref sig .tc := ⟨.hbm, 922, rfl⟩
abbrev main_v807 : Ref sig .tc := ⟨.hbm, 923, rfl⟩
abbrev main_v808 : Ref sig .tc := ⟨.hbm, 924, rfl⟩
abbrev main_v809 : Ref sig .tc := ⟨.hbm, 925, rfl⟩
abbrev main_v810 : Ref sig .tc := ⟨.hbm, 926, rfl⟩
abbrev main_v811 : Ref sig .tc := ⟨.hbm, 927, rfl⟩
abbrev main_v812 : Ref sig .tc := ⟨.hbm, 928, rfl⟩
abbrev main_v813 : Ref sig .tc := ⟨.hbm, 929, rfl⟩
abbrev main_v814 : Ref sig .tc := ⟨.hbm, 930, rfl⟩
abbrev main_v815 : Ref sig .tc := ⟨.hbm, 931, rfl⟩
abbrev main_c_105 : Ref sig .tc := ⟨.hbm, 932, rfl⟩
abbrev main_v816 : Ref sig .tc := ⟨.hbm, 933, rfl⟩
abbrev main_v817 : Ref sig .tc := ⟨.hbm, 934, rfl⟩
abbrev main_c_106 : Ref sig .tc := ⟨.hbm, 935, rfl⟩
abbrev main_v818 : Ref sig .tc := ⟨.hbm, 936, rfl⟩
abbrev main_v819 : Ref sig .tc := ⟨.hbm, 937, rfl⟩
abbrev main_v820 : Ref sig .tc := ⟨.hbm, 938, rfl⟩
abbrev main_v821 : Ref sig .tc := ⟨.hbm, 939, rfl⟩
abbrev main_v822 : Ref sig .tc := ⟨.hbm, 940, rfl⟩
abbrev main_v823 : Ref sig .tc := ⟨.hbm, 941, rfl⟩
abbrev main_v824 : Ref sig .tc := ⟨.hbm, 942, rfl⟩
abbrev main_v825 : Ref sig .tc := ⟨.hbm, 943, rfl⟩
abbrev main_v826 : Ref sig .tc := ⟨.hbm, 944, rfl⟩
abbrev main_v827 : Ref sig .tc := ⟨.hbm, 945, rfl⟩
abbrev main_v828 : Ref sig .tc := ⟨.hbm, 946, rfl⟩
abbrev main_v829 : Ref sig .tc := ⟨.hbm, 947, rfl⟩
abbrev main_v830 : Ref sig .tc := ⟨.hbm, 948, rfl⟩
abbrev main_v831 : Ref sig .tc := ⟨.hbm, 949, rfl⟩
abbrev main_v832 : Ref sig .tc := ⟨.hbm, 950, rfl⟩
abbrev main_v833 : Ref sig .tc := ⟨.hbm, 951, rfl⟩
abbrev main_v834 : Ref sig .tc := ⟨.hbm, 952, rfl⟩
abbrev main_v835 : Ref sig .tc := ⟨.hbm, 953, rfl⟩
abbrev main_v836 : Ref sig .tc := ⟨.hbm, 954, rfl⟩
abbrev main_v837 : Ref sig .tc := ⟨.hbm, 955, rfl⟩
abbrev main_cst_107 : Ref sig .tc := ⟨.hbm, 956, rfl⟩
abbrev main_v838 : Ref sig .tc := ⟨.hbm, 957, rfl⟩
abbrev main_v839 : Ref sig .tc := ⟨.hbm, 958, rfl⟩
abbrev main_cst_108 : Ref sig .tc := ⟨.hbm, 959, rfl⟩
abbrev main_v840 : Ref sig .tc := ⟨.hbm, 960, rfl⟩
abbrev main_v841 : Ref sig .tc := ⟨.hbm, 961, rfl⟩
abbrev main_v842 : Ref sig .tc := ⟨.hbm, 962, rfl⟩
abbrev main_v843 : Ref sig .tc := ⟨.hbm, 963, rfl⟩
abbrev main_v844 : Ref sig .tc := ⟨.hbm, 964, rfl⟩
abbrev main_v845 : Ref sig .tc := ⟨.hbm, 965, rfl⟩
abbrev main_v846 : Ref sig .tc := ⟨.hbm, 966, rfl⟩
abbrev main_v847 : Ref sig .tc := ⟨.hbm, 967, rfl⟩
abbrev main_v848 : Ref sig .tc := ⟨.hbm, 968, rfl⟩
abbrev main_cst_109 : Ref sig .tc := ⟨.hbm, 969, rfl⟩
abbrev main_v849 : Ref sig .tc := ⟨.hbm, 970, rfl⟩
abbrev main_v850 : Ref sig .tc := ⟨.hbm, 971, rfl⟩
abbrev main_cst_110 : Ref sig .tc := ⟨.hbm, 972, rfl⟩
abbrev main_v851 : Ref sig .tc := ⟨.hbm, 973, rfl⟩
abbrev main_v852 : Ref sig .tc := ⟨.hbm, 974, rfl⟩
abbrev main_v853 : Ref sig .tc := ⟨.hbm, 975, rfl⟩
abbrev main_v854 : Ref sig .tc := ⟨.hbm, 976, rfl⟩
abbrev main_v855 : Ref sig .tc := ⟨.hbm, 977, rfl⟩
abbrev main_v856 : Ref sig .tc := ⟨.hbm, 978, rfl⟩
abbrev main_v857 : Ref sig .tc := ⟨.hbm, 979, rfl⟩
abbrev main_v858 : Ref sig .tc := ⟨.hbm, 980, rfl⟩
abbrev main_v859 : Ref sig .tc := ⟨.hbm, 981, rfl⟩
abbrev main_v860 : Ref sig .tc := ⟨.hbm, 982, rfl⟩
abbrev main_v861 : Ref sig .tc := ⟨.hbm, 983, rfl⟩
abbrev main_v862 : Ref sig .tc := ⟨.hbm, 984, rfl⟩
abbrev main_v863 : Ref sig .tc := ⟨.hbm, 985, rfl⟩
abbrev main_v864 : Ref sig .tc := ⟨.hbm, 986, rfl⟩
abbrev main_v865 : Ref sig .tc := ⟨.hbm, 987, rfl⟩
abbrev main_v866 : Ref sig .tc := ⟨.hbm, 988, rfl⟩
abbrev main_cst_111 : Ref sig .tc := ⟨.hbm, 989, rfl⟩
abbrev main_v867 : Ref sig .tc := ⟨.hbm, 990, rfl⟩
abbrev main_v868 : Ref sig .tc := ⟨.hbm, 991, rfl⟩
abbrev main_cst_112 : Ref sig .tc := ⟨.hbm, 992, rfl⟩
abbrev main_v869 : Ref sig .tc := ⟨.hbm, 993, rfl⟩
abbrev main_v870 : Ref sig .tc := ⟨.hbm, 994, rfl⟩
abbrev main_v871 : Ref sig .tc := ⟨.hbm, 995, rfl⟩
abbrev main_v872 : Ref sig .tc := ⟨.hbm, 996, rfl⟩
abbrev main_v873 : Ref sig .tc := ⟨.hbm, 997, rfl⟩
abbrev main_v874 : Ref sig .tc := ⟨.hbm, 998, rfl⟩
abbrev main_v875 : Ref sig .tc := ⟨.hbm, 999, rfl⟩
abbrev main_v876 : Ref sig .tc := ⟨.hbm, 1000, rfl⟩
abbrev main_v877 : Ref sig .tc := ⟨.hbm, 1001, rfl⟩
abbrev main_v878 : Ref sig .tc := ⟨.hbm, 1002, rfl⟩
abbrev main_cst_113 : Ref sig .tc := ⟨.hbm, 1003, rfl⟩
abbrev main_v879 : Ref sig .tc := ⟨.hbm, 1004, rfl⟩
abbrev main_v880 : Ref sig .tc := ⟨.hbm, 1005, rfl⟩
abbrev main_cst_114 : Ref sig .tc := ⟨.hbm, 1006, rfl⟩
abbrev main_v881 : Ref sig .tc := ⟨.hbm, 1007, rfl⟩
abbrev main_v882 : Ref sig .tc := ⟨.hbm, 1008, rfl⟩
abbrev main_v883 : Ref sig .tc := ⟨.hbm, 1009, rfl⟩
abbrev main_v884 : Ref sig .tc := ⟨.hbm, 1010, rfl⟩
abbrev main_v885 : Ref sig .tc := ⟨.hbm, 1011, rfl⟩
abbrev main_v886 : Ref sig .tc := ⟨.hbm, 1012, rfl⟩
abbrev main_v887 : Ref sig .tc := ⟨.hbm, 1013, rfl⟩
abbrev main_v888 : Ref sig .tc := ⟨.hbm, 1014, rfl⟩
abbrev main_v889 : Ref sig .tc := ⟨.hbm, 1015, rfl⟩
abbrev main_v890 : Ref sig .tc := ⟨.hbm, 1016, rfl⟩
abbrev main_v891 : Ref sig .tc := ⟨.hbm, 1017, rfl⟩
abbrev main_v892 : Ref sig .tc := ⟨.hbm, 1018, rfl⟩
abbrev main_v893 : Ref sig .tc := ⟨.hbm, 1019, rfl⟩
abbrev main_c_115 : Ref sig .tc := ⟨.hbm, 1020, rfl⟩
abbrev main_v894 : Ref sig .tc := ⟨.hbm, 1021, rfl⟩
abbrev main_v895 : Ref sig .tc := ⟨.hbm, 1022, rfl⟩
abbrev main_c_116 : Ref sig .tc := ⟨.hbm, 1023, rfl⟩
abbrev main_v896 : Ref sig .tc := ⟨.hbm, 1024, rfl⟩
abbrev main_v897 : Ref sig .tc := ⟨.hbm, 1025, rfl⟩
abbrev main_v898 : Ref sig .tc := ⟨.hbm, 1026, rfl⟩
abbrev main_v899 : Ref sig .tc := ⟨.hbm, 1027, rfl⟩
abbrev main_v900 : Ref sig .tc := ⟨.hbm, 1028, rfl⟩
abbrev main_v901 : Ref sig .tc := ⟨.hbm, 1029, rfl⟩
abbrev main_v902 : Ref sig .tc := ⟨.hbm, 1030, rfl⟩
abbrev main_v903 : Ref sig .tc := ⟨.hbm, 1031, rfl⟩
abbrev main_v904 : Ref sig .tc := ⟨.hbm, 1032, rfl⟩
abbrev main_v905 : Ref sig .tc := ⟨.hbm, 1033, rfl⟩
abbrev main_v906 : Ref sig .tc := ⟨.hbm, 1034, rfl⟩
abbrev main_v907 : Ref sig .tc := ⟨.hbm, 1035, rfl⟩
abbrev main_v908 : Ref sig .tc := ⟨.hbm, 1036, rfl⟩
abbrev main_v909 : Ref sig .tc := ⟨.hbm, 1037, rfl⟩
abbrev main_v910 : Ref sig .tc := ⟨.hbm, 1038, rfl⟩
abbrev main_v911 : Ref sig .tc := ⟨.hbm, 1039, rfl⟩
abbrev main_v912 : Ref sig .tc := ⟨.hbm, 1040, rfl⟩
abbrev main_v913 : Ref sig .tc := ⟨.hbm, 1041, rfl⟩
abbrev main_v914 : Ref sig .tc := ⟨.hbm, 1042, rfl⟩
abbrev main_v915 : Ref sig .tc := ⟨.hbm, 1043, rfl⟩
abbrev main_cst_117 : Ref sig .tc := ⟨.hbm, 1044, rfl⟩
abbrev main_v916 : Ref sig .tc := ⟨.hbm, 1045, rfl⟩
abbrev main_v917 : Ref sig .tc := ⟨.hbm, 1046, rfl⟩
abbrev main_cst_118 : Ref sig .tc := ⟨.hbm, 1047, rfl⟩
abbrev main_v918 : Ref sig .tc := ⟨.hbm, 1048, rfl⟩
abbrev main_v919 : Ref sig .tc := ⟨.hbm, 1049, rfl⟩
abbrev main_v920 : Ref sig .tc := ⟨.hbm, 1050, rfl⟩
abbrev main_v921 : Ref sig .tc := ⟨.hbm, 1051, rfl⟩
abbrev main_v922 : Ref sig .tc := ⟨.hbm, 1052, rfl⟩
abbrev main_v923 : Ref sig .tc := ⟨.hbm, 1053, rfl⟩
abbrev main_v924 : Ref sig .tc := ⟨.hbm, 1054, rfl⟩
abbrev main_v925 : Ref sig .tc := ⟨.hbm, 1055, rfl⟩
abbrev main_v926 : Ref sig .tc := ⟨.hbm, 1056, rfl⟩
abbrev main_cst_119 : Ref sig .tc := ⟨.hbm, 1057, rfl⟩
abbrev main_v927 : Ref sig .tc := ⟨.hbm, 1058, rfl⟩
abbrev main_v928 : Ref sig .tc := ⟨.hbm, 1059, rfl⟩
abbrev main_cst_120 : Ref sig .tc := ⟨.hbm, 1060, rfl⟩
abbrev main_v929 : Ref sig .tc := ⟨.hbm, 1061, rfl⟩
abbrev main_v930 : Ref sig .tc := ⟨.hbm, 1062, rfl⟩
abbrev main_v931 : Ref sig .tc := ⟨.hbm, 1063, rfl⟩
abbrev main_v932 : Ref sig .tc := ⟨.hbm, 1064, rfl⟩
abbrev main_v933 : Ref sig .tc := ⟨.hbm, 1065, rfl⟩
abbrev main_v934 : Ref sig .tc := ⟨.hbm, 1066, rfl⟩
abbrev main_v935 : Ref sig .tc := ⟨.hbm, 1067, rfl⟩
abbrev main_v936 : Ref sig .tc := ⟨.hbm, 1068, rfl⟩
abbrev main_v937 : Ref sig .tc := ⟨.hbm, 1069, rfl⟩
abbrev main_v938 : Ref sig .tc := ⟨.hbm, 1070, rfl⟩
abbrev main_v939 : Ref sig .tc := ⟨.hbm, 1071, rfl⟩
abbrev main_v940 : Ref sig .tc := ⟨.hbm, 1072, rfl⟩
abbrev main_v941 : Ref sig .tc := ⟨.hbm, 1073, rfl⟩
abbrev main_v942 : Ref sig .tc := ⟨.hbm, 1074, rfl⟩
abbrev main_v943 : Ref sig .tc := ⟨.hbm, 1075, rfl⟩
abbrev main_v944 : Ref sig .tc := ⟨.hbm, 1076, rfl⟩
abbrev main_cst_121 : Ref sig .tc := ⟨.hbm, 1077, rfl⟩
abbrev main_v945 : Ref sig .tc := ⟨.hbm, 1078, rfl⟩
abbrev main_v946 : Ref sig .tc := ⟨.hbm, 1079, rfl⟩
abbrev main_cst_122 : Ref sig .tc := ⟨.hbm, 1080, rfl⟩
abbrev main_v947 : Ref sig .tc := ⟨.hbm, 1081, rfl⟩
abbrev main_v948 : Ref sig .tc := ⟨.hbm, 1082, rfl⟩
abbrev main_v949 : Ref sig .tc := ⟨.hbm, 1083, rfl⟩
abbrev main_v950 : Ref sig .tc := ⟨.hbm, 1084, rfl⟩
abbrev main_v951 : Ref sig .tc := ⟨.hbm, 1085, rfl⟩
abbrev main_v952 : Ref sig .tc := ⟨.hbm, 1086, rfl⟩
abbrev main_v953 : Ref sig .tc := ⟨.hbm, 1087, rfl⟩
abbrev main_v954 : Ref sig .tc := ⟨.hbm, 1088, rfl⟩
abbrev main_v955 : Ref sig .tc := ⟨.hbm, 1089, rfl⟩
abbrev main_v956 : Ref sig .tc := ⟨.hbm, 1090, rfl⟩
abbrev main_cst_123 : Ref sig .tc := ⟨.hbm, 1091, rfl⟩
abbrev main_v957 : Ref sig .tc := ⟨.hbm, 1092, rfl⟩
abbrev main_v958 : Ref sig .tc := ⟨.hbm, 1093, rfl⟩
abbrev main_cst_124 : Ref sig .tc := ⟨.hbm, 1094, rfl⟩
abbrev main_v959 : Ref sig .tc := ⟨.hbm, 1095, rfl⟩
abbrev main_v960 : Ref sig .tc := ⟨.hbm, 1096, rfl⟩
abbrev main_v961 : Ref sig .tc := ⟨.hbm, 1097, rfl⟩
abbrev main_v962 : Ref sig .tc := ⟨.hbm, 1098, rfl⟩
abbrev main_v963 : Ref sig .tc := ⟨.hbm, 1099, rfl⟩
abbrev main_v964 : Ref sig .tc := ⟨.hbm, 1100, rfl⟩
abbrev main_v965 : Ref sig .tc := ⟨.hbm, 1101, rfl⟩
abbrev main_v966 : Ref sig .tc := ⟨.hbm, 1102, rfl⟩
abbrev main_v967 : Ref sig .tc := ⟨.hbm, 1103, rfl⟩
abbrev main_v968 : Ref sig .tc := ⟨.hbm, 1104, rfl⟩
abbrev main_v969 : Ref sig .tc := ⟨.hbm, 1105, rfl⟩
abbrev main_v970 : Ref sig .tc := ⟨.hbm, 1106, rfl⟩
abbrev main_v971 : Ref sig .tc := ⟨.hbm, 1107, rfl⟩
abbrev main_c_125 : Ref sig .tc := ⟨.hbm, 1108, rfl⟩
abbrev main_v972 : Ref sig .tc := ⟨.hbm, 1109, rfl⟩
abbrev main_v973 : Ref sig .tc := ⟨.hbm, 1110, rfl⟩
abbrev main_c_126 : Ref sig .tc := ⟨.hbm, 1111, rfl⟩
abbrev main_v974 : Ref sig .tc := ⟨.hbm, 1112, rfl⟩
abbrev main_v975 : Ref sig .tc := ⟨.hbm, 1113, rfl⟩
abbrev main_v976 : Ref sig .tc := ⟨.hbm, 1114, rfl⟩
abbrev main_v977 : Ref sig .tc := ⟨.hbm, 1115, rfl⟩
abbrev main_v978 : Ref sig .tc := ⟨.hbm, 1116, rfl⟩
abbrev main_v979 : Ref sig .tc := ⟨.hbm, 1117, rfl⟩
abbrev main_v980 : Ref sig .tc := ⟨.hbm, 1118, rfl⟩
abbrev main_v981 : Ref sig .tc := ⟨.hbm, 1119, rfl⟩
abbrev main_v982 : Ref sig .tc := ⟨.hbm, 1120, rfl⟩
abbrev main_v983 : Ref sig .tc := ⟨.hbm, 1121, rfl⟩
abbrev main_v984 : Ref sig .tc := ⟨.hbm, 1122, rfl⟩
abbrev main_v985 : Ref sig .tc := ⟨.hbm, 1123, rfl⟩
abbrev main_v986 : Ref sig .tc := ⟨.hbm, 1124, rfl⟩
abbrev main_v987 : Ref sig .tc := ⟨.hbm, 1125, rfl⟩
abbrev main_v988 : Ref sig .tc := ⟨.hbm, 1126, rfl⟩
abbrev main_v989 : Ref sig .tc := ⟨.hbm, 1127, rfl⟩
abbrev main_v990 : Ref sig .tc := ⟨.hbm, 1128, rfl⟩
abbrev main_v991 : Ref sig .tc := ⟨.hbm, 1129, rfl⟩
abbrev main_v992 : Ref sig .tc := ⟨.hbm, 1130, rfl⟩
abbrev main_v993 : Ref sig .tc := ⟨.hbm, 1131, rfl⟩
abbrev main_cst_127 : Ref sig .tc := ⟨.hbm, 1132, rfl⟩
abbrev main_v994 : Ref sig .tc := ⟨.hbm, 1133, rfl⟩
abbrev main_v995 : Ref sig .tc := ⟨.hbm, 1134, rfl⟩
abbrev main_cst_128 : Ref sig .tc := ⟨.hbm, 1135, rfl⟩
abbrev main_v996 : Ref sig .tc := ⟨.hbm, 1136, rfl⟩
abbrev main_v997 : Ref sig .tc := ⟨.hbm, 1137, rfl⟩
abbrev main_v998 : Ref sig .tc := ⟨.hbm, 1138, rfl⟩
abbrev main_v999 : Ref sig .tc := ⟨.hbm, 1139, rfl⟩
abbrev main_v1000 : Ref sig .tc := ⟨.hbm, 1140, rfl⟩
abbrev main_v1001 : Ref sig .tc := ⟨.hbm, 1141, rfl⟩
abbrev main_v1002 : Ref sig .tc := ⟨.hbm, 1142, rfl⟩
abbrev main_v1003 : Ref sig .tc := ⟨.hbm, 1143, rfl⟩
abbrev main_v1004 : Ref sig .tc := ⟨.hbm, 1144, rfl⟩
abbrev main_cst_129 : Ref sig .tc := ⟨.hbm, 1145, rfl⟩
abbrev main_v1005 : Ref sig .tc := ⟨.hbm, 1146, rfl⟩
abbrev main_v1006 : Ref sig .tc := ⟨.hbm, 1147, rfl⟩
abbrev main_cst_130 : Ref sig .tc := ⟨.hbm, 1148, rfl⟩
abbrev main_v1007 : Ref sig .tc := ⟨.hbm, 1149, rfl⟩
abbrev main_v1008 : Ref sig .tc := ⟨.hbm, 1150, rfl⟩
abbrev main_v1009 : Ref sig .tc := ⟨.hbm, 1151, rfl⟩
abbrev main_v1010 : Ref sig .tc := ⟨.hbm, 1152, rfl⟩
abbrev main_v1011 : Ref sig .tc := ⟨.hbm, 1153, rfl⟩
abbrev main_v1012 : Ref sig .tc := ⟨.hbm, 1154, rfl⟩
abbrev main_v1013 : Ref sig .tc := ⟨.hbm, 1155, rfl⟩
abbrev main_v1014 : Ref sig .tc := ⟨.hbm, 1156, rfl⟩
abbrev main_v1015 : Ref sig .tc := ⟨.hbm, 1157, rfl⟩
abbrev main_v1016 : Ref sig .tc := ⟨.hbm, 1158, rfl⟩
abbrev main_v1017 : Ref sig .tc := ⟨.hbm, 1159, rfl⟩
abbrev main_v1018 : Ref sig .tc := ⟨.hbm, 1160, rfl⟩
abbrev main_v1019 : Ref sig .tc := ⟨.hbm, 1161, rfl⟩
abbrev main_v1020 : Ref sig .tc := ⟨.hbm, 1162, rfl⟩
abbrev main_v1021 : Ref sig .tc := ⟨.hbm, 1163, rfl⟩
abbrev main_v1022 : Ref sig .tc := ⟨.hbm, 1164, rfl⟩
abbrev main_cst_131 : Ref sig .tc := ⟨.hbm, 1165, rfl⟩
abbrev main_v1023 : Ref sig .tc := ⟨.hbm, 1166, rfl⟩
abbrev main_v1024 : Ref sig .tc := ⟨.hbm, 1167, rfl⟩
abbrev main_cst_132 : Ref sig .tc := ⟨.hbm, 1168, rfl⟩
abbrev main_v1025 : Ref sig .tc := ⟨.hbm, 1169, rfl⟩
abbrev main_v1026 : Ref sig .tc := ⟨.hbm, 1170, rfl⟩
abbrev main_v1027 : Ref sig .tc := ⟨.hbm, 1171, rfl⟩
abbrev main_v1028 : Ref sig .tc := ⟨.hbm, 1172, rfl⟩
abbrev main_v1029 : Ref sig .tc := ⟨.hbm, 1173, rfl⟩
abbrev main_v1030 : Ref sig .tc := ⟨.hbm, 1174, rfl⟩
abbrev main_v1031 : Ref sig .tc := ⟨.hbm, 1175, rfl⟩
abbrev main_v1032 : Ref sig .tc := ⟨.hbm, 1176, rfl⟩
abbrev main_v1033 : Ref sig .tc := ⟨.hbm, 1177, rfl⟩
abbrev main_v1034 : Ref sig .tc := ⟨.hbm, 1178, rfl⟩
abbrev main_cst_133 : Ref sig .tc := ⟨.hbm, 1179, rfl⟩
abbrev main_v1035 : Ref sig .tc := ⟨.hbm, 1180, rfl⟩
abbrev main_v1036 : Ref sig .tc := ⟨.hbm, 1181, rfl⟩
abbrev main_cst_134 : Ref sig .tc := ⟨.hbm, 1182, rfl⟩
abbrev main_v1037 : Ref sig .tc := ⟨.hbm, 1183, rfl⟩
abbrev main_v1038 : Ref sig .tc := ⟨.hbm, 1184, rfl⟩
abbrev main_v1039 : Ref sig .tc := ⟨.hbm, 1185, rfl⟩
abbrev main_v1040 : Ref sig .tc := ⟨.hbm, 1186, rfl⟩
abbrev main_v1041 : Ref sig .tc := ⟨.hbm, 1187, rfl⟩
abbrev main_v1042 : Ref sig .tc := ⟨.hbm, 1188, rfl⟩
abbrev main_v1043 : Ref sig .tc := ⟨.hbm, 1189, rfl⟩
abbrev main_v1044 : Ref sig .tc := ⟨.hbm, 1190, rfl⟩
abbrev main_v1045 : Ref sig .tc := ⟨.hbm, 1191, rfl⟩
abbrev main_v1046 : Ref sig .tc := ⟨.hbm, 1192, rfl⟩
abbrev main_v1047 : Ref sig .tc := ⟨.hbm, 1193, rfl⟩
abbrev main_v1048 : Ref sig .tc := ⟨.hbm, 1194, rfl⟩
abbrev main_v1049 : Ref sig .tc := ⟨.hbm, 1195, rfl⟩
abbrev main_c_135 : Ref sig .tc := ⟨.hbm, 1196, rfl⟩
abbrev main_v1050 : Ref sig .tc := ⟨.hbm, 1197, rfl⟩
abbrev main_v1051 : Ref sig .tc := ⟨.hbm, 1198, rfl⟩
abbrev main_c_136 : Ref sig .tc := ⟨.hbm, 1199, rfl⟩
abbrev main_v1052 : Ref sig .tc := ⟨.hbm, 1200, rfl⟩
abbrev main_v1053 : Ref sig .tc := ⟨.hbm, 1201, rfl⟩
abbrev main_v1054 : Ref sig .tc := ⟨.hbm, 1202, rfl⟩
abbrev main_v1055 : Ref sig .tc := ⟨.hbm, 1203, rfl⟩
abbrev main_v1056 : Ref sig .tc := ⟨.hbm, 1204, rfl⟩
abbrev main_v1057 : Ref sig .tc := ⟨.hbm, 1205, rfl⟩
abbrev main_v1058 : Ref sig .tc := ⟨.hbm, 1206, rfl⟩
abbrev main_v1059 : Ref sig .tc := ⟨.hbm, 1207, rfl⟩
abbrev main_v1060 : Ref sig .tc := ⟨.hbm, 1208, rfl⟩
abbrev main_v1061 : Ref sig .tc := ⟨.hbm, 1209, rfl⟩
abbrev main_v1062 : Ref sig .tc := ⟨.hbm, 1210, rfl⟩
abbrev main_v1063 : Ref sig .tc := ⟨.hbm, 1211, rfl⟩
abbrev main_v1064 : Ref sig .tc := ⟨.hbm, 1212, rfl⟩
abbrev main_v1065 : Ref sig .tc := ⟨.hbm, 1213, rfl⟩
abbrev main_v1066 : Ref sig .tc := ⟨.hbm, 1214, rfl⟩
abbrev main_v1067 : Ref sig .tc := ⟨.hbm, 1215, rfl⟩
abbrev main_v1068 : Ref sig .tc := ⟨.hbm, 1216, rfl⟩
abbrev main_v1069 : Ref sig .tc := ⟨.hbm, 1217, rfl⟩
abbrev main_v1070 : Ref sig .tc := ⟨.hbm, 1218, rfl⟩
abbrev main_cst_137 : Ref sig .tc := ⟨.hbm, 1219, rfl⟩
abbrev main_v1071 : Ref sig .tc := ⟨.hbm, 1220, rfl⟩
abbrev main_v1072 : Ref sig .tc := ⟨.hbm, 1221, rfl⟩
abbrev main_cst_138 : Ref sig .tc := ⟨.hbm, 1222, rfl⟩
abbrev main_v1073 : Ref sig .tc := ⟨.hbm, 1223, rfl⟩
abbrev main_v1074 : Ref sig .tc := ⟨.hbm, 1224, rfl⟩
abbrev main_v1075 : Ref sig .tc := ⟨.hbm, 1225, rfl⟩
abbrev main_v1076 : Ref sig .tc := ⟨.hbm, 1226, rfl⟩
abbrev main_v1077 : Ref sig .tc := ⟨.hbm, 1227, rfl⟩
abbrev main_v1078 : Ref sig .tc := ⟨.hbm, 1228, rfl⟩
abbrev main_v1079 : Ref sig .tc := ⟨.hbm, 1229, rfl⟩
abbrev main_v1080 : Ref sig .tc := ⟨.hbm, 1230, rfl⟩
abbrev main_cst_139 : Ref sig .tc := ⟨.hbm, 1231, rfl⟩
abbrev main_v1081 : Ref sig .tc := ⟨.hbm, 1232, rfl⟩
abbrev main_v1082 : Ref sig .tc := ⟨.hbm, 1233, rfl⟩
abbrev main_cst_140 : Ref sig .tc := ⟨.hbm, 1234, rfl⟩
abbrev main_v1083 : Ref sig .tc := ⟨.hbm, 1235, rfl⟩
abbrev main_v1084 : Ref sig .tc := ⟨.hbm, 1236, rfl⟩
abbrev main_v1085 : Ref sig .tc := ⟨.hbm, 1237, rfl⟩
abbrev main_v1086 : Ref sig .tc := ⟨.hbm, 1238, rfl⟩
abbrev main_v1087 : Ref sig .tc := ⟨.hbm, 1239, rfl⟩
abbrev main_v1088 : Ref sig .tc := ⟨.hbm, 1240, rfl⟩
abbrev main_v1089 : Ref sig .tc := ⟨.hbm, 1241, rfl⟩
abbrev main_v1090 : Ref sig .tc := ⟨.hbm, 1242, rfl⟩
abbrev main_v1091 : Ref sig .tc := ⟨.hbm, 1243, rfl⟩
abbrev main_v1092 : Ref sig .tc := ⟨.hbm, 1244, rfl⟩
abbrev main_v1093 : Ref sig .tc := ⟨.hbm, 1245, rfl⟩
abbrev main_v1094 : Ref sig .tc := ⟨.hbm, 1246, rfl⟩
abbrev main_v1095 : Ref sig .tc := ⟨.hbm, 1247, rfl⟩
abbrev main_v1096 : Ref sig .tc := ⟨.hbm, 1248, rfl⟩
abbrev main_cst_141 : Ref sig .tc := ⟨.hbm, 1249, rfl⟩
abbrev main_v1097 : Ref sig .tc := ⟨.hbm, 1250, rfl⟩
abbrev main_v1098 : Ref sig .tc := ⟨.hbm, 1251, rfl⟩
abbrev main_cst_142 : Ref sig .tc := ⟨.hbm, 1252, rfl⟩
abbrev main_v1099 : Ref sig .tc := ⟨.hbm, 1253, rfl⟩
abbrev main_v1100 : Ref sig .tc := ⟨.hbm, 1254, rfl⟩
abbrev main_v1101 : Ref sig .tc := ⟨.hbm, 1255, rfl⟩
abbrev main_v1102 : Ref sig .tc := ⟨.hbm, 1256, rfl⟩
abbrev main_v1103 : Ref sig .tc := ⟨.hbm, 1257, rfl⟩
abbrev main_v1104 : Ref sig .tc := ⟨.hbm, 1258, rfl⟩
abbrev main_v1105 : Ref sig .tc := ⟨.hbm, 1259, rfl⟩
abbrev main_v1106 : Ref sig .tc := ⟨.hbm, 1260, rfl⟩
abbrev main_v1107 : Ref sig .tc := ⟨.hbm, 1261, rfl⟩
abbrev main_cst_143 : Ref sig .tc := ⟨.hbm, 1262, rfl⟩
abbrev main_v1108 : Ref sig .tc := ⟨.hbm, 1263, rfl⟩
abbrev main_v1109 : Ref sig .tc := ⟨.hbm, 1264, rfl⟩
abbrev main_cst_144 : Ref sig .tc := ⟨.hbm, 1265, rfl⟩
abbrev main_v1110 : Ref sig .tc := ⟨.hbm, 1266, rfl⟩
abbrev main_v1111 : Ref sig .tc := ⟨.hbm, 1267, rfl⟩
abbrev main_v1112 : Ref sig .tc := ⟨.hbm, 1268, rfl⟩
abbrev main_v1113 : Ref sig .tc := ⟨.hbm, 1269, rfl⟩
abbrev main_v1114 : Ref sig .tc := ⟨.hbm, 1270, rfl⟩
abbrev main_v1115 : Ref sig .tc := ⟨.hbm, 1271, rfl⟩
abbrev main_v1116 : Ref sig .tc := ⟨.hbm, 1272, rfl⟩
abbrev main_v1117 : Ref sig .tc := ⟨.hbm, 1273, rfl⟩
abbrev main_v1118 : Ref sig .tc := ⟨.hbm, 1274, rfl⟩
abbrev main_v1119 : Ref sig .tc := ⟨.hbm, 1275, rfl⟩
abbrev main_v1120 : Ref sig .tc := ⟨.hbm, 1276, rfl⟩
abbrev main_v1121 : Ref sig .tc := ⟨.hbm, 1277, rfl⟩
abbrev main_v1122 : Ref sig .tc := ⟨.hbm, 1278, rfl⟩
abbrev main_c_145 : Ref sig .tc := ⟨.hbm, 1279, rfl⟩
abbrev main_v1123 : Ref sig .tc := ⟨.hbm, 1280, rfl⟩
abbrev main_v1124 : Ref sig .tc := ⟨.hbm, 1281, rfl⟩
abbrev main_c_146 : Ref sig .tc := ⟨.hbm, 1282, rfl⟩
abbrev main_v1125 : Ref sig .tc := ⟨.hbm, 1283, rfl⟩
abbrev main_v1126 : Ref sig .tc := ⟨.hbm, 1284, rfl⟩
abbrev main_v1127 : Ref sig .tc := ⟨.hbm, 1285, rfl⟩
abbrev main_v1128 : Ref sig .tc := ⟨.hbm, 1286, rfl⟩
abbrev main_v1129 : Ref sig .tc := ⟨.hbm, 1287, rfl⟩
abbrev main_v1130 : Ref sig .tc := ⟨.hbm, 1288, rfl⟩

abbrev nD : Nat := 1
abbrev τ : Topo := Topo.v7x

variable {F : FTy → Type} [FloatOps F]

class Facts₀ : Prop where
  bcast_S_S32767x512 : S_.BroadcastsInDim S32767x512 (![] : Fin 0 → Fin S32767x512.rank)
  slices_S32767x512_S16384x512_16383_0 : S32767x512.Slices ![16383, 0] S16384x512
  bcast_S_S16384x512 : S_.BroadcastsInDim S16384x512 (![] : Fin 0 → Fin S16384x512.rank)
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S1 : S_.BroadcastsInDim S1 (![] : Fin 0 → Fin S1.rank)
  slices_S32767x512_S8192x512_8191_0 : S32767x512.Slices ![8191, 0] S8192x512
  shapeCasts_S16384x512_S8192x2x512 : S16384x512.ShapeCasts S8192x2x512
  slices_S8192x2x512_S8192x1x512_0_0_0 : S8192x2x512.Slices ![0, 0, 0] S8192x1x512
  shapeCasts_S8192x1x512_S8192x512 : S8192x1x512.ShapeCasts S8192x512
  slices_S8192x2x512_S8192x1x512_0_1_0 : S8192x2x512.Slices ![0, 1, 0] S8192x1x512
  concatenates_S8192x512_S8192x512_S8192x1024_d1 : Shape.Concatenates [S8192x512, S8192x512] S8192x1024 1
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  slices_S32767x512_S4096x512_4095_0 : S32767x512.Slices ![4095, 0] S4096x512
  shapeCasts_S8192x512_S4096x2x512 : S8192x512.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  concatenates_S4096x512_S4096x512_S4096x1024_d1 : Shape.Concatenates [S4096x512, S4096x512] S4096x1024 1
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  slices_S32767x512_S2048x512_2047_0 : S32767x512.Slices ![2047, 0] S2048x512
  shapeCasts_S4096x512_S2048x2x512 : S4096x512.ShapeCasts S2048x2x512
  slices_S2048x2x512_S2048x1x512_0_0_0 : S2048x2x512.Slices ![0, 0, 0] S2048x1x512
  shapeCasts_S2048x1x512_S2048x512 : S2048x1x512.ShapeCasts S2048x512
  slices_S2048x2x512_S2048x1x512_0_1_0 : S2048x2x512.Slices ![0, 1, 0] S2048x1x512
  concatenates_S2048x512_S2048x512_S2048x1024_d1 : Shape.Concatenates [S2048x512, S2048x512] S2048x1024 1
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  slices_S32767x512_S1024x512_1023_0 : S32767x512.Slices ![1023, 0] S1024x512
  shapeCasts_S2048x512_S1024x2x512 : S2048x512.ShapeCasts S1024x2x512
  slices_S1024x2x512_S1024x1x512_0_0_0 : S1024x2x512.Slices ![0, 0, 0] S1024x1x512
  shapeCasts_S1024x1x512_S1024x512 : S1024x1x512.ShapeCasts S1024x512
  slices_S1024x2x512_S1024x1x512_0_1_0 : S1024x2x512.Slices ![0, 1, 0] S1024x1x512
  concatenates_S1024x512_S1024x512_S1024x1024_d1 : Shape.Concatenates [S1024x512, S1024x512] S1024x1024 1
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  slices_S32767x512_S512x512_511_0 : S32767x512.Slices ![511, 0] S512x512
  shapeCasts_S1024x512_S512x2x512 : S1024x512.ShapeCasts S512x2x512
  slices_S512x2x512_S512x1x512_0_0_0 : S512x2x512.Slices ![0, 0, 0] S512x1x512
  shapeCasts_S512x1x512_S512x512 : S512x1x512.ShapeCasts S512x512
  slices_S512x2x512_S512x1x512_0_1_0 : S512x2x512.Slices ![0, 1, 0] S512x1x512
  concatenates_S512x512_S512x512_S512x1024_d1 : Shape.Concatenates [S512x512, S512x512] S512x1024 1
  bcast_S1x512_S512x512_0_1 : S1x512.BroadcastsInDim S512x512 (![0, 1] : Fin 2 → Fin S512x512.rank)
  bcast_S_S512x512 : S_.BroadcastsInDim S512x512 (![] : Fin 0 → Fin S512x512.rank)
  slices_S32767x512_S256x512_255_0 : S32767x512.Slices ![255, 0] S256x512
  shapeCasts_S512x512_S256x2x512 : S512x512.ShapeCasts S256x2x512
  slices_S256x2x512_S256x1x512_0_0_0 : S256x2x512.Slices ![0, 0, 0] S256x1x512
  shapeCasts_S256x1x512_S256x512 : S256x1x512.ShapeCasts S256x512
  slices_S256x2x512_S256x1x512_0_1_0 : S256x2x512.Slices ![0, 1, 0] S256x1x512
  concatenates_S256x512_S256x512_S256x1024_d1 : Shape.Concatenates [S256x512, S256x512] S256x1024 1
  bcast_S1x512_S256x512_0_1 : S1x512.BroadcastsInDim S256x512 (![0, 1] : Fin 2 → Fin S256x512.rank)
  bcast_S_S256x512 : S_.BroadcastsInDim S256x512 (![] : Fin 0 → Fin S256x512.rank)
  slices_S32767x512_S128x512_127_0 : S32767x512.Slices ![127, 0] S128x512
  shapeCasts_S256x512_S128x2x512 : S256x512.ShapeCasts S128x2x512
  slices_S128x2x512_S128x1x512_0_0_0 : S128x2x512.Slices ![0, 0, 0] S128x1x512
  shapeCasts_S128x1x512_S128x512 : S128x1x512.ShapeCasts S128x512
  slices_S128x2x512_S128x1x512_0_1_0 : S128x2x512.Slices ![0, 1, 0] S128x1x512
  concatenates_S128x512_S128x512_S128x1024_d1 : Shape.Concatenates [S128x512, S128x512] S128x1024 1
  bcast_S1x512_S128x512_0_1 : S1x512.BroadcastsInDim S128x512 (![0, 1] : Fin 2 → Fin S128x512.rank)
  bcast_S_S128x512 : S_.BroadcastsInDim S128x512 (![] : Fin 0 → Fin S128x512.rank)
  slices_S32767x512_S64x512_63_0 : S32767x512.Slices ![63, 0] S64x512
  shapeCasts_S128x512_S64x2x512 : S128x512.ShapeCasts S64x2x512
  slices_S64x2x512_S64x1x512_0_0_0 : S64x2x512.Slices ![0, 0, 0] S64x1x512
  shapeCasts_S64x1x512_S64x512 : S64x1x512.ShapeCasts S64x512
  slices_S64x2x512_S64x1x512_0_1_0 : S64x2x512.Slices ![0, 1, 0] S64x1x512
  concatenates_S64x512_S64x512_S64x1024_d1 : Shape.Concatenates [S64x512, S64x512] S64x1024 1
  bcast_S1x512_S64x512_0_1 : S1x512.BroadcastsInDim S64x512 (![0, 1] : Fin 2 → Fin S64x512.rank)
  bcast_S_S64x512 : S_.BroadcastsInDim S64x512 (![] : Fin 0 → Fin S64x512.rank)
  slices_S32767x512_S32x512_31_0 : S32767x512.Slices ![31, 0] S32x512
  shapeCasts_S64x512_S32x2x512 : S64x512.ShapeCasts S32x2x512
  slices_S32x2x512_S32x1x512_0_0_0 : S32x2x512.Slices ![0, 0, 0] S32x1x512
  shapeCasts_S32x1x512_S32x512 : S32x1x512.ShapeCasts S32x512
  slices_S32x2x512_S32x1x512_0_1_0 : S32x2x512.Slices ![0, 1, 0] S32x1x512
  concatenates_S32x512_S32x512_S32x1024_d1 : Shape.Concatenates [S32x512, S32x512] S32x1024 1
  bcast_S1x512_S32x512_0_1 : S1x512.BroadcastsInDim S32x512 (![0, 1] : Fin 2 → Fin S32x512.rank)
  bcast_S_S32x512 : S_.BroadcastsInDim S32x512 (![] : Fin 0 → Fin S32x512.rank)
  slices_S32767x512_S16x512_15_0 : S32767x512.Slices ![15, 0] S16x512
  shapeCasts_S32x512_S16x2x512 : S32x512.ShapeCasts S16x2x512
  slices_S16x2x512_S16x1x512_0_0_0 : S16x2x512.Slices ![0, 0, 0] S16x1x512
  shapeCasts_S16x1x512_S16x512 : S16x1x512.ShapeCasts S16x512
  slices_S16x2x512_S16x1x512_0_1_0 : S16x2x512.Slices ![0, 1, 0] S16x1x512
  concatenates_S16x512_S16x512_S16x1024_d1 : Shape.Concatenates [S16x512, S16x512] S16x1024 1
  bcast_S1x512_S16x512_0_1 : S1x512.BroadcastsInDim S16x512 (![0, 1] : Fin 2 → Fin S16x512.rank)
  bcast_S_S16x512 : S_.BroadcastsInDim S16x512 (![] : Fin 0 → Fin S16x512.rank)
  slices_S32767x512_S8x512_7_0 : S32767x512.Slices ![7, 0] S8x512
  shapeCasts_S16x512_S8x2x512 : S16x512.ShapeCasts S8x2x512
  slices_S8x2x512_S8x1x512_0_0_0 : S8x2x512.Slices ![0, 0, 0] S8x1x512
  shapeCasts_S8x1x512_S8x512 : S8x1x512.ShapeCasts S8x512
  slices_S8x2x512_S8x1x512_0_1_0 : S8x2x512.Slices ![0, 1, 0] S8x1x512
  concatenates_S8x512_S8x512_S8x1024_d1 : Shape.Concatenates [S8x512, S8x512] S8x1024 1
  bcast_S1x512_S8x512_0_1 : S1x512.BroadcastsInDim S8x512 (![0, 1] : Fin 2 → Fin S8x512.rank)
  bcast_S_S8x512 : S_.BroadcastsInDim S8x512 (![] : Fin 0 → Fin S8x512.rank)
  slices_S32767x512_S4x512_3_0 : S32767x512.Slices ![3, 0] S4x512
  shapeCasts_S8x512_S4x2x512 : S8x512.ShapeCasts S4x2x512
  slices_S4x2x512_S4x1x512_0_0_0 : S4x2x512.Slices ![0, 0, 0] S4x1x512
  shapeCasts_S4x1x512_S4x512 : S4x1x512.ShapeCasts S4x512
  slices_S4x2x512_S4x1x512_0_1_0 : S4x2x512.Slices ![0, 1, 0] S4x1x512
  concatenates_S4x512_S4x512_S4x1024_d1 : Shape.Concatenates [S4x512, S4x512] S4x1024 1
  bcast_S1x512_S4x512_0_1 : S1x512.BroadcastsInDim S4x512 (![0, 1] : Fin 2 → Fin S4x512.rank)
  bcast_S_S4x512 : S_.BroadcastsInDim S4x512 (![] : Fin 0 → Fin S4x512.rank)
  slices_S32767x512_S2x512_1_0 : S32767x512.Slices ![1, 0] S2x512
  shapeCasts_S4x512_S2x2x512 : S4x512.ShapeCasts S2x2x512
  slices_S2x2x512_S2x1x512_0_0_0 : S2x2x512.Slices ![0, 0, 0] S2x1x512
  shapeCasts_S2x1x512_S2x512 : S2x1x512.ShapeCasts S2x512
  slices_S2x2x512_S2x1x512_0_1_0 : S2x2x512.Slices ![0, 1, 0] S2x1x512
  concatenates_S2x512_S2x512_S2x1024_d1 : Shape.Concatenates [S2x512, S2x512] S2x1024 1
  bcast_S1x512_S2x512_0_1 : S1x512.BroadcastsInDim S2x512 (![0, 1] : Fin 2 → Fin S2x512.rank)
  bcast_S_S2x512 : S_.BroadcastsInDim S2x512 (![] : Fin 0 → Fin S2x512.rank)
  slices_S32767x512_S1x512_0_0 : S32767x512.Slices ![0, 0] S1x512
  shapeCasts_S2x512_S1x2x512 : S2x512.ShapeCasts S1x2x512
  slices_S1x2x512_S1x1x512_0_0_0 : S1x2x512.Slices ![0, 0, 0] S1x1x512
  shapeCasts_S1x1x512_S1x512 : S1x1x512.ShapeCasts S1x512
  slices_S1x2x512_S1x1x512_0_1_0 : S1x2x512.Slices ![0, 1, 0] S1x1x512
  concatenates_S1x512_S1x512_S1x1024_d1 : Shape.Concatenates [S1x512, S1x512] S1x1024 1
  bcast_S_S1x512 : S_.BroadcastsInDim S1x512 (![] : Fin 0 → Fin S1x512.rank)
  shapeCasts_S1x512_S512 : S1x512.ShapeCasts S512
  dot_S16384x1024_S1024x512_S16384x512_1_0_0_1_n_n_wf : DotDims.WF S16384x1024 S1024x512 S16384x512 [1] [0] [0] [1] [] []
  scatter_S32767x512_S1_S16384x512_01_n_0_0_wf : ScatterDims.WF S32767x512 S1 S16384x512 [0, 1] [] [0] 0
  dot_S8192x1024_S1024x512_S8192x512_1_0_0_1_n_n_wf : DotDims.WF S8192x1024 S1024x512 S8192x512 [1] [0] [0] [1] [] []
  scatter_S32767x512_S1_S8192x512_01_n_0_0_wf : ScatterDims.WF S32767x512 S1 S8192x512 [0, 1] [] [0] 0
  dot_S4096x1024_S1024x512_S4096x512_1_0_0_1_n_n_wf : DotDims.WF S4096x1024 S1024x512 S4096x512 [1] [0] [0] [1] [] []
  scatter_S32767x512_S1_S4096x512_01_n_0_0_wf : ScatterDims.WF S32767x512 S1 S4096x512 [0, 1] [] [0] 0
  dot_S2048x1024_S1024x512_S2048x512_1_0_0_1_n_n_wf : DotDims.WF S2048x1024 S1024x512 S2048x512 [1] [0] [0] [1] [] []
  scatter_S32767x512_S1_S2048x512_01_n_0_0_wf : ScatterDims.WF S32767x512 S1 S2048x512 [0, 1] [] [0] 0
  dot_S1024x1024_S1024x512_S1024x512_1_0_0_1_n_n_wf : DotDims.WF S1024x1024 S1024x512 S1024x512 [1] [0] [0] [1] [] []
  scatter_S32767x512_S1_S1024x512_01_n_0_0_wf : ScatterDims.WF S32767x512 S1 S1024x512 [0, 1] [] [0] 0
  dot_S512x1024_S1024x512_S512x512_1_0_0_1_n_n_wf : DotDims.WF S512x1024 S1024x512 S512x512 [1] [0] [0] [1] [] []
  scatter_S32767x512_S1_S512x512_01_n_0_0_wf : ScatterDims.WF S32767x512 S1 S512x512 [0, 1] [] [0] 0
  dot_S256x1024_S1024x512_S256x512_1_0_0_1_n_n_wf : DotDims.WF S256x1024 S1024x512 S256x512 [1] [0] [0] [1] [] []
  scatter_S32767x512_S1_S256x512_01_n_0_0_wf : ScatterDims.WF S32767x512 S1 S256x512 [0, 1] [] [0] 0
  dot_S128x1024_S1024x512_S128x512_1_0_0_1_n_n_wf : DotDims.WF S128x1024 S1024x512 S128x512 [1] [0] [0] [1] [] []
  scatter_S32767x512_S1_S128x512_01_n_0_0_wf : ScatterDims.WF S32767x512 S1 S128x512 [0, 1] [] [0] 0
  dot_S64x1024_S1024x512_S64x512_1_0_0_1_n_n_wf : DotDims.WF S64x1024 S1024x512 S64x512 [1] [0] [0] [1] [] []
  scatter_S32767x512_S1_S64x512_01_n_0_0_wf : ScatterDims.WF S32767x512 S1 S64x512 [0, 1] [] [0] 0
  dot_S32x1024_S1024x512_S32x512_1_0_0_1_n_n_wf : DotDims.WF S32x1024 S1024x512 S32x512 [1] [0] [0] [1] [] []
  scatter_S32767x512_S1_S32x512_01_n_0_0_wf : ScatterDims.WF S32767x512 S1 S32x512 [0, 1] [] [0] 0
  dot_S16x1024_S1024x512_S16x512_1_0_0_1_n_n_wf : DotDims.WF S16x1024 S1024x512 S16x512 [1] [0] [0] [1] [] []
  scatter_S32767x512_S1_S16x512_01_n_0_0_wf : ScatterDims.WF S32767x512 S1 S16x512 [0, 1] [] [0] 0
  dot_S8x1024_S1024x512_S8x512_1_0_0_1_n_n_wf : DotDims.WF S8x1024 S1024x512 S8x512 [1] [0] [0] [1] [] []
  scatter_S32767x512_S1_S8x512_01_n_0_0_wf : ScatterDims.WF S32767x512 S1 S8x512 [0, 1] [] [0] 0
  dot_S4x1024_S1024x512_S4x512_1_0_0_1_n_n_wf : DotDims.WF S4x1024 S1024x512 S4x512 [1] [0] [0] [1] [] []
  scatter_S32767x512_S1_S4x512_01_n_0_0_wf : ScatterDims.WF S32767x512 S1 S4x512 [0, 1] [] [0] 0
  dot_S2x1024_S1024x512_S2x512_1_0_0_1_n_n_wf : DotDims.WF S2x1024 S1024x512 S2x512 [1] [0] [0] [1] [] []
  scatter_S32767x512_S1_S2x512_01_n_0_0_wf : ScatterDims.WF S32767x512 S1 S2x512 [0, 1] [] [0] 0
  dot_S1x1024_S1024x512_S1x512_1_0_0_1_n_n_wf : DotDims.WF S1x1024 S1024x512 S1x512 [1] [0] [0] [1] [] []
  scatter_S32767x512_S1_S1x512_01_n_0_0_wf : ScatterDims.WF S32767x512 S1 S1x512 [0, 1] [] [0] 0

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def scatter_S32767x512_S1_S16384x512_01_n_0_0 : ScatterDims S32767x512 S1 S16384x512 where
  updateWindowDims := [0, 1]
  insertedWindowDims := []
  scatterDimsToOperandDims := [0]
  indexVectorDim := 0
  wf := scatter_S32767x512_S1_S16384x512_01_n_0_0_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def scatter_S32767x512_S1_S8192x512_01_n_0_0 : ScatterDims S32767x512 S1 S8192x512 where
  updateWindowDims := [0, 1]
  insertedWindowDims := []
  scatterDimsToOperandDims := [0]
  indexVectorDim := 0
  wf := scatter_S32767x512_S1_S8192x512_01_n_0_0_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def scatter_S32767x512_S1_S4096x512_01_n_0_0 : ScatterDims S32767x512 S1 S4096x512 where
  updateWindowDims := [0, 1]
  insertedWindowDims := []
  scatterDimsToOperandDims := [0]
  indexVectorDim := 0
  wf := scatter_S32767x512_S1_S4096x512_01_n_0_0_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def scatter_S32767x512_S1_S2048x512_01_n_0_0 : ScatterDims S32767x512 S1 S2048x512 where
  updateWindowDims := [0, 1]
  insertedWindowDims := []
  scatterDimsToOperandDims := [0]
  indexVectorDim := 0
  wf := scatter_S32767x512_S1_S2048x512_01_n_0_0_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def scatter_S32767x512_S1_S1024x512_01_n_0_0 : ScatterDims S32767x512 S1 S1024x512 where
  updateWindowDims := [0, 1]
  insertedWindowDims := []
  scatterDimsToOperandDims := [0]
  indexVectorDim := 0
  wf := scatter_S32767x512_S1_S1024x512_01_n_0_0_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def scatter_S32767x512_S1_S512x512_01_n_0_0 : ScatterDims S32767x512 S1 S512x512 where
  updateWindowDims := [0, 1]
  insertedWindowDims := []
  scatterDimsToOperandDims := [0]
  indexVectorDim := 0
  wf := scatter_S32767x512_S1_S512x512_01_n_0_0_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def scatter_S32767x512_S1_S256x512_01_n_0_0 : ScatterDims S32767x512 S1 S256x512 where
  updateWindowDims := [0, 1]
  insertedWindowDims := []
  scatterDimsToOperandDims := [0]
  indexVectorDim := 0
  wf := scatter_S32767x512_S1_S256x512_01_n_0_0_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def scatter_S32767x512_S1_S128x512_01_n_0_0 : ScatterDims S32767x512 S1 S128x512 where
  updateWindowDims := [0, 1]
  insertedWindowDims := []
  scatterDimsToOperandDims := [0]
  indexVectorDim := 0
  wf := scatter_S32767x512_S1_S128x512_01_n_0_0_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def scatter_S32767x512_S1_S64x512_01_n_0_0 : ScatterDims S32767x512 S1 S64x512 where
  updateWindowDims := [0, 1]
  insertedWindowDims := []
  scatterDimsToOperandDims := [0]
  indexVectorDim := 0
  wf := scatter_S32767x512_S1_S64x512_01_n_0_0_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def scatter_S32767x512_S1_S32x512_01_n_0_0 : ScatterDims S32767x512 S1 S32x512 where
  updateWindowDims := [0, 1]
  insertedWindowDims := []
  scatterDimsToOperandDims := [0]
  indexVectorDim := 0
  wf := scatter_S32767x512_S1_S32x512_01_n_0_0_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def scatter_S32767x512_S1_S16x512_01_n_0_0 : ScatterDims S32767x512 S1 S16x512 where
  updateWindowDims := [0, 1]
  insertedWindowDims := []
  scatterDimsToOperandDims := [0]
  indexVectorDim := 0
  wf := scatter_S32767x512_S1_S16x512_01_n_0_0_wf
def dot_S8x1024_S1024x512_S8x512_1_0_0_1_n_n : DotDims S8x1024 S1024x512 S8x512 where
  lhsContracting := [1]
  rhsContracting := [0]
  lhsNonContracting := [0]
  rhsNonContracting := [1]
  lhsBatch := []
  rhsBatch := []
  wf := dot_S8x1024_S1024x512_S8x512_1_0_0_1_n_n_wf
def scatter_S32767x512_S1_S8x512_01_n_0_0 : ScatterDims S32767x512 S1 S8x512 where
  updateWindowDims := [0, 1]
  insertedWindowDims := []
  scatterDimsToOperandDims := [0]
  indexVectorDim := 0
  wf := scatter_S32767x512_S1_S8x512_01_n_0_0_wf
def dot_S4x1024_S1024x512_S4x512_1_0_0_1_n_n : DotDims S4x1024 S1024x512 S4x512 where
  lhsContracting := [1]
  rhsContracting := [0]
  lhsNonContracting := [0]
  rhsNonContracting := [1]
  lhsBatch := []
  rhsBatch := []
  wf := dot_S4x1024_S1024x512_S4x512_1_0_0_1_n_n_wf
def scatter_S32767x512_S1_S4x512_01_n_0_0 : ScatterDims S32767x512 S1 S4x512 where
  updateWindowDims := [0, 1]
  insertedWindowDims := []
  scatterDimsToOperandDims := [0]
  indexVectorDim := 0
  wf := scatter_S32767x512_S1_S4x512_01_n_0_0_wf
def dot_S2x1024_S1024x512_S2x512_1_0_0_1_n_n : DotDims S2x1024 S1024x512 S2x512 where
  lhsContracting := [1]
  rhsContracting := [0]
  lhsNonContracting := [0]
  rhsNonContracting := [1]
  lhsBatch := []
  rhsBatch := []
  wf := dot_S2x1024_S1024x512_S2x512_1_0_0_1_n_n_wf
def scatter_S32767x512_S1_S2x512_01_n_0_0 : ScatterDims S32767x512 S1 S2x512 where
  updateWindowDims := [0, 1]
  insertedWindowDims := []
  scatterDimsToOperandDims := [0]
  indexVectorDim := 0
  wf := scatter_S32767x512_S1_S2x512_01_n_0_0_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def scatter_S32767x512_S1_S1x512_01_n_0_0 : ScatterDims S32767x512 S1 S1x512 where
  updateWindowDims := [0, 1]
  insertedWindowDims := []
  scatterDimsToOperandDims := [0]
  indexVectorDim := 0
  wf := scatter_S32767x512_S1_S1x512_01_n_0_0_wf

class Facts : Prop extends Facts₀ where

variable [Facts]
-- ==== Proof.KRun.lean ====
/-
  The idealized kernel's run with its two results named: every weakly fair execution of the program terminates,
  nothing faulting, with the argument arrays as launched and each result buffer holding what the last stretch of
  host operations leaves in it — the last boundary's contents `W13`, a fold from the launch memory through the
  six regions. The final thread state holds every unscoped buffer at that boundary's contents, the two results among them.
-/
import proofs.«132239_j37117107372689_2_alg».proof.Proof.KernelIdealFrame

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The two result buffers are written by the last stretch only, and are not scoped: they are read off the final
    thread state like the arguments. -/
theorem run_named : θ_run defs (onTc (τ := τ) (main (F := F))) ⟨m, fun _ => 0, ρ⟩ (fun r => ∀ c : Dev nD,
      r.2.mem ((c.tc : Thread nD τ).loc main_v0_0) = W13 m ρ c (Proc.devRef .tc main_v0_0)
      ∧ r.2.mem ((c.tc : Thread nD τ).loc main_v0_1) = W13 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v0_0 (by decide)), h c _ (mem_uc main_v0_1 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.GenP

end
-- ==== Proof.LibSplitLinearDef.lean ====
/-
  A linear layer whose input is split in two column groups.

  For a table of M rows the layer takes the two groups x1 : [M, K1] and x2 : [M, K2], a weight block for each,
  w1 : [K1, N] and w2 : [K2, N], and a bias laid as a one-row table b : [1, N].  Entry (p, q) of the result is

      (sum over c < K1 of x1 (p, c) * w1 (c, q)) + (sum over c < K2 of x2 (p, c) * w2 (c, q)) + b (0, q),

  on the extended reals.  The rectified layer takes the maximum of that entry and 0.
-/
import Idealize.ShloMosaic.PureOps.Ideal
import Idealize.ShloMosaic.Lib.ValueIdx

noncomputable section

open scoped BigOperators

namespace Cert.SplitLinear

open Idealize.ShloMosaic Idealize.ShloMosaic.ValueIdx

variable {M K1 K2 N : Nat}

/-- The split linear layer, entry by entry. -/
def lin (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) : (⟨2, ![M, N]⟩ : Shape).Idx → EReal :=
  fun i => (∑ c : Fin K1, x1 (ix2 (i 0) c) * w1 (ix2 c (i 1))) + (∑ c : Fin K2, x2 (ix2 (i 0) c) * w2 (ix2 c (i 1)))
    + b (ix2 (0 : Fin 1) (i 1))

/-- The layer at the entry of row p and column q. -/
theorem lin_apply (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) (p : Fin M) (q : Fin N) :
    lin x1 x2 w1 w2 b (ix2 p q)
      = (∑ c : Fin K1, x1 (ix2 p c) * w1 (ix2 c q)) + (∑ c : Fin K2, x2 (ix2 p c) * w2 (ix2 c q)) + b (ix2 (0 : Fin 1) q) := rfl

/-- The rectified layer: the maximum of the layer's entry and 0. -/
def linRelu (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) : (⟨2, ![M, N]⟩ : Shape).Idx → EReal :=
  fun i => max (lin x1 x2 w1 w2 b i) 0

/-- The rectified layer at the entry of row p and column q. -/
theorem linRelu_apply (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) (p : Fin M) (q : Fin N) :
    linRelu x1 x2 w1 w2 b (ix2 p q)
      = max ((∑ c : Fin K1, x1 (ix2 p c) * w1 (ix2 c q)) + (∑ c : Fin K2, x2 (ix2 p c) * w2 (ix2 c q)) + b (ix2 (0 : Fin 1) q)) 0 := rfl

end Cert.SplitLinear

end
-- ==== Proof.TreeSpec.lean ====
/-
  The Child-Sum Tree-LSTM on a complete binary tree of 15 levels in heap layout (node r's children are the nodes
  2r+1 and 2r+2; level l is the 2^l nodes 2^l - 1 … 2^(l+1) - 2), as functions on the extended reals.

  A node with input row x and children (h_l, c_l), (h_r, c_r) computes, with the gate weights split in the block
  that meets x and the block that meets h,

      i  = σ (x·Wix + (h_l + h_r)·Wih + bi)        o = σ (x·Wox + (h_l + h_r)·Woh + bo)
      u  = tanh (x·Wux + (h_l + h_r)·Wuh + bu)
      f_l = σ (x·Wfx + h_l·Wfh + bf)               f_r = σ (x·Wfx + h_r·Wfh + bf)
      c  = (i * u + f_l * c_l) + f_r * c_r         h = o * tanh c,

  every sum grouped as written. A leaf has no children: i, o, u from x alone, c = i * u, h = o * tanh c.
  Inside one level the rows are the level's nodes in order, so in the level below the children of row r are the
  rows 2r and 2r+1. The result is the root's (h, c).
-/
import proofs.«132239_j37117107372689_2_alg».proof.Proof.LibSplitLinearDef
import Idealize.ShloMosaic.PureOps.Ideal
import Idealize.ShloMosaic.Lib.ValueIdx

noncomputable section

open scoped BigOperators

namespace Cert.TreeSpec

open Idealize.ShloMosaic Idealize.ShloMosaic.ValueIdx Cert.SplitLinear

/-- An n × k table of extended reals. -/
abbrev Mat (n k : ℕ) : Type := (⟨2, ![n, k]⟩ : Shape).Idx → EReal
/-- A vector of k extended reals. -/
abbrev Row (k : ℕ) : Type := (⟨1, ![k]⟩ : Shape).Idx → EReal
/-- An n × 2 × 512 table: row r holds the two children of node r side by side. -/
abbrev Cube (n : ℕ) : Type := (⟨3, ![n, 2, 512]⟩ : Shape).Idx → EReal

/-- The weights as the node computation takes them: per gate the block meeting x and the block meeting h, laid
    [input, output], and the bias as a one-row table. -/
structure KParams where
  wix : Mat 512 512
  wih : Mat 512 512
  wfx : Mat 512 512
  wfh : Mat 512 512
  wox : Mat 512 512
  woh : Mat 512 512
  wux : Mat 512 512
  wuh : Mat 512 512
  bi : Mat 1 512
  bf : Mat 1 512
  bo : Mat 1 512
  bu : Mat 1 512

/-- A leaf's pre-activation: x·W + b, entry by entry. -/
def linLeaf {n : ℕ} (x : Mat n 512) (w : Mat 512 512) (b : Mat 1 512) : Mat n 512 :=
  fun i => (∑ c : Fin 512, x (ix2 (i 0) c) * w (ix2 c (i 1))) + b (ix2 (0 : Fin 1) (i 1))

/-- The cell state from the five pre-activations and the children's cell states. -/
def cellC {n : ℕ} (zi zu zl zr cl cr : Mat n 512) : Mat n 512 :=
  fun i => (Ideal.logistic (zi i) * Ideal.tanh (zu i) + Ideal.logistic (zl i) * cl i) + Ideal.logistic (zr i) * cr i

/-- The hidden state from the output gate's pre-activation and the cell state. -/
def cellH {n : ℕ} (zo c : Mat n 512) : Mat n 512 :=
  fun i => Ideal.logistic (zo i) * Ideal.tanh (c i)

/-- The entrywise sum of two tables. -/
def hsum {n : ℕ} (a b : Mat n 512) : Mat n 512 := fun i => a i + b i

/-- A leaf level's cell states. -/
def leafC (q : KParams) {n : ℕ} (x : Mat n 512) : Mat n 512 :=
  fun i => Ideal.logistic (linLeaf x q.wix q.bi i) * Ideal.tanh (linLeaf x q.wux q.bu i)
/-- A leaf level's hidden states. -/
def leafH (q : KParams) {n : ℕ} (x : Mat n 512) : Mat n 512 :=
  cellH (linLeaf x q.wox q.bo) (leafC q x)

/-- An inner level's cell states from the level's inputs and the children's states. -/
def innerC (q : KParams) {n : ℕ} (x hl hr cl cr : Mat n 512) : Mat n 512 :=
  cellC (lin x (hsum hl hr) q.wix q.wih q.bi) (lin x (hsum hl hr) q.wux q.wuh q.bu)
    (lin x hl q.wfx q.wfh q.bf) (lin x hr q.wfx q.wfh q.bf) cl cr
/-- An inner level's hidden states. -/
def innerH (q : KParams) {n : ℕ} (x hl hr cl cr : Mat n 512) : Mat n 512 :=
  cellH (lin x (hsum hl hr) q.wox q.woh q.bo) (innerC q x hl hr cl cr)

/-- The left (s = 0) or right (s = 1) children of a level's nodes, from the level below: row 2r + s. -/
def child (s : Fin 2) {n m : ℕ} (hm : m = 2 * n) (H : Mat m 512) : Mat n 512 :=
  fun i => H (ix2 ⟨2 * (i 0).val + s.val, by have h0 : (i 0).val < n := (i 0).isLt; have := s.isLt; omega⟩ (i 1))

/-- The same children read off the level below laid n × 2 × 512. -/
def sel (s : Fin 2) {n : ℕ} (A : Cube n) : Mat n 512 := fun i => A (ix3 (i 0) s (i 1))

/-- The n rows of x from row s on: a level's inputs. -/
def rows (s : ℕ) {n N : ℕ} (hs : s + n ≤ N) (x : Mat N 512) : Mat n 512 :=
  fun i => x (ix2 ⟨s + (i 0).val, by have h0 : (i 0).val < n := (i 0).isLt; omega⟩ (i 1))

/-- A leaf level's (h, c). -/
def leaf (q : KParams) (s : ℕ) {n N : ℕ} (hs : s + n ≤ N) (x : Mat N 512) : Mat n 512 × Mat n 512 :=
  (leafH q (rows s hs x), leafC q (rows s hs x))

/-- An inner level's (h, c) from the level below. -/
def level (q : KParams) {n m N : ℕ} (hm : m = 2 * n) (s : ℕ) (hs : s + n ≤ N) (x : Mat N 512)
    (prev : Mat m 512 × Mat m 512) : Mat n 512 × Mat n 512 :=
  (innerH q (rows s hs x) (child 0 hm prev.1) (child 1 hm prev.1) (child 0 hm prev.2) (child 1 hm prev.2),
   innerC q (rows s hs x) (child 0 hm prev.1) (child 1 hm prev.1) (child 0 hm prev.2) (child 1 hm prev.2))

/-- Level 14: the 16384 leaves 16383 … 32766. -/
def L14 (q : KParams) (x : Mat 32767 512) : Mat 16384 512 × Mat 16384 512 :=
  leaf q 16383 (by norm_num : 16383 + 16384 ≤ 32767) x
/-- Level 13: the 8192 nodes 8191 … 16382, each from its two children in level 14. -/
def L13 (q : KParams) (x : Mat 32767 512) : Mat 8192 512 × Mat 8192 512 :=
  level q (by norm_num : 16384 = 2 * 8192) 8191 (by norm_num : 8191 + 8192 ≤ 32767) x (L14 q x)
/-- Level 12: the 4096 nodes 4095 … 8190, each from its two children in level 13. -/
def L12 (q : KParams) (x : Mat 32767 512) : Mat 4096 512 × Mat 4096 512 :=
  level q (by norm_num : 8192 = 2 * 4096) 4095 (by norm_num : 4095 + 4096 ≤ 32767) x (L13 q x)
/-- Level 11: the 2048 nodes 2047 … 4094, each from its two children in level 12. -/
def L11 (q : KParams) (x : Mat 32767 512) : Mat 2048 512 × Mat 2048 512 :=
  level q (by norm_num : 4096 = 2 * 2048) 2047 (by norm_num : 2047 + 2048 ≤ 32767) x (L12 q x)
/-- Level 10: the 1024 nodes 1023 … 2046, each from its two children in level 11. -/
def L10 (q : KParams) (x : Mat 32767 512) : Mat 1024 512 × Mat 1024 512 :=
  level q (by norm_num : 2048 = 2 * 1024) 1023 (by norm_num : 1023 + 1024 ≤ 32767) x (L11 q x)
/-- Level 9: the 512 nodes 511 … 1022, each from its two children in level 10. -/
def L9 (q : KParams) (x : Mat 32767 512) : Mat 512 512 × Mat 512 512 :=
  level q (by norm_num : 1024 = 2 * 512) 511 (by norm_num : 511 + 512 ≤ 32767) x (L10 q x)
/-- Level 8: the 256 nodes 255 … 510, each from its two children in level 9. -/
def L8 (q : KParams) (x : Mat 32767 512) : Mat 256 512 × Mat 256 512 :=
  level q (by norm_num : 512 = 2 * 256) 255 (by norm_num : 255 + 256 ≤ 32767) x (L9 q x)
/-- Level 7: the 128 nodes 127 … 254, each from its two children in level 8. -/
def L7 (q : KParams) (x : Mat 32767 512) : Mat 128 512 × Mat 128 512 :=
  level q (by norm_num : 256 = 2 * 128) 127 (by norm_num : 127 + 128 ≤ 32767) x (L8 q x)
/-- Level 6: the 64 nodes 63 … 126, each from its two children in level 7. -/
def L6 (q : KParams) (x : Mat 32767 512) : Mat 64 512 × Mat 64 512 :=
  level q (by norm_num : 128 = 2 * 64) 63 (by norm_num : 63 + 64 ≤ 32767) x (L7 q x)
/-- Level 5: the 32 nodes 31 … 62, each from its two children in level 6. -/
def L5 (q : KParams) (x : Mat 32767 512) : Mat 32 512 × Mat 32 512 :=
  level q (by norm_num : 64 = 2 * 32) 31 (by norm_num : 31 + 32 ≤ 32767) x (L6 q x)
/-- Level 4: the 16 nodes 15 … 30, each from its two children in level 5. -/
def L4 (q : KParams) (x : Mat 32767 512) : Mat 16 512 × Mat 16 512 :=
  level q (by norm_num : 32 = 2 * 16) 15 (by norm_num : 15 + 16 ≤ 32767) x (L5 q x)
/-- Level 3: the 8 nodes 7 … 14, each from its two children in level 4. -/
def L3 (q : KParams) (x : Mat 32767 512) : Mat 8 512 × Mat 8 512 :=
  level q (by norm_num : 16 = 2 * 8) 7 (by norm_num : 7 + 8 ≤ 32767) x (L4 q x)
/-- Level 2: the 4 nodes 3 … 6, each from its two children in level 3. -/
def L2 (q : KParams) (x : Mat 32767 512) : Mat 4 512 × Mat 4 512 :=
  level q (by norm_num : 8 = 2 * 4) 3 (by norm_num : 3 + 4 ≤ 32767) x (L3 q x)
/-- Level 1: the 2 nodes 1 … 2, each from its two children in level 2. -/
def L1 (q : KParams) (x : Mat 32767 512) : Mat 2 512 × Mat 2 512 :=
  level q (by norm_num : 4 = 2 * 2) 1 (by norm_num : 1 + 2 ≤ 32767) x (L2 q x)
/-- Level 0: the 1 node 0 … 0, each from its two children in level 1. -/
def L0 (q : KParams) (x : Mat 32767 512) : Mat 1 512 × Mat 1 512 :=
  level q (by norm_num : 2 = 2 * 1) 0 (by norm_num : 0 + 1 ≤ 32767) x (L1 q x)

/-- The root's hidden state. -/
def rootH (q : KParams) (x : Mat 32767 512) : Row 512 := fun i => (L0 q x).1 (ix2 (0 : Fin 1) (i 0))
/-- The root's cell state. -/
def rootC (q : KParams) (x : Mat 32767 512) : Row 512 := fun i => (L0 q x).2 (ix2 (0 : Fin 1) (i 0))

/-! ## The ten levels 9 … 0 as one computation from level 10's (h, c) and the first 1023 rows of x -/

/-- The fused top's level 9 (512 nodes), over the first 1023 rows of x. -/
def T9 (q : KParams) (xt : Mat 1023 512) (prev : Mat 1024 512 × Mat 1024 512) : Mat 512 512 × Mat 512 512 :=
  level q (by norm_num : 1024 = 2 * 512) 511 (by norm_num : 511 + 512 ≤ 1023) xt prev
/-- The fused top's level 8 (256 nodes), over the first 1023 rows of x. -/
def T8 (q : KParams) (xt : Mat 1023 512) (prev : Mat 1024 512 × Mat 1024 512) : Mat 256 512 × Mat 256 512 :=
  level q (by norm_num : 512 = 2 * 256) 255 (by norm_num : 255 + 256 ≤ 1023) xt (T9 q xt prev)
/-- The fused top's level 7 (128 nodes), over the first 1023 rows of x. -/
def T7 (q : KParams) (xt : Mat 1023 512) (prev : Mat 1024 512 × Mat 1024 512) : Mat 128 512 × Mat 128 512 :=
  level q (by norm_num : 256 = 2 * 128) 127 (by norm_num : 127 + 128 ≤ 1023) xt (T8 q xt prev)
/-- The fused top's level 6 (64 nodes), over the first 1023 rows of x. -/
def T6 (q : KParams) (xt : Mat 1023 512) (prev : Mat 1024 512 × Mat 1024 512) : Mat 64 512 × Mat 64 512 :=
  level q (by norm_num : 128 = 2 * 64) 63 (by norm_num : 63 + 64 ≤ 1023) xt (T7 q xt prev)
/-- The fused top's level 5 (32 nodes), over the first 1023 rows of x. -/
def T5 (q : KParams) (xt : Mat 1023 512) (prev : Mat 1024 512 × Mat 1024 512) : Mat 32 512 × Mat 32 512 :=
  level q (by norm_num : 64 = 2 * 32) 31 (by norm_num : 31 + 32 ≤ 1023) xt (T6 q xt prev)
/-- The fused top's level 4 (16 nodes), over the first 1023 rows of x. -/
def T4 (q : KParams) (xt : Mat 1023 512) (prev : Mat 1024 512 × Mat 1024 512) : Mat 16 512 × Mat 16 512 :=
  level q (by norm_num : 32 = 2 * 16) 15 (by norm_num : 15 + 16 ≤ 1023) xt (T5 q xt prev)
/-- The fused top's level 3 (8 nodes), over the first 1023 rows of x. -/
def T3 (q : KParams) (xt : Mat 1023 512) (prev : Mat 1024 512 × Mat 1024 512) : Mat 8 512 × Mat 8 512 :=
  level q (by norm_num : 16 = 2 * 8) 7 (by norm_num : 7 + 8 ≤ 1023) xt (T4 q xt prev)
/-- The fused top's level 2 (4 nodes), over the first 1023 rows of x. -/
def T2 (q : KParams) (xt : Mat 1023 512) (prev : Mat 1024 512 × Mat 1024 512) : Mat 4 512 × Mat 4 512 :=
  level q (by norm_num : 8 = 2 * 4) 3 (by norm_num : 3 + 4 ≤ 1023) xt (T3 q xt prev)
/-- The fused top's level 1 (2 nodes), over the first 1023 rows of x. -/
def T1 (q : KParams) (xt : Mat 1023 512) (prev : Mat 1024 512 × Mat 1024 512) : Mat 2 512 × Mat 2 512 :=
  level q (by norm_num : 4 = 2 * 2) 1 (by norm_num : 1 + 2 ≤ 1023) xt (T2 q xt prev)
/-- The fused top's level 0 (1 node), over the first 1023 rows of x. -/
def T0 (q : KParams) (xt : Mat 1023 512) (prev : Mat 1024 512 × Mat 1024 512) : Mat 1 512 × Mat 1 512 :=
  level q (by norm_num : 2 = 2 * 1) 0 (by norm_num : 0 + 1 ≤ 1023) xt (T1 q xt prev)

/-! ## The weights as the arguments give them -/

/-- The block of a gate's [512, 1024] weight table that meets x, laid [input, output]: entry (k, j) is W (j, k). -/
def wx (W : Mat 512 1024) : Mat 512 512 :=
  fun i => W (ix2 (i 1) ⟨(i 0).val, by have h0 : (i 0).val < 512 := (i 0).isLt; omega⟩)
/-- The block that meets h, laid [input, output]: entry (k, j) is W (j, 512 + k). -/
def wh (W : Mat 512 1024) : Mat 512 512 :=
  fun i => W (ix2 (i 1) ⟨512 + (i 0).val, by have h0 : (i 0).val < 512 := (i 0).isLt; omega⟩)
/-- A bias vector as a one-row table. -/
def brow (b : Row 512) : Mat 1 512 := fun i => b (ix1 (i 1))

/-- The node computation's weights from the four gates' tables and biases. -/
def split (Wi : Mat 512 1024) (bi : Row 512) (Wf : Mat 512 1024) (bf : Row 512) (Wo : Mat 512 1024) (bo : Row 512)
    (Wu : Mat 512 1024) (bu : Row 512) : KParams :=
  ⟨wx Wi, wh Wi, wx Wf, wh Wf, wx Wo, wh Wo, wx Wu, wh Wu, brow bi, brow bf, brow bo, brow bu⟩

end Cert.TreeSpec

end
-- ==== Proof.KTreeDefs.lean ====
/-
  The node computation's weights as a kernel region finds them: the eight [512, 512] weight blocks and the four
  one-row biases are twelve buffers of the idealized kernel's program, written once before the first region.
-/
import proofs.«132239_j37117107372689_2_alg».proof.KernelIdeal
import proofs.«132239_j37117107372689_2_alg».proof.Proof.TreeSpec

noncomputable section

namespace Cert.KTree

open Idealize.ShloMosaic Idealize.ShloMosaic.TcCoe Idealize.SL.Sem Cert.KernelIdeal

/-- The weights read off a core's buffer contents `V`: Wix, Wih, Wfx, Wfh, Wox, Woh, Wux, Wuh, then the biases of
    the gates i, f, o, u as one-row tables. -/
def kpOf (V : (c : Dev nD) → (b : Ref sig .tc) → Buf (Elt Ideal) ((c : Thread nD τ).loc b)) (c : Dev nD) : TreeSpec.KParams :=
  ⟨V c main_call0_v1, V c main_call0_v3, V c main_call0_v5, V c main_call0_v7, V c main_call0_v9, V c main_call0_v11,
   V c main_call0_v13, V c main_call0_v15, V c main_call0_v16, V c main_call0_v17, V c main_call0_v18, V c main_call0_v19⟩

end Cert.KTree

end
-- ==== Proof.TreeLayout.lean ====
/-
  The layout operations around the kernel's regions, read as the specification's: the rows of x a level takes, the
  two blocks of a gate's weight table transposed to [input, output], a bias as a one-row table, the two children
  of each node picked out of the level below laid n × 2 × 512, and the root's row as a vector. And the ten upper
  levels computed from level 10 and the first 1023 rows of x are the levels 9 … 0 of the whole tree: rows s … of the
  first 1023 rows are rows s … of x.
-/
import proofs.«132239_j37117107372689_2_alg».proof.Proof.TreeSpec
import Idealize.ShloMosaic.Lib.Pipeline.Value
import Idealize.ShloMosaic.Lib.ValueIdx

noncomputable section

namespace Cert.TreeLayout

open Idealize.ShloMosaic Idealize.ShloMosaic.ValueIdx Cert.TreeSpec

/-- The n rows from row s on, cut out of x. -/
theorem slice_rows {n N : ℕ} (s : ℕ) (hs : s + n ≤ N) (x : Mat N 512)
    (h : (⟨2, ![N, 512]⟩ : Shape).Slices ![s, 0] ⟨2, ![n, 512]⟩) :
    extractStridedSlice ⟨2, ![n, 512]⟩ ![s, 0] x h = rows s hs x := by
  funext j
  refine extractStridedSlice_apply _ x h j _ fun a => ?_
  match a with
  | ⟨0, _⟩ => rfl
  | ⟨1, _⟩ => exact (Nat.zero_add _).symm

/-- The left half of a weight table's columns, transposed: entry (k, j) is W (j, k). -/
theorem transpose_slice_left (W : Mat 512 1024)
    (hs : (⟨2, ![512, 1024]⟩ : Shape).Slices ![0, 0] ⟨2, ![512, 512]⟩)
    (ht : (⟨2, ![512, 512]⟩ : Shape).Transposes [1, 0] ⟨2, ![512, 512]⟩) :
    transpose ⟨2, ![512, 512]⟩ [1, 0] (extractStridedSlice ⟨2, ![512, 512]⟩ ![0, 0] W hs) ht = wx W := by
  funext j
  rw [transpose_apply [1, 0] _ ht j (ix2 (j 1) (j 0)) fun b => by match b with | ⟨0, _⟩ => rfl | ⟨1, _⟩ => rfl]
  refine extractStridedSlice_apply _ W hs _ _ fun a => ?_
  match a with
  | ⟨0, _⟩ => exact (Nat.zero_add _).symm
  | ⟨1, _⟩ => exact (Nat.zero_add _).symm

/-- The right half of a weight table's columns, transposed: entry (k, j) is W (j, 512 + k). -/
theorem transpose_slice_right (W : Mat 512 1024)
    (hs : (⟨2, ![512, 1024]⟩ : Shape).Slices ![0, 512] ⟨2, ![512, 512]⟩)
    (ht : (⟨2, ![512, 512]⟩ : Shape).Transposes [1, 0] ⟨2, ![512, 512]⟩) :
    transpose ⟨2, ![512, 512]⟩ [1, 0] (extractStridedSlice ⟨2, ![512, 512]⟩ ![0, 512] W hs) ht = wh W := by
  funext j
  rw [transpose_apply [1, 0] _ ht j (ix2 (j 1) (j 0)) fun b => by match b with | ⟨0, _⟩ => rfl | ⟨1, _⟩ => rfl]
  refine extractStridedSlice_apply _ W hs _ _ fun a => ?_
  match a with
  | ⟨0, _⟩ => exact (Nat.zero_add _).symm
  | ⟨1, _⟩ => rfl

/-- A bias vector laid as a one-row table. -/
theorem row_of_bias (b : Row 512) (h : (⟨1, ![512]⟩ : Shape).ShapeCasts ⟨2, ![1, 512]⟩) :
    shapeCast ⟨2, ![1, 512]⟩ b h = brow b := by
  funext j
  refine shapeCast_apply b h j (ix1 (j 1)) ?_
  have h0 : (j 0).val = 0 := by have := idx2_lt0 j; omega
  rw [Shape.rowMajor_val_one, Shape.rowMajor_val_two]
  show (j 1).val = (j 0).val * 512 + (j 1).val
  omega

/-- The level below, m = 2n rows, laid n × 2 × 512: its entry (r, s, k) is row 2r + s, so picking s picks the
    left or the right child of every node. -/
theorem sel_shapeCast (s : Fin 2) {n m : ℕ} (hm : m = 2 * n) (H : Mat m 512)
    (h : (⟨2, ![m, 512]⟩ : Shape).ShapeCasts ⟨3, ![n, 2, 512]⟩) :
    sel s (shapeCast ⟨3, ![n, 2, 512]⟩ H h) = child s hm H := by
  funext i
  refine shapeCast_apply H h (ix3 (i 0) s (i 1)) _ ?_
  rw [Shape.rowMajor_val_two, Shape.rowMajor_val_three]
  show (2 * (i 0).val + s.val) * 512 + (i 1).val = ((i 0).val * 2 + s.val) * 512 + (i 1).val
  omega

/-- The root's one row as a vector. -/
theorem vec_of_row (A : Mat 1 512) (h : (⟨2, ![1, 512]⟩ : Shape).ShapeCasts ⟨1, ![512]⟩) :
    shapeCast ⟨1, ![512]⟩ A h = fun i => A (ix2 (0 : Fin 1) (i 0)) := by
  funext i
  refine shapeCast_apply A h i (ix2 (0 : Fin 1) (i 0)) ?_
  rw [Shape.rowMajor_val_two, Shape.rowMajor_val_one]
  show 0 * 512 + (i 0).val = (i 0).val
  omega

/-! ## The upper ten levels over the first 1023 rows -/

theorem h1023 : 0 + 1023 ≤ 32767 := by norm_num

/-- Rows of the leading rows are rows of the whole. -/
theorem rows_rows {n N N' : ℕ} (s : ℕ) (hs : s + n ≤ N') (h0 : 0 + N' ≤ N) (hs' : s + n ≤ N) (x : Mat N 512) :
    rows s hs (rows 0 h0 x) = rows s hs' x := by
  funext i
  exact congrArg x (funext fun d => by
    match d with
    | ⟨0, _⟩ => exact Fin.ext (Nat.zero_add _)
    | ⟨1, _⟩ => rfl)

theorem level_rows (q : KParams) {n m N N' : ℕ} (hm : m = 2 * n) (s : ℕ) (hs : s + n ≤ N') (h0 : 0 + N' ≤ N)
    (hs' : s + n ≤ N) (x : Mat N 512) (prev : Mat m 512 × Mat m 512) :
    level q hm s hs (rows 0 h0 x) prev = level q hm s hs' x prev := by
  unfold level
  rw [rows_rows s hs h0 hs' x]

theorem T9_eq (q : KParams) (x : Mat 32767 512) : T9 q (rows 0 h1023 x) (L10 q x) = L9 q x := by
  unfold T9 L9
  exact level_rows q _ _ _ h1023 _ x _
theorem T8_eq (q : KParams) (x : Mat 32767 512) : T8 q (rows 0 h1023 x) (L10 q x) = L8 q x := by
  unfold T8 L8
  rw [T9_eq]
  exact level_rows q _ _ _ h1023 _ x _
theorem T7_eq (q : KParams) (x : Mat 32767 512) : T7 q (rows 0 h1023 x) (L10 q x) = L7 q x := by
  unfold T7 L7
  rw [T8_eq]
  exact level_rows q _ _ _ h1023 _ x _
theorem T6_eq (q : KParams) (x : Mat 32767 512) : T6 q (rows 0 h1023 x) (L10 q x) = L6 q x := by
  unfold T6 L6
  rw [T7_eq]
  exact level_rows q _ _ _ h1023 _ x _
theorem T5_eq (q : KParams) (x : Mat 32767 512) : T5 q (rows 0 h1023 x) (L10 q x) = L5 q x := by
  unfold T5 L5
  rw [T6_eq]
  exact level_rows q _ _ _ h1023 _ x _
theorem T4_eq (q : KParams) (x : Mat 32767 512) : T4 q (rows 0 h1023 x) (L10 q x) = L4 q x := by
  unfold T4 L4
  rw [T5_eq]
  exact level_rows q _ _ _ h1023 _ x _
theorem T3_eq (q : KParams) (x : Mat 32767 512) : T3 q (rows 0 h1023 x) (L10 q x) = L3 q x := by
  unfold T3 L3
  rw [T4_eq]
  exact level_rows q _ _ _ h1023 _ x _
theorem T2_eq (q : KParams) (x : Mat 32767 512) : T2 q (rows 0 h1023 x) (L10 q x) = L2 q x := by
  unfold T2 L2
  rw [T3_eq]
  exact level_rows q _ _ _ h1023 _ x _
theorem T1_eq (q : KParams) (x : Mat 32767 512) : T1 q (rows 0 h1023 x) (L10 q x) = L1 q x := by
  unfold T1 L1
  rw [T2_eq]
  exact level_rows q _ _ _ h1023 _ x _
theorem T0_eq (q : KParams) (x : Mat 32767 512) : T0 q (rows 0 h1023 x) (L10 q x) = L0 q x := by
  unfold T0 L0
  rw [T1_eq]
  exact level_rows q _ _ _ h1023 _ x _

end Cert.TreeLayout

end
-- ==== Proof.KWalk.lean ====
/-
  What each region of the idealized kernel finds in its entry buffers, read off the launch memory.

  Between the regions the host only cuts rows out of x, transposes halves of the weight tables, lays the biases as
  rows and lays a level's (h, c) n × 2 × 512; a region changes no buffer except its two outputs. So at every
  region's entry the twelve weight buffers hold the specification's split weights of the launch memory, the x
  buffer holds the level's rows of x, and the h and c buffers hold the previous region's two outputs re-laid.
-/
import proofs.«132239_j37117107372689_2_alg».proof.Proof.KernelIdealFrame
import proofs.«132239_j37117107372689_2_alg».proof.Proof.KTreeDefs
import proofs.«132239_j37117107372689_2_alg».proof.Proof.TreeLayout
import Idealize.ShloMosaic.Lib.StableHlo.Run

set_option maxRecDepth 16384

noncomputable section

namespace Cert.KTree

open Idealize.ShloMosaic Idealize.ShloMosaic.TcCoe Idealize.SL.Sem Idealize.ShloMosaic.StableHlo
open Cert.KernelIdeal Cert.KernelIdeal.Gen Cert.KernelIdeal.GenP Cert.TreeSpec Cert.TreeLayout
open Idealize.ShloMosaic.Pipeline (Dat)

/-- No operation of the stretch writes the buffer. -/
macro "not_written" ops:ident : tactic => `(tactic|
  (refine List.forall_iff_forall_mem.mp ?_
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The host stretches, from any contents -/

section Stretches
variable (Wv : Valuation τ sig (Elt Ideal))

theorem host0_v1 : after (hostOps0 (F := Ideal)) Wv (Proc.devRef .tc main_call0_v1) = transpose S512x512 [1, 0] (extractStridedSlice S512x512 ![0, 0] (Wv (Proc.devRef .tc main_arg1)) slices_S512x1024_S512x512_0_0) transposes_S512x512_S512x512_1_0 := by
  after_results; rfl
theorem host0_v3 : after (hostOps0 (F := Ideal)) Wv (Proc.devRef .tc main_call0_v3) = transpose S512x512 [1, 0] (extractStridedSlice S512x512 ![0, 512] (Wv (Proc.devRef .tc main_arg1)) slices_S512x1024_S512x512_0_512) transposes_S512x512_S512x512_1_0 := by
  after_results; rfl
theorem host0_v5 : after (hostOps0 (F := Ideal)) Wv (Proc.devRef .tc main_call0_v5) = transpose S512x512 [1, 0] (extractStridedSlice S512x512 ![0, 0] (Wv (Proc.devRef .tc main_arg3)) slices_S512x1024_S512x512_0_0) transposes_S512x512_S512x512_1_0 := by
  after_results; rfl
theorem host0_v7 : after (hostOps0 (F := Ideal)) Wv (Proc.devRef .tc main_call0_v7) = transpose S512x512 [1, 0] (extractStridedSlice S512x512 ![0, 512] (Wv (Proc.devRef .tc main_arg3)) slices_S512x1024_S512x512_0_512) transposes_S512x512_S512x512_1_0 := by
  after_results; rfl
theorem host0_v9 : after (hostOps0 (F := Ideal)) Wv (Proc.devRef .tc main_call0_v9) = transpose S512x512 [1, 0] (extractStridedSlice S512x512 ![0, 0] (Wv (Proc.devRef .tc main_arg5)) slices_S512x1024_S512x512_0_0) transposes_S512x512_S512x512_1_0 := by
  after_results; rfl
theorem host0_v11 : after (hostOps0 (F := Ideal)) Wv (Proc.devRef .tc main_call0_v11) = transpose S512x512 [1, 0] (extractStridedSlice S512x512 ![0, 512] (Wv (Proc.devRef .tc main_arg5)) slices_S512x1024_S512x512_0_512) transposes_S512x512_S512x512_1_0 := by
  after_results; rfl
theorem host0_v13 : after (hostOps0 (F := Ideal)) Wv (Proc.devRef .tc main_call0_v13) = transpose S512x512 [1, 0] (extractStridedSlice S512x512 ![0, 0] (Wv (Proc.devRef .tc main_arg7)) slices_S512x1024_S512x512_0_0) transposes_S512x512_S512x512_1_0 := by
  after_results; rfl
theorem host0_v15 : after (hostOps0 (F := Ideal)) Wv (Proc.devRef .tc main_call0_v15) = transpose S512x512 [1, 0] (extractStridedSlice S512x512 ![0, 512] (Wv (Proc.devRef .tc main_arg7)) slices_S512x1024_S512x512_0_512) transposes_S512x512_S512x512_1_0 := by
  after_results; rfl
theorem host0_v16 : after (hostOps0 (F := Ideal)) Wv (Proc.devRef .tc main_call0_v16) = shapeCast _ (Wv (Proc.devRef .tc main_arg2)) shapeCasts_S512_S1x512 := by
  after_results; rfl
theorem host0_v17 : after (hostOps0 (F := Ideal)) Wv (Proc.devRef .tc main_call0_v17) = shapeCast _ (Wv (Proc.devRef .tc main_arg4)) shapeCasts_S512_S1x512 := by
  after_results; rfl
theorem host0_v18 : after (hostOps0 (F := Ideal)) Wv (Proc.devRef .tc main_call0_v18) = shapeCast _ (Wv (Proc.devRef .tc main_arg6)) shapeCasts_S512_S1x512 := by
  after_results; rfl
theorem host0_v19 : after (hostOps0 (F := Ideal)) Wv (Proc.devRef .tc main_call0_v19) = shapeCast _ (Wv (Proc.devRef .tc main_arg8)) shapeCasts_S512_S1x512 := by
  after_results; rfl
theorem host0_x : after (hostOps0 (F := Ideal)) Wv (Proc.devRef .tc main_call0_v20) = extractStridedSlice S16384x512 ![16383, 0] (Wv (Proc.devRef .tc main_arg0)) slices_S32767x512_S16384x512_16383_0 := by
  after_results; rfl
theorem host1_x : after (hostOps1 (F := Ideal)) Wv (Proc.devRef .tc main_call0_v22) = extractStridedSlice S8192x512 ![8191, 0] (Wv (Proc.devRef .tc main_arg0)) slices_S32767x512_S8192x512_8191_0 := by
  after_results; rfl
theorem host1_h : after (hostOps1 (F := Ideal)) Wv (Proc.devRef .tc main_call0_v23) = shapeCast _ (Wv (Proc.devRef .tc main_call0_v21_0)) shapeCasts_S16384x512_S8192x2x512 := by
  after_results; rfl
theorem host1_c : after (hostOps1 (F := Ideal)) Wv (Proc.devRef .tc main_call0_v24) = shapeCast _ (Wv (Proc.devRef .tc main_call0_v21_1)) shapeCasts_S16384x512_S8192x2x512 := by
  after_results; rfl
theorem host2_x : after (hostOps2 (F := Ideal)) Wv (Proc.devRef .tc main_call0_v26) = extractStridedSlice S4096x512 ![4095, 0] (Wv (Proc.devRef .tc main_arg0)) slices_S32767x512_S4096x512_4095_0 := by
  after_results; rfl
theorem host2_h : after (hostOps2 (F := Ideal)) Wv (Proc.devRef .tc main_call0_v27) = shapeCast _ (Wv (Proc.devRef .tc main_call0_v25_0)) shapeCasts_S8192x512_S4096x2x512 := by
  after_results; rfl
theorem host2_c : after (hostOps2 (F := Ideal)) Wv (Proc.devRef .tc main_call0_v28) = shapeCast _ (Wv (Proc.devRef .tc main_call0_v25_1)) shapeCasts_S8192x512_S4096x2x512 := by
  after_results; rfl
theorem host3_x : after (hostOps3 (F := Ideal)) Wv (Proc.devRef .tc main_call0_v30) = extractStridedSlice S2048x512 ![2047, 0] (Wv (Proc.devRef .tc main_arg0)) slices_S32767x512_S2048x512_2047_0 := by
  after_results; rfl
theorem host3_h : after (hostOps3 (F := Ideal)) Wv (Proc.devRef .tc main_call0_v31) = shapeCast _ (Wv (Proc.devRef .tc main_call0_v29_0)) shapeCasts_S4096x512_S2048x2x512 := by
  after_results; rfl
theorem host3_c : after (hostOps3 (F := Ideal)) Wv (Proc.devRef .tc main_call0_v32) = shapeCast _ (Wv (Proc.devRef .tc main_call0_v29_1)) shapeCasts_S4096x512_S2048x2x512 := by
  after_results; rfl
theorem host4_x : after (hostOps4 (F := Ideal)) Wv (Proc.devRef .tc main_call0_v34) = extractStridedSlice S1024x512 ![1023, 0] (Wv (Proc.devRef .tc main_arg0)) slices_S32767x512_S1024x512_1023_0 := by
  after_results; rfl
theorem host4_h : after (hostOps4 (F := Ideal)) Wv (Proc.devRef .tc main_call0_v35) = shapeCast _ (Wv (Proc.devRef .tc main_call0_v33_0)) shapeCasts_S2048x512_S1024x2x512 := by
  after_results; rfl
theorem host4_c : after (hostOps4 (F := Ideal)) Wv (Proc.devRef .tc main_call0_v36) = shapeCast _ (Wv (Proc.devRef .tc main_call0_v33_1)) shapeCasts_S2048x512_S1024x2x512 := by
  after_results; rfl
theorem host5_x : after (hostOps5 (F := Ideal)) Wv (Proc.devRef .tc main_call0_v38) = extractStridedSlice S1023x512 ![0, 0] (Wv (Proc.devRef .tc main_arg0)) slices_S32767x512_S1023x512_0_0 := by
  after_results; rfl
theorem host6_h : after (hostOps6 (F := Ideal)) Wv (Proc.devRef .tc main_v0_0) = shapeCast _ (Wv (Proc.devRef .tc main_call0_v39_0)) shapeCasts_S1x512_S512 := by
  after_results; rfl
theorem host6_c : after (hostOps6 (F := Ideal)) Wv (Proc.devRef .tc main_v0_1) = shapeCast _ (Wv (Proc.devRef .tc main_call0_v39_1)) shapeCasts_S1x512_S512 := by
  after_results; rfl

end Stretches

variable (m : (ℓ : Loc nD τ sig) → Buf (Elt Ideal) ℓ) (ρ : Dev nD → PrngReg) (c : Dev nD)

/-! ## A region leaves every buffer that is not one of its outputs -/

theorem keep0 (b : Ref sig .tc) (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases e : (cfg0.win w).isOut
      · rfl
      · exact absurd rfl (hb w e)
    rw [W2_arr m ρ c w, (dat0 (V1 m ρ) c).arrAt_in w hin cfg0.N, A_eq0]
  · exact W2_of_ne m ρ c b fun w e => h ⟨w, e⟩

theorem keep1 (b : Ref sig .tc) (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases e : (cfg1.win w).isOut
      · rfl
      · exact absurd rfl (hb w e)
    rw [W4_arr m ρ c w, (dat1 (V3 m ρ) c).arrAt_in w hin cfg1.N, A_eq1]
  · exact W4_of_ne m ρ c b fun w e => h ⟨w, e⟩

theorem keep2 (b : Ref sig .tc) (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases e : (cfg2.win w).isOut
      · rfl
      · exact absurd rfl (hb w e)
    rw [W6_arr m ρ c w, (dat2 (V5 m ρ) c).arrAt_in w hin cfg2.N, A_eq2]
  · exact W6_of_ne m ρ c b fun w e => h ⟨w, e⟩

theorem keep3 (b : Ref sig .tc) (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases e : (cfg3.win w).isOut
      · rfl
      · exact absurd rfl (hb w e)
    rw [W8_arr m ρ c w, (dat3 (V7 m ρ) c).arrAt_in w hin cfg3.N, A_eq3]
  · exact W8_of_ne m ρ c b fun w e => h ⟨w, e⟩

theorem keep4 (b : Ref sig .tc) (hb : ∀ w : Fin cfg4.W, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases e : (cfg4.win w).isOut
      · rfl
      · exact absurd rfl (hb w e)
    rw [W10_arr m ρ c w, (dat4 (V9 m ρ) c).arrAt_in w hin cfg4.N, A_eq4]
  · exact W10_of_ne m ρ c b fun w e => h ⟨w, e⟩

theorem keep5 (b : Ref sig .tc) (hb : ∀ w : Fin cfg5.W, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases e : (cfg5.win w).isOut
      · rfl
      · exact absurd rfl (hb w e)
    rw [W12_arr m ρ c w, (dat5 (V11 m ρ) c).arrAt_in w hin cfg5.N, A_eq5]
  · exact W12_of_ne m ρ c b fun w e => h ⟨w, e⟩

/-! ## From one region's entry to the next: a stretch, then a region -/

theorem carry1 (b : Ref sig .tc) (hw : ∀ op ∈ (hostOps1 : List (HloOp τ sig (Elt Ideal))), (Proc.devRef .tc b : DevRef τ sig) ∉ op.writes)
    (hb : ∀ w : Fin cfg0.W, (cfg0.win w).isOut = true → Pipeline.arrRef spec0 w ≠ b) :
    W3 m ρ c (Proc.devRef .tc b) = W1 m ρ c (Proc.devRef .tc b) :=
  (after_of_forall_not_mem _ _ hw).trans (keep0 m ρ c b hb)

theorem carry2 (b : Ref sig .tc) (hw : ∀ op ∈ (hostOps2 : List (HloOp τ sig (Elt Ideal))), (Proc.devRef .tc b : DevRef τ sig) ∉ op.writes)
    (hb : ∀ w : Fin cfg1.W, (cfg1.win w).isOut = true → Pipeline.arrRef spec1 w ≠ b) :
    W5 m ρ c (Proc.devRef .tc b) = W3 m ρ c (Proc.devRef .tc b) :=
  (after_of_forall_not_mem _ _ hw).trans (keep1 m ρ c b hb)

theorem carry3 (b : Ref sig .tc) (hw : ∀ op ∈ (hostOps3 : List (HloOp τ sig (Elt Ideal))), (Proc.devRef .tc b : DevRef τ sig) ∉ op.writes)
    (hb : ∀ w : Fin cfg2.W, (cfg2.win w).isOut = true → Pipeline.arrRef spec2 w ≠ b) :
    W7 m ρ c (Proc.devRef .tc b) = W5 m ρ c (Proc.devRef .tc b) :=
  (after_of_forall_not_mem _ _ hw).trans (keep2 m ρ c b hb)

theorem carry4 (b : Ref sig .tc) (hw : ∀ op ∈ (hostOps4 : List (HloOp τ sig (Elt Ideal))), (Proc.devRef .tc b : DevRef τ sig) ∉ op.writes)
    (hb : ∀ w : Fin cfg3.W, (cfg3.win w).isOut = true → Pipeline.arrRef spec3 w ≠ b) :
    W9 m ρ c (Proc.devRef .tc b) = W7 m ρ c (Proc.devRef .tc b) :=
  (after_of_forall_not_mem _ _ hw).trans (keep3 m ρ c b hb)

theorem carry5 (b : Ref sig .tc) (hw : ∀ op ∈ (hostOps5 : List (HloOp τ sig (Elt Ideal))), (Proc.devRef .tc b : DevRef τ sig) ∉ op.writes)
    (hb : ∀ w : Fin cfg4.W, (cfg4.win w).isOut = true → Pipeline.arrRef spec4 w ≠ b) :
    W11 m ρ c (Proc.devRef .tc b) = W9 m ρ c (Proc.devRef .tc b) :=
  (after_of_forall_not_mem _ _ hw).trans (keep4 m ρ c b hb)

/-! ## The launch memory's x and weights -/

/-- The input rows, all 32767 of them. -/
def xin : Mat 32767 512 := m ((c : Thread nD τ).loc main_arg0)

/-- The specification's weights of the launch memory. -/
def q : KParams :=
  split (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- x is in its buffer at every region's entry. -/
theorem arg0_1 : W1 m ρ c (Proc.devRef .tc main_arg0) = xin m c :=
  after_of_forall_not_mem _ _ (by not_written hostOps0)
theorem arg0_3 : W3 m ρ c (Proc.devRef .tc main_arg0) = xin m c :=
  (carry1 m ρ c main_arg0 (by not_written hostOps1) (by decide)).trans (arg0_1 m ρ c)
theorem arg0_5 : W5 m ρ c (Proc.devRef .tc main_arg0) = xin m c :=
  (carry2 m ρ c main_arg0 (by not_written hostOps2) (by decide)).trans (arg0_3 m ρ c)
theorem arg0_7 : W7 m ρ c (Proc.devRef .tc main_arg0) = xin m c :=
  (carry3 m ρ c main_arg0 (by not_written hostOps3) (by decide)).trans (arg0_5 m ρ c)
theorem arg0_9 : W9 m ρ c (Proc.devRef .tc main_arg0) = xin m c :=
  (carry4 m ρ c main_arg0 (by not_written hostOps4) (by decide)).trans (arg0_7 m ρ c)
theorem arg0_11 : W11 m ρ c (Proc.devRef .tc main_arg0) = xin m c :=
  (carry5 m ρ c main_arg0 (by not_written hostOps5) (by decide)).trans (arg0_9 m ρ c)
theorem arg0_0 : W0 m ρ c (Proc.devRef .tc main_arg0) = xin m c := rfl
theorem arg0_2 : W2 m ρ c (Proc.devRef .tc main_arg0) = xin m c :=
  (keep0 m ρ c main_arg0 (by decide)).trans (arg0_1 m ρ c)
theorem arg0_4 : W4 m ρ c (Proc.devRef .tc main_arg0) = xin m c :=
  (keep1 m ρ c main_arg0 (by decide)).trans (arg0_3 m ρ c)
theorem arg0_6 : W6 m ρ c (Proc.devRef .tc main_arg0) = xin m c :=
  (keep2 m ρ c main_arg0 (by decide)).trans (arg0_5 m ρ c)
theorem arg0_8 : W8 m ρ c (Proc.devRef .tc main_arg0) = xin m c :=
  (keep3 m ρ c main_arg0 (by decide)).trans (arg0_7 m ρ c)
theorem arg0_10 : W10 m ρ c (Proc.devRef .tc main_arg0) = xin m c :=
  (keep4 m ρ c main_arg0 (by decide)).trans (arg0_9 m ρ c)

/-- The level's rows of x, at each region's entry. -/
theorem x0 : (V1 m ρ c main_call0_v20 : Mat 16384 512) = rows 16383 (by norm_num) (xin m c) := by
  show after hostOps0 (W0 m ρ c) (Proc.devRef .tc main_call0_v20) = _
  rw [host0_x, arg0_0 m ρ c]
  exact slice_rows 16383 _ _ _
theorem x1 : (V3 m ρ c main_call0_v22 : Mat 8192 512) = rows 8191 (by norm_num) (xin m c) := by
  show after hostOps1 (W2 m ρ c) (Proc.devRef .tc main_call0_v22) = _
  rw [host1_x, arg0_2 m ρ c]
  exact slice_rows 8191 _ _ _
theorem x2 : (V5 m ρ c main_call0_v26 : Mat 4096 512) = rows 4095 (by norm_num) (xin m c) := by
  show after hostOps2 (W4 m ρ c) (Proc.devRef .tc main_call0_v26) = _
  rw [host2_x, arg0_4 m ρ c]
  exact slice_rows 4095 _ _ _
theorem x3 : (V7 m ρ c main_call0_v30 : Mat 2048 512) = rows 2047 (by norm_num) (xin m c) := by
  show after hostOps3 (W6 m ρ c) (Proc.devRef .tc main_call0_v30) = _
  rw [host3_x, arg0_6 m ρ c]
  exact slice_rows 2047 _ _ _
theorem x4 : (V9 m ρ c main_call0_v34 : Mat 1024 512) = rows 1023 (by norm_num) (xin m c) := by
  show after hostOps4 (W8 m ρ c) (Proc.devRef .tc main_call0_v34) = _
  rw [host4_x, arg0_8 m ρ c]
  exact slice_rows 1023 _ _ _
theorem x5 : (V11 m ρ c main_call0_v38 : Mat 1023 512) = rows 0 (by norm_num) (xin m c) := by
  show after hostOps5 (W10 m ρ c) (Proc.devRef .tc main_call0_v38) = _
  rw [host5_x, arg0_10 m ρ c]
  exact slice_rows 0 _ _ _

/-- The weights at the first region's entry. -/
theorem kp1 : kpOf (V1 m ρ) c = q m c := by
  unfold kpOf q split
  congr 1
  · show after hostOps0 (W0 m ρ c) (Proc.devRef .tc main_call0_v1) = _
    rw [host0_v1]
    exact transpose_slice_left _ _ _
  · show after hostOps0 (W0 m ρ c) (Proc.devRef .tc main_call0_v3) = _
    rw [host0_v3]
    exact transpose_slice_right _ _ _
  · show after hostOps0 (W0 m ρ c) (Proc.devRef .tc main_call0_v5) = _
    rw [host0_v5]
    exact transpose_slice_left _ _ _
  · show after hostOps0 (W0 m ρ c) (Proc.devRef .tc main_call0_v7) = _
    rw [host0_v7]
    exact transpose_slice_right _ _ _
  · show after hostOps0 (W0 m ρ c) (Proc.devRef .tc main_call0_v9) = _
    rw [host0_v9]
    exact transpose_slice_left _ _ _
  · show after hostOps0 (W0 m ρ c) (Proc.devRef .tc main_call0_v11) = _
    rw [host0_v11]
    exact transpose_slice_right _ _ _
  · show after hostOps0 (W0 m ρ c) (Proc.devRef .tc main_call0_v13) = _
    rw [host0_v13]
    exact transpose_slice_left _ _ _
  · show after hostOps0 (W0 m ρ c) (Proc.devRef .tc main_call0_v15) = _
    rw [host0_v15]
    exact transpose_slice_right _ _ _
  · show after hostOps0 (W0 m ρ c) (Proc.devRef .tc main_call0_v16) = _
    rw [host0_v16]
    exact row_of_bias _ _
  · show after hostOps0 (W0 m ρ c) (Proc.devRef .tc main_call0_v17) = _
    rw [host0_v17]
    exact row_of_bias _ _
  · show after hostOps0 (W0 m ρ c) (Proc.devRef .tc main_call0_v18) = _
    rw [host0_v18]
    exact row_of_bias _ _
  · show after hostOps0 (W0 m ρ c) (Proc.devRef .tc main_call0_v19) = _
    rw [host0_v19]
    exact row_of_bias _ _

/-- The weights at every later region's entry. -/
theorem kp3 : kpOf (V3 m ρ) c = q m c := by
  refine Eq.trans ?_ (kp1 m ρ c)
  unfold kpOf
  congr 1 <;> exact carry1 m ρ c _ (by not_written hostOps1) (by decide)
theorem kp5 : kpOf (V5 m ρ) c = q m c := by
  refine Eq.trans ?_ (kp3 m ρ c)
  unfold kpOf
  congr 1 <;> exact carry2 m ρ c _ (by not_written hostOps2) (by decide)
theorem kp7 : kpOf (V7 m ρ) c = q m c := by
  refine Eq.trans ?_ (kp5 m ρ c)
  unfold kpOf
  congr 1 <;> exact carry3 m ρ c _ (by not_written hostOps3) (by decide)
theorem kp9 : kpOf (V9 m ρ) c = q m c := by
  refine Eq.trans ?_ (kp7 m ρ c)
  unfold kpOf
  congr 1 <;> exact carry4 m ρ c _ (by not_written hostOps4) (by decide)
theorem kp11 : kpOf (V11 m ρ) c = q m c := by
  refine Eq.trans ?_ (kp9 m ρ c)
  unfold kpOf
  congr 1 <;> exact carry5 m ρ c _ (by not_written hostOps5) (by decide)

/-- A level's (h, c) buffers at a region's entry: the previous region's two outputs, laid n × 2 × 512. -/
theorem h1 : (V3 m ρ c main_call0_v23 : Cube 8192) = shapeCast _ ((dat0 (V1 m ρ) c).arrAt 7 cfg0.N) shapeCasts_S16384x512_S8192x2x512 := by
  show after hostOps1 (W2 m ρ c) (Proc.devRef .tc main_call0_v23) = _
  rw [host1_h]
  exact congrArg (fun A => shapeCast _ A shapeCasts_S16384x512_S8192x2x512) (W2_arr m ρ c 7)
theorem c1 : (V3 m ρ c main_call0_v24 : Cube 8192) = shapeCast _ ((dat0 (V1 m ρ) c).arrAt 8 cfg0.N) shapeCasts_S16384x512_S8192x2x512 := by
  show after hostOps1 (W2 m ρ c) (Proc.devRef .tc main_call0_v24) = _
  rw [host1_c]
  exact congrArg (fun A => shapeCast _ A shapeCasts_S16384x512_S8192x2x512) (W2_arr m ρ c 8)
theorem h2 : (V5 m ρ c main_call0_v27 : Cube 4096) = shapeCast _ ((dat1 (V3 m ρ) c).arrAt 15 cfg1.N) shapeCasts_S8192x512_S4096x2x512 := by
  show after hostOps2 (W4 m ρ c) (Proc.devRef .tc main_call0_v27) = _
  rw [host2_h]
  exact congrArg (fun A => shapeCast _ A shapeCasts_S8192x512_S4096x2x512) (W4_arr m ρ c 15)
theorem c2 : (V5 m ρ c main_call0_v28 : Cube 4096) = shapeCast _ ((dat1 (V3 m ρ) c).arrAt 16 cfg1.N) shapeCasts_S8192x512_S4096x2x512 := by
  show after hostOps2 (W4 m ρ c) (Proc.devRef .tc main_call0_v28) = _
  rw [host2_c]
  exact congrArg (fun A => shapeCast _ A shapeCasts_S8192x512_S4096x2x512) (W4_arr m ρ c 16)
theorem h3 : (V7 m ρ c main_call0_v31 : Cube 2048) = shapeCast _ ((dat2 (V5 m ρ) c).arrAt 15 cfg2.N) shapeCasts_S4096x512_S2048x2x512 := by
  show after hostOps3 (W6 m ρ c) (Proc.devRef .tc main_call0_v31) = _
  rw [host3_h]
  exact congrArg (fun A => shapeCast _ A shapeCasts_S4096x512_S2048x2x512) (W6_arr m ρ c 15)
theorem c3 : (V7 m ρ c main_call0_v32 : Cube 2048) = shapeCast _ ((dat2 (V5 m ρ) c).arrAt 16 cfg2.N) shapeCasts_S4096x512_S2048x2x512 := by
  show after hostOps3 (W6 m ρ c) (Proc.devRef .tc main_call0_v32) = _
  rw [host3_c]
  exact congrArg (fun A => shapeCast _ A shapeCasts_S4096x512_S2048x2x512) (W6_arr m ρ c 16)
theorem h4 : (V9 m ρ c main_call0_v35 : Cube 1024) = shapeCast _ ((dat3 (V7 m ρ) c).arrAt 15 cfg3.N) shapeCasts_S2048x512_S1024x2x512 := by
  show after hostOps4 (W8 m ρ c) (Proc.devRef .tc main_call0_v35) = _
  rw [host4_h]
  exact congrArg (fun A => shapeCast _ A shapeCasts_S2048x512_S1024x2x512) (W8_arr m ρ c 15)
theorem c4 : (V9 m ρ c main_call0_v36 : Cube 1024) = shapeCast _ ((dat3 (V7 m ρ) c).arrAt 16 cfg3.N) shapeCasts_S2048x512_S1024x2x512 := by
  show after hostOps4 (W8 m ρ c) (Proc.devRef .tc main_call0_v36) = _
  rw [host4_c]
  exact congrArg (fun A => shapeCast _ A shapeCasts_S2048x512_S1024x2x512) (W8_arr m ρ c 16)
/-- The last region takes level 10's (h, c) as the region before left them. -/
theorem h5 : (V11 m ρ c main_call0_v37_0 : Mat 1024 512) = (dat4 (V9 m ρ) c).arrAt 15 cfg4.N :=
  (after_of_forall_not_mem (b := (Proc.devRef .tc main_call0_v37_0)) _ _ (by not_written hostOps5)).trans (W10_arr m ρ c 15)
theorem c5 : (V11 m ρ c main_call0_v37_1 : Mat 1024 512) = (dat4 (V9 m ρ) c).arrAt 16 cfg4.N :=
  (after_of_forall_not_mem (b := (Proc.devRef .tc main_call0_v37_1)) _ _ (by not_written hostOps5)).trans (W10_arr m ρ c 16)

/-- The two results: the last region's outputs, each one row, as vectors. -/
theorem res_h : W13 m ρ c (Proc.devRef .tc main_v0_0) = shapeCast _ ((dat5 (V11 m ρ) c).arrAt 15 cfg5.N) shapeCasts_S1x512_S512 := by
  show after hostOps6 (W12 m ρ c) (Proc.devRef .tc main_v0_0) = _
  rw [host6_h]
  exact congrArg (fun A => shapeCast _ A shapeCasts_S1x512_S512) (W12_arr m ρ c 15)
theorem res_c : W13 m ρ c (Proc.devRef .tc main_v0_1) = shapeCast _ ((dat5 (V11 m ρ) c).arrAt 16 cfg5.N) shapeCasts_S1x512_S512 := by
  show after hostOps6 (W12 m ρ c) (Proc.devRef .tc main_v0_1) = _
  rw [host6_c]
  exact congrArg (fun A => shapeCast _ A shapeCasts_S1x512_S512) (W12_arr m ρ c 16)

end Cert.KTree

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RegGate.lean ====
/-
  The gates of the node computation read entry by entry, for a table of any number of rows.

  A gate's pre-activation is a sum of one or two plain matrix products into a zero accumulator and a bias row repeated
  down the rows.  At the extended reals each product at entry (p, q) is the finite sum over the contracted coordinate,
  the repeated row at (p, q) is the bias at (0, q), and so the gate is the specification's linear layer: with one
  product the leaf's, with two the inner node's.  The level functions of the specification read row p of their
  operands only, which is what lets a level be computed tile of rows by tile of rows.
-/
import proofs.«132239_j37117107372689_2_alg».proof.Proof.LibTileMatmul
import proofs.«132239_j37117107372689_2_alg».proof.Proof.TreeSpec
import Idealize.ShloMosaic.Lib.Pipeline.Value

noncomputable section

open scoped BigOperators

namespace Cert.KTree

open Idealize.ShloMosaic Idealize.ShloMosaic.ValueIdx Idealize.ShloMosaic.TileMatmul Cert.SplitLinear Cert.TreeSpec

variable {n : Nat}

/-- A one-row table repeated down n rows reads, at (p, q), the row's entry q. -/
theorem bias_rows_apply (b : FVec Ideal ⟨2, ![1, 512]⟩ .f32) (h : (⟨2, ![1, 512]⟩ : Shape).Broadcasts ⟨2, ![n, 512]⟩)
    (p : Fin n) (q : Fin 512) : broadcastTo ⟨2, ![n, 512]⟩ b h (ix2 p q) = b (ix2 (0 : Fin 1) q) := by
  refine broadcastTo_apply b h (ix2 p q) (ix2 (0 : Fin 1) q) fun a => ?_
  match a with
  | ⟨0, _⟩ => rfl
  | ⟨1, _⟩ => rfl

/-- The leaf's gate: one product into the zero accumulator plus the repeated bias row is x·W + b. -/
theorem gate1_eq (w : DotDims.WF ⟨2, ![n, 512]⟩ ⟨2, ![512, 512]⟩ ⟨2, ![n, 512]⟩ [1] [0] [0] [1] [] [])
    (hb : (⟨2, ![1, 512]⟩ : Shape).Broadcasts ⟨2, ![n, 512]⟩) (prec : Option ContractPrecision)
    (x : FVec Ideal ⟨2, ![n, 512]⟩ .f32) (wx : FVec Ideal ⟨2, ![512, 512]⟩ .f32) (b : FVec Ideal ⟨2, ![1, 512]⟩ .f32) :
    addf (matmul (F := Ideal) (plainDims w) prec x wx (constant (F := Ideal) ⟨2, ![n, 512]⟩ .f32 0x00000000#32))
        (broadcastTo ⟨2, ![n, 512]⟩ b hb)
      = linLeaf x wx b := by
  funext i
  obtain ⟨p, q, rfl⟩ : ∃ (p : Fin n) (q : Fin 512), i = ix2 p q := ⟨i 0, i 1, eq_ix2 i⟩
  rw [addf_apply, matmul_zero_apply, bias_rows_apply]
  rfl

/-- The inner node's gate: two products into zero accumulators, added, plus the repeated bias row is
    x·Wx + h·Wh + b. -/
theorem gate2_eq (w : DotDims.WF ⟨2, ![n, 512]⟩ ⟨2, ![512, 512]⟩ ⟨2, ![n, 512]⟩ [1] [0] [0] [1] [] [])
    (hb : (⟨2, ![1, 512]⟩ : Shape).Broadcasts ⟨2, ![n, 512]⟩) (prec : Option ContractPrecision)
    (x h : FVec Ideal ⟨2, ![n, 512]⟩ .f32) (wx wh : FVec Ideal ⟨2, ![512, 512]⟩ .f32) (b : FVec Ideal ⟨2, ![1, 512]⟩ .f32) :
    addf (addf (matmul (F := Ideal) (plainDims w) prec x wx (constant (F := Ideal) ⟨2, ![n, 512]⟩ .f32 0x00000000#32))
          (matmul (F := Ideal) (plainDims w) prec h wh (constant (F := Ideal) ⟨2, ![n, 512]⟩ .f32 0x00000000#32)))
        (broadcastTo ⟨2, ![n, 512]⟩ b hb)
      = lin x h wx wh b := by
  funext i
  obtain ⟨p, q, rfl⟩ : ∃ (p : Fin n) (q : Fin 512), i = ix2 p q := ⟨i 0, i 1, eq_ix2 i⟩
  rw [addf_apply, addf_apply, matmul_zero_apply, matmul_zero_apply, bias_rows_apply]
  rfl

/-! ## The level functions read one row of their operands -/

variable {n' : Nat}

/-- x·W + b at row p is the same for two tables that agree on that row. -/
theorem linLeaf_row (x : Mat n 512) (x' : Mat n' 512) (w : Mat 512 512) (b : Mat 1 512) (p : Fin n) (p' : Fin n')
    (hx : ∀ c : Fin 512, x (ix2 p c) = x' (ix2 p' c)) (q : Fin 512) :
    linLeaf x w b (ix2 p q) = linLeaf x' w b (ix2 p' q) := by
  show (∑ c : Fin 512, x (ix2 p c) * w (ix2 c q)) + b (ix2 (0 : Fin 1) q)
      = (∑ c : Fin 512, x' (ix2 p' c) * w (ix2 c q)) + b (ix2 (0 : Fin 1) q)
  have e1 : (∑ c : Fin 512, x (ix2 p c) * w (ix2 c q)) = ∑ c : Fin 512, x' (ix2 p' c) * w (ix2 c q) :=
    Finset.sum_congr rfl fun c _ => by rw [hx c]
  rw [e1]

/-- x·Wx + h·Wh + b at row p is the same for two pairs of tables that agree on that row. -/
theorem lin_row (x h : Mat n 512) (x' h' : Mat n' 512) (wx wh : Mat 512 512) (b : Mat 1 512) (p : Fin n) (p' : Fin n')
    (hx : ∀ c : Fin 512, x (ix2 p c) = x' (ix2 p' c)) (hh : ∀ c : Fin 512, h (ix2 p c) = h' (ix2 p' c)) (q : Fin 512) :
    lin x h wx wh b (ix2 p q) = lin x' h' wx wh b (ix2 p' q) := by
  show (∑ c : Fin 512, x (ix2 p c) * wx (ix2 c q)) + (∑ c : Fin 512, h (ix2 p c) * wh (ix2 c q)) + b (ix2 (0 : Fin 1) q)
      = (∑ c : Fin 512, x' (ix2 p' c) * wx (ix2 c q)) + (∑ c : Fin 512, h' (ix2 p' c) * wh (ix2 c q)) + b (ix2 (0 : Fin 1) q)
  have e1 : (∑ c : Fin 512, x (ix2 p c) * wx (ix2 c q)) = ∑ c : Fin 512, x' (ix2 p' c) * wx (ix2 c q) :=
    Finset.sum_congr rfl fun c _ => by rw [hx c]
  have e2 : (∑ c : Fin 512, h (ix2 p c) * wh (ix2 c q)) = ∑ c : Fin 512, h' (ix2 p' c) * wh (ix2 c q) :=
    Finset.sum_congr rfl fun c _ => by rw [hh c]
  rw [e1, e2]

/-- A leaf level's cell state at row p reads row p of x only. -/
theorem leafC_row (k : KParams) (x : Mat n 512) (x' : Mat n' 512) (p : Fin n) (p' : Fin n')
    (hx : ∀ c : Fin 512, x (ix2 p c) = x' (ix2 p' c)) (q : Fin 512) :
    leafC k x (ix2 p q) = leafC k x' (ix2 p' q) := by
  show Ideal.logistic (linLeaf x k.wix k.bi (ix2 p q)) * Ideal.tanh (linLeaf x k.wux k.bu (ix2 p q))
      = Ideal.logistic (linLeaf x' k.wix k.bi (ix2 p' q)) * Ideal.tanh (linLeaf x' k.wux k.bu (ix2 p' q))
  rw [linLeaf_row x x' k.wix k.bi p p' hx q, linLeaf_row x x' k.wux k.bu p p' hx q]

/-- A leaf level's hidden state at row p reads row p of x only. -/
theorem leafH_row (k : KParams) (x : Mat n 512) (x' : Mat n' 512) (p : Fin n) (p' : Fin n')
    (hx : ∀ c : Fin 512, x (ix2 p c) = x' (ix2 p' c)) (q : Fin 512) :
    leafH k x (ix2 p q) = leafH k x' (ix2 p' q) := by
  show Ideal.logistic (linLeaf x k.wox k.bo (ix2 p q)) * Ideal.tanh (leafC k x (ix2 p q))
      = Ideal.logistic (linLeaf x' k.wox k.bo (ix2 p' q)) * Ideal.tanh (leafC k x' (ix2 p' q))
  rw [linLeaf_row x x' k.wox k.bo p p' hx q, leafC_row k x x' p p' hx q]

/-- The sum of the two children's hidden states at row p reads row p of each. -/
theorem hsum_row (a b : Mat n 512) (a' b' : Mat n' 512) (p : Fin n) (p' : Fin n')
    (ha : ∀ c : Fin 512, a (ix2 p c) = a' (ix2 p' c)) (hb : ∀ c : Fin 512, b (ix2 p c) = b' (ix2 p' c)) (c : Fin 512) :
    hsum a b (ix2 p c) = hsum a' b' (ix2 p' c) := by
  show a (ix2 p c) + b (ix2 p c) = a' (ix2 p' c) + b' (ix2 p' c)
  rw [ha c, hb c]

/-- An inner level's cell state at row p reads row p of its five operands only. -/
theorem innerC_row (k : KParams) (x hl hr cl cr : Mat n 512) (x' hl' hr' cl' cr' : Mat n' 512) (p : Fin n) (p' : Fin n')
    (hx : ∀ c : Fin 512, x (ix2 p c) = x' (ix2 p' c)) (hhl : ∀ c : Fin 512, hl (ix2 p c) = hl' (ix2 p' c))
    (hhr : ∀ c : Fin 512, hr (ix2 p c) = hr' (ix2 p' c)) (hcl : ∀ c : Fin 512, cl (ix2 p c) = cl' (ix2 p' c))
    (hcr : ∀ c : Fin 512, cr (ix2 p c) = cr' (ix2 p' c)) (q : Fin 512) :
    innerC k x hl hr cl cr (ix2 p q) = innerC k x' hl' hr' cl' cr' (ix2 p' q) := by
  have hs := hsum_row hl hr hl' hr' p p' hhl hhr
  show (Ideal.logistic (lin x (hsum hl hr) k.wix k.wih k.bi (ix2 p q)) * Ideal.tanh (lin x (hsum hl hr) k.wux k.wuh k.bu (ix2 p q))
        + Ideal.logistic (lin x hl k.wfx k.wfh k.bf (ix2 p q)) * cl (ix2 p q))
        + Ideal.logistic (lin x hr k.wfx k.wfh k.bf (ix2 p q)) * cr (ix2 p q)
      = (Ideal.logistic (lin x' (hsum hl' hr') k.wix k.wih k.bi (ix2 p' q)) * Ideal.tanh (lin x' (hsum hl' hr') k.wux k.wuh k.bu (ix2 p' q))
        + Ideal.logistic (lin x' hl' k.wfx k.wfh k.bf (ix2 p' q)) * cl' (ix2 p' q))
        + Ideal.logistic (lin x' hr' k.wfx k.wfh k.bf (ix2 p' q)) * cr' (ix2 p' q)
  rw [lin_row x (hsum hl hr) x' (hsum hl' hr') k.wix k.wih k.bi p p' hx hs q,
    lin_row x (hsum hl hr) x' (hsum hl' hr') k.wux k.wuh k.bu p p' hx hs q,
    lin_row x hl x' hl' k.wfx k.wfh k.bf p p' hx hhl q, lin_row x hr x' hr' k.wfx k.wfh k.bf p p' hx hhr q, hcl q, hcr q]

/-- An inner level's hidden state at row p reads row p of its five operands only. -/
theorem innerH_row (k : KParams) (x hl hr cl cr : Mat n 512) (x' hl' hr' cl' cr' : Mat n' 512) (p : Fin n) (p' : Fin n')
    (hx : ∀ c : Fin 512, x (ix2 p c) = x' (ix2 p' c)) (hhl : ∀ c : Fin 512, hl (ix2 p c) = hl' (ix2 p' c))
    (hhr : ∀ c : Fin 512, hr (ix2 p c) = hr' (ix2 p' c)) (hcl : ∀ c : Fin 512, cl (ix2 p c) = cl' (ix2 p' c))
    (hcr : ∀ c : Fin 512, cr (ix2 p c) = cr' (ix2 p' c)) (q : Fin 512) :
    innerH k x hl hr cl cr (ix2 p q) = innerH k x' hl' hr' cl' cr' (ix2 p' q) := by
  have hs := hsum_row hl hr hl' hr' p p' hhl hhr
  show Ideal.logistic (lin x (hsum hl hr) k.wox k.woh k.bo (ix2 p q)) * Ideal.tanh (innerC k x hl hr cl cr (ix2 p q))
      = Ideal.logistic (lin x' (hsum hl' hr') k.wox k.woh k.bo (ix2 p' q)) * Ideal.tanh (innerC k x' hl' hr' cl' cr' (ix2 p' q))
  rw [lin_row x (hsum hl hr) x' (hsum hl' hr') k.wox k.woh k.bo p p' hx hs q,
    innerC_row k x hl hr cl cr x' hl' hr' cl' cr' p p' hx hhl hhr hcl hcr q]

end Cert.KTree

end
-- ==== Proof.RegLeafTile.lean ====
/-
  The leaf kernel's arithmetic on one tile of rows, as the specification's leaf level.

  On a tile x of 2048 rows the body computes the gates i, o, u as x·W + b through one matrix product each into a
  zero accumulator, then c = σ(i)·tanh(u) and h = σ(o)·tanh(c).  With the six weight operands taken from the node
  computation's parameters these are the specification's leaf cell and hidden states of the tile.
-/
import proofs.«132239_j37117107372689_2_alg».proof.Proof.Gen.KernelIdeal.Skeleton
import proofs.«132239_j37117107372689_2_alg».proof.Proof.RegGate

noncomputable section

namespace Cert.KTree

open Idealize.ShloMosaic Idealize.ShloMosaic.ValueIdx Idealize.ShloMosaic.TileMatmul Cert.TreeSpec
open Cert.KernelIdeal Cert.KernelIdeal.Gen

/-- The leaf body's matrix products are plain products: the left operand's columns against the right operand's rows. -/
theorem dot_leaf_eq : dot_S2048x512_S512x512_S2048x512_1_0_0_1_n_n
    = plainDims (m := 2048) (k := 512) (n := 512) Facts₀.dot_S2048x512_S512x512_S2048x512_1_0_0_1_n_n_wf := rfl

/-- The stored cell state of a tile: σ(x·Wi + bi) · tanh(x·Wu + bu). -/
theorem leaf_c (k : KParams) (x : Vec Ideal S2048x512 .f32) :
    k0_pay2 (F := Ideal) x k.wix k.bi k.wux k.bu = leafC k x := by
  unfold k0_pay2 k0_pay1
  simp only [shapeCast_self]
  rw [dot_leaf_eq, gate1_eq, gate1_eq]
  rfl

/-- The stored hidden state of a tile: σ(x·Wo + bo) · tanh(c). -/
theorem leaf_h (k : KParams) (x : Vec Ideal S2048x512 .f32) :
    k0_pay3 (F := Ideal) x k.wix k.bi k.wox k.bo k.wux k.bu = leafH k x := by
  unfold k0_pay3
  rw [leaf_c]
  unfold k0_pay1
  simp only [shapeCast_self]
  rw [dot_leaf_eq, gate1_eq]
  rfl

end Cert.KTree

end
-- ==== Proof.RegRows.lean ====
/-
  A level computed tile of rows by tile of rows.

  A level's (h, c) at row r reads row r of the level's inputs and, for an inner level, the two children of row r in
  the level below laid rows × 2 × 512.  So for a tile of m rows that sits in a table of N rows — row p of the tile
  being some row p' of the table — the level function of the tile at (p, q) is the level function of the whole table
  at (p', q).
-/
import proofs.«132239_j37117107372689_2_alg».proof.Proof.RegGate

noncomputable section

namespace Cert.KTree

open Idealize.ShloMosaic Idealize.ShloMosaic.ValueIdx Cert.TreeSpec

variable {m N : Nat}

/-- The leaf level's hidden state of a tile is the whole level's, at the tile's rows. -/
theorem leafH_tile (k : KParams) (x : Mat m 512) (X : Mat N 512)
    (i : (⟨2, ![m, 512]⟩ : Shape).Idx) (i' : (⟨2, ![N, 512]⟩ : Shape).Idx)
    (hx : ∀ c : Fin 512, x (ix2 (i 0) c) = X (ix2 (i' 0) c)) (hq : (i 1).val = (i' 1).val) :
    leafH k x i = leafH k X i' := by
  rw [eq_ix2 i, eq_ix2 i', show i' 1 = i 1 from Fin.ext hq.symm]
  exact leafH_row k x X (i 0) (i' 0) hx (i 1)

/-- The leaf level's cell state of a tile is the whole level's, at the tile's rows. -/
theorem leafC_tile (k : KParams) (x : Mat m 512) (X : Mat N 512)
    (i : (⟨2, ![m, 512]⟩ : Shape).Idx) (i' : (⟨2, ![N, 512]⟩ : Shape).Idx)
    (hx : ∀ c : Fin 512, x (ix2 (i 0) c) = X (ix2 (i' 0) c)) (hq : (i 1).val = (i' 1).val) :
    leafC k x i = leafC k X i' := by
  rw [eq_ix2 i, eq_ix2 i', show i' 1 = i 1 from Fin.ext hq.symm]
  exact leafC_row k x X (i 0) (i' 0) hx (i 1)

/-- An inner level's hidden state of a tile is the whole level's, at the tile's rows. -/
theorem innerH_tile (k : KParams) (x : Mat m 512) (a b : Cube m) (X : Mat N 512) (A B : Cube N)
    (i : (⟨2, ![m, 512]⟩ : Shape).Idx) (i' : (⟨2, ![N, 512]⟩ : Shape).Idx)
    (hx : ∀ c : Fin 512, x (ix2 (i 0) c) = X (ix2 (i' 0) c))
    (ha : ∀ (s : Fin 2) (c : Fin 512), a (ix3 (i 0) s c) = A (ix3 (i' 0) s c))
    (hb : ∀ (s : Fin 2) (c : Fin 512), b (ix3 (i 0) s c) = B (ix3 (i' 0) s c)) (hq : (i 1).val = (i' 1).val) :
    innerH k x (sel 0 a) (sel 1 a) (sel 0 b) (sel 1 b) i = innerH k X (sel 0 A) (sel 1 A) (sel 0 B) (sel 1 B) i' := by
  rw [eq_ix2 i, eq_ix2 i', show i' 1 = i 1 from Fin.ext hq.symm]
  exact innerH_row k x (sel 0 a) (sel 1 a) (sel 0 b) (sel 1 b) X (sel 0 A) (sel 1 A) (sel 0 B) (sel 1 B) (i 0) (i' 0) hx
    (ha 0) (ha 1) (hb 0) (hb 1) (i 1)

/-- An inner level's cell state of a tile is the whole level's, at the tile's rows. -/
theorem innerC_tile (k : KParams) (x : Mat m 512) (a b : Cube m) (X : Mat N 512) (A B : Cube N)
    (i : (⟨2, ![m, 512]⟩ : Shape).Idx) (i' : (⟨2, ![N, 512]⟩ : Shape).Idx)
    (hx : ∀ c : Fin 512, x (ix2 (i 0) c) = X (ix2 (i' 0) c))
    (ha : ∀ (s : Fin 2) (c : Fin 512), a (ix3 (i 0) s c) = A (ix3 (i' 0) s c))
    (hb : ∀ (s : Fin 2) (c : Fin 512), b (ix3 (i 0) s c) = B (ix3 (i' 0) s c)) (hq : (i 1).val = (i' 1).val) :
    innerC k x (sel 0 a) (sel 1 a) (sel 0 b) (sel 1 b) i = innerC k X (sel 0 A) (sel 1 A) (sel 0 B) (sel 1 B) i' := by
  rw [eq_ix2 i, eq_ix2 i', show i' 1 = i 1 from Fin.ext hq.symm]
  exact innerC_row k x (sel 0 a) (sel 1 a) (sel 0 b) (sel 1 b) X (sel 0 A) (sel 1 A) (sel 0 B) (sel 1 B) (i 0) (i' 0) hx
    (ha 0) (ha 1) (hb 0) (hb 1) (i 1)

end Cert.KTree

end
-- ==== Proof.RegLeaf.lean ====
/-
  The leaf kernel's two result arrays are the specification's leaf level of the whole input table.

  The kernel runs over 8 grid points; point t reads rows 2048·t … 2048·t + 2047 of the 16384-row input table and the
  six weight operands whole, and writes back the same rows of the two results.  On a tile the body is the leaf level
  of the tile, the leaf level reads one row at a time, so each written block is that block of the leaf level of the
  whole table; the 8 blocks cover the results' rows, so each result array ends as the leaf level.
-/
import proofs.«132239_j37117107372689_2_alg».proof.Proof.KernelIdealFrame
import proofs.«132239_j37117107372689_2_alg».proof.Proof.KTreeDefs
import proofs.«132239_j37117107372689_2_alg».proof.Proof.RegLeafTile
import proofs.«132239_j37117107372689_2_alg».proof.Proof.RegRows
import Idealize.ShloMosaic.Lib.Pipeline.Value

set_option maxRecDepth 16384

noncomputable section

namespace Cert.KTree

open Idealize.ShloMosaic Idealize.ShloMosaic.TcCoe Idealize.SL.Sem Cert.KernelIdeal Cert.KernelIdeal.Gen Cert.KernelIdeal.GenP
open Idealize.ShloMosaic.ValueIdx Cert.TreeSpec
open Idealize.ShloMosaic.Pipeline (Dat)

variable (V : (c : Dev nD) → (b : Ref sig .tc) → Buf (Elt Ideal) ((c : Thread nD τ).loc b))

/-- The zero offsets of a whole-buffer access, spelt as the constant function. -/
theorem zero2 : (![0, 0] : Fin 2 → Nat) = fun _ => 0 := funext fun a => by fin_cases a <;> rfl

/-- The body's hidden-state store over variable tiles: with the six weight operands the node computation's
    parameters, the leaf level's hidden states of the tile. -/
theorem out0_7_tile (k : KParams) (x0 : Vec Ideal S2048x512 .f32) (x1 x2 x3 : Vec Ideal S512x512 .f32)
    (x4 x5 x6 : Vec Ideal S1x512 .f32) (h1 : x1 = k.wix) (h2 : x2 = k.wox) (h3 : x3 = k.wux) (h4 : x4 = k.bi)
    (h5 : x5 = k.bo) (h6 : x6 = k.bu) : out0_7 (F := Ideal) x0 x1 x2 x3 x4 x5 x6 = leafH k x0 := by
  subst h1 h2 h3 h4 h5 h6
  unfold out0_7
  rw [View.canon_unit_zero zero2]
  simp only [View.ld_unit_zero (S := S2048x512) zero2, View.ld_unit_zero (S := S512x512) zero2,
    View.ld_unit_zero (S := S1x512) zero2]
  exact leaf_h k x0

/-- The body's cell-state store over variable tiles: the leaf level's cell states of the tile. -/
theorem out0_8_tile (k : KParams) (x0 : Vec Ideal S2048x512 .f32) (x1 x2 x3 : Vec Ideal S512x512 .f32)
    (x4 x5 x6 : Vec Ideal S1x512 .f32) (h1 : x1 = k.wix) (h2 : x2 = k.wox) (h3 : x3 = k.wux) (h4 : x4 = k.bi)
    (h5 : x5 = k.bo) (h6 : x6 = k.bu) : out0_8 (F := Ideal) x0 x1 x2 x3 x4 x5 x6 = leafC k x0 := by
  subst h1 h2 h3 h4 h5 h6
  unfold out0_8
  rw [View.canon_unit_zero zero2]
  simp only [View.ld_unit_zero (S := S2048x512) zero2, View.ld_unit_zero (S := S512x512) zero2,
    View.ld_unit_zero (S := S1x512) zero2]
  exact leaf_c k x0

/-- The block indices over the grid: the input table and the two results move one block of rows per point, the
    weight operands stay at block 0. -/
theorem idx0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- Window 1's block at any point is the whole array: the parameter wix. -/
theorem wblk0_1 (c : Dev nD) (t : Fin cfg0.N) : iblk0 V c 1 t = (kpOf V c).wix := by
  obtain ⟨-, -, -, -, -, -, e1, e2, e3, e4, e5, e6⟩ := idx0 t
  funext y
  show V c main_call0_v1 (((cfg0.win 1).blk t).view.emb y) = V c main_call0_v1 y
  refine congrArg _ (funext fun a => Fin.ext ?_)
  match a with
  | ⟨0, _⟩ => show win0_1.index t (0 : Fin 2) * 512 + 1 * (y 0).val = (y 0).val; rw [e1 0]; omega
  | ⟨1, _⟩ => show win0_1.index t (1 : Fin 2) * 512 + 1 * (y 1).val = (y 1).val; rw [e1 1]; omega

/-- Window 2's block at any point is the whole array: the parameter wox. -/
theorem wblk0_2 (c : Dev nD) (t : Fin cfg0.N) : iblk0 V c 2 t = (kpOf V c).wox := by
  obtain ⟨-, -, -, -, -, -, e1, e2, e3, e4, e5, e6⟩ := idx0 t
  funext y
  show V c main_call0_v9 (((cfg0.win 2).blk t).view.emb y) = V c main_call0_v9 y
  refine congrArg _ (funext fun a => Fin.ext ?_)
  match a with
  | ⟨0, _⟩ => show win0_2.index t (0 : Fin 2) * 512 + 1 * (y 0).val = (y 0).val; rw [e2 0]; omega
  | ⟨1, _⟩ => show win0_2.index t (1 : Fin 2) * 512 + 1 * (y 1).val = (y 1).val; rw [e2 1]; omega

/-- Window 3's block at any point is the whole array: the parameter wux. -/
theorem wblk0_3 (c : Dev nD) (t : Fin cfg0.N) : iblk0 V c 3 t = (kpOf V c).wux := by
  obtain ⟨-, -, -, -, -, -, e1, e2, e3, e4, e5, e6⟩ := idx0 t
  funext y
  show V c main_call0_v13 (((cfg0.win 3).blk t).view.emb y) = V c main_call0_v13 y
  refine congrArg _ (funext fun a => Fin.ext ?_)
  match a with
  | ⟨0, _⟩ => show win0_3.index t (0 : Fin 2) * 512 + 1 * (y 0).val = (y 0).val; rw [e3 0]; omega
  | ⟨1, _⟩ => show win0_3.index t (1 : Fin 2) * 512 + 1 * (y 1).val = (y 1).val; rw [e3 1]; omega

/-- Window 4's block at any point is the whole array: the parameter bi. -/
theorem wblk0_4 (c : Dev nD) (t : Fin cfg0.N) : iblk0 V c 4 t = (kpOf V c).bi := by
  obtain ⟨-, -, -, -, -, -, e1, e2, e3, e4, e5, e6⟩ := idx0 t
  funext y
  show V c main_call0_v16 (((cfg0.win 4).blk t).view.emb y) = V c main_call0_v16 y
  refine congrArg _ (funext fun a => Fin.ext ?_)
  match a with
  | ⟨0, _⟩ => show win0_4.index t (0 : Fin 2) * 1 + 1 * (y 0).val = (y 0).val; rw [e4 0]; omega
  | ⟨1, _⟩ => show win0_4.index t (1 : Fin 2) * 512 + 1 * (y 1).val = (y 1).val; rw [e4 1]; omega

/-- Window 5's block at any point is the whole array: the parameter bo. -/
theorem wblk0_5 (c : Dev nD) (t : Fin cfg0.N) : iblk0 V c 5 t = (kpOf V c).bo := by
  obtain ⟨-, -, -, -, -, -, e1, e2, e3, e4, e5, e6⟩ := idx0 t
  funext y
  show V c main_call0_v18 (((cfg0.win 5).blk t).view.emb y) = V c main_call0_v18 y
  refine congrArg _ (funext fun a => Fin.ext ?_)
  match a with
  | ⟨0, _⟩ => show win0_5.index t (0 : Fin 2) * 1 + 1 * (y 0).val = (y 0).val; rw [e5 0]; omega
  | ⟨1, _⟩ => show win0_5.index t (1 : Fin 2) * 512 + 1 * (y 1).val = (y 1).val; rw [e5 1]; omega

/-- Window 6's block at any point is the whole array: the parameter bu. -/
theorem wblk0_6 (c : Dev nD) (t : Fin cfg0.N) : iblk0 V c 6 t = (kpOf V c).bu := by
  obtain ⟨-, -, -, -, -, -, e1, e2, e3, e4, e5, e6⟩ := idx0 t
  funext y
  show V c main_call0_v19 (((cfg0.win 6).blk t).view.emb y) = V c main_call0_v19 y
  refine congrArg _ (funext fun a => Fin.ext ?_)
  match a with
  | ⟨0, _⟩ => show win0_6.index t (0 : Fin 2) * 1 + 1 * (y 0).val = (y 0).val; rw [e6 0]; omega
  | ⟨1, _⟩ => show win0_6.index t (1 : Fin 2) * 512 + 1 * (y 1).val = (y 1).val; rw [e6 1]; omega

/-- What point t writes back to output window 7 is block t of the leaf level's hidden states of the whole input table. -/
theorem flushed0_7_eq (c : Dev nD) (t : Fin cfg0.N) :
    (dat0 (F := Ideal) V c).flushed 7 t
      = ((cfg0.win 7).blk t).view.read (Elt Ideal) (leafH (kpOf V c) (V c main_call0_v20)) := by
  show (cfg0.win 7).cut (grid0.coords t) ((dat0 V c).after 7 t) = _
  rw [after0_7]
  obtain ⟨e00, e01, e70, e71, e80, e81, -⟩ := idx0 t
  funext j
  show out0_7 (iblk0 V c 0 t) (iblk0 V c 1 t) (iblk0 V c 2 t) (iblk0 V c 3 t) (iblk0 V c 4 t) (iblk0 V c 5 t) (iblk0 V c 6 t) j
      = leafH (kpOf V c) (V c main_call0_v20) (((cfg0.win 7).blk t).view.emb j)
  refine (congrFun (out0_7_tile (kpOf V c) (iblk0 V c 0 t) (iblk0 V c 1 t) (iblk0 V c 2 t) (iblk0 V c 3 t) (iblk0 V c 4 t)
    (iblk0 V c 5 t) (iblk0 V c 6 t) (wblk0_1 V c t) (wblk0_2 V c t) (wblk0_3 V c t) (wblk0_4 V c t) (wblk0_5 V c t) (wblk0_6 V c t)) j).trans ?_
  refine leafH_tile (m := 2048) (N := 16384) (kpOf V c) (iblk0 V c 0 t) (V c main_call0_v20) j (((cfg0.win 7).blk t).view.emb j) (fun cc => ?_) ?_
  · show V c main_call0_v20 (((cfg0.win 0).blk t).view.emb (ix2 (j 0) cc))
        = V c main_call0_v20 (ix2 ((((cfg0.win 7).blk t).view.emb j) 0) cc)
    refine congrArg _ (funext fun a => Fin.ext ?_)
    match a with
    | ⟨0, _⟩ =>
      show win0_0.index t (0 : Fin 2) * 2048 + 1 * (j 0).val = win0_7.index t (0 : Fin 2) * 2048 + 1 * (j 0).val
      rw [e00, e70]
    | ⟨1, _⟩ => show win0_0.index t (1 : Fin 2) * 512 + 1 * cc.val = cc.val; rw [e01]; omega
  · show (j 1).val = win0_7.index t (1 : Fin 2) * 512 + 1 * (j 1).val
    rw [e71]; omega

/-- An index of the result array is in point t's block iff each coordinate is in the block's range on its axis. -/
theorem mem_blk0_7 (t : Fin cfg0.N) (i : S16384x512.Idx) :
    i ∈ ((cfg0.win 7).blk t).view.set
      ↔ ∀ a : Fin 2, win0_7.index t a * S2048x512.size a ≤ (i a).val ∧ (i a).val < win0_7.index t a * S2048x512.size a + S2048x512.size a := by
  show i ∈ ((View.whole main_call0_v21_0).slice (win0_7.rect t)).set ↔ _
  rw [View.set_slice_whole, Rect.mem_set_unit]
  exact Iff.rfl

/-- Every row of the result array is in some point's block: row r in block r / 2048. -/
theorem cover0_7 (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 8 := N_0
  have ht : (i 0).val / 2048 < cfg0.N := by rw [hN]; omega
  obtain ⟨-, -, e70, e71, e80, e81, -⟩ := idx0 ⟨(i 0).val / 2048, ht⟩
  refine ⟨⟨(i 0).val / 2048, ht⟩, flush0_7 _, ?_⟩
  rw [mem_blk0_7]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [e70]
    show (i 0).val / 2048 * 2048 ≤ (i 0).val ∧ (i 0).val < (i 0).val / 2048 * 2048 + 2048
    omega
  | ⟨1, _⟩ =>
    show win0_7.index ⟨(i 0).val / 2048, ht⟩ (1 : Fin 2) * 512 ≤ (i 1).val
      ∧ (i 1).val < win0_7.index ⟨(i 0).val / 2048, ht⟩ (1 : Fin 2) * 512 + 512
    rw [e71]
    omega

/-- What point t writes back to output window 8 is block t of the leaf level's cell states of the whole input table. -/
theorem flushed0_8_eq (c : Dev nD) (t : Fin cfg0.N) :
    (dat0 (F := Ideal) V c).flushed 8 t
      = ((cfg0.win 8).blk t).view.read (Elt Ideal) (leafC (kpOf V c) (V c main_call0_v20)) := by
  show (cfg0.win 8).cut (grid0.coords t) ((dat0 V c).after 8 t) = _
  rw [after0_8]
  obtain ⟨e00, e01, e70, e71, e80, e81, -⟩ := idx0 t
  funext j
  show out0_8 (iblk0 V c 0 t) (iblk0 V c 1 t) (iblk0 V c 2 t) (iblk0 V c 3 t) (iblk0 V c 4 t) (iblk0 V c 5 t) (iblk0 V c 6 t) j
      = leafC (kpOf V c) (V c main_call0_v20) (((cfg0.win 8).blk t).view.emb j)
  refine (congrFun (out0_8_tile (kpOf V c) (iblk0 V c 0 t) (iblk0 V c 1 t) (iblk0 V c 2 t) (iblk0 V c 3 t) (iblk0 V c 4 t)
    (iblk0 V c 5 t) (iblk0 V c 6 t) (wblk0_1 V c t) (wblk0_2 V c t) (wblk0_3 V c t) (wblk0_4 V c t) (wblk0_5 V c t) (wblk0_6 V c t)) j).trans ?_
  refine leafC_tile (m := 2048) (N := 16384) (kpOf V c) (iblk0 V c 0 t) (V c main_call0_v20) j (((cfg0.win 8).blk t).view.emb j) (fun cc => ?_) ?_
  · show V c main_call0_v20 (((cfg0.win 0).blk t).view.emb (ix2 (j 0) cc))
        = V c main_call0_v20 (ix2 ((((cfg0.win 8).blk t).view.emb j) 0) cc)
    refine congrArg _ (funext fun a => Fin.ext ?_)
    match a with
    | ⟨0, _⟩ =>
      show win0_0.index t (0 : Fin 2) * 2048 + 1 * (j 0).val = win0_8.index t (0 : Fin 2) * 2048 + 1 * (j 0).val
      rw [e00, e80]
    | ⟨1, _⟩ => show win0_0.index t (1 : Fin 2) * 512 + 1 * cc.val = cc.val; rw [e01]; omega
  · show (j 1).val = win0_8.index t (1 : Fin 2) * 512 + 1 * (j 1).val
    rw [e81]; omega

/-- An index of the result array is in point t's block iff each coordinate is in the block's range on its axis. -/
theorem mem_blk0_8 (t : Fin cfg0.N) (i : S16384x512.Idx) :
    i ∈ ((cfg0.win 8).blk t).view.set
      ↔ ∀ a : Fin 2, win0_8.index t a * S2048x512.size a ≤ (i a).val ∧ (i a).val < win0_8.index t a * S2048x512.size a + S2048x512.size a := by
  show i ∈ ((View.whole main_call0_v21_1).slice (win0_8.rect t)).set ↔ _
  rw [View.set_slice_whole, Rect.mem_set_unit]
  exact Iff.rfl

/-- Every row of the result array is in some point's block: row r in block r / 2048. -/
theorem cover0_8 (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 8 := N_0
  have ht : (i 0).val / 2048 < cfg0.N := by rw [hN]; omega
  obtain ⟨-, -, e70, e71, e80, e81, -⟩ := idx0 ⟨(i 0).val / 2048, ht⟩
  refine ⟨⟨(i 0).val / 2048, ht⟩, flush0_8 _, ?_⟩
  rw [mem_blk0_8]
  intro a
  match a with
  | ⟨0, _⟩ =>
    show win0_8.index ⟨(i 0).val / 2048, ht⟩ (0 : Fin 2) * 2048 ≤ (i 0).val
      ∧ (i 0).val < win0_8.index ⟨(i 0).val / 2048, ht⟩ (0 : Fin 2) * 2048 + 2048
    rw [e80]
    show (i 0).val / 2048 * 2048 ≤ (i 0).val ∧ (i 0).val < (i 0).val / 2048 * 2048 + 2048
    omega
  | ⟨1, _⟩ =>
    show win0_8.index ⟨(i 0).val / 2048, ht⟩ (1 : Fin 2) * 512 ≤ (i 1).val
      ∧ (i 1).val < win0_8.index ⟨(i 0).val / 2048, ht⟩ (1 : Fin 2) * 512 + 512
    rw [e81]
    omega

/-- REGION 0: after the leaf kernel the two result arrays hold the leaf level's hidden and cell states of the input
    table, with the weights the twelve parameter buffers. -/
theorem region0_out (c : Dev nD) :
    (dat0 (F := Ideal) V c).arrAt 7 cfg0.N = TreeSpec.leafH (kpOf V c) (V c main_call0_v20)
    ∧ (dat0 (F := Ideal) V c).arrAt 8 cfg0.N = TreeSpec.leafC (kpOf V c) (V c main_call0_v20) :=
  ⟨(dat0 V c).arrAt_eq_of_cover 7 _ (fun t _ => flushed0_7_eq V c t) cover0_7,
   (dat0 V c).arrAt_eq_of_cover 8 _ (fun t _ => flushed0_8_eq V c t) cover0_8⟩

end Cert.KTree

end
-- ==== Proof.RegInnerTile.lean ====
/-
  The inner kernel's arithmetic on one tile of rows, as the specification's inner level.

  On a tile of 512 nodes the body has the nodes' inputs x, the two children's hidden states (a0, a1) and cell states
  (c0, c1), each child read as a 512 × 1 × 512 slab and flattened to 512 × 512.  The gates i, o, u take x and the
  sum of the children's hidden states, each forget gate takes x and its own child's hidden state; every gate is two
  matrix products into zero accumulators, added, plus the bias row.  Then c = (σ(i)·tanh(u) + σ(f_l)·c_l) + σ(f_r)·c_r
  and h = σ(o)·tanh(c): the specification's inner cell and hidden states of the tile.
-/
import proofs.«132239_j37117107372689_2_alg».proof.Proof.Gen.KernelIdeal.Skeleton
import proofs.«132239_j37117107372689_2_alg».proof.Proof.RegGate

noncomputable section

namespace Cert.KTree

open Idealize.ShloMosaic Idealize.ShloMosaic.ValueIdx Idealize.ShloMosaic.TileMatmul Cert.TreeSpec
open Cert.KernelIdeal Cert.KernelIdeal.Gen

/-- The inner body's matrix products are plain products. -/
theorem dot_inner_eq : dot_S512x512_S512x512_S512x512_1_0_0_1_n_n
    = plainDims (m := 512) (k := 512) (n := 512) Facts₀.dot_S512x512_S512x512_S512x512_1_0_0_1_n_n_wf := rfl

/-- A 512 × 1 × 512 slab flattened to 512 × 512. -/
abbrev flat (a : Vec Ideal S512x1x512 .f32) : FVec Ideal S512x512 .f32 :=
  shapeCast S512x512 a shapeCasts_S512x1x512_S512x512

/-- The stored cell state of a tile. -/
theorem inner_c (k : KParams) (x : Vec Ideal S512x512 .f32) (a0 a1 c0 c1 : Vec Ideal S512x1x512 .f32) :
    k1_pay1 (F := Ideal) (k1_pay6 c0) (k1_pay7 c1) (k1_pay11 (k1_pay9 x a0 a1 k.wix k.wih k.bi))
        (k1_pay13 (k1_pay3 x) (k1_pay8 a0 a1) k.wux k.wuh k.bu)
        (k1_pay15 (k1_pay3 x) (k1_pay4 a0) k.wfx k.wfh k.bf) (k1_pay16 (k1_pay3 x) (k1_pay5 a1) k.wfx k.wfh k.bf)
      = innerC k x (flat a0) (flat a1) (flat c0) (flat c1) := by
  unfold k1_pay1 k1_pay6 k1_pay7 k1_pay11 k1_pay9 k1_pay13 k1_pay15 k1_pay16 k1_pay14 k1_pay8 k1_pay3 k1_pay4 k1_pay5
  simp only [shapeCast_self]
  rw [dot_inner_eq, gate2_eq, gate2_eq, gate2_eq, gate2_eq]
  rfl

/-- The stored hidden state of a tile. -/
theorem inner_h (k : KParams) (x : Vec Ideal S512x512 .f32) (a0 a1 c0 c1 : Vec Ideal S512x1x512 .f32) :
    k1_pay2 (F := Ideal) (k1_pay6 c0) (k1_pay7 c1) (k1_pay11 (k1_pay9 x a0 a1 k.wix k.wih k.bi))
        (k1_pay12 (k1_pay10 x a0 a1 k.wox k.woh) k.bo)
        (k1_pay13 (k1_pay3 x) (k1_pay8 a0 a1) k.wux k.wuh k.bu)
        (k1_pay15 (k1_pay3 x) (k1_pay4 a0) k.wfx k.wfh k.bf) (k1_pay16 (k1_pay3 x) (k1_pay5 a1) k.wfx k.wfh k.bf)
      = innerH k x (flat a0) (flat a1) (flat c0) (flat c1) := by
  unfold k1_pay2
  rw [inner_c]
  unfold k1_pay12 k1_pay10 k1_pay8 k1_pay3 k1_pay4 k1_pay5
  simp only [shapeCast_self]
  rw [dot_inner_eq, gate2_eq]
  rfl

end Cert.KTree

end
-- ==== Proof.RegPick.lean ====
/-
  The two children of a row, read off a table laid rows × 2 × 512.

  A tile of n rows of the level below holds, for row p, the left child's 512 entries at (p, 0, ·) and the right
  child's at (p, 1, ·).  Reading the n × 1 × 512 rectangle at offset (0, s, 0) and flattening it to n × 512 keeps
  the row-major position, so entry (p, q) of the result is entry (p, s, q) of the tile: the left children for
  s = 0, the right ones for s = 1.
-/
import proofs.«132239_j37117107372689_2_alg».proof.Proof.TreeSpec
import Idealize.ShloMosaic.Lib.Pipeline.Value

noncomputable section

namespace Cert.KTree

open Idealize.ShloMosaic Idealize.ShloMosaic.ValueIdx Cert.TreeSpec

variable {n : Nat}

/-- The rectangle at (0, 0, 0) of extent n × 1 × 512, flattened: the left children. -/
theorem ld_left (A : Vec Ideal ⟨3, ![n, 2, 512]⟩ .f32)
    (inb : ∀ a, (![0, 0, 0] : Fin 3 → Nat) a + (⟨3, ![n, 1, 512]⟩ : Shape).size a ≤ (⟨3, ![n, 2, 512]⟩ : Shape).size a)
    (h : (⟨3, ![n, 1, 512]⟩ : Shape).ShapeCasts ⟨2, ![n, 512]⟩) :
    shapeCast ⟨2, ![n, 512]⟩ (View.ld A (Rect.unit (s := ⟨3, ![n, 2, 512]⟩) ![0, 0, 0] (⟨3, ![n, 1, 512]⟩ : Shape).size inb)) h
      = sel 0 A := by
  funext i
  obtain ⟨p, q, rfl⟩ : ∃ (p : Fin n) (q : Fin 512), i = ix2 p q := ⟨i 0, i 1, eq_ix2 i⟩
  refine (shapeCast_apply _ h (ix2 p q) (ix3 p (0 : Fin 1) q) ?_).trans ?_
  · refine (Shape.rowMajor_val_three (d := ![n, 1, 512]) (ix3 p (0 : Fin 1) q)).trans
      (Eq.trans ?_ (Shape.rowMajor_val_two (d := ![n, 512]) (ix2 p q)).symm)
    show (p.val * 1 + 0) * 512 + q.val = p.val * 512 + q.val
    omega
  · show A _ = A (ix3 p (0 : Fin 2) q)
    refine congrArg A (funext fun a => Fin.ext ?_)
    match a with
    | ⟨0, _⟩ => show 0 + 1 * p.val = p.val; omega
    | ⟨1, _⟩ => show 0 + 1 * 0 = 0; rfl
    | ⟨2, _⟩ => show 0 + 1 * q.val = q.val; omega

/-- The rectangle at (0, 1, 0) of extent n × 1 × 512, flattened: the right children. -/
theorem ld_right (A : Vec Ideal ⟨3, ![n, 2, 512]⟩ .f32)
    (inb : ∀ a, (![0, 1, 0] : Fin 3 → Nat) a + (⟨3, ![n, 1, 512]⟩ : Shape).size a ≤ (⟨3, ![n, 2, 512]⟩ : Shape).size a)
    (h : (⟨3, ![n, 1, 512]⟩ : Shape).ShapeCasts ⟨2, ![n, 512]⟩) :
    shapeCast ⟨2, ![n, 512]⟩ (View.ld A (Rect.unit (s := ⟨3, ![n, 2, 512]⟩) ![0, 1, 0] (⟨3, ![n, 1, 512]⟩ : Shape).size inb)) h
      = sel 1 A := by
  funext i
  obtain ⟨p, q, rfl⟩ : ∃ (p : Fin n) (q : Fin 512), i = ix2 p q := ⟨i 0, i 1, eq_ix2 i⟩
  refine (shapeCast_apply _ h (ix2 p q) (ix3 p (0 : Fin 1) q) ?_).trans ?_
  · refine (Shape.rowMajor_val_three (d := ![n, 1, 512]) (ix3 p (0 : Fin 1) q)).trans
      (Eq.trans ?_ (Shape.rowMajor_val_two (d := ![n, 512]) (ix2 p q)).symm)
    show (p.val * 1 + 0) * 512 + q.val = p.val * 512 + q.val
    omega
  · show A _ = A (ix3 p (1 : Fin 2) q)
    refine congrArg A (funext fun a => Fin.ext ?_)
    match a with
    | ⟨0, _⟩ => show 0 + 1 * p.val = p.val; omega
    | ⟨1, _⟩ => show 1 + 1 * 0 = 1; rfl
    | ⟨2, _⟩ => show 0 + 1 * q.val = q.val; omega

end Cert.KTree

end
-- ==== Proof.RegInnerOut.lean ====
/-
  The inner kernel's two stores over variable tiles, as the specification's inner level of the tile.

  The body stores h and c of a tile of 512 nodes.  Its loads are the whole staging buffers except the two children
  tables, which it reads as the rectangles at (0, 0, 0) and (0, 1, 0) of extent 512 × 1 × 512: the left and the right
  children.  With the twelve weight operands the node computation's parameters, the stored tiles are the inner
  level's hidden and cell states of (x, left, right children's h, left, right children's c).  The four inner
  kernels have the same body, so the statement for the first serves the other three.
-/
import proofs.«132239_j37117107372689_2_alg».proof.Proof.KernelIdealFrame
import proofs.«132239_j37117107372689_2_alg».proof.Proof.RegInnerTile
import proofs.«132239_j37117107372689_2_alg».proof.Proof.RegPick
import Idealize.ShloMosaic.Lib.Pipeline.Value

set_option maxRecDepth 16384

noncomputable section

namespace Cert.KTree

open Idealize.ShloMosaic Idealize.ShloMosaic.TcCoe Idealize.SL.Sem Cert.KernelIdeal Cert.KernelIdeal.Gen Cert.KernelIdeal.GenP
open Idealize.ShloMosaic.ValueIdx Cert.TreeSpec
open Idealize.ShloMosaic.Pipeline (Dat)

/-- The zero offsets of a whole-buffer access, spelt as the constant function. -/
theorem inner_zero2 : (![0, 0] : Fin 2 → Nat) = fun _ => 0 := funext fun a => by fin_cases a <;> rfl

/-- The hidden-state store of the first inner kernel over variable tiles. -/
theorem out1_15_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out1_15 (F := Ideal) x0 x1 x2 x3 x4 x5 x6 x7 x8 x9 x10 x11 x12 x13 x14
      = innerH k x0 (sel 0 x1) (sel 1 x1) (sel 0 x2) (sel 1 x2) := by
  subst h3 h4 h5 h6 h7 h8 h9 h10 h11 h12 h13 h14
  unfold out1_15
  rw [View.canon_unit_zero inner_zero2]
  simp only [View.ld_unit_zero (S := S512x512) inner_zero2, View.ld_unit_zero (S := S1x512) inner_zero2]
  have e1 : flat (View.ld x1 r1_1) = sel 0 x1 := ld_left x1 _ _
  have e2 : flat (View.ld x1 r1_2) = sel 1 x1 := ld_right x1 _ _
  have e3 : flat (View.ld x2 r1_1) = sel 0 x2 := ld_left x2 _ _
  have e4 : flat (View.ld x2 r1_2) = sel 1 x2 := ld_right x2 _ _
  rw [inner_h, e1, e2, e3, e4]

/-- The cell-state store of the first inner kernel over variable tiles. -/
theorem out1_16_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out1_16 (F := Ideal) x0 x1 x2 x3 x4 x5 x6 x7 x8 x9 x10 x11 x12 x13 x14
      = innerC k x0 (sel 0 x1) (sel 1 x1) (sel 0 x2) (sel 1 x2) := by
  subst h3 h4 h5 h6 h7 h8 h9 h10 h11 h12 h13 h14
  unfold out1_16
  rw [View.canon_unit_zero inner_zero2]
  simp only [View.ld_unit_zero (S := S512x512) inner_zero2, View.ld_unit_zero (S := S1x512) inner_zero2]
  have e1 : flat (View.ld x1 r1_1) = sel 0 x1 := ld_left x1 _ _
  have e2 : flat (View.ld x1 r1_2) = sel 1 x1 := ld_right x1 _ _
  have e3 : flat (View.ld x2 r1_1) = sel 0 x2 := ld_left x2 _ _
  have e4 : flat (View.ld x2 r1_2) = sel 1 x2 := ld_right x2 _ _
  rw [inner_c, e1, e2, e3, e4]

/-- Inner kernel 2's hidden-state store is the first inner kernel's: the same body. -/
theorem out2_15_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out2_15 (F := Ideal) x0 x1 x2 x3 x4 x5 x6 x7 x8 x9 x10 x11 x12 x13 x14
      = innerH k x0 (sel 0 x1) (sel 1 x1) (sel 0 x2) (sel 1 x2) :=
  (show out2_15 (F := Ideal) x0 x1 x2 x3 x4 x5 x6 x7 x8 x9 x10 x11 x12 x13 x14
      = out1_15 (F := Ideal) x0 x1 x2 x3 x4 x5 x6 x7 x8 x9 x10 x11 x12 x13 x14 from rfl).trans
    (out1_15_tile k x0 x1 x2 x3 x4 x5 x6 x7 x8 x9 x10 x11 x12 x13 x14 h3 h4 h5 h6 h7 h8 h9 h10 h11 h12 h13 h14)

/-- Inner kernel 2's cell-state store is the first inner kernel's: the same body. -/
theorem out2_16_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out2_16 (F := Ideal) x0 x1 x2 x3 x4 x5 x6 x7 x8 x9 x10 x11 x12 x13 x14
      = innerC k x0 (sel 0 x1) (sel 1 x1) (sel 0 x2) (sel 1 x2) :=
  (show out2_16 (F := Ideal) x0 x1 x2 x3 x4 x5 x6 x7 x8 x9 x10 x11 x12 x13 x14
      = out1_16 (F := Ideal) x0 x1 x2 x3 x4 x5 x6 x7 x8 x9 x10 x11 x12 x13 x14 from rfl).trans
    (out1_16_tile k x0 x1 x2 x3 x4 x5 x6 x7 x8 x9 x10 x11 x12 x13 x14 h3 h4 h5 h6 h7 h8 h9 h10 h11 h12 h13 h14)

/-- Inner kernel 3's hidden-state store is the first inner kernel's: the same body. -/
theorem out3_15_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out3_15 (F := Ideal) x0 x1 x2 x3 x4 x5 x6 x7 x8 x9 x10 x11 x12 x13 x14
      = innerH k x0 (sel 0 x1) (sel 1 x1) (sel 0 x2) (sel 1 x2) :=
  (show out3_15 (F := Ideal) x0 x1 x2 x3 x4 x5 x6 x7 x8 x9 x10 x11 x12 x13 x14
      = out1_15 (F := Ideal) x0 x1 x2 x3 x4 x5 x6 x7 x8 x9 x10 x11 x12 x13 x14 from rfl).trans
    (out1_15_tile k x0 x1 x2 x3 x4 x5 x6 x7 x8 x9 x10 x11 x12 x13 x14 h3 h4 h5 h6 h7 h8 h9 h10 h11 h12 h13 h14)

/-- Inner kernel 3's cell-state store is the first inner kernel's: the same body. -/
theorem out3_16_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out3_16 (F := Ideal) x0 x1 x2 x3 x4 x5 x6 x7 x8 x9 x10 x11 x12 x13 x14
      = innerC k x0 (sel 0 x1) (sel 1 x1) (sel 0 x2) (sel 1 x2) :=
  (show out3_16 (F := Ideal) x0 x1 x2 x3 x4 x5 x6 x7 x8 x9 x10 x11 x12 x13 x14
      = out1_16 (F := Ideal) x0 x1 x2 x3 x4 x5 x6 x7 x8 x9 x10 x11 x12 x13 x14 from rfl).trans
    (out1_16_tile k x0 x1 x2 x3 x4 x5 x6 x7 x8 x9 x10 x11 x12 x13 x14 h3 h4 h5 h6 h7 h8 h9 h10 h11 h12 h13 h14)

/-- Inner kernel 4's hidden-state store is the first inner kernel's: the same body. -/
theorem out4_15_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out4_15 (F := Ideal) x0 x1 x2 x3 x4 x5 x6 x7 x8 x9 x10 x11 x12 x13 x14
      = innerH k x0 (sel 0 x1) (sel 1 x1) (sel 0 x2) (sel 1 x2) :=
  (show out4_15 (F := Ideal) x0 x1 x2 x3 x4 x5 x6 x7 x8 x9 x10 x11 x12 x13 x14
      = out1_15 (F := Ideal) x0 x1 x2 x3 x4 x5 x6 x7 x8 x9 x10 x11 x12 x13 x14 from rfl).trans
    (out1_15_tile k x0 x1 x2 x3 x4 x5 x6 x7 x8 x9 x10 x11 x12 x13 x14 h3 h4 h5 h6 h7 h8 h9 h10 h11 h12 h13 h14)

/-- Inner kernel 4's cell-state store is the first inner kernel's: the same body. -/
theorem out4_16_tile (k : KParams) (x0 : Vec Ideal S512x512 .f32) (x1 x2 : Vec Ideal S512x2x512 .f32)
    (x3 x4 x5 x6 x7 x8 x9 x10 : Vec Ideal S512x512 .f32) (x11 x12 x13 x14 : Vec Ideal S1x512 .f32)
    (h3 : x3 = k.wix) (h4 : x4 = k.wih) (h5 : x5 = k.wfx) (h6 : x6 = k.wfh) (h7 : x7 = k.wox) (h8 : x8 = k.woh)
    (h9 : x9 = k.wux) (h10 : x10 = k.wuh) (h11 : x11 = k.bi) (h12 : x12 = k.bf) (h13 : x13 = k.bo) (h14 : x14 = k.bu) :
    out4_16 (F := Ideal) x0 x1 x2 x3 x4 x5 x6 x7 x8 x9 x10 x11 x12 x13 x14
      = innerC k x0 (sel 0 x1) (sel 1 x1) (sel 0 x2) (sel 1 x2) :=
  (show out4_16 (F := Ideal) x0 x1 x2 x3 x4 x5 x6 x7 x8 x9 x10 x11 x12 x13 x14
      = out1_16 (F := Ideal) x0 x1 x2 x3 x4 x5 x6 x7 x8 x9 x10 x11 x12 x13 x14 from rfl).trans
    (out1_16_tile k x0 x1 x2 x3 x4 x5 x6 x7 x8 x9 x10 x11 x12 x13 x14 h3 h4 h5 h6 h7 h8 h9 h10 h11 h12 h13 h14)

end Cert.KTree

end
-- ==== Proof.RegInner1.lean ====
/-
  Inner kernel 1's two result arrays are the specification's inner level of the whole tables.

  The kernel runs over 16 grid points; point t reads rows 512·t … 512·t + 511 of the level's 8192-row input table and of
  the two children tables (laid 8192 × 2 × 512) and the twelve weight operands whole, and writes back the same rows of
  the two results.  On a tile the body is the inner level of the tile, the inner level reads one row of its operands
  at a time, so each written block is that block of the inner level of the whole tables; the 16 blocks cover the
  results' rows, so each result array ends as the inner level.
-/
import proofs.«132239_j37117107372689_2_alg».proof.Proof.KernelIdealFrame
import proofs.«132239_j37117107372689_2_alg».proof.Proof.KTreeDefs
import proofs.«132239_j37117107372689_2_alg».proof.Proof.RegInnerOut
import proofs.«132239_j37117107372689_2_alg».proof.Proof.RegRows
import Idealize.ShloMosaic.Lib.Pipeline.Value

set_option maxRecDepth 16384

noncomputable section

namespace Cert.KTree

open Idealize.ShloMosaic Idealize.ShloMosaic.TcCoe Idealize.SL.Sem Cert.KernelIdeal Cert.KernelIdeal.Gen Cert.KernelIdeal.GenP
open Idealize.ShloMosaic.ValueIdx Cert.TreeSpec
open Idealize.ShloMosaic.Pipeline (Dat)

variable (V : (c : Dev nD) → (b : Ref sig .tc) → Buf (Elt Ideal) ((c : Thread nD τ).loc b))

/-- The block indices over the grid: the input table, the two children tables and the two results move one block
    of rows per point. -/
theorem idx1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_15.index t (0 : Fin 2) = t.val ∧ win1_15.index t (1 : Fin 2) = 0
    ∧ win1_16.index t (0 : Fin 2) = t.val ∧ win1_16.index t (1 : Fin 2) = 0 :=
  (by decide +kernel : ∀ t : Fin grid1.N, _)

/-- The weight operands stay at block 0. -/
theorem widx1 : ∀ t : Fin cfg1.N,
    (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 2, win1_10.index t a = 0)
    ∧ (∀ a : Fin 2, win1_11.index t a = 0)
    ∧ (∀ a : Fin 2, win1_12.index t a = 0)
    ∧ (∀ a : Fin 2, win1_13.index t a = 0)
    ∧ (∀ a : Fin 2, win1_14.index t a = 0) :=
  (by decide +kernel : ∀ t : Fin grid1.N, _)

/-- Window 3's block at any point is the whole array: the parameter wix. -/
theorem wblk1_3 (c : Dev nD) (t : Fin cfg1.N) : iblk1 V c 3 t = (kpOf V c).wix := by
  have e := (widx1 t).1
  funext y
  show V c main_call0_v1 (((cfg1.win 3).blk t).view.emb y) = V c main_call0_v1 y
  refine congrArg _ (funext fun a => Fin.ext ?_)
  match a with
  | ⟨0, _⟩ => show win1_3.index t (0 : Fin 2) * 512 + 1 * (y 0).val = (y 0).val; rw [e 0]; omega
  | ⟨1, _⟩ => show win1_3.index t (1 : Fin 2) * 512 + 1 * (y 1).val = (y 1).val; rw [e 1]; omega

/-- Window 4's block at any point is the whole array: the parameter wih. -/
theorem wblk1_4 (c : Dev nD) (t : Fin cfg1.N) : iblk1 V c 4 t = (kpOf V c).wih := by
  have e := (widx1 t).2.1
  funext y
  show V c main_call0_v3 (((cfg1.win 4).blk t).view.emb y) = V c main_call0_v3 y
  refine congrArg _ (funext fun a => Fin.ext ?_)
  match a with
  | ⟨0, _⟩ => show win1_4.index t (0 : Fin 2) * 512 + 1 * (y 0).val = (y 0).val; rw [e 0]; omega
  | ⟨1, _⟩ => show win1_4.index t (1 : Fin 2) * 512 + 1 * (y 1).val = (y 1).val; rw [e 1]; omega

/-- Window 5's block at any point is the whole array: the parameter wfx. -/
theorem wblk1_5 (c : Dev nD) (t : Fin cfg1.N) : iblk1 V c 5 t = (kpOf V c).wfx := by
  have e := (widx1 t).2.2.1
  funext y
  show V c main_call0_v5 (((cfg1.win 5).blk t).view.emb y) = V c main_call0_v5 y
  refine congrArg _ (funext fun a => Fin.ext ?_)
  match a with
  | ⟨0, _⟩ => show win1_5.index t (0 : Fin 2) * 512 + 1 * (y 0).val = (y 0).val; rw [e 0]; omega
  | ⟨1, _⟩ => show win1_5.index t (1 : Fin 2) * 512 + 1 * (y 1).val = (y 1).val; rw [e 1]; omega

/-- Window 6's block at any point is the whole array: the parameter wfh. -/
theorem wblk1_6 (c : Dev nD) (t : Fin cfg1.N) : iblk1 V c 6 t = (kpOf V c).wfh := by
  have e := (widx1 t).2.2.2.1
  funext y
  show V c main_call0_v7 (((cfg1.win 6).blk t).view.emb y) = V c main_call0_v7 y
  refine congrArg _ (funext fun a => Fin.ext ?_)
  match a with
  | ⟨0, _⟩ => show win1_6.index t (0 : Fin 2) * 512 + 1 * (y 0).val = (y 0).val; rw [e 0]; omega
  | ⟨1, _⟩ => show win1_6.index t (1 : Fin 2) * 512 + 1 * (y 1).val = (y 1).val; rw [e 1]; omega

/-- Window 7's block at any point is the whole array: the parameter wox. -/
theorem wblk1_7 (c : Dev nD) (t : Fin cfg1.N) : iblk1 V c 7 t = (kpOf V c).wox := by
  have e := (widx1 t).2.2.2.2.1
  funext y
  show V c main_call0_v9 (((cfg1.win 7).blk t).view.emb y) = V c main_call0_v9 y
  refine congrArg _ (funext fun a => Fin.ext ?_)
  match a with
  | ⟨0, _⟩ => show win1_7.index t (0 : Fin 2) * 512 + 1 * (y 0).val = (y 0).val; rw [e 0]; omega
  | ⟨1, _⟩ => show win1_7.index t (1 : Fin 2) * 512 + 1 * (y 1).val = (y 1).val; rw [e 1]; omega

/-- Window 8's block at any point is the whole array: the parameter woh. -/
theorem wblk1_8 (c : Dev nD) (t : Fin cfg1.N) : iblk1 V c 8 t = (kpOf V c).woh := by
  have e := (widx1 t).2.2.2.2.2.1
  funext y
  show V c main_call0_v11 (((cfg1.win 8).blk t).view.emb y) = V c main_call0_v11 y
  refine congrArg _ (funext fun a => Fin.ext ?_)
  match a with
  | ⟨0, _⟩ => show win1_8.index t (0 : Fin 2) * 512 + 1 * (y 0).val = (y 0).val; rw [e 0]; omega
  | ⟨1, _⟩ => show win1_8.index t (1 : Fin 2) * 512 + 1 * (y 1).val = (y 1).val; rw [e 1]; omega

/-- Window 9's block at any point is the whole array: the parameter wux. -/
theorem wblk1_9 (c : Dev nD) (t : Fin cfg1.N) : iblk1 V c 9 t = (kpOf V c).wux := by
  have e := (widx1 t).2.2.2.2.2.2.1
  funext y
  show V c main_call0_v13 (((cfg1.win 9).blk t).view.emb y) = V c main_call0_v13 y
  refine congrArg _ (funext fun a => Fin.ext ?_)
  match a with
  | ⟨0, _⟩ => show win1_9.index t (0 : Fin 2) * 512 + 1 * (y 0).val = (y 0).val; rw [e 0]; omega
  | ⟨1, _⟩ => show win1_9.index t (1 : Fin 2) * 512 + 1 * (y 1).val = (y 1).val; rw [e 1]; omega

/-- Window 10's block at any point is the whole array: the parameter wuh. -/
theorem wblk1_10 (c : Dev nD) (t : Fin cfg1.N) : iblk1 V c 10 t = (kpOf V c).wuh := by
  have e := (widx1 t).2.2.2.2.2.2.2.1
  funext y
  show V c main_call0_v15 (((cfg1.win 10).blk t).view.emb y) = V c main_call0_v15 y
  refine congrArg _ (funext fun a => Fin.ext ?_)
  match a with
  | ⟨0, _⟩ => show win1_10.index t (0 : Fin 2) * 512 + 1 * (y 0).val = (y 0).val; rw [e 0]; omega
  | ⟨1, _⟩ => show win1_10.index t (1 : Fin 2) * 512 + 1 * (y 1).val = (y 1).val; rw [e 1]; omega

/-- Window 11's block at any point is the whole array: the parameter bi. -/
theorem wblk1_11 (c : Dev nD) (t : Fin cfg1.N) : iblk1 V c 11 t = (kpOf V c).bi := by
  have e := (widx1 t).2.2.2.2.2.2.2.2.1
  funext y
  show V c main_call0_v16 (((cfg1.win 11).blk t).view.emb y) = V c main_call0_v16 y
  refine congrArg _ (funext fun a => Fin.ext ?_)
  match a with
  | ⟨0, _⟩ => show win1_11.index t (0 : Fin 2) * 1 + 1 * (y 0).val = (y 0).val; rw [e 0]; omega
  | ⟨1, _⟩ => show win1_11.index t (1 : Fin 2) * 512 + 1 * (y 1).val = (y 1).val; rw [e 1]; omega

/-- Window 12's block at any point is the whole array: the parameter bf. -/
theorem wblk1_12 (c : Dev nD) (t : Fin cfg1.N) : iblk1 V c 12 t = (kpOf V c).bf := by
  have e := (widx1 t).2.2.2.2.2.2.2.2.2.1
  funext y
  show V c main_call0_v17 (((cfg1.win 12).blk t).view.emb y) = V c main_call0_v17 y
  refine congrArg _ (funext fun a => Fin.ext ?_)
  match a with
  | ⟨0, _⟩ => show win1_12.index t (0 : Fin 2) * 1 + 1 * (y 0).val = (y 0).val; rw [e 0]; omega
  | ⟨1, _⟩ => show win1_12.index t (1 : Fin 2) * 512 + 1 * (y 1).val = (y 1).val; rw [e 1]; omega

/-- Window 13's block at any point is the whole array: the parameter bo. -/
theorem wblk1_13 (c : Dev nD) (t : Fin cfg1.N) : iblk1 V c 13 t = (kpOf V c).bo := by
  have e := (widx1 t).2.2.2.2.2.2.2.2.2.2.1
  funext y
  show V c main_call0_v18 (((cfg1.win 13).blk t).view.emb y) = V c main_call0_v18 y
  refine congrArg _ (funext fun a => Fin.ext ?_)
  match a with
  | ⟨0, _⟩ => show win1_13.index t (0 : Fin 2) * 1 + 1 * (y 0).val = (y 0).val; rw [e 0]; omega
  | ⟨1, _⟩ => show win1_13.index t (1 : Fin 2) * 512 + 1 * (y 1).val = (y 1).val; rw [e 1]; omega

/-- Window 14's block at any point is the whole array: the parameter bu. -/
theorem wblk1_14 (c : Dev nD) (t : Fin cfg1.N) : iblk1 V c 14 t = (kpOf V c).bu := by
  have e := (widx1 t).2.2.2.2.2.2.2.2.2.2.2
  funext y
  show V c main_call0_v19 (((cfg1.win 14).blk t).view.emb y) = V c main_call0_v19 y
  refine congrArg _ (funext fun a => Fin.ext ?_)
  match a with
  | ⟨0, _⟩ => show win1_14.index t (0 : Fin 2) * 1 + 1 * (y 0).val = (y 0).val; rw [e 0]; omega
  | ⟨1, _⟩ => show win1_14.index t (1 : Fin 2) * 512 + 1 * (y 1).val = (y 1).val; rw [e 1]; omega

/-- What point t writes back to output window 15 is block t of the inner level's hidden states of the whole tables. -/
theorem flushed1_15_eq (c : Dev nD) (t : Fin cfg1.N) :
    (dat1 (F := Ideal) V c).flushed 15 t
      = ((cfg1.win 15).blk t).view.read (Elt Ideal) (innerH (kpOf V c) (V c main_call0_v22) (sel 0 (V c main_call0_v23)) (sel 1 (V c main_call0_v23)) (sel 0 (V c main_call0_v24)) (sel 1 (V c main_call0_v24))) := by
  show (cfg1.win 15).cut (grid1.coords t) ((dat1 V c).after 15 t) = _
  rw [after1_15]
  obtain ⟨e00, e01, e10, e11, e12, e20, e21, e22, ef0, ef1, eg0, eg1⟩ := idx1 t
  funext j
  show out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) j
      = innerH (kpOf V c) (V c main_call0_v22) (sel 0 (V c main_call0_v23)) (sel 1 (V c main_call0_v23)) (sel 0 (V c main_call0_v24)) (sel 1 (V c main_call0_v24)) (((cfg1.win 15).blk t).view.emb j)
  refine (congrFun (out1_15_tile (kpOf V c) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    (wblk1_3 V c t) (wblk1_4 V c t) (wblk1_5 V c t) (wblk1_6 V c t) (wblk1_7 V c t) (wblk1_8 V c t) (wblk1_9 V c t) (wblk1_10 V c t) (wblk1_11 V c t) (wblk1_12 V c t) (wblk1_13 V c t) (wblk1_14 V c t)) j).trans ?_
  refine innerH_tile (m := 512) (N := 8192) (kpOf V c) (iblk1 V c 0 t) (iblk1 V c 1 t) (iblk1 V c 2 t) (V c main_call0_v22) (V c main_call0_v23) (V c main_call0_v24)
    j (((cfg1.win 15).blk t).view.emb j) (fun cc => ?_) (fun s cc => ?_) (fun s cc => ?_) ?_
  · show V c main_call0_v22 (((cfg1.win 0).blk t).view.emb (ix2 (j 0) cc))
        = V c main_call0_v22 (ix2 ((((cfg1.win 15).blk t).view.emb j) 0) cc)
    refine congrArg _ (funext fun a => Fin.ext ?_)
    match a with
    | ⟨0, _⟩ =>
      show win1_0.index t (0 : Fin 2) * 512 + 1 * (j 0).val = win1_15.index t (0 : Fin 2) * 512 + 1 * (j 0).val
      rw [e00, ef0]
    | ⟨1, _⟩ => show win1_0.index t (1 : Fin 2) * 512 + 1 * cc.val = cc.val; rw [e01]; omega
  · show V c main_call0_v23 (((cfg1.win 1).blk t).view.emb (ix3 (j 0) s cc))
        = V c main_call0_v23 (ix3 ((((cfg1.win 15).blk t).view.emb j) 0) s cc)
    refine congrArg _ (funext fun a => Fin.ext ?_)
    match a with
    | ⟨0, _⟩ =>
      show win1_1.index t (0 : Fin 3) * 512 + 1 * (j 0).val = win1_15.index t (0 : Fin 2) * 512 + 1 * (j 0).val
      rw [e10, ef0]
    | ⟨1, _⟩ => show win1_1.index t (1 : Fin 3) * 2 + 1 * s.val = s.val; rw [e11]; omega
    | ⟨2, _⟩ => show win1_1.index t (2 : Fin 3) * 512 + 1 * cc.val = cc.val; rw [e12]; omega
  · show V c main_call0_v24 (((cfg1.win 2).blk t).view.emb (ix3 (j 0) s cc))
        = V c main_call0_v24 (ix3 ((((cfg1.win 15).blk t).view.emb j) 0) s cc)
    refine congrArg _ (funext fun a => Fin.ext ?_)
    match a with
    | ⟨0, _⟩ =>
      show win1_2.index t (0 : Fin 3) * 512 + 1 * (j 0).val = win1_15.index t (0 : Fin 2) * 512 + 1 * (j 0).val
      rw [e20, ef0]
    | ⟨1, _⟩ => show win1_2.index t (1 : Fin 3) * 2 + 1 * s.val = s.val; rw [e21]; omega
    | ⟨2, _⟩ => show win1_2.index t (2 : Fin 3) * 512 + 1 * cc.val = cc.val; rw [e22]; omega
  · show (j 1).val = win1_15.index t (1 : Fin 2) * 512 + 1 * (j 1).val
    rw [ef1]; omega

/-- An index of the result array is in point t's block iff each coordinate is in the block's range on its axis. -/
theorem mem_blk1_15 (t : Fin cfg1.N) (i : S8192x512.Idx) :
    i ∈ ((cfg1.win 15).blk t).view.set
      ↔ ∀ a : Fin 2, win1_15.index t a * S512x512.size a ≤ (i a).val ∧ (i a).val < win1_15.index t a * S512x512.size a + S512x512.size a := by
  show i ∈ ((View.whole main_call0_v25_0).slice (win1_15.rect t)).set ↔ _
  rw [View.set_slice_whole, Rect.mem_set_unit]
  exact Iff.rfl

/-- Every row of the result array is in some point's block: row r in block r / 512. -/
theorem cover1_15 (i : S8192x512.Idx) :
    ∃ t : Fin cfg1.N, (cfg1.win 15).flush t = true ∧ i ∈ ((cfg1.win 15).blk t).view.set := by
  have hi0 : (i 0).val < 8192 := (i 0).isLt
  have hi1 : (i 1).val < 512 := (i 1).isLt
  have hN : cfg1.N = 16 := N_1
  have ht : (i 0).val / 512 < cfg1.N := by rw [hN]; omega
  obtain ⟨-, -, -, -, -, -, -, -, ef0, ef1, eg0, eg1⟩ := idx1 ⟨(i 0).val / 512, ht⟩
  refine ⟨⟨(i 0).val / 512, ht⟩, flush1_15 _, ?_⟩
  rw [mem_blk1_15]
  intro a
  match a with
  | ⟨0, _⟩ =>
    show win1_15.index ⟨(i 0).val / 512, ht⟩ (0 : Fin 2) * 512 ≤ (i 0).val
      ∧ (i 0).val < win1_15.index ⟨(i 0).val / 512, ht⟩ (0 : Fin 2) * 512 + 512
    rw [ef0]
    show (i 0).val / 512 * 512 ≤ (i 0).val ∧ (i 0).val < (i 0).val / 512 * 512 + 512
    omega
  | ⟨1, _⟩ =>
    show win1_15.index ⟨(i 0).val / 512, ht⟩ (1 : Fin 2) * 512 ≤ (i 1).val
      ∧ (i 1).val < win1_15.index ⟨(i 0).val / 512, ht⟩ (1 : Fin 2) * 512 + 512
    rw [ef1]
    omega

/-- What point t writes back to output window 16 is block t of the inner level's cell states of the whole tables. -/
theorem flushed1_16_eq (c : Dev nD) (t : Fin cfg1.N) :
    (dat1 (F := Ideal) V c).flushed 16 t
      = ((cfg1.win 16).blk t).view.read (Elt Ideal) (innerC (kpOf V c) (V c main_call0_v22) (sel 0 (V c main_call0_v23)) (sel 1 (V c main_call0_v23)) (sel 0 (V c main_call0_v24)) (sel 1 (V c main_call0_v24))) := by
  show (cfg1.win 16).cut (grid1.coords t) ((dat1 V c).after 16 t) = _
  rw [after1_16]
  obtain ⟨e00, e01, e10, e11, e12, e20, e21, e22, ef0, ef1, eg0, eg1⟩ := idx1 t
  funext j
  show out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) j
      = innerC (kpOf V c) (V c main_call0_v22) (sel 0 (V c main_call0_v23)) (sel 1 (V c main_call0_v23)) (sel 0 (V c main_call0_v24)) (sel 1 (V c main_call0_v24)) (((cfg1.win 16).blk t).view.emb j)
  refine (congrFun (out1_16_tile (kpOf V c) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    (wblk1_3 V c t) (wblk1_4 V c t) (wblk1_5 V c t) (wblk1_6 V c t) (wblk1_7 V c t) (wblk1_8 V c t) (wblk1_9 V c t) (wblk1_10 V c t) (wblk1_11 V c t) (wblk1_12 V c t) (wblk1_13 V c t) (wblk1_14 V c t)) j).trans ?_
  refine innerC_tile (m := 512) (N := 8192) (kpOf V c) (iblk1 V c 0 t) (iblk1 V c 1 t) (iblk1 V c 2 t) (V c main_call0_v22) (V c main_call0_v23) (V c main_call0_v24)
    j (((cfg1.win 16).blk t).view.emb j) (fun cc => ?_) (fun s cc => ?_) (fun s cc => ?_) ?_
  · show V c main_call0_v22 (((cfg1.win 0).blk t).view.emb (ix2 (j 0) cc))
        = V c main_call0_v22 (ix2 ((((cfg1.win 16).blk t).view.emb j) 0) cc)
    refine congrArg _ (funext fun a => Fin.ext ?_)
    match a with
    | ⟨0, _⟩ =>
      show win1_0.index t (0 : Fin 2) * 512 + 1 * (j 0).val = win1_16.index t (0 : Fin 2) * 512 + 1 * (j 0).val
      rw [e00, eg0]
    | ⟨1, _⟩ => show win1_0.index t (1 : Fin 2) * 512 + 1 * cc.val = cc.val; rw [e01]; omega
  · show V c main_call0_v23 (((cfg1.win 1).blk t).view.emb (ix3 (j 0) s cc))
        = V c main_call0_v23 (ix3 ((((cfg1.win 16).blk t).view.emb j) 0) s cc)
    refine congrArg _ (funext fun a => Fin.ext ?_)
    match a with
    | ⟨0, _⟩ =>
      show win1_1.index t (0 : Fin 3) * 512 + 1 * (j 0).val = win1_16.index t (0 : Fin 2) * 512 + 1 * (j 0).val
      rw [e10, eg0]
    | ⟨1, _⟩ => show win1_1.index t (1 : Fin 3) * 2 + 1 * s.val = s.val; rw [e11]; omega
    | ⟨2, _⟩ => show win1_1.index t (2 : Fin 3) * 512 + 1 * cc.val = cc.val; rw [e12]; omega
  · show V c main_call0_v24 (((cfg1.win 2).blk t).view.emb (ix3 (j 0) s cc))
        = V c main_call0_v24 (ix3 ((((cfg1.win 16).blk t).view.emb j) 0) s cc)
    refine congrArg _ (funext fun a => Fin.ext ?_)
    match a with
    | ⟨0, _⟩ =>
      show win1_2.index t (0 : Fin 3) * 512 + 1 * (j 0).val = win1_16.index t (0 : Fin 2) * 512 + 1 * (j 0).val
      rw [e20, eg0]
    | ⟨1, _⟩ => show win1_2.index t (1 : Fin 3) * 2 + 1 * s.val = s.val; rw [e21]; omega
    | ⟨2, _⟩ => show win1_2.index t (2 : Fin 3) * 512 + 1 * cc.val = cc.val; rw [e22]; omega
  · show (j 1).val = win1_16.index t (1 : Fin 2) * 512 + 1 * (j 1).val
    rw [eg1]; omega

/-- An index of the result array is in point t's block iff each coordinate is in the block's range on its axis. -/
theorem mem_blk1_16 (t : Fin cfg1.N) (i : S8192x512.Idx) :
    i ∈ ((cfg1.win 16).blk t).view.set
      ↔ ∀ a : Fin 2, win1_16.index t a * S512x512.size a ≤ (i a).val ∧ (i a).val < win1_16.index t a * S512x512.size a + S512x512.size a := by
  show i ∈ ((View.whole main_call0_v25_1).slice (win1_16.rect t)).set ↔ _
  rw [View.set_slice_whole, Rect.mem_set_unit]
  exact Iff.rfl

/-- Every row of the result array is in some point's block: row r in block r / 512. -/
theorem cover1_16 (i : S8192x512.Idx) :
    ∃ t : Fin cfg1.N, (cfg1.win 16).flush t = true ∧ i ∈ ((cfg1.win 16).blk t).view.set := by
  have hi0 : (i 0).val < 8192 := (i 0).isLt
  have hi1 : (i 1).val < 512 := (i 1).isLt
  have hN : cfg1.N = 16 := N_1
  have ht : (i 0).val / 512 < cfg1.N := by rw [hN]; omega
  obtain ⟨-, -, -, -, -, -, -, -, ef0, ef1, eg0, eg1⟩ := idx1 ⟨(i 0).val / 512, ht⟩
  refine ⟨⟨(i 0).val / 512, ht⟩, flush1_16 _, ?_⟩
  rw [mem_blk1_16]
  intro a
  match a with
  | ⟨0, _⟩ =>
    show win1_16.index ⟨(i 0).val / 512, ht⟩ (0 : Fin 2) * 512 ≤ (i 0).val
      ∧ (i 0).val < win1_16.index ⟨(i 0).val / 512, ht⟩ (0 : Fin 2) * 512 + 512
    rw [eg0]
    show (i 0).val / 512 * 512 ≤ (i 0).val ∧ (i 0).val < (i 0).val / 512 * 512 + 512
    omega
  | ⟨1, _⟩ =>
    show win1_16.index ⟨(i 0).val / 512, ht⟩ (1 : Fin 2) * 512 ≤ (i 1).val
      ∧ (i 1).val < win1_16.index ⟨(i 0).val / 512, ht⟩ (1 : Fin 2) * 512 + 512
    rw [eg1]
    omega

/-- REGION 1: after the inner kernel the two result arrays hold the inner level's hidden and cell states of the
    level's input table and the children tables, with the weights the twelve parameter buffers. -/
theorem region1_out (c : Dev nD) :
    (dat1 (F := Ideal) V c).arrAt 15 cfg1.N = TreeSpec.innerH (kpOf V c) (V c main_call0_v22) (sel 0 (V c main_call0_v23)) (sel 1 (V c main_call0_v23)) (sel 0 (V c main_call0_v24)) (sel 1 (V c main_call0_v24))
    ∧ (dat1 (F := Ideal) V c).arrAt 16 cfg1.N = TreeSpec.innerC (kpOf V c) (V c main_call0_v22) (sel 0 (V c main_call0_v23)) (sel 1 (V c main_call0_v23)) (sel 0 (V c main_call0_v24)) (sel 1 (V c main_call0_v24)) :=
  ⟨(dat1 V c).arrAt_eq_of_cover 15 _ (fun t _ => flushed1_15_eq V c t) cover1_15,
   (dat1 V c).arrAt_eq_of_cover 16 _ (fun t _ => flushed1_16_eq V c t) cover1_16⟩

end Cert.KTree

end
-- ==== Proof.RegInner2.lean ====
/-
  Inner kernel 2's two result arrays are the specification's inner level of the whole tables.

  The kernel runs over 8 grid points; point t reads rows 512·t … 512·t + 511 of the level's 4096-row input table and of
  the two children tables (laid 4096 × 2 × 512) and the twelve weight operands whole, and writes back the same rows of
  the two results.  On a tile the body is the inner level of the tile, the inner level reads one row of its operands
  at a time, so each written block is that block of the inner level of the whole tables; the 8 blocks cover the
  results' rows, so each result array ends as the inner level.
-/
import proofs.«132239_j37117107372689_2_alg».proof.Proof.KernelIdealFrame
import proofs.«132239_j37117107372689_2_alg».proof.Proof.KTreeDefs
import proofs.«132239_j37117107372689_2_alg».proof.Proof.RegInnerOut
import proofs.«132239_j37117107372689_2_alg».proof.Proof.RegRows
import Idealize.ShloMosaic.Lib.Pipeline.Value

set_option maxRecDepth 16384

noncomputable section

namespace Cert.KTree

open Idealize.ShloMosaic Idealize.ShloMosaic.TcCoe Idealize.SL.Sem Cert.KernelIdeal Cert.KernelIdeal.Gen Cert.KernelIdeal.GenP
open Idealize.ShloMosaic.ValueIdx Cert.TreeSpec
open Idealize.ShloMosaic.Pipeline (Dat)

variable (V : (c : Dev nD) → (b : Ref sig .tc) → Buf (Elt Ideal) ((c : Thread nD τ).loc b))

/-- The block indices over the grid: the input table, the two children tables and the two results move one block
    of rows per point. -/
theorem idx2 : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_15.index t (0 : Fin 2) = t.val ∧ win2_15.index t (1 : Fin 2) = 0
    ∧ win2_16.index t (0 : Fin 2) = t.val ∧ win2_16.index t (1 : Fin 2) = 0 :=
  (by decide +kernel : ∀ t : Fin grid2.N, _)

/-- The weight operands stay at block 0. -/
theorem widx2 : ∀ t : Fin cfg2.N,
    (∀ a : Fin 2, win2_3.index t a = 0)
    ∧ (∀ a : Fin 2, win2_4.index t a = 0)
    ∧ (∀ a : Fin 2, win2_5.index t a = 0)
    ∧ (∀ a : Fin 2, win2_6.index t a = 0)
    ∧ (∀ a : Fin 2, win2_7.index t a = 0)
    ∧ (∀ a : Fin 2, win2_8.index t a = 0)
    ∧ (∀ a : Fin 2, win2_9.index t a = 0)
    ∧ (∀ a : Fin 2, win2_10.index t a = 0)
    ∧ (∀ a : Fin 2, win2_11.index t a = 0)
    ∧ (∀ a : Fin 2, win2_12.index t a = 0)
    ∧ (∀ a : Fin 2, win2_13.index t a = 0)
    ∧ (∀ a : Fin 2, win2_14.index t a = 0) :=
  (by decide +kernel : ∀ t : Fin grid2.N, _)

/-- Window 3's block at any point is the whole array: the parameter wix. -/
theorem wblk2_3 (c : Dev nD) (t : Fin cfg2.N) : iblk2 V c 3 t = (kpOf V c).wix := by
  have e := (widx2 t).1
  funext y
  show V c main_call0_v1 (((cfg2.win 3).blk t).view.emb y) = V c main_call0_v1 y
  refine congrArg _ (funext fun a => Fin.ext ?_)
  match a with
  | ⟨0, _⟩ => show win2_3.index t (0 : Fin 2) * 512 + 1 * (y 0).val = (y 0).val; rw [e 0]; omega
  | ⟨1, _⟩ => show win2_3.index t (1 : Fin 2) * 512 + 1 * (y 1).val = (y 1).val; rw [e 1]; omega

/-- Window 4's block at any point is the whole array: the parameter wih. -/
theorem wblk2_4 (c : Dev nD) (t : Fin cfg2.N) : iblk2 V c 4 t = (kpOf V c).wih := by
  have e := (widx2 t).2.1
  funext y
  show V c main_call0_v3 (((cfg2.win 4).blk t).view.emb y) = V c main_call0_v3 y
  refine congrArg _ (funext fun a => Fin.ext ?_)
  match a with
  | ⟨0, _⟩ => show win2_4.index t (0 : Fin 2) * 512 + 1 * (y 0).val = (y 0).val; rw [e 0]; omega
  | ⟨1, _⟩ => show win2_4.index t (1 : Fin 2) * 512 + 1 * (y 1).val = (y 1).val; rw [e 1]; omega

/-- Window 5's block at any point is the whole array: the parameter wfx. -/
theorem wblk2_5 (c : Dev nD) (t : Fin cfg2.N) : iblk2 V c 5 t = (kpOf V c).wfx := by
  have e := (widx2 t).2.2.1
  funext y
  show V c main_call0_v5 (((cfg2.win 5).blk t).view.emb y) = V c main_call0_v5 y
  refine congrArg _ (funext fun a => Fin.ext ?_)
  match a with
  | ⟨0, _⟩ => show win2_5.index t (0 : Fin 2) * 512 + 1 * (y 0).val = (y 0).val; rw [e 0]; omega
  | ⟨1, _⟩ => show win2_5.index t (1 : Fin 2) * 512 + 1 * (y 1).val = (y 1).val; rw [e 1]; omega

/-- Window 6's block at any point is the whole array: the parameter wfh. -/
theorem wblk2_6 (c : Dev nD) (t : Fin cfg2.N) : iblk2 V c 6 t = (kpOf V c).wfh := by
  have e := (widx2 t).2.2.2.1
  funext y
  show V c main_call0_v7 (((cfg2.win 6).blk t).view.emb y) = V c main_call0_v7 y
  refine congrArg _ (funext fun a => Fin.ext ?_)
  match a with
  | ⟨0, _⟩ => show win2_6.index t (0 : Fin 2) * 512 + 1 * (y 0).val = (y 0).val; rw [e 0]; omega
  | ⟨1, _⟩ => show win2_6.index t (1 : Fin 2) * 512 + 1 * (y 1).val = (y 1).val; rw [e 1]; omega

/-- Window 7's block at any point is the whole array: the parameter wox. -/
theorem wblk2_7 (c : Dev nD) (t : Fin cfg2.N) : iblk2 V c 7 t = (kpOf V c).wox := by
  have e := (widx2 t).2.2.2.2.1
  funext y
  show V c main_call0_v9 (((cfg2.win 7).blk t).view.emb y) = V c main_call0_v9 y
  refine congrArg _ (funext fun a => Fin.ext ?_)
  match a with
  | ⟨0, _⟩ => show win2_7.index t (0 : Fin 2) * 512 + 1 * (y 0).val = (y 0).val; rw [e 0]; omega
  | ⟨1, _⟩ => show win2_7.index t (1 : Fin 2) * 512 + 1 * (y 1).val = (y 1).val; rw [e 1]; omega

/-- Window 8's block at any point is the whole array: the parameter woh. -/
theorem wblk2_8 (c : Dev nD) (t : Fin cfg2.N) : iblk2 V c 8 t = (kpOf V c).woh := by
  have e := (widx2 t).2.2.2.2.2.1
  funext y
  show V c main_call0_v11 (((cfg2.win 8).blk t).view.emb y) = V c main_call0_v11 y
  refine congrArg _ (funext fun a => Fin.ext ?_)
  match a with
  | ⟨0, _⟩ => show win2_8.index t (0 : Fin 2) * 512 + 1 * (y 0).val = (y 0).val; rw [e 0]; omega
  | ⟨1, _⟩ => show win2_8.index t (1 : Fin 2) * 512 + 1 * (y 1).val = (y 1).val; rw [e 1]; omega

/-- Window 9's block at any point is the whole array: the parameter wux. -/
theorem wblk2_9 (c : Dev nD) (t : Fin cfg2.N) : iblk2 V c 9 t = (kpOf V c).wux := by
  have e := (widx2 t).2.2.2.2.2.2.1
  funext y
  show V c main_call0_v13 (((cfg2.win 9).blk t).view.emb y) = V c main_call0_v13 y
  refine congrArg _ (funext fun a => Fin.ext ?_)
  match a with
  | ⟨0, _⟩ => show win2_9.index t (0 : Fin 2) * 512 + 1 * (y 0).val = (y 0).val; rw [e 0]; omega
  | ⟨1, _⟩ => show win2_9.index t (1 : Fin 2) * 512 + 1 * (y 1).val = (y 1).val; rw [e 1]; omega

/-- Window 10's block at any point is the whole array: the parameter wuh. -/
theorem wblk2_10 (c : Dev nD) (t : Fin cfg2.N) : iblk2 V c 10 t = (kpOf V c).wuh := by
  have e := (widx2 t).2.2.2.2.2.2.2.1
  funext y
  show V c main_call0_v15 (((cfg2.win 10).blk t).view.emb y) = V c main_call0_v15 y
  refine congrArg _ (funext fun a => Fin.ext ?_)
  match a with
  | ⟨0, _⟩ => show win2_10.index t (0 : Fin 2) * 512 + 1 * (y 0).val = (y 0).val; rw [e 0]; omega
  | ⟨1, _⟩ => show win2_10.index t (1 : Fin 2) * 512 + 1 * (y 1).val = (y 1).val; rw [e 1]; omega

/-- Window 11's block at any point is the whole array: the parameter bi. -/
theorem wblk2_11 (c : Dev nD) (t : Fin cfg2.N) : iblk2 V c 11 t = (kpOf V c).bi := by
  have e := (widx2 t).2.2.2.2.2.2.2.2.1
  funext y
  show V c main_call0_v16 (((cfg2.win 11).blk t).view.emb y) = V c main_call0_v16 y
  refine congrArg _ (funext fun a => Fin.ext ?_)
  match a with
  | ⟨0, _⟩ => show win2_11.index t (0 : Fin 2) * 1 + 1 * (y 0).val = (y 0).val; rw [e 0]; omega
  | ⟨1, _⟩ => show win2_11.index t (1 : Fin 2) * 512 + 1 * (y 1).val = (y 1).val; rw [e 1]; omega

/-- Window 12's block at any point is the whole array: the parameter bf. -/
theorem wblk2_12 (c : Dev nD) (t : Fin cfg2.N) : iblk2 V c 12 t = (kpOf V c).bf := by
  have e := (widx2 t).2.2.2.2.2.2.2.2.2.1
  funext y
  show V c main_call0_v17 (((cfg2.win 12).blk t).view.emb y) = V c main_call0_v17 y
  refine congrArg _ (funext fun a => Fin.ext ?_)
  match a with
  | ⟨0, _⟩ => show win2_12.index t (0 : Fin 2) * 1 + 1 * (y 0).val = (y 0).val; rw [e 0]; omega
  | ⟨1, _⟩ => show win2_12.index t (1 : Fin 2) * 512 + 1 * (y 1).val = (y 1).val; rw [e 1]; omega

/-- Window 13's block at any point is the whole array: the parameter bo. -/
theorem wblk2_13 (c : Dev nD) (t : Fin cfg2.N) : iblk2 V c 13 t = (kpOf V c).bo := by
  have e := (widx2 t).2.2.2.2.2.2.2.2.2.2.1
  funext y
  show V c main_call0_v18 (((cfg2.win 13).blk t).view.emb y) = V c main_call0_v18 y
  refine congrArg _ (funext fun a => Fin.ext ?_)
  match a with
  | ⟨0, _⟩ => show win2_13.index t (0 : Fin 2) * 1 + 1 * (y 0).val = (y 0).val; rw [e 0]; omega
  | ⟨1, _⟩ => show win2_13.index t (1 : Fin 2) * 512 + 1 * (y 1).val = (y 1).val; rw [e 1]; omega

/-- Window 14's block at any point is the whole array: the parameter bu. -/
theorem wblk2_14 (c : Dev nD) (t : Fin cfg2.N) : iblk2 V c 14 t = (kpOf V c).bu := by
  have e := (widx2 t).2.2.2.2.2.2.2.2.2.2.2
  funext y
  show V c main_call0_v19 (((cfg2.win 14).blk t).view.emb y) = V c main_call0_v19 y
  refine congrArg _ (funext fun a => Fin.ext ?_)
  match a with
  | ⟨0, _⟩ => show win2_14.index t (0 : Fin 2) * 1 + 1 * (y 0).val = (y 0).val; rw [e 0]; omega
  | ⟨1, _⟩ => show win2_14.index t (1 : Fin 2) * 512 + 1 * (y 1).val = (y 1).val; rw [e 1]; omega

/-- What point t writes back to output window 15 is block t of the inner level's hidden states of the whole tables. -/
theorem flushed2_15_eq (c : Dev nD) (t : Fin cfg2.N) :
    (dat2 (F := Ideal) V c).flushed 15 t
      = ((cfg2.win 15).blk t).view.read (Elt Ideal) (innerH (kpOf V c) (V c main_call0_v26) (sel 0 (V c main_call0_v27)) (sel 1 (V c main_call0_v27)) (sel 0 (V c main_call0_v28)) (sel 1 (V c main_call0_v28))) := by
  show (cfg2.win 15).cut (grid2.coords t) ((dat2 V c).after 15 t) = _
  rw [after2_15]
  obtain ⟨e00, e01, e10, e11, e12, e20, e21, e22, ef0, ef1, eg0, eg1⟩ := idx2 t
  funext j
  show out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) j
      = innerH (kpOf V c) (V c main_call0_v26) (sel 0 (V c main_call0_v27)) (sel 1 (V c main_call0_v27)) (sel 0 (V c main_call0_v28)) (sel 1 (V c main_call0_v28)) (((cfg2.win 15).blk t).view.emb j)
  refine (congrFun (out2_15_tile (kpOf V c) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    (wblk2_3 V c t) (wblk2_4 V c t) (wblk2_5 V c t) (wblk2_6 V c t) (wblk2_7 V c t) (wblk2_8 V c t) (wblk2_9 V c t) (wblk2_10 V c t) (wblk2_11 V c t) (wblk2_12 V c t) (wblk2_13 V c t) (wblk2_14 V c t)) j).trans ?_
  refine innerH_tile (m := 512) (N := 4096) (kpOf V c) (iblk2 V c 0 t) (iblk2 V c 1 t) (iblk2 V c 2 t) (V c main_call0_v26) (V c main_call0_v27) (V c main_call0_v28)
    j (((cfg2.win 15).blk t).view.emb j) (fun cc => ?_) (fun s cc => ?_) (fun s cc => ?_) ?_
  · show V c main_call0_v26 (((cfg2.win 0).blk t).view.emb (ix2 (j 0) cc))
        = V c main_call0_v26 (ix2 ((((cfg2.win 15).blk t).view.emb j) 0) cc)
    refine congrArg _ (funext fun a => Fin.ext ?_)
    match a with
    | ⟨0, _⟩ =>
      show win2_0.index t (0 : Fin 2) * 512 + 1 * (j 0).val = win2_15.index t (0 : Fin 2) * 512 + 1 * (j 0).val
      rw [e00, ef0]
    | ⟨1, _⟩ => show win2_0.index t (1 : Fin 2) * 512 + 1 * cc.val = cc.val; rw [e01]; omega
  · show V c main_call0_v27 (((cfg2.win 1).blk t).view.emb (ix3 (j 0) s cc))
        = V c main_call0_v27 (ix3 ((((cfg2.win 15).blk t).view.emb j) 0) s cc)
    refine congrArg _ (funext fun a => Fin.ext ?_)
    match a with
    | ⟨0, _⟩ =>
      show win2_1.index t (0 : Fin 3) * 512 + 1 * (j 0).val = win2_15.index t (0 : Fin 2) * 512 + 1 * (j 0).val
      rw [e10, ef0]
    | ⟨1, _⟩ => show win2_1.index t (1 : Fin 3) * 2 + 1 * s.val = s.val; rw [e11]; omega
    | ⟨2, _⟩ => show win2_1.index t (2 : Fin 3) * 512 + 1 * cc.val = cc.val; rw [e12]; omega
  · show V c main_call0_v28 (((cfg2.win 2).blk t).view.emb (ix3 (j 0) s cc))
        = V c main_call0_v28 (ix3 ((((cfg2.win 15).blk t).view.emb j) 0) s cc)
    refine congrArg _ (funext fun a => Fin.ext ?_)
    match a with
    | ⟨0, _⟩ =>
      show win2_2.index t (0 : Fin 3) * 512 + 1 * (j 0).val = win2_15.index t (0 : Fin 2) * 512 + 1 * (j 0).val
      rw [e20, ef0]
    | ⟨1, _⟩ => show win2_2.index t (1 : Fin 3) * 2 + 1 * s.val = s.val; rw [e21]; omega
    | ⟨2, _⟩ => show win2_2.index t (2 : Fin 3) * 512 + 1 * cc.val = cc.val; rw [e22]; omega
  · show (j 1).val = win2_15.index t (1 : Fin 2) * 512 + 1 * (j 1).val
    rw [ef1]; omega

/-- An index of the result array is in point t's block iff each coordinate is in the block's range on its axis. -/
theorem mem_blk2_15 (t : Fin cfg2.N) (i : S4096x512.Idx) :
    i ∈ ((cfg2.win 15).blk t).view.set
      ↔ ∀ a : Fin 2, win2_15.index t a * S512x512.size a ≤ (i a).val ∧ (i a).val < win2_15.index t a * S512x512.size a + S512x512.size a := by
  show i ∈ ((View.whole main_call0_v29_0).slice (win2_15.rect t)).set ↔ _
  rw [View.set_slice_whole, Rect.mem_set_unit]
  exact Iff.rfl

/-- Every row of the result array is in some point's block: row r in block r / 512. -/
theorem cover2_15 (i : S4096x512.Idx) :
    ∃ t : Fin cfg2.N, (cfg2.win 15).flush t = true ∧ i ∈ ((cfg2.win 15).blk t).view.set := by
  have hi0 : (i 0).val < 4096 := (i 0).isLt
  have hi1 : (i 1).val < 512 := (i 1).isLt
  have hN : cfg2.N = 8 := N_2
  have ht : (i 0).val / 512 < cfg2.N := by rw [hN]; omega
  obtain ⟨-, -, -, -, -, -, -, -, ef0, ef1, eg0, eg1⟩ := idx2 ⟨(i 0).val / 512, ht⟩
  refine ⟨⟨(i 0).val / 512, ht⟩, flush2_15 _, ?_⟩
  rw [mem_blk2_15]
  intro a
  match a with
  | ⟨0, _⟩ =>
    show win2_15.index ⟨(i 0).val / 512, ht⟩ (0 : Fin 2) * 512 ≤ (i 0).val
      ∧ (i 0).val < win2_15.index ⟨(i 0).val / 512, ht⟩ (0 : Fin 2) * 512 + 512
    rw [ef0]
    show (i 0).val / 512 * 512 ≤ (i 0).val ∧ (i 0).val < (i 0).val / 512 * 512 + 512
    omega
  | ⟨1, _⟩ =>
    show win2_15.index ⟨(i 0).val / 512, ht⟩ (1 : Fin 2) * 512 ≤ (i 1).val
      ∧ (i 1).val < win2_15.index ⟨(i 0).val / 512, ht⟩ (1 : Fin 2) * 512 + 512
    rw [ef1]
    omega

/-- What point t writes back to output window 16 is block t of the inner level's cell states of the whole tables. -/
theorem flushed2_16_eq (c : Dev nD) (t : Fin cfg2.N) :
    (dat2 (F := Ideal) V c).flushed 16 t
      = ((cfg2.win 16).blk t).view.read (Elt Ideal) (innerC (kpOf V c) (V c main_call0_v26) (sel 0 (V c main_call0_v27)) (sel 1 (V c main_call0_v27)) (sel 0 (V c main_call0_v28)) (sel 1 (V c main_call0_v28))) := by
  show (cfg2.win 16).cut (grid2.coords t) ((dat2 V c).after 16 t) = _
  rw [after2_16]
  obtain ⟨e00, e01, e10, e11, e12, e20, e21, e22, ef0, ef1, eg0, eg1⟩ := idx2 t
  funext j
  show out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) j
      = innerC (kpOf V c) (V c main_call0_v26) (sel 0 (V c main_call0_v27)) (sel 1 (V c main_call0_v27)) (sel 0 (V c main_call0_v28)) (sel 1 (V c main_call0_v28)) (((cfg2.win 16).blk t).view.emb j)
  refine (congrFun (out2_16_tile (kpOf V c) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    (wblk2_3 V c t) (wblk2_4 V c t) (wblk2_5 V c t) (wblk2_6 V c t) (wblk2_7 V c t) (wblk2_8 V c t) (wblk2_9 V c t) (wblk2_10 V c t) (wblk2_11 V c t) (wblk2_12 V c t) (wblk2_13 V c t) (wblk2_14 V c t)) j).trans ?_
  refine innerC_tile (m := 512) (N := 4096) (kpOf V c) (iblk2 V c 0 t) (iblk2 V c 1 t) (iblk2 V c 2 t) (V c main_call0_v26) (V c main_call0_v27) (V c main_call0_v28)
    j (((cfg2.win 16).blk t).view.emb j) (fun cc => ?_) (fun s cc => ?_) (fun s cc => ?_) ?_
  · show V c main_call0_v26 (((cfg2.win 0).blk t).view.emb (ix2 (j 0) cc))
        = V c main_call0_v26 (ix2 ((((cfg2.win 16).blk t).view.emb j) 0) cc)
    refine congrArg _ (funext fun a => Fin.ext ?_)
    match a with
    | ⟨0, _⟩ =>
      show win2_0.index t (0 : Fin 2) * 512 + 1 * (j 0).val = win2_16.index t (0 : Fin 2) * 512 + 1 * (j 0).val
      rw [e00, eg0]
    | ⟨1, _⟩ => show win2_0.index t (1 : Fin 2) * 512 + 1 * cc.val = cc.val; rw [e01]; omega
  · show V c main_call0_v27 (((cfg2.win 1).blk t).view.emb (ix3 (j 0) s cc))
        = V c main_call0_v27 (ix3 ((((cfg2.win 16).blk t).view.emb j) 0) s cc)
    refine congrArg _ (funext fun a => Fin.ext ?_)
    match a with
    | ⟨0, _⟩ =>
      show win2_1.index t (0 : Fin 3) * 512 + 1 * (j 0).val = win2_16.index t (0 : Fin 2) * 512 + 1 * (j 0).val
      rw [e10, eg0]
    | ⟨1, _⟩ => show win2_1.index t (1 : Fin 3) * 2 + 1 * s.val = s.val; rw [e11]; omega
    | ⟨2, _⟩ => show win2_1.index t (2 : Fin 3) * 512 + 1 * cc.val = cc.val; rw [e12]; omega
  · show V c main_call0_v28 (((cfg2.win 2).blk t).view.emb (ix3 (j 0) s cc))
        = V c main_call0_v28 (ix3 ((((cfg2.win 16).blk t).view.emb j) 0) s cc)
    refine congrArg _ (funext fun a => Fin.ext ?_)
    match a with
    | ⟨0, _⟩ =>
      show win2_2.index t (0 : Fin 3) * 512 + 1 * (j 0).val = win2_16.index t (0 : Fin 2) * 512 + 1 * (j 0).val
      rw [e20, eg0]
    | ⟨1, _⟩ => show win2_2.index t (1 : Fin 3) * 2 + 1 * s.val = s.val; rw [e21]; omega
    | ⟨2, _⟩ => show win2_2.index t (2 : Fin 3) * 512 + 1 * cc.val = cc.val; rw [e22]; omega
  · show (j 1).val = win2_16.index t (1 : Fin 2) * 512 + 1 * (j 1).val
    rw [eg1]; omega

/-- An index of the result array is in point t's block iff each coordinate is in the block's range on its axis. -/
theorem mem_blk2_16 (t : Fin cfg2.N) (i : S4096x512.Idx) :
    i ∈ ((cfg2.win 16).blk t).view.set
      ↔ ∀ a : Fin 2, win2_16.index t a * S512x512.size a ≤ (i a).val ∧ (i a).val < win2_16.index t a * S512x512.size a + S512x512.size a := by
  show i ∈ ((View.whole main_call0_v29_1).slice (win2_16.rect t)).set ↔ _
  rw [View.set_slice_whole, Rect.mem_set_unit]
  exact Iff.rfl

/-- Every row of the result array is in some point's block: row r in block r / 512. -/
theorem cover2_16 (i : S4096x512.Idx) :
    ∃ t : Fin cfg2.N, (cfg2.win 16).flush t = true ∧ i ∈ ((cfg2.win 16).blk t).view.set := by
  have hi0 : (i 0).val < 4096 := (i 0).isLt
  have hi1 : (i 1).val < 512 := (i 1).isLt
  have hN : cfg2.N = 8 := N_2
  have ht : (i 0).val / 512 < cfg2.N := by rw [hN]; omega
  obtain ⟨-, -, -, -, -, -, -, -, ef0, ef1, eg0, eg1⟩ := idx2 ⟨(i 0).val / 512, ht⟩
  refine ⟨⟨(i 0).val / 512, ht⟩, flush2_16 _, ?_⟩
  rw [mem_blk2_16]
  intro a
  match a with
  | ⟨0, _⟩ =>
    show win2_16.index ⟨(i 0).val / 512, ht⟩ (0 : Fin 2) * 512 ≤ (i 0).val
      ∧ (i 0).val < win2_16.index ⟨(i 0).val / 512, ht⟩ (0 : Fin 2) * 512 + 512
    rw [eg0]
    show (i 0).val / 512 * 512 ≤ (i 0).val ∧ (i 0).val < (i 0).val / 512 * 512 + 512
    omega
  | ⟨1, _⟩ =>
    show win2_16.index ⟨(i 0).val / 512, ht⟩ (1 : Fin 2) * 512 ≤ (i 1).val
      ∧ (i 1).val < win2_16.index ⟨(i 0).val / 512, ht⟩ (1 : Fin 2) * 512 + 512
    rw [eg1]
    omega

/-- REGION 2: after the inner kernel the two result arrays hold the inner level's hidden and cell states of the
    level's input table and the children tables, with the weights the twelve parameter buffers. -/
theorem region2_out (c : Dev nD) :
    (dat2 (F := Ideal) V c).arrAt 15 cfg2.N = TreeSpec.innerH (kpOf V c) (V c main_call0_v26) (sel 0 (V c main_call0_v27)) (sel 1 (V c main_call0_v27)) (sel 0 (V c main_call0_v28)) (sel 1 (V c main_call0_v28))
    ∧ (dat2 (F := Ideal) V c).arrAt 16 cfg2.N = TreeSpec.innerC (kpOf V c) (V c main_call0_v26) (sel 0 (V c main_call0_v27)) (sel 1 (V c main_call0_v27)) (sel 0 (V c main_call0_v28)) (sel 1 (V c main_call0_v28)) :=
  ⟨(dat2 V c).arrAt_eq_of_cover 15 _ (fun t _ => flushed2_15_eq V c t) cover2_15,
   (dat2 V c).arrAt_eq_of_cover 16 _ (fun t _ => flushed2_16_eq V c t) cover2_16⟩

end Cert.KTree

end
-- ==== Proof.RegInner3.lean ====
/-
  Inner kernel 3's two result arrays are the specification's inner level of the whole tables.

  The kernel runs over 4 grid points; point t reads rows 512·t … 512·t + 511 of the level's 2048-row input table and of
  the two children tables (laid 2048 × 2 × 512) and the twelve weight operands whole, and writes back the same rows of
  the two results.  On a tile the body is the inner level of the tile, the inner level reads one row of its operands
  at a time, so each written block is that block of the inner level of the whole tables; the 4 blocks cover the
  results' rows, so each result array ends as the inner level.
-/
import proofs.«132239_j37117107372689_2_alg».proof.Proof.KernelIdealFrame
import proofs.«132239_j37117107372689_2_alg».proof.Proof.KTreeDefs
import proofs.«132239_j37117107372689_2_alg».proof.Proof.RegInnerOut
import proofs.«132239_j37117107372689_2_alg».proof.Proof.RegRows
import Idealize.ShloMosaic.Lib.Pipeline.Value

set_option maxRecDepth 16384

noncomputable section

namespace Cert.KTree

open Idealize.ShloMosaic Idealize.ShloMosaic.TcCoe Idealize.SL.Sem Cert.KernelIdeal Cert.KernelIdeal.Gen Cert.KernelIdeal.GenP
open Idealize.ShloMosaic.ValueIdx Cert.TreeSpec
open Idealize.ShloMosaic.Pipeline (Dat)

variable (V : (c : Dev nD) → (b : Ref sig .tc) → Buf (Elt Ideal) ((c : Thread nD τ).loc b))

/-- The block indices over the grid: the input table, the two children tables and the two results move one block
    of rows per point. -/
theorem idx3 : ∀ t : Fin cfg3.N,
    win3_0.index t (0 : Fin 2) = t.val ∧ win3_0.index t (1 : Fin 2) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_15.index t (0 : Fin 2) = t.val ∧ win3_15.index t (1 : Fin 2) = 0
    ∧ win3_16.index t (0 : Fin 2) = t.val ∧ win3_16.index t (1 : Fin 2) = 0 :=
  (by decide +kernel : ∀ t : Fin grid3.N, _)

/-- The weight operands stay at block 0. -/
theorem widx3 : ∀ t : Fin cfg3.N,
    (∀ a : Fin 2, win3_3.index t a = 0)
    ∧ (∀ a : Fin 2, win3_4.index t a = 0)
    ∧ (∀ a : Fin 2, win3_5.index t a = 0)
    ∧ (∀ a : Fin 2, win3_6.index t a = 0)
    ∧ (∀ a : Fin 2, win3_7.index t a = 0)
    ∧ (∀ a : Fin 2, win3_8.index t a = 0)
    ∧ (∀ a : Fin 2, win3_9.index t a = 0)
    ∧ (∀ a : Fin 2, win3_10.index t a = 0)
    ∧ (∀ a : Fin 2, win3_11.index t a = 0)
    ∧ (∀ a : Fin 2, win3_12.index t a = 0)
    ∧ (∀ a : Fin 2, win3_13.index t a = 0)
    ∧ (∀ a : Fin 2, win3_14.index t a = 0) :=
  (by decide +kernel : ∀ t : Fin grid3.N, _)

/-- Window 3's block at any point is the whole array: the parameter wix. -/
theorem wblk3_3 (c : Dev nD) (t : Fin cfg3.N) : iblk3 V c 3 t = (kpOf V c).wix := by
  have e := (widx3 t).1
  funext y
  show V c main_call0_v1 (((cfg3.win 3).blk t).view.emb y) = V c main_call0_v1 y
  refine congrArg _ (funext fun a => Fin.ext ?_)
  match a with
  | ⟨0, _⟩ => show win3_3.index t (0 : Fin 2) * 512 + 1 * (y 0).val = (y 0).val; rw [e 0]; omega
  | ⟨1, _⟩ => show win3_3.index t (1 : Fin 2) * 512 + 1 * (y 1).val = (y 1).val; rw [e 1]; omega

/-- Window 4's block at any point is the whole array: the parameter wih. -/
theorem wblk3_4 (c : Dev nD) (t : Fin cfg3.N) : iblk3 V c 4 t = (kpOf V c).wih := by
  have e := (widx3 t).2.1
  funext y
  show V c main_call0_v3 (((cfg3.win 4).blk t).view.emb y) = V c main_call0_v3 y
  refine congrArg _ (funext fun a => Fin.ext ?_)
  match a with
  | ⟨0, _⟩ => show win3_4.index t (0 : Fin 2) * 512 + 1 * (y 0).val = (y 0).val; rw [e 0]; omega
  | ⟨1, _⟩ => show win3_4.index t (1 : Fin 2) * 512 + 1 * (y 1).val = (y 1).val; rw [e 1]; omega

/-- Window 5's block at any point is the whole array: the parameter wfx. -/
theorem wblk3_5 (c : Dev nD) (t : Fin cfg3.N) : iblk3 V c 5 t = (kpOf V c).wfx := by
  have e := (widx3 t).2.2.1
  funext y
  show V c main_call0_v5 (((cfg3.win 5).blk t).view.emb y) = V c main_call0_v5 y
  refine congrArg _ (funext fun a => Fin.ext ?_)
  match a with
  | ⟨0, _⟩ => show win3_5.index t (0 : Fin 2) * 512 + 1 * (y 0).val = (y 0).val; rw [e 0]; omega
  | ⟨1, _⟩ => show win3_5.index t (1 : Fin 2) * 512 + 1 * (y 1).val = (y 1).val; rw [e 1]; omega

/-- Window 6's block at any point is the whole array: the parameter wfh. -/
theorem wblk3_6 (c : Dev nD) (t : Fin cfg3.N) : iblk3 V c 6 t = (kpOf V c).wfh := by
  have e := (widx3 t).2.2.2.1
  funext y
  show V c main_call0_v7 (((cfg3.win 6).blk t).view.emb y) = V c main_call0_v7 y
  refine congrArg _ (funext fun a => Fin.ext ?_)
  match a with
  | ⟨0, _⟩ => show win3_6.index t (0 : Fin 2) * 512 + 1 * (y 0).val = (y 0).val; rw [e 0]; omega
  | ⟨1, _⟩ => show win3_6.index t (1 : Fin 2) * 512 + 1 * (y 1).val = (y 1).val; rw [e 1]; omega

/-- Window 7's block at any point is the whole array: the parameter wox. -/
theorem wblk3_7 (c : Dev nD) (t : Fin cfg3.N) : iblk3 V c 7 t = (kpOf V c).wox := by
  have e := (widx3 t).2.2.2.2.1
  funext y
  show V c main_call0_v9 (((cfg3.win 7).blk t).view.emb y) = V c main_call0_v9 y
  refine congrArg _ (funext fun a => Fin.ext ?_)
  match a with
  | ⟨0, _⟩ => show win3_7.index t (0 : Fin 2) * 512 + 1 * (y 0).val = (y 0).val; rw [e 0]; omega
  | ⟨1, _⟩ => show win3_7.index t (1 : Fin 2) * 512 + 1 * (y 1).val = (y 1).val; rw [e 1]; omega

/-- Window 8's block at any point is the whole array: the parameter woh. -/
theorem wblk3_8 (c : Dev nD) (t : Fin cfg3.N) : iblk3 V c 8 t = (kpOf V c).woh := by
  have e := (widx3 t).2.2.2.2.2.1
  funext y
  show V c main_call0_v11 (((cfg3.win 8).blk t).view.emb y) = V c main_call0_v11 y
  refine congrArg _ (funext fun a => Fin.ext ?_)
  match a with
  | ⟨0, _⟩ => show win3_8.index t (0 : Fin 2) * 512 + 1 * (y 0).val = (y 0).val; rw [e 0]; omega
  | ⟨1, _⟩ => show win3_8.index t (1 : Fin 2) * 512 + 1 * (y 1).val = (y 1).val; rw [e 1]; omega

/-- Window 9's block at any point is the whole array: the parameter wux. -/
theorem wblk3_9 (c : Dev nD) (t : Fin cfg3.N) : iblk3 V c 9 t = (kpOf V c).wux := by
  have e := (widx3 t).2.2.2.2.2.2.1
  funext y
  show V c main_call0_v13 (((cfg3.win 9).blk t).view.emb y) = V c main_call0_v13 y
  refine congrArg _ (funext fun a => Fin.ext ?_)
  match a with
  | ⟨0, _⟩ => show win3_9.index t (0 : Fin 2) * 512 + 1 * (y 0).val = (y 0).val; rw [e 0]; omega
  | ⟨1, _⟩ => show win3_9.index t (1 : Fin 2) * 512 + 1 * (y 1).val = (y 1).val; rw [e 1]; omega

/-- Window 10's block at any point is the whole array: the parameter wuh. -/
theorem wblk3_10 (c : Dev nD) (t : Fin cfg3.N) : iblk3 V c 10 t = (kpOf V c).wuh := by
  have e := (widx3 t).2.2.2.2.2.2.2.1
  funext y
  show V c main_call0_v15 (((cfg3.win 10).blk t).view.emb y) = V c main_call0_v15 y
  refine congrArg _ (funext fun a => Fin.ext ?_)
  match a with
  | ⟨0, _⟩ => show win3_10.index t (0 : Fin 2) * 512 + 1 * (y 0).val = (y 0).val; rw [e 0]; omega
  | ⟨1, _⟩ => show win3_10.index t (1 : Fin 2) * 512 + 1 * (y 1).val = (y 1).val; rw [e 1]; omega

/-- Window 11's block at any point is the whole array: the parameter bi. -/
theorem wblk3_11 (c : Dev nD) (t : Fin cfg3.N) : iblk3 V c 11 t = (kpOf V c).bi := by
  have e := (widx3 t).2.2.2.2.2.2.2.2.1
  funext y
  show V c main_call0_v16 (((cfg3.win 11).blk t).view.emb y) = V c main_call0_v16 y
  refine congrArg _ (funext fun a => Fin.ext ?_)
  match a with
  | ⟨0, _⟩ => show win3_11.index t (0 : Fin 2) * 1 + 1 * (y 0).val = (y 0).val; rw [e 0]; omega
  | ⟨1, _⟩ => show win3_11.index t (1 : Fin 2) * 512 + 1 * (y 1).val = (y 1).val; rw [e 1]; omega

/-- Window 12's block at any point is the whole array: the parameter bf. -/
theorem wblk3_12 (c : Dev nD) (t : Fin cfg3.N) : iblk3 V c 12 t = (kpOf V c).bf := by
  have e := (widx3 t).2.2.2.2.2.2.2.2.2.1
  funext y
  show V c main_call0_v17 (((cfg3.win 12).blk t).view.emb y) = V c main_call0_v17 y
  refine congrArg _ (funext fun a => Fin.ext ?_)
  match a with
  | ⟨0, _⟩ => show win3_12.index t (0 : Fin 2) * 1 + 1 * (y 0).val = (y 0).val; rw [e 0]; omega
  | ⟨1, _⟩ => show win3_12.index t (1 : Fin 2) * 512 + 1 * (y 1).val = (y 1).val; rw [e 1]; omega

/-- Window 13's block at any point is the whole array: the parameter bo. -/
theorem wblk3_13 (c : Dev nD) (t : Fin cfg3.N) : iblk3 V c 13 t = (kpOf V c).bo := by
  have e := (widx3 t).2.2.2.2.2.2.2.2.2.2.1
  funext y
  show V c main_call0_v18 (((cfg3.win 13).blk t).view.emb y) = V c main_call0_v18 y
  refine congrArg _ (funext fun a => Fin.ext ?_)
  match a with
  | ⟨0, _⟩ => show win3_13.index t (0 : Fin 2) * 1 + 1 * (y 0).val = (y 0).val; rw [e 0]; omega
  | ⟨1, _⟩ => show win3_13.index t (1 : Fin 2) * 512 + 1 * (y 1).val = (y 1).val; rw [e 1]; omega

/-- Window 14's block at any point is the whole array: the parameter bu. -/
theorem wblk3_14 (c : Dev nD) (t : Fin cfg3.N) : iblk3 V c 14 t = (kpOf V c).bu := by
  have e := (widx3 t).2.2.2.2.2.2.2.2.2.2.2
  funext y
  show V c main_call0_v19 (((cfg3.win 14).blk t).view.emb y) = V c main_call0_v19 y
  refine congrArg _ (funext fun a => Fin.ext ?_)
  match a with
  | ⟨0, _⟩ => show win3_14.index t (0 : Fin 2) * 1 + 1 * (y 0).val = (y 0).val; rw [e 0]; omega
  | ⟨1, _⟩ => show win3_14.index t (1 : Fin 2) * 512 + 1 * (y 1).val = (y 1).val; rw [e 1]; omega

/-- What point t writes back to output window 15 is block t of the inner level's hidden states of the whole tables. -/
theorem flushed3_15_eq (c : Dev nD) (t : Fin cfg3.N) :
    (dat3 (F := Ideal) V c).flushed 15 t
      = ((cfg3.win 15).blk t).view.read (Elt Ideal) (innerH (kpOf V c) (V c main_call0_v30) (sel 0 (V c main_call0_v31)) (sel 1 (V c main_call0_v31)) (sel 0 (V c main_call0_v32)) (sel 1 (V c main_call0_v32))) := by
  show (cfg3.win 15).cut (grid3.coords t) ((dat3 V c).after 15 t) = _
  rw [after3_15]
  obtain ⟨e00, e01, e10, e11, e12, e20, e21, e22, ef0, ef1, eg0, eg1⟩ := idx3 t
  funext j
  show out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) j
      = innerH (kpOf V c) (V c main_call0_v30) (sel 0 (V c main_call0_v31)) (sel 1 (V c main_call0_v31)) (sel 0 (V c main_call0_v32)) (sel 1 (V c main_call0_v32)) (((cfg3.win 15).blk t).view.emb j)
  refine (congrFun (out3_15_tile (kpOf V c) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t)
    (wblk3_3 V c t) (wblk3_4 V c t) (wblk3_5 V c t) (wblk3_6 V c t) (wblk3_7 V c t) (wblk3_8 V c t) (wblk3_9 V c t) (wblk3_10 V c t) (wblk3_11 V c t) (wblk3_12 V c t) (wblk3_13 V c t) (wblk3_14 V c t)) j).trans ?_
  refine innerH_tile (m := 512) (N := 2048) (kpOf V c) (iblk3 V c 0 t) (iblk3 V c 1 t) (iblk3 V c 2 t) (V c main_call0_v30) (V c main_call0_v31) (V c main_call0_v32)
    j (((cfg3.win 15).blk t).view.emb j) (fun cc => ?_) (fun s cc => ?_) (fun s cc => ?_) ?_
  · show V c main_call0_v30 (((cfg3.win 0).blk t).view.emb (ix2 (j 0) cc))
        = V c main_call0_v30 (ix2 ((((cfg3.win 15).blk t).view.emb j) 0) cc)
    refine congrArg _ (funext fun a => Fin.ext ?_)
    match a with
    | ⟨0, _⟩ =>
      show win3_0.index t (0 : Fin 2) * 512 + 1 * (j 0).val = win3_15.index t (0 : Fin 2) * 512 + 1 * (j 0).val
      rw [e00, ef0]
    | ⟨1, _⟩ => show win3_0.index t (1 : Fin 2) * 512 + 1 * cc.val = cc.val; rw [e01]; omega
  · show V c main_call0_v31 (((cfg3.win 1).blk t).view.emb (ix3 (j 0) s cc))
        = V c main_call0_v31 (ix3 ((((cfg3.win 15).blk t).view.emb j) 0) s cc)
    refine congrArg _ (funext fun a => Fin.ext ?_)
    match a with
    | ⟨0, _⟩ =>
      show win3_1.index t (0 : Fin 3) * 512 + 1 * (j 0).val = win3_15.index t (0 : Fin 2) * 512 + 1 * (j 0).val
      rw [e10, ef0]
    | ⟨1, _⟩ => show win3_1.index t (1 : Fin 3) * 2 + 1 * s.val = s.val; rw [e11]; omega
    | ⟨2, _⟩ => show win3_1.index t (2 : Fin 3) * 512 + 1 * cc.val = cc.val; rw [e12]; omega
  · show V c main_call0_v32 (((cfg3.win 2).blk t).view.emb (ix3 (j 0) s cc))
        = V c main_call0_v32 (ix3 ((((cfg3.win 15).blk t).view.emb j) 0) s cc)
    refine congrArg _ (funext fun a => Fin.ext ?_)
    match a with
    | ⟨0, _⟩ =>
      show win3_2.index t (0 : Fin 3) * 512 + 1 * (j 0).val = win3_15.index t (0 : Fin 2) * 512 + 1 * (j 0).val
      rw [e20, ef0]
    | ⟨1, _⟩ => show win3_2.index t (1 : Fin 3) * 2 + 1 * s.val = s.val; rw [e21]; omega
    | ⟨2, _⟩ => show win3_2.index t (2 : Fin 3) * 512 + 1 * cc.val = cc.val; rw [e22]; omega
  · show (j 1).val = win3_15.index t (1 : Fin 2) * 512 + 1 * (j 1).val
    rw [ef1]; omega

/-- An index of the result array is in point t's block iff each coordinate is in the block's range on its axis. -/
theorem mem_blk3_15 (t : Fin cfg3.N) (i : S2048x512.Idx) :
    i ∈ ((cfg3.win 15).blk t).view.set
      ↔ ∀ a : Fin 2, win3_15.index t a * S512x512.size a ≤ (i a).val ∧ (i a).val < win3_15.index t a * S512x512.size a + S512x512.size a := by
  show i ∈ ((View.whole main_call0_v33_0).slice (win3_15.rect t)).set ↔ _
  rw [View.set_slice_whole, Rect.mem_set_unit]
  exact Iff.rfl

/-- Every row of the result array is in some point's block: row r in block r / 512. -/
theorem cover3_15 (i : S2048x512.Idx) :
    ∃ t : Fin cfg3.N, (cfg3.win 15).flush t = true ∧ i ∈ ((cfg3.win 15).blk t).view.set := by
  have hi0 : (i 0).val < 2048 := (i 0).isLt
  have hi1 : (i 1).val < 512 := (i 1).isLt
  have hN : cfg3.N = 4 := N_3
  have ht : (i 0).val / 512 < cfg3.N := by rw [hN]; omega
  obtain ⟨-, -, -, -, -, -, -, -, ef0, ef1, eg0, eg1⟩ := idx3 ⟨(i 0).val / 512, ht⟩
  refine ⟨⟨(i 0).val / 512, ht⟩, flush3_15 _, ?_⟩
  rw [mem_blk3_15]
  intro a
  match a with
  | ⟨0, _⟩ =>
    show win3_15.index ⟨(i 0).val / 512, ht⟩ (0 : Fin 2) * 512 ≤ (i 0).val
      ∧ (i 0).val < win3_15.index ⟨(i 0).val / 512, ht⟩ (0 : Fin 2) * 512 + 512
    rw [ef0]
    show (i 0).val / 512 * 512 ≤ (i 0).val ∧ (i 0).val < (i 0).val / 512 * 512 + 512
    omega
  | ⟨1, _⟩ =>
    show win3_15.index ⟨(i 0).val / 512, ht⟩ (1 : Fin 2) * 512 ≤ (i 1).val
      ∧ (i 1).val < win3_15.index ⟨(i 0).val / 512, ht⟩ (1 : Fin 2) * 512 + 512
    rw [ef1]
    omega

/-- What point t writes back to output window 16 is block t of the inner level's cell states of the whole tables. -/
theorem flushed3_16_eq (c : Dev nD) (t : Fin cfg3.N) :
    (dat3 (F := Ideal) V c).flushed 16 t
      = ((cfg3.win 16).blk t).view.read (Elt Ideal) (innerC (kpOf V c) (V c main_call0_v30) (sel 0 (V c main_call0_v31)) (sel 1 (V c main_call0_v31)) (sel 0 (V c main_call0_v32)) (sel 1 (V c main_call0_v32))) := by
  show (cfg3.win 16).cut (grid3.coords t) ((dat3 V c).after 16 t) = _
  rw [after3_16]
  obtain ⟨e00, e01, e10, e11, e12, e20, e21, e22, ef0, ef1, eg0, eg1⟩ := idx3 t
  funext j
  show out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) j
      = innerC (kpOf V c) (V c main_call0_v30) (sel 0 (V c main_call0_v31)) (sel 1 (V c main_call0_v31)) (sel 0 (V c main_call0_v32)) (sel 1 (V c main_call0_v32)) (((cfg3.win 16).blk t).view.emb j)
  refine (congrFun (out3_16_tile (kpOf V c) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t)
    (wblk3_3 V c t) (wblk3_4 V c t) (wblk3_5 V c t) (wblk3_6 V c t) (wblk3_7 V c t) (wblk3_8 V c t) (wblk3_9 V c t) (wblk3_10 V c t) (wblk3_11 V c t) (wblk3_12 V c t) (wblk3_13 V c t) (wblk3_14 V c t)) j).trans ?_
  refine innerC_tile (m := 512) (N := 2048) (kpOf V c) (iblk3 V c 0 t) (iblk3 V c 1 t) (iblk3 V c 2 t) (V c main_call0_v30) (V c main_call0_v31) (V c main_call0_v32)
    j (((cfg3.win 16).blk t).view.emb j) (fun cc => ?_) (fun s cc => ?_) (fun s cc => ?_) ?_
  · show V c main_call0_v30 (((cfg3.win 0).blk t).view.emb (ix2 (j 0) cc))
        = V c main_call0_v30 (ix2 ((((cfg3.win 16).blk t).view.emb j) 0) cc)
    refine congrArg _ (funext fun a => Fin.ext ?_)
    match a with
    | ⟨0, _⟩ =>
      show win3_0.index t (0 : Fin 2) * 512 + 1 * (j 0).val = win3_16.index t (0 : Fin 2) * 512 + 1 * (j 0).val
      rw [e00, eg0]
    | ⟨1, _⟩ => show win3_0.index t (1 : Fin 2) * 512 + 1 * cc.val = cc.val; rw [e01]; omega
  · show V c main_call0_v31 (((cfg3.win 1).blk t).view.emb (ix3 (j 0) s cc))
        = V c main_call0_v31 (ix3 ((((cfg3.win 16).blk t).view.emb j) 0) s cc)
    refine congrArg _ (funext fun a => Fin.ext ?_)
    match a with
    | ⟨0, _⟩ =>
      show win3_1.index t (0 : Fin 3) * 512 + 1 * (j 0).val = win3_16.index t (0 : Fin 2) * 512 + 1 * (j 0).val
      rw [e10, eg0]
    | ⟨1, _⟩ => show win3_1.index t (1 : Fin 3) * 2 + 1 * s.val = s.val; rw [e11]; omega
    | ⟨2, _⟩ => show win3_1.index t (2 : Fin 3) * 512 + 1 * cc.val = cc.val; rw [e12]; omega
  · show V c main_call0_v32 (((cfg3.win 2).blk t).view.emb (ix3 (j 0) s cc))
        = V c main_call0_v32 (ix3 ((((cfg3.win 16).blk t).view.emb j) 0) s cc)
    refine congrArg _ (funext fun a => Fin.ext ?_)
    match a with
    | ⟨0, _⟩ =>
      show win3_2.index t (0 : Fin 3) * 512 + 1 * (j 0).val = win3_16.index t (0 : Fin 2) * 512 + 1 * (j 0).val
      rw [e20, eg0]
    | ⟨1, _⟩ => show win3_2.index t (1 : Fin 3) * 2 + 1 * s.val = s.val; rw [e21]; omega
    | ⟨2, _⟩ => show win3_2.index t (2 : Fin 3) * 512 + 1 * cc.val = cc.val; rw [e22]; omega
  · show (j 1).val = win3_16.index t (1 : Fin 2) * 512 + 1 * (j 1).val
    rw [eg1]; omega

/-- An index of the result array is in point t's block iff each coordinate is in the block's range on its axis. -/
theorem mem_blk3_16 (t : Fin cfg3.N) (i : S2048x512.Idx) :
    i ∈ ((cfg3.win 16).blk t).view.set
      ↔ ∀ a : Fin 2, win3_16.index t a * S512x512.size a ≤ (i a).val ∧ (i a).val < win3_16.index t a * S512x512.size a + S512x512.size a := by
  show i ∈ ((View.whole main_call0_v33_1).slice (win3_16.rect t)).set ↔ _
  rw [View.set_slice_whole, Rect.mem_set_unit]
  exact Iff.rfl

/-- Every row of the result array is in some point's block: row r in block r / 512. -/
theorem cover3_16 (i : S2048x512.Idx) :
    ∃ t : Fin cfg3.N, (cfg3.win 16).flush t = true ∧ i ∈ ((cfg3.win 16).blk t).view.set := by
  have hi0 : (i 0).val < 2048 := (i 0).isLt
  have hi1 : (i 1).val < 512 := (i 1).isLt
  have hN : cfg3.N = 4 := N_3
  have ht : (i 0).val / 512 < cfg3.N := by rw [hN]; omega
  obtain ⟨-, -, -, -, -, -, -, -, ef0, ef1, eg0, eg1⟩ := idx3 ⟨(i 0).val / 512, ht⟩
  refine ⟨⟨(i 0).val / 512, ht⟩, flush3_16 _, ?_⟩
  rw [mem_blk3_16]
  intro a
  match a with
  | ⟨0, _⟩ =>
    show win3_16.index ⟨(i 0).val / 512, ht⟩ (0 : Fin 2) * 512 ≤ (i 0).val
      ∧ (i 0).val < win3_16.index ⟨(i 0).val / 512, ht⟩ (0 : Fin 2) * 512 + 512
    rw [eg0]
    show (i 0).val / 512 * 512 ≤ (i 0).val ∧ (i 0).val < (i 0).val / 512 * 512 + 512
    omega
  | ⟨1, _⟩ =>
    show win3_16.index ⟨(i 0).val / 512, ht⟩ (1 : Fin 2) * 512 ≤ (i 1).val
      ∧ (i 1).val < win3_16.index ⟨(i 0).val / 512, ht⟩ (1 : Fin 2) * 512 + 512
    rw [eg1]
    omega

/-- REGION 3: after the inner kernel the two result arrays hold the inner level's hidden and cell states of the
    level's input table and the children tables, with the weights the twelve parameter buffers. -/
theorem region3_out (c : Dev nD) :
    (dat3 (F := Ideal) V c).arrAt 15 cfg3.N = TreeSpec.innerH (kpOf V c) (V c main_call0_v30) (sel 0 (V c main_call0_v31)) (sel 1 (V c main_call0_v31)) (sel 0 (V c main_call0_v32)) (sel 1 (V c main_call0_v32))
    ∧ (dat3 (F := Ideal) V c).arrAt 16 cfg3.N = TreeSpec.innerC (kpOf V c) (V c main_call0_v30) (sel 0 (V c main_call0_v31)) (sel 1 (V c main_call0_v31)) (sel 0 (V c main_call0_v32)) (sel 1 (V c main_call0_v32)) :=
  ⟨(dat3 V c).arrAt_eq_of_cover 15 _ (fun t _ => flushed3_15_eq V c t) cover3_15,
   (dat3 V c).arrAt_eq_of_cover 16 _ (fun t _ => flushed3_16_eq V c t) cover3_16⟩

end Cert.KTree

end
-- ==== Proof.RegInner4.lean ====
/-
  Inner kernel 4's two result arrays are the specification's inner level of the whole tables.

  The kernel runs over 2 grid points; point t reads rows 512·t … 512·t + 511 of the level's 1024-row input table and of
  the two children tables (laid 1024 × 2 × 512) and the twelve weight operands whole, and writes back the same rows of
  the two results.  On a tile the body is the inner level of the tile, the inner level reads one row of its operands
  at a time, so each written block is that block of the inner level of the whole tables; the 2 blocks cover the
  results' rows, so each result array ends as the inner level.
-/
import proofs.«132239_j37117107372689_2_alg».proof.Proof.KernelIdealFrame
import proofs.«132239_j37117107372689_2_alg».proof.Proof.KTreeDefs
import proofs.«132239_j37117107372689_2_alg».proof.Proof.RegInnerOut
import proofs.«132239_j37117107372689_2_alg».proof.Proof.RegRows
import Idealize.ShloMosaic.Lib.Pipeline.Value

set_option maxRecDepth 16384

noncomputable section

namespace Cert.KTree

open Idealize.ShloMosaic Idealize.ShloMosaic.TcCoe Idealize.SL.Sem Cert.KernelIdeal Cert.KernelIdeal.Gen Cert.KernelIdeal.GenP
open Idealize.ShloMosaic.ValueIdx Cert.TreeSpec
open Idealize.ShloMosaic.Pipeline (Dat)

variable (V : (c : Dev nD) → (b : Ref sig .tc) → Buf (Elt Ideal) ((c : Thread nD τ).loc b))

/-- The block indices over the grid: the input table, the two children tables and the two results move one block
    of rows per point. -/
theorem idx4 : ∀ t : Fin cfg4.N,
    win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_15.index t (0 : Fin 2) = t.val ∧ win4_15.index t (1 : Fin 2) = 0
    ∧ win4_16.index t (0 : Fin 2) = t.val ∧ win4_16.index t (1 : Fin 2) = 0 :=
  (by decide +kernel : ∀ t : Fin grid4.N, _)

/-- The weight operands stay at block 0. -/
theorem widx4 : ∀ t : Fin cfg4.N,
    (∀ a : Fin 2, win4_3.index t a = 0)
    ∧ (∀ a : Fin 2, win4_4.index t a = 0)
    ∧ (∀ a : Fin 2, win4_5.index t a = 0)
    ∧ (∀ a : Fin 2, win4_6.index t a = 0)
    ∧ (∀ a : Fin 2, win4_7.index t a = 0)
    ∧ (∀ a : Fin 2, win4_8.index t a = 0)
    ∧ (∀ a : Fin 2, win4_9.index t a = 0)
    ∧ (∀ a : Fin 2, win4_10.index t a = 0)
    ∧ (∀ a : Fin 2, win4_11.index t a = 0)
    ∧ (∀ a : Fin 2, win4_12.index t a = 0)
    ∧ (∀ a : Fin 2, win4_13.index t a = 0)
    ∧ (∀ a : Fin 2, win4_14.index t a = 0) :=
  (by decide +kernel : ∀ t : Fin grid4.N, _)

/-- Window 3's block at any point is the whole array: the parameter wix. -/
theorem wblk4_3 (c : Dev nD) (t : Fin cfg4.N) : iblk4 V c 3 t = (kpOf V c).wix := by
  have e := (widx4 t).1
  funext y
  show V c main_call0_v1 (((cfg4.win 3).blk t).view.emb y) = V c main_call0_v1 y
  refine congrArg _ (funext fun a => Fin.ext ?_)
  match a with
  | ⟨0, _⟩ => show win4_3.index t (0 : Fin 2) * 512 + 1 * (y 0).val = (y 0).val; rw [e 0]; omega
  | ⟨1, _⟩ => show win4_3.index t (1 : Fin 2) * 512 + 1 * (y 1).val = (y 1).val; rw [e 1]; omega

/-- Window 4's block at any point is the whole array: the parameter wih. -/
theorem wblk4_4 (c : Dev nD) (t : Fin cfg4.N) : iblk4 V c 4 t = (kpOf V c).wih := by
  have e := (widx4 t).2.1
  funext y
  show V c main_call0_v3 (((cfg4.win 4).blk t).view.emb y) = V c main_call0_v3 y
  refine congrArg _ (funext fun a => Fin.ext ?_)
  match a with
  | ⟨0, _⟩ => show win4_4.index t (0 : Fin 2) * 512 + 1 * (y 0).val = (y 0).val; rw [e 0]; omega
  | ⟨1, _⟩ => show win4_4.index t (1 : Fin 2) * 512 + 1 * (y 1).val = (y 1).val; rw [e 1]; omega

/-- Window 5's block at any point is the whole array: the parameter wfx. -/
theorem wblk4_5 (c : Dev nD) (t : Fin cfg4.N) : iblk4 V c 5 t = (kpOf V c).wfx := by
  have e := (widx4 t).2.2.1
  funext y
  show V c main_call0_v5 (((cfg4.win 5).blk t).view.emb y) = V c main_call0_v5 y
  refine congrArg _ (funext fun a => Fin.ext ?_)
  match a with
  | ⟨0, _⟩ => show win4_5.index t (0 : Fin 2) * 512 + 1 * (y 0).val = (y 0).val; rw [e 0]; omega
  | ⟨1, _⟩ => show win4_5.index t (1 : Fin 2) * 512 + 1 * (y 1).val = (y 1).val; rw [e 1]; omega

/-- Window 6's block at any point is the whole array: the parameter wfh. -/
theorem wblk4_6 (c : Dev nD) (t : Fin cfg4.N) : iblk4 V c 6 t = (kpOf V c).wfh := by
  have e := (widx4 t).2.2.2.1
  funext y
  show V c main_call0_v7 (((cfg4.win 6).blk t).view.emb y) = V c main_call0_v7 y
  refine congrArg _ (funext fun a => Fin.ext ?_)
  match a with
  | ⟨0, _⟩ => show win4_6.index t (0 : Fin 2) * 512 + 1 * (y 0).val = (y 0).val; rw [e 0]; omega
  | ⟨1, _⟩ => show win4_6.index t (1 : Fin 2) * 512 + 1 * (y 1).val = (y 1).val; rw [e 1]; omega

/-- Window 7's block at any point is the whole array: the parameter wox. -/
theorem wblk4_7 (c : Dev nD) (t : Fin cfg4.N) : iblk4 V c 7 t = (kpOf V c).wox := by
  have e := (widx4 t).2.2.2.2.1
  funext y
  show V c main_call0_v9 (((cfg4.win 7).blk t).view.emb y) = V c main_call0_v9 y
  refine congrArg _ (funext fun a => Fin.ext ?_)
  match a with
  | ⟨0, _⟩ => show win4_7.index t (0 : Fin 2) * 512 + 1 * (y 0).val = (y 0).val; rw [e 0]; omega
  | ⟨1, _⟩ => show win4_7.index t (1 : Fin 2) * 512 + 1 * (y 1).val = (y 1).val; rw [e 1]; omega

/-- Window 8's block at any point is the whole array: the parameter woh. -/
theorem wblk4_8 (c : Dev nD) (t : Fin cfg4.N) : iblk4 V c 8 t = (kpOf V c).woh := by
  have e := (widx4 t).2.2.2.2.2.1
  funext y
  show V c main_call0_v11 (((cfg4.win 8).blk t).view.emb y) = V c main_call0_v11 y
  refine congrArg _ (funext fun a => Fin.ext ?_)
  match a with
  | ⟨0, _⟩ => show win4_8.index t (0 : Fin 2) * 512 + 1 * (y 0).val = (y 0).val; rw [e 0]; omega
  | ⟨1, _⟩ => show win4_8.index t (1 : Fin 2) * 512 + 1 * (y 1).val = (y 1).val; rw [e 1]; omega

/-- Window 9's block at any point is the whole array: the parameter wux. -/
theorem wblk4_9 (c : Dev nD) (t : Fin cfg4.N) : iblk4 V c 9 t = (kpOf V c).wux := by
  have e := (widx4 t).2.2.2.2.2.2.1
  funext y
  show V c main_call0_v13 (((cfg4.win 9).blk t).view.emb y) = V c main_call0_v13 y
  refine congrArg _ (funext fun a => Fin.ext ?_)
  match a with
  | ⟨0, _⟩ => show win4_9.index t (0 : Fin 2) * 512 + 1 * (y 0).val = (y 0).val; rw [e 0]; omega
  | ⟨1, _⟩ => show win4_9.index t (1 : Fin 2) * 512 + 1 * (y 1).val = (y 1).val; rw [e 1]; omega

/-- Window 10's block at any point is the whole array: the parameter wuh. -/
theorem wblk4_10 (c : Dev nD) (t : Fin cfg4.N) : iblk4 V c 10 t = (kpOf V c).wuh := by
  have e := (widx4 t).2.2.2.2.2.2.2.1
  funext y
  show V c main_call0_v15 (((cfg4.win 10).blk t).view.emb y) = V c main_call0_v15 y
  refine congrArg _ (funext fun a => Fin.ext ?_)
  match a with
  | ⟨0, _⟩ => show win4_10.index t (0 : Fin 2) * 512 + 1 * (y 0).val = (y 0).val; rw [e 0]; omega
  | ⟨1, _⟩ => show win4_10.index t (1 : Fin 2) * 512 + 1 * (y 1).val = (y 1).val; rw [e 1]; omega

/-- Window 11's block at any point is the whole array: the parameter bi. -/
theorem wblk4_11 (c : Dev nD) (t : Fin cfg4.N) : iblk4 V c 11 t = (kpOf V c).bi := by
  have e := (widx4 t).2.2.2.2.2.2.2.2.1
  funext y
  show V c main_call0_v16 (((cfg4.win 11).blk t).view.emb y) = V c main_call0_v16 y
  refine congrArg _ (funext fun a => Fin.ext ?_)
  match a with
  | ⟨0, _⟩ => show win4_11.index t (0 : Fin 2) * 1 + 1 * (y 0).val = (y 0).val; rw [e 0]; omega
  | ⟨1, _⟩ => show win4_11.index t (1 : Fin 2) * 512 + 1 * (y 1).val = (y 1).val; rw [e 1]; omega

/-- Window 12's block at any point is the whole array: the parameter bf. -/
theorem wblk4_12 (c : Dev nD) (t : Fin cfg4.N) : iblk4 V c 12 t = (kpOf V c).bf := by
  have e := (widx4 t).2.2.2.2.2.2.2.2.2.1
  funext y
  show V c main_call0_v17 (((cfg4.win 12).blk t).view.emb y) = V c main_call0_v17 y
  refine congrArg _ (funext fun a => Fin.ext ?_)
  match a with
  | ⟨0, _⟩ => show win4_12.index t (0 : Fin 2) * 1 + 1 * (y 0).val = (y 0).val; rw [e 0]; omega
  | ⟨1, _⟩ => show win4_12.index t (1 : Fin 2) * 512 + 1 * (y 1).val = (y 1).val; rw [e 1]; omega

/-- Window 13's block at any point is the whole array: the parameter bo. -/
theorem wblk4_13 (c : Dev nD) (t : Fin cfg4.N) : iblk4 V c 13 t = (kpOf V c).bo := by
  have e := (widx4 t).2.2.2.2.2.2.2.2.2.2.1
  funext y
  show V c main_call0_v18 (((cfg4.win 13).blk t).view.emb y) = V c main_call0_v18 y
  refine congrArg _ (funext fun a => Fin.ext ?_)
  match a with
  | ⟨0, _⟩ => show win4_13.index t (0 : Fin 2) * 1 + 1 * (y 0).val = (y 0).val; rw [e 0]; omega
  | ⟨1, _⟩ => show win4_13.index t (1 : Fin 2) * 512 + 1 * (y 1).val = (y 1).val; rw [e 1]; omega

/-- Window 14's block at any point is the whole array: the parameter bu. -/
theorem wblk4_14 (c : Dev nD) (t : Fin cfg4.N) : iblk4 V c 14 t = (kpOf V c).bu := by
  have e := (widx4 t).2.2.2.2.2.2.2.2.2.2.2
  funext y
  show V c main_call0_v19 (((cfg4.win 14).blk t).view.emb y) = V c main_call0_v19 y
  refine congrArg _ (funext fun a => Fin.ext ?_)
  match a with
  | ⟨0, _⟩ => show win4_14.index t (0 : Fin 2) * 1 + 1 * (y 0).val = (y 0).val; rw [e 0]; omega
  | ⟨1, _⟩ => show win4_14.index t (1 : Fin 2) * 512 + 1 * (y 1).val = (y 1).val; rw [e 1]; omega

/-- What point t writes back to output window 15 is block t of the inner level's hidden states of the whole tables. -/
theorem flushed4_15_eq (c : Dev nD) (t : Fin cfg4.N) :
    (dat4 (F := Ideal) V c).flushed 15 t
      = ((cfg4.win 15).blk t).view.read (Elt Ideal) (innerH (kpOf V c) (V c main_call0_v34) (sel 0 (V c main_call0_v35)) (sel 1 (V c main_call0_v35)) (sel 0 (V c main_call0_v36)) (sel 1 (V c main_call0_v36))) := by
  show (cfg4.win 15).cut (grid4.coords t) ((dat4 V c).after 15 t) = _
  rw [after4_15]
  obtain ⟨e00, e01, e10, e11, e12, e20, e21, e22, ef0, ef1, eg0, eg1⟩ := idx4 t
  funext j
  show out4_15 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) j
      = innerH (kpOf V c) (V c main_call0_v34) (sel 0 (V c main_call0_v35)) (sel 1 (V c main_call0_v35)) (sel 0 (V c main_call0_v36)) (sel 1 (V c main_call0_v36)) (((cfg4.win 15).blk t).view.emb j)
  refine (congrFun (out4_15_tile (kpOf V c) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t)
    (wblk4_3 V c t) (wblk4_4 V c t) (wblk4_5 V c t) (wblk4_6 V c t) (wblk4_7 V c t) (wblk4_8 V c t) (wblk4_9 V c t) (wblk4_10 V c t) (wblk4_11 V c t) (wblk4_12 V c t) (wblk4_13 V c t) (wblk4_14 V c t)) j).trans ?_
  refine innerH_tile (m := 512) (N := 1024) (kpOf V c) (iblk4 V c 0 t) (iblk4 V c 1 t) (iblk4 V c 2 t) (V c main_call0_v34) (V c main_call0_v35) (V c main_call0_v36)
    j (((cfg4.win 15).blk t).view.emb j) (fun cc => ?_) (fun s cc => ?_) (fun s cc => ?_) ?_
  · show V c main_call0_v34 (((cfg4.win 0).blk t).view.emb (ix2 (j 0) cc))
        = V c main_call0_v34 (ix2 ((((cfg4.win 15).blk t).view.emb j) 0) cc)
    refine congrArg _ (funext fun a => Fin.ext ?_)
    match a with
    | ⟨0, _⟩ =>
      show win4_0.index t (0 : Fin 2) * 512 + 1 * (j 0).val = win4_15.index t (0 : Fin 2) * 512 + 1 * (j 0).val
      rw [e00, ef0]
    | ⟨1, _⟩ => show win4_0.index t (1 : Fin 2) * 512 + 1 * cc.val = cc.val; rw [e01]; omega
  · show V c main_call0_v35 (((cfg4.win 1).blk t).view.emb (ix3 (j 0) s cc))
        = V c main_call0_v35 (ix3 ((((cfg4.win 15).blk t).view.emb j) 0) s cc)
    refine congrArg _ (funext fun a => Fin.ext ?_)
    match a with
    | ⟨0, _⟩ =>
      show win4_1.index t (0 : Fin 3) * 512 + 1 * (j 0).val = win4_15.index t (0 : Fin 2) * 512 + 1 * (j 0).val
      rw [e10, ef0]
    | ⟨1, _⟩ => show win4_1.index t (1 : Fin 3) * 2 + 1 * s.val = s.val; rw [e11]; omega
    | ⟨2, _⟩ => show win4_1.index t (2 : Fin 3) * 512 + 1 * cc.val = cc.val; rw [e12]; omega
  · show V c main_call0_v36 (((cfg4.win 2).blk t).view.emb (ix3 (j 0) s cc))
        = V c main_call0_v36 (ix3 ((((cfg4.win 15).blk t).view.emb j) 0) s cc)
    refine congrArg _ (funext fun a => Fin.ext ?_)
    match a with
    | ⟨0, _⟩ =>
      show win4_2.index t (0 : Fin 3) * 512 + 1 * (j 0).val = win4_15.index t (0 : Fin 2) * 512 + 1 * (j 0).val
      rw [e20, ef0]
    | ⟨1, _⟩ => show win4_2.index t (1 : Fin 3) * 2 + 1 * s.val = s.val; rw [e21]; omega
    | ⟨2, _⟩ => show win4_2.index t (2 : Fin 3) * 512 + 1 * cc.val = cc.val; rw [e22]; omega
  · show (j 1).val = win4_15.index t (1 : Fin 2) * 512 + 1 * (j 1).val
    rw [ef1]; omega

/-- An index of the result array is in point t's block iff each coordinate is in the block's range on its axis. -/
theorem mem_blk4_15 (t : Fin cfg4.N) (i : S1024x512.Idx) :
    i ∈ ((cfg4.win 15).blk t).view.set
      ↔ ∀ a : Fin 2, win4_15.index t a * S512x512.size a ≤ (i a).val ∧ (i a).val < win4_15.index t a * S512x512.size a + S512x512.size a := by
  show i ∈ ((View.whole main_call0_v37_0).slice (win4_15.rect t)).set ↔ _
  rw [View.set_slice_whole, Rect.mem_set_unit]
  exact Iff.rfl

/-- Every row of the result array is in some point's block: row r in block r / 512. -/
theorem cover4_15 (i : S1024x512.Idx) :
    ∃ t : Fin cfg4.N, (cfg4.win 15).flush t = true ∧ i ∈ ((cfg4.win 15).blk t).view.set := by
  have hi0 : (i 0).val < 1024 := (i 0).isLt
  have hi1 : (i 1).val < 512 := (i 1).isLt
  have hN : cfg4.N = 2 := N_4
  have ht : (i 0).val / 512 < cfg4.N := by rw [hN]; omega
  obtain ⟨-, -, -, -, -, -, -, -, ef0, ef1, eg0, eg1⟩ := idx4 ⟨(i 0).val / 512, ht⟩
  refine ⟨⟨(i 0).val / 512, ht⟩, flush4_15 _, ?_⟩
  rw [mem_blk4_15]
  intro a
  match a with
  | ⟨0, _⟩ =>
    show win4_15.index ⟨(i 0).val / 512, ht⟩ (0 : Fin 2) * 512 ≤ (i 0).val
      ∧ (i 0).val < win4_15.index ⟨(i 0).val / 512, ht⟩ (0 : Fin 2) * 512 + 512
    rw [ef0]
    show (i 0).val / 512 * 512 ≤ (i 0).val ∧ (i 0).val < (i 0).val / 512 * 512 + 512
    omega
  | ⟨1, _⟩ =>
    show win4_15.index ⟨(i 0).val / 512, ht⟩ (1 : Fin 2) * 512 ≤ (i 1).val
      ∧ (i 1).val < win4_15.index ⟨(i 0).val / 512, ht⟩ (1 : Fin 2) * 512 + 512
    rw [ef1]
    omega

/-- What point t writes back to output window 16 is block t of the inner level's cell states of the whole tables. -/
theorem flushed4_16_eq (c : Dev nD) (t : Fin cfg4.N) :
    (dat4 (F := Ideal) V c).flushed 16 t
      = ((cfg4.win 16).blk t).view.read (Elt Ideal) (innerC (kpOf V c) (V c main_call0_v34) (sel 0 (V c main_call0_v35)) (sel 1 (V c main_call0_v35)) (sel 0 (V c main_call0_v36)) (sel 1 (V c main_call0_v36))) := by
  show (cfg4.win 16).cut (grid4.coords t) ((dat4 V c).after 16 t) = _
  rw [after4_16]
  obtain ⟨e00, e01, e10, e11, e12, e20, e21, e22, ef0, ef1, eg0, eg1⟩ := idx4 t
  funext j
  show out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) j
      = innerC (kpOf V c) (V c main_call0_v34) (sel 0 (V c main_call0_v35)) (sel 1 (V c main_call0_v35)) (sel 0 (V c main_call0_v36)) (sel 1 (V c main_call0_v36)) (((cfg4.win 16).blk t).view.emb j)
  refine (congrFun (out4_16_tile (kpOf V c) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t)
    (wblk4_3 V c t) (wblk4_4 V c t) (wblk4_5 V c t) (wblk4_6 V c t) (wblk4_7 V c t) (wblk4_8 V c t) (wblk4_9 V c t) (wblk4_10 V c t) (wblk4_11 V c t) (wblk4_12 V c t) (wblk4_13 V c t) (wblk4_14 V c t)) j).trans ?_
  refine innerC_tile (m := 512) (N := 1024) (kpOf V c) (iblk4 V c 0 t) (iblk4 V c 1 t) (iblk4 V c 2 t) (V c main_call0_v34) (V c main_call0_v35) (V c main_call0_v36)
    j (((cfg4.win 16).blk t).view.emb j) (fun cc => ?_) (fun s cc => ?_) (fun s cc => ?_) ?_
  · show V c main_call0_v34 (((cfg4.win 0).blk t).view.emb (ix2 (j 0) cc))
        = V c main_call0_v34 (ix2 ((((cfg4.win 16).blk t).view.emb j) 0) cc)
    refine congrArg _ (funext fun a => Fin.ext ?_)
    match a with
    | ⟨0, _⟩ =>
      show win4_0.index t (0 : Fin 2) * 512 + 1 * (j 0).val = win4_16.index t (0 : Fin 2) * 512 + 1 * (j 0).val
      rw [e00, eg0]
    | ⟨1, _⟩ => show win4_0.index t (1 : Fin 2) * 512 + 1 * cc.val = cc.val; rw [e01]; omega
  · show V c main_call0_v35 (((cfg4.win 1).blk t).view.emb (ix3 (j 0) s cc))
        = V c main_call0_v35 (ix3 ((((cfg4.win 16).blk t).view.emb j) 0) s cc)
    refine congrArg _ (funext fun a => Fin.ext ?_)
    match a with
    | ⟨0, _⟩ =>
      show win4_1.index t (0 : Fin 3) * 512 + 1 * (j 0).val = win4_16.index t (0 : Fin 2) * 512 + 1 * (j 0).val
      rw [e10, eg0]
    | ⟨1, _⟩ => show win4_1.index t (1 : Fin 3) * 2 + 1 * s.val = s.val; rw [e11]; omega
    | ⟨2, _⟩ => show win4_1.index t (2 : Fin 3) * 512 + 1 * cc.val = cc.val; rw [e12]; omega
  · show V c main_call0_v36 (((cfg4.win 2).blk t).view.emb (ix3 (j 0) s cc))
        = V c main_call0_v36 (ix3 ((((cfg4.win 16).blk t).view.emb j) 0) s cc)
    refine congrArg _ (funext fun a => Fin.ext ?_)
    match a with
    | ⟨0, _⟩ =>
      show win4_2.index t (0 : Fin 3) * 512 + 1 * (j 0).val = win4_16.index t (0 : Fin 2) * 512 + 1 * (j 0).val
      rw [e20, eg0]
    | ⟨1, _⟩ => show win4_2.index t (1 : Fin 3) * 2 + 1 * s.val = s.val; rw [e21]; omega
    | ⟨2, _⟩ => show win4_2.index t (2 : Fin 3) * 512 + 1 * cc.val = cc.val; rw [e22]; omega
  · show (j 1).val = win4_16.index t (1 : Fin 2) * 512 + 1 * (j 1).val
    rw [eg1]; omega

/-- An index of the result array is in point t's block iff each coordinate is in the block's range on its axis. -/
theorem mem_blk4_16 (t : Fin cfg4.N) (i : S1024x512.Idx) :
    i ∈ ((cfg4.win 16).blk t).view.set
      ↔ ∀ a : Fin 2, win4_16.index t a * S512x512.size a ≤ (i a).val ∧ (i a).val < win4_16.index t a * S512x512.size a + S512x512.size a := by
  show i ∈ ((View.whole main_call0_v37_1).slice (win4_16.rect t)).set ↔ _
  rw [View.set_slice_whole, Rect.mem_set_unit]
  exact Iff.rfl

/-- Every row of the result array is in some point's block: row r in block r / 512. -/
theorem cover4_16 (i : S1024x512.Idx) :
    ∃ t : Fin cfg4.N, (cfg4.win 16).flush t = true ∧ i ∈ ((cfg4.win 16).blk t).view.set := by
  have hi0 : (i 0).val < 1024 := (i 0).isLt
  have hi1 : (i 1).val < 512 := (i 1).isLt
  have hN : cfg4.N = 2 := N_4
  have ht : (i 0).val / 512 < cfg4.N := by rw [hN]; omega
  obtain ⟨-, -, -, -, -, -, -, -, ef0, ef1, eg0, eg1⟩ := idx4 ⟨(i 0).val / 512, ht⟩
  refine ⟨⟨(i 0).val / 512, ht⟩, flush4_16 _, ?_⟩
  rw [mem_blk4_16]
  intro a
  match a with
  | ⟨0, _⟩ =>
    show win4_16.index ⟨(i 0).val / 512, ht⟩ (0 : Fin 2) * 512 ≤ (i 0).val
      ∧ (i 0).val < win4_16.index ⟨(i 0).val / 512, ht⟩ (0 : Fin 2) * 512 + 512
    rw [eg0]
    show (i 0).val / 512 * 512 ≤ (i 0).val ∧ (i 0).val < (i 0).val / 512 * 512 + 512
    omega
  | ⟨1, _⟩ =>
    show win4_16.index ⟨(i 0).val / 512, ht⟩ (1 : Fin 2) * 512 ≤ (i 1).val
      ∧ (i 1).val < win4_16.index ⟨(i 0).val / 512, ht⟩ (1 : Fin 2) * 512 + 512
    rw [eg1]
    omega

/-- REGION 4: after the inner kernel the two result arrays hold the inner level's hidden and cell states of the
    level's input table and the children tables, with the weights the twelve parameter buffers. -/
theorem region4_out (c : Dev nD) :
    (dat4 (F := Ideal) V c).arrAt 15 cfg4.N = TreeSpec.innerH (kpOf V c) (V c main_call0_v34) (sel 0 (V c main_call0_v35)) (sel 1 (V c main_call0_v35)) (sel 0 (V c main_call0_v36)) (sel 1 (V c main_call0_v36))
    ∧ (dat4 (F := Ideal) V c).arrAt 16 cfg4.N = TreeSpec.innerC (kpOf V c) (V c main_call0_v34) (sel 0 (V c main_call0_v35)) (sel 1 (V c main_call0_v35)) (sel 0 (V c main_call0_v36)) (sel 1 (V c main_call0_v36)) :=
  ⟨(dat4 V c).arrAt_eq_of_cover 15 _ (fun t _ => flushed4_15_eq V c t) cover4_15,
   (dat4 V c).arrAt_eq_of_cover 16 _ (fun t _ => flushed4_16_eq V c t) cover4_16⟩

end Cert.KTree

end
-- ==== Proof.TailOps.lean ====
/-
  The pieces of one level of the tree, read entry by entry on the extended reals, for a level of any number n of nodes:

  * the children. The level below, 2n rows of 512, is laid as n × 2 × 512; the slice at offset (0, s, 0) of extent
    n × 1 × 512, laid again as n × 512, holds at (p, q) the entry (2p + s, q) of the level below: the left (s = 0) or
    right (s = 1) child of node p;
  * a gate's pre-activation. The product of the level's inputs with the weight block that meets x, plus the product of
    a children's table with the block that meets h, plus the bias row repeated on every row, is the split linear layer;
  * the level's inputs: n consecutive rows of the table of all inputs.
-/
import Idealize.ShloMosaic.Lib.Pipeline.Value
import Idealize.ShloMosaic.Lib.ValueIdx
import proofs.«132239_j37117107372689_2_alg».proof.Proof.LibTileMatmul
import proofs.«132239_j37117107372689_2_alg».proof.Proof.TreeSpec

noncomputable section

open scoped BigOperators

namespace Cert.KTree

open Idealize.ShloMosaic Idealize.ShloMosaic.ValueIdx Idealize.ShloMosaic.TileMatmul Cert.SplitLinear Cert.TreeSpec

variable {n m : ℕ}

/-- The children on side s of a level's nodes, as the body picks them out of the level below. -/
abbrev kSel (s : ℕ) (H : FVec Ideal ⟨2, ![m, 512]⟩ .f32)
    (h1 : (⟨2, ![m, 512]⟩ : Shape).ShapeCasts ⟨3, ![n, 2, 512]⟩)
    (h2 : (⟨3, ![n, 2, 512]⟩ : Shape).Slices ![0, s, 0] ⟨3, ![n, 1, 512]⟩)
    (h3 : (⟨3, ![n, 1, 512]⟩ : Shape).ShapeCasts ⟨2, ![n, 512]⟩) : FVec Ideal ⟨2, ![n, 512]⟩ .f32 :=
  shapeCast ⟨2, ![n, 512]⟩ (extractStridedSlice ⟨3, ![n, 1, 512]⟩ ![0, s, 0] (shapeCast ⟨3, ![n, 2, 512]⟩ H h1) h2) h3

/-- Entry (p, q) of the picked children is entry (2p + s, q) of the level below. -/
theorem kSel_apply (hm : m = 2 * n) (s : ℕ) (hs2 : s < 2) (H : FVec Ideal ⟨2, ![m, 512]⟩ .f32)
    (h1 : (⟨2, ![m, 512]⟩ : Shape).ShapeCasts ⟨3, ![n, 2, 512]⟩)
    (h2 : (⟨3, ![n, 2, 512]⟩ : Shape).Slices ![0, s, 0] ⟨3, ![n, 1, 512]⟩)
    (h3 : (⟨3, ![n, 1, 512]⟩ : Shape).ShapeCasts ⟨2, ![n, 512]⟩) (p : Fin n) (q : Fin 512) :
    kSel s H h1 h2 h3 (ix2 p q) = child ⟨s, hs2⟩ hm H (ix2 p q) := by
  have hp : p.val < n := p.isLt
  refine (shapeCast_apply _ h3 (ix2 p q) (ix3 p (0 : Fin 1) q) ?_).trans ?_
  · rw [Shape.rowMajor_val_three, Shape.rowMajor_val_two]
    show (p.val * 1 + 0) * 512 + q.val = p.val * 512 + q.val
    omega
  refine (extractStridedSlice_apply _ _ h2 (ix3 p (0 : Fin 1) q) (ix3 p (⟨s, hs2⟩ : Fin 2) q) ?_).trans ?_
  · intro a
    match a with
    | ⟨0, _⟩ => show p.val = 0 + p.val; omega
    | ⟨1, _⟩ => show s = s + 0; omega
    | ⟨2, _⟩ => show q.val = 0 + q.val; omega
  refine (shapeCast_apply _ h1 (ix3 p (⟨s, hs2⟩ : Fin 2) q) (ix2 ⟨2 * p.val + s, by omega⟩ q) ?_).trans rfl
  rw [Shape.rowMajor_val_two, Shape.rowMajor_val_three]
  show (2 * p.val + s) * 512 + q.val = (p.val * 2 + s) * 512 + q.val
  omega

/-- The left children, as a table. -/
theorem kSel_left (hm : m = 2 * n) (H : FVec Ideal ⟨2, ![m, 512]⟩ .f32)
    (h1 : (⟨2, ![m, 512]⟩ : Shape).ShapeCasts ⟨3, ![n, 2, 512]⟩)
    (h2 : (⟨3, ![n, 2, 512]⟩ : Shape).Slices ![0, 0, 0] ⟨3, ![n, 1, 512]⟩)
    (h3 : (⟨3, ![n, 1, 512]⟩ : Shape).ShapeCasts ⟨2, ![n, 512]⟩) :
    kSel 0 H h1 h2 h3 = child 0 hm H := by
  funext i
  obtain ⟨p, q, rfl⟩ : ∃ (p : Fin n) (q : Fin 512), i = ix2 p q := ⟨i 0, i 1, eq_ix2 i⟩
  exact kSel_apply hm 0 (by omega) H h1 h2 h3 p q

/-- The right children, as a table. -/
theorem kSel_right (hm : m = 2 * n) (H : FVec Ideal ⟨2, ![m, 512]⟩ .f32)
    (h1 : (⟨2, ![m, 512]⟩ : Shape).ShapeCasts ⟨3, ![n, 2, 512]⟩)
    (h2 : (⟨3, ![n, 2, 512]⟩ : Shape).Slices ![0, 1, 0] ⟨3, ![n, 1, 512]⟩)
    (h3 : (⟨3, ![n, 1, 512]⟩ : Shape).ShapeCasts ⟨2, ![n, 512]⟩) :
    kSel 1 H h1 h2 h3 = child 1 hm H := by
  funext i
  obtain ⟨p, q, rfl⟩ : ∃ (p : Fin n) (q : Fin 512), i = ix2 p q := ⟨i 0, i 1, eq_ix2 i⟩
  exact kSel_apply hm 1 (by omega) H h1 h2 h3 p q

/-- A gate's pre-activation as the body computes it: two products into zero accumulators, added, plus the bias row
    spread over the level's rows by `B` (repeated on every row; for a level of one node the row itself). -/
abbrev kGate (D : DotDims ⟨2, ![n, 512]⟩ ⟨2, ![512, 512]⟩ ⟨2, ![n, 512]⟩)
    (B : FVec Ideal ⟨2, ![1, 512]⟩ .f32 → FVec Ideal ⟨2, ![n, 512]⟩ .f32)
    (x h : FVec Ideal ⟨2, ![n, 512]⟩ .f32) (wx wh : FVec Ideal ⟨2, ![512, 512]⟩ .f32) (b : FVec Ideal ⟨2, ![1, 512]⟩ .f32) :
    FVec Ideal ⟨2, ![n, 512]⟩ .f32 :=
  addf (addf (matmul (F := Ideal) D (some .fp32) x wx (constant (F := Ideal) ⟨2, ![n, 512]⟩ .f32 0x00000000#32))
             (matmul (F := Ideal) D (some .fp32) h wh (constant (F := Ideal) ⟨2, ![n, 512]⟩ .f32 0x00000000#32)))
       (B b)

/-- It is the split linear layer, when `B` puts the bias row on every row. -/
theorem kGate_eq (w : DotDims.WF ⟨2, ![n, 512]⟩ ⟨2, ![512, 512]⟩ ⟨2, ![n, 512]⟩ [1] [0] [0] [1] [] [])
    (B : FVec Ideal ⟨2, ![1, 512]⟩ .f32 → FVec Ideal ⟨2, ![n, 512]⟩ .f32)
    (hB : ∀ (b : FVec Ideal ⟨2, ![1, 512]⟩ .f32) (p : Fin n) (q : Fin 512), B b (ix2 p q) = b (ix2 (0 : Fin 1) q))
    (x h : FVec Ideal ⟨2, ![n, 512]⟩ .f32) (wx wh : FVec Ideal ⟨2, ![512, 512]⟩ .f32) (b : FVec Ideal ⟨2, ![1, 512]⟩ .f32) :
    kGate (plainDims w) B x h wx wh b = lin x h wx wh b := by
  funext i
  obtain ⟨p, q, rfl⟩ : ∃ (p : Fin n) (q : Fin 512), i = ix2 p q := ⟨i 0, i 1, eq_ix2 i⟩
  rw [lin_apply]
  show (matmul (F := Ideal) (plainDims w) (some .fp32) x wx (constant (F := Ideal) ⟨2, ![n, 512]⟩ .f32 0x00000000#32) (ix2 p q)
      + matmul (F := Ideal) (plainDims w) (some .fp32) h wh (constant (F := Ideal) ⟨2, ![n, 512]⟩ .f32 0x00000000#32) (ix2 p q))
      + B b (ix2 p q) = _
  rw [matmul_zero_apply, matmul_zero_apply, hB]

/-- The bias row repeated on every row of a level reads the row's entry everywhere. -/
theorem spread_bcast (hb : (⟨2, ![1, 512]⟩ : Shape).Broadcasts ⟨2, ![n, 512]⟩)
    (b : FVec Ideal ⟨2, ![1, 512]⟩ .f32) (p : Fin n) (q : Fin 512) :
    broadcastTo ⟨2, ![n, 512]⟩ b hb (ix2 p q) = b (ix2 (0 : Fin 1) q) :=
  broadcastTo_apply b hb (ix2 p q) (ix2 (0 : Fin 1) q) (fun a => match a with
    | ⟨0, _⟩ => rfl
    | ⟨1, _⟩ => rfl)

/-- For a level of one node the bias row is used as it is. -/
theorem spread_one (b : FVec Ideal ⟨2, ![1, 512]⟩ .f32) (p : Fin 1) (q : Fin 512) :
    b (ix2 p q) = b (ix2 (0 : Fin 1) q) := by
  rw [Subsingleton.elim p 0]

/-- The n rows from row s on of a table, as a load through the rectangle at (s, 0) of extent n × 512 reads them. -/
theorem ld_rows {N : ℕ} (s : ℕ) (hs : s + n ≤ N) (X : (⟨2, ![N, 512]⟩ : Shape).Idx → EReal)
    (inb : ∀ a, (![s, 0] : Fin 2 → ℕ) a + (⟨2, ![n, 512]⟩ : Shape).size a ≤ (⟨2, ![N, 512]⟩ : Shape).size a) :
    (View.ld (Val := Elt Ideal) (e' := .f32) X (Rect.unit (s := ⟨2, ![N, 512]⟩) ![s, 0] (⟨2, ![n, 512]⟩ : Shape).size inb)
        : (⟨2, ![n, 512]⟩ : Shape).Idx → EReal)
      = rows s hs X := by
  funext i
  obtain ⟨p, q, rfl⟩ : ∃ (p : Fin n) (q : Fin 512), i = ix2 p q := ⟨i 0, i 1, eq_ix2 i⟩
  show X _ = X _
  congr 1
  funext a
  apply Fin.ext
  match a with
  | ⟨0, _⟩ => show s + 1 * p.val = s + p.val; omega
  | ⟨1, _⟩ => show 0 + 1 * q.val = q.val; omega

end Cert.KTree

end
-- ==== Proof.TailLevel.lean ====
/-
  One level of the tree as the fused body computes it, for a level of any number n of nodes over a level below of
  m = 2n nodes: from the level's inputs X, the level below's hidden states H and cell states C, the new cell states
  (input gate times candidate, plus each child's forget gate times that child's cell state, summed left to right)
  and the new hidden states (output gate times tanh of the new cell state). Both are the specification's level.
-/
import proofs.«132239_j37117107372689_2_alg».proof.Proof.TailOps

noncomputable section

open scoped BigOperators

namespace Cert.KTree

open Idealize.ShloMosaic Idealize.ShloMosaic.ValueIdx Idealize.ShloMosaic.TileMatmul Cert.SplitLinear Cert.TreeSpec

variable {n m : ℕ}

/-- The level's cell states as the body computes them. -/
abbrev kCell (D : DotDims ⟨2, ![n, 512]⟩ ⟨2, ![512, 512]⟩ ⟨2, ![n, 512]⟩)
    (B : FVec Ideal ⟨2, ![1, 512]⟩ .f32 → FVec Ideal ⟨2, ![n, 512]⟩ .f32)
    (h1 : (⟨2, ![m, 512]⟩ : Shape).ShapeCasts ⟨3, ![n, 2, 512]⟩)
    (s0 : (⟨3, ![n, 2, 512]⟩ : Shape).Slices ![0, 0, 0] ⟨3, ![n, 1, 512]⟩)
    (s1 : (⟨3, ![n, 2, 512]⟩ : Shape).Slices ![0, 1, 0] ⟨3, ![n, 1, 512]⟩)
    (h3 : (⟨3, ![n, 1, 512]⟩ : Shape).ShapeCasts ⟨2, ![n, 512]⟩)
    (wix wih wfx wfh wux wuh : FVec Ideal ⟨2, ![512, 512]⟩ .f32) (bi bf bu : FVec Ideal ⟨2, ![1, 512]⟩ .f32)
    (H C : FVec Ideal ⟨2, ![m, 512]⟩ .f32) (X : FVec Ideal ⟨2, ![n, 512]⟩ .f32) : FVec Ideal ⟨2, ![n, 512]⟩ .f32 :=
  addf (addf (mulf (logistic (kGate D B X (addf (kSel 0 H h1 s0 h3) (kSel 1 H h1 s1 h3)) wix wih bi))
                   (tanh (kGate D B X (addf (kSel 0 H h1 s0 h3) (kSel 1 H h1 s1 h3)) wux wuh bu)))
             (mulf (logistic (kGate D B X (kSel 0 H h1 s0 h3) wfx wfh bf)) (kSel 0 C h1 s0 h3)))
       (mulf (logistic (kGate D B X (kSel 1 H h1 s1 h3) wfx wfh bf)) (kSel 1 C h1 s1 h3))

/-- The level's hidden states as the body computes them, from the new cell states. -/
abbrev kHid (D : DotDims ⟨2, ![n, 512]⟩ ⟨2, ![512, 512]⟩ ⟨2, ![n, 512]⟩)
    (B : FVec Ideal ⟨2, ![1, 512]⟩ .f32 → FVec Ideal ⟨2, ![n, 512]⟩ .f32)
    (h1 : (⟨2, ![m, 512]⟩ : Shape).ShapeCasts ⟨3, ![n, 2, 512]⟩)
    (s0 : (⟨3, ![n, 2, 512]⟩ : Shape).Slices ![0, 0, 0] ⟨3, ![n, 1, 512]⟩)
    (s1 : (⟨3, ![n, 2, 512]⟩ : Shape).Slices ![0, 1, 0] ⟨3, ![n, 1, 512]⟩)
    (h3 : (⟨3, ![n, 1, 512]⟩ : Shape).ShapeCasts ⟨2, ![n, 512]⟩)
    (wox woh : FVec Ideal ⟨2, ![512, 512]⟩ .f32) (bo : FVec Ideal ⟨2, ![1, 512]⟩ .f32)
    (H : FVec Ideal ⟨2, ![m, 512]⟩ .f32) (X Cn : FVec Ideal ⟨2, ![n, 512]⟩ .f32) : FVec Ideal ⟨2, ![n, 512]⟩ .f32 :=
  mulf (logistic (kGate D B X (addf (kSel 0 H h1 s0 h3) (kSel 1 H h1 s1 h3)) wox woh bo)) (tanh Cn)

/-- The body's cell states are the specification's. -/
theorem kCell_eq (hm : m = 2 * n)
    (w : DotDims.WF ⟨2, ![n, 512]⟩ ⟨2, ![512, 512]⟩ ⟨2, ![n, 512]⟩ [1] [0] [0] [1] [] [])
    (B : FVec Ideal ⟨2, ![1, 512]⟩ .f32 → FVec Ideal ⟨2, ![n, 512]⟩ .f32)
    (hB : ∀ (b : FVec Ideal ⟨2, ![1, 512]⟩ .f32) (p : Fin n) (q : Fin 512), B b (ix2 p q) = b (ix2 (0 : Fin 1) q))
    (h1 : (⟨2, ![m, 512]⟩ : Shape).ShapeCasts ⟨3, ![n, 2, 512]⟩)
    (s0 : (⟨3, ![n, 2, 512]⟩ : Shape).Slices ![0, 0, 0] ⟨3, ![n, 1, 512]⟩)
    (s1 : (⟨3, ![n, 2, 512]⟩ : Shape).Slices ![0, 1, 0] ⟨3, ![n, 1, 512]⟩)
    (h3 : (⟨3, ![n, 1, 512]⟩ : Shape).ShapeCasts ⟨2, ![n, 512]⟩)
    (q : KParams) (H C : Mat m 512) (X : Mat n 512) :
    kCell (plainDims w) B h1 s0 s1 h3 q.wix q.wih q.wfx q.wfh q.wux q.wuh q.bi q.bf q.bu H C X
      = innerC q X (child 0 hm H) (child 1 hm H) (child 0 hm C) (child 1 hm C) := by
  unfold kCell
  rw [kSel_left hm H h1 s0 h3, kSel_right hm H h1 s1 h3, kSel_left hm C h1 s0 h3, kSel_right hm C h1 s1 h3,
    kGate_eq w B hB X _ q.wix q.wih q.bi, kGate_eq w B hB X _ q.wux q.wuh q.bu,
    kGate_eq w B hB X (child 0 hm H) q.wfx q.wfh q.bf, kGate_eq w B hB X (child 1 hm H) q.wfx q.wfh q.bf]
  rfl

/-- The body's hidden states are the specification's. -/
theorem kHid_eq (hm : m = 2 * n)
    (w : DotDims.WF ⟨2, ![n, 512]⟩ ⟨2, ![512, 512]⟩ ⟨2, ![n, 512]⟩ [1] [0] [0] [1] [] [])
    (B : FVec Ideal ⟨2, ![1, 512]⟩ .f32 → FVec Ideal ⟨2, ![n, 512]⟩ .f32)
    (hB : ∀ (b : FVec Ideal ⟨2, ![1, 512]⟩ .f32) (p : Fin n) (q : Fin 512), B b (ix2 p q) = b (ix2 (0 : Fin 1) q))
    (h1 : (⟨2, ![m, 512]⟩ : Shape).ShapeCasts ⟨3, ![n, 2, 512]⟩)
    (s0 : (⟨3, ![n, 2, 512]⟩ : Shape).Slices ![0, 0, 0] ⟨3, ![n, 1, 512]⟩)
    (s1 : (⟨3, ![n, 2, 512]⟩ : Shape).Slices ![0, 1, 0] ⟨3, ![n, 1, 512]⟩)
    (h3 : (⟨3, ![n, 1, 512]⟩ : Shape).ShapeCasts ⟨2, ![n, 512]⟩)
    (q : KParams) (H : Mat m 512) (X Cn : Mat n 512) :
    kHid (plainDims w) B h1 s0 s1 h3 q.wox q.woh q.bo H X Cn
      = cellH (lin X (hsum (child 0 hm H) (child 1 hm H)) q.wox q.woh q.bo) Cn := by
  unfold kHid
  rw [kSel_left hm H h1 s0 h3, kSel_right hm H h1 s1 h3, kGate_eq w B hB X _ q.wox q.woh q.bo]
  rfl

/-- One level of the body over the rows s … s + n − 1 of the inputs: its cell states are the second component of the
    specification's level … -/
theorem kLevel_c {N : ℕ} (hm : m = 2 * n) (s : ℕ) (hs : s + n ≤ N)
    (w : DotDims.WF ⟨2, ![n, 512]⟩ ⟨2, ![512, 512]⟩ ⟨2, ![n, 512]⟩ [1] [0] [0] [1] [] [])
    (B : FVec Ideal ⟨2, ![1, 512]⟩ .f32 → FVec Ideal ⟨2, ![n, 512]⟩ .f32)
    (hB : ∀ (b : FVec Ideal ⟨2, ![1, 512]⟩ .f32) (p : Fin n) (q : Fin 512), B b (ix2 p q) = b (ix2 (0 : Fin 1) q))
    (h1 : (⟨2, ![m, 512]⟩ : Shape).ShapeCasts ⟨3, ![n, 2, 512]⟩)
    (s0 : (⟨3, ![n, 2, 512]⟩ : Shape).Slices ![0, 0, 0] ⟨3, ![n, 1, 512]⟩)
    (s1 : (⟨3, ![n, 2, 512]⟩ : Shape).Slices ![0, 1, 0] ⟨3, ![n, 1, 512]⟩)
    (h3 : (⟨3, ![n, 1, 512]⟩ : Shape).ShapeCasts ⟨2, ![n, 512]⟩)
    (q : KParams) (xt : Mat N 512) (prev : Mat m 512 × Mat m 512) :
    kCell (plainDims w) B h1 s0 s1 h3 q.wix q.wih q.wfx q.wfh q.wux q.wuh q.bi q.bf q.bu prev.1 prev.2 (rows s hs xt)
      = (level q hm s hs xt prev).2 :=
  kCell_eq hm w B hB h1 s0 s1 h3 q prev.1 prev.2 (rows s hs xt)

/-- … and its hidden states, from those cell states, the first. -/
theorem kLevel_h {N : ℕ} (hm : m = 2 * n) (s : ℕ) (hs : s + n ≤ N)
    (w : DotDims.WF ⟨2, ![n, 512]⟩ ⟨2, ![512, 512]⟩ ⟨2, ![n, 512]⟩ [1] [0] [0] [1] [] [])
    (B : FVec Ideal ⟨2, ![1, 512]⟩ .f32 → FVec Ideal ⟨2, ![n, 512]⟩ .f32)
    (hB : ∀ (b : FVec Ideal ⟨2, ![1, 512]⟩ .f32) (p : Fin n) (q : Fin 512), B b (ix2 p q) = b (ix2 (0 : Fin 1) q))
    (h1 : (⟨2, ![m, 512]⟩ : Shape).ShapeCasts ⟨3, ![n, 2, 512]⟩)
    (s0 : (⟨3, ![n, 2, 512]⟩ : Shape).Slices ![0, 0, 0] ⟨3, ![n, 1, 512]⟩)
    (s1 : (⟨3, ![n, 2, 512]⟩ : Shape).Slices ![0, 1, 0] ⟨3, ![n, 1, 512]⟩)
    (h3 : (⟨3, ![n, 1, 512]⟩ : Shape).ShapeCasts ⟨2, ![n, 512]⟩)
    (q : KParams) (xt : Mat N 512) (prev : Mat m 512 × Mat m 512) :
    kHid (plainDims w) B h1 s0 s1 h3 q.wox q.woh q.bo prev.1 (rows s hs xt) (level q hm s hs xt prev).2
      = (level q hm s hs xt prev).1 :=
  kHid_eq hm w B hB h1 s0 s1 h3 q prev.1 (rows s hs xt) (level q hm s hs xt prev).2

end Cert.KTree

end
-- ==== Proof.TailPaysA.lean ====
/-
  The fused top's levels 9 … 5 (512 … 32 nodes): what the body's stores of each level hold, as the specification's level
  over the level below. Each is the general level at the level's own extents.
-/
import proofs.«132239_j37117107372689_2_alg».proof.Proof.Gen.KernelIdeal.Skeleton
import proofs.«132239_j37117107372689_2_alg».proof.Proof.TailLevel

noncomputable section

namespace Cert.KTree

open Idealize.ShloMosaic Idealize.ShloMosaic.ValueIdx Idealize.ShloMosaic.TileMatmul Cert.SplitLinear Cert.TreeSpec
open Cert.KernelIdeal Cert.KernelIdeal.Gen

/-! ## The level of 512 nodes (rows 511 … 1022 of the inputs) -/

/-- Its cell states, from the level below as a pair (h, c). -/
theorem cell_512 (q : KParams) (xt : Mat 1023 512) (prev : Mat 1024 512 × Mat 1024 512) :
    k5_pay20 (F := Ideal) q.wix q.wih q.wfx q.wfh q.wux q.wuh q.bi q.bf q.bu prev.1 prev.2 (rows 511 (by norm_num : 511 + 512 ≤ 1023) xt)
      = (level q (by norm_num : 1024 = 2 * 512) 511 (by norm_num : 511 + 512 ≤ 1023) xt prev).2 := by
  unfold k5_pay20 k5_pay15 k5_pay19 k5_pay17 k5_pay18 k5_pay16
  simp only [shapeCast_self]
  exact kLevel_c (by norm_num : 1024 = 2 * 512) 511 (by norm_num : 511 + 512 ≤ 1023) Facts₀.dot_S512x512_S512x512_S512x512_1_0_0_1_n_n_wf (fun b => broadcastTo S512x512 b Facts₀.broadcasts_S1x512_S512x512) (spread_bcast Facts₀.broadcasts_S1x512_S512x512) Facts₀.shapeCasts_S1024x512_S512x2x512 Facts₀.slices_S512x2x512_o0_0_0_S512x1x512 Facts₀.slices_S512x2x512_o0_1_0_S512x1x512 Facts₀.shapeCasts_S512x1x512_S512x512 q xt prev

/-- Its hidden states. -/
theorem hid_512 (q : KParams) (xt : Mat 1023 512) (prev : Mat 1024 512 × Mat 1024 512) :
    k5_pay21 (F := Ideal) q.wix q.wih q.wfx q.wfh q.wox q.woh q.wux q.wuh q.bi q.bf q.bo q.bu prev.1 prev.2 (rows 511 (by norm_num : 511 + 512 ≤ 1023) xt)
      = (level q (by norm_num : 1024 = 2 * 512) 511 (by norm_num : 511 + 512 ≤ 1023) xt prev).1 := by
  unfold k5_pay21
  rw [cell_512 q xt prev]
  unfold k5_pay15 k5_pay19 k5_pay17 k5_pay18 k5_pay16
  simp only [shapeCast_self]
  exact kLevel_h (by norm_num : 1024 = 2 * 512) 511 (by norm_num : 511 + 512 ≤ 1023) Facts₀.dot_S512x512_S512x512_S512x512_1_0_0_1_n_n_wf (fun b => broadcastTo S512x512 b Facts₀.broadcasts_S1x512_S512x512) (spread_bcast Facts₀.broadcasts_S1x512_S512x512) Facts₀.shapeCasts_S1024x512_S512x2x512 Facts₀.slices_S512x2x512_o0_0_0_S512x1x512 Facts₀.slices_S512x2x512_o0_1_0_S512x1x512 Facts₀.shapeCasts_S512x1x512_S512x512 q xt prev

/-- The same two over the entry tables: the fused top's level 9. -/
theorem cellT_512 (v1 v3 v5 v7 v9 v11 v13 v15 : Mat 512 512) (v17 v19 v21 v23 : Mat 1 512) (xt : Mat 1023 512) (H C : Mat 1024 512) :
    k5_pay20 (F := Ideal) v1 v3 v5 v7 v13 v15 v17 v19 v23 H C (rows 511 (by norm_num : 511 + 512 ≤ 1023) xt) = (T9 ⟨v1, v3, v5, v7, v9, v11, v13, v15, v17, v19, v21, v23⟩ xt (H, C)).2 :=
  cell_512 ⟨v1, v3, v5, v7, v9, v11, v13, v15, v17, v19, v21, v23⟩ xt (H, C)
theorem hidT_512 (v1 v3 v5 v7 v9 v11 v13 v15 : Mat 512 512) (v17 v19 v21 v23 : Mat 1 512) (xt : Mat 1023 512) (H C : Mat 1024 512) :
    k5_pay21 (F := Ideal) v1 v3 v5 v7 v9 v11 v13 v15 v17 v19 v21 v23 H C (rows 511 (by norm_num : 511 + 512 ≤ 1023) xt) = (T9 ⟨v1, v3, v5, v7, v9, v11, v13, v15, v17, v19, v21, v23⟩ xt (H, C)).1 :=
  hid_512 ⟨v1, v3, v5, v7, v9, v11, v13, v15, v17, v19, v21, v23⟩ xt (H, C)

/-! ## The level of 256 nodes (rows 255 … 510 of the inputs) -/

/-- Its cell states, from the level below as a pair (h, c). -/
theorem cell_256 (q : KParams) (xt : Mat 1023 512) (prev : Mat 512 512 × Mat 512 512) :
    k5_pay27 (F := Ideal) q.wix q.wih q.wfx q.wfh q.wux q.wuh q.bi q.bf q.bu prev.2 prev.1 (rows 255 (by norm_num : 255 + 256 ≤ 1023) xt)
      = (level q (by norm_num : 512 = 2 * 256) 255 (by norm_num : 255 + 256 ≤ 1023) xt prev).2 := by
  unfold k5_pay27 k5_pay22 k5_pay26 k5_pay24 k5_pay25 k5_pay23
  simp only [shapeCast_self]
  exact kLevel_c (by norm_num : 512 = 2 * 256) 255 (by norm_num : 255 + 256 ≤ 1023) Facts₀.dot_S256x512_S512x512_S256x512_1_0_0_1_n_n_wf (fun b => broadcastTo S256x512 b Facts₀.broadcasts_S1x512_S256x512) (spread_bcast Facts₀.broadcasts_S1x512_S256x512) Facts₀.shapeCasts_S512x512_S256x2x512 Facts₀.slices_S256x2x512_o0_0_0_S256x1x512 Facts₀.slices_S256x2x512_o0_1_0_S256x1x512 Facts₀.shapeCasts_S256x1x512_S256x512 q xt prev

/-- Its hidden states. -/
theorem hid_256 (q : KParams) (xt : Mat 1023 512) (prev : Mat 512 512 × Mat 512 512) :
    k5_pay28 (F := Ideal) q.wix q.wih q.wfx q.wfh q.wox q.woh q.wux q.wuh q.bi q.bf q.bo q.bu prev.2 prev.1 (rows 255 (by norm_num : 255 + 256 ≤ 1023) xt)
      = (level q (by norm_num : 512 = 2 * 256) 255 (by norm_num : 255 + 256 ≤ 1023) xt prev).1 := by
  unfold k5_pay28
  rw [cell_256 q xt prev]
  unfold k5_pay22 k5_pay26 k5_pay24 k5_pay25 k5_pay23
  simp only [shapeCast_self]
  exact kLevel_h (by norm_num : 512 = 2 * 256) 255 (by norm_num : 255 + 256 ≤ 1023) Facts₀.dot_S256x512_S512x512_S256x512_1_0_0_1_n_n_wf (fun b => broadcastTo S256x512 b Facts₀.broadcasts_S1x512_S256x512) (spread_bcast Facts₀.broadcasts_S1x512_S256x512) Facts₀.shapeCasts_S512x512_S256x2x512 Facts₀.slices_S256x2x512_o0_0_0_S256x1x512 Facts₀.slices_S256x2x512_o0_1_0_S256x1x512 Facts₀.shapeCasts_S256x1x512_S256x512 q xt prev

/-- The same two over the level above it in the fused top: level 8 from level 9. -/
theorem cellT_256 (v1 v3 v5 v7 v9 v11 v13 v15 : Mat 512 512) (v17 v19 v21 v23 : Mat 1 512) (xt : Mat 1023 512) (p : Mat 1024 512 × Mat 1024 512) :
    k5_pay27 (F := Ideal) v1 v3 v5 v7 v13 v15 v17 v19 v23 (T9 ⟨v1, v3, v5, v7, v9, v11, v13, v15, v17, v19, v21, v23⟩ xt p).2 (T9 ⟨v1, v3, v5, v7, v9, v11, v13, v15, v17, v19, v21, v23⟩ xt p).1 (rows 255 (by norm_num : 255 + 256 ≤ 1023) xt)
      = (T8 ⟨v1, v3, v5, v7, v9, v11, v13, v15, v17, v19, v21, v23⟩ xt p).2 :=
  cell_256 ⟨v1, v3, v5, v7, v9, v11, v13, v15, v17, v19, v21, v23⟩ xt (T9 ⟨v1, v3, v5, v7, v9, v11, v13, v15, v17, v19, v21, v23⟩ xt p)
theorem hidT_256 (v1 v3 v5 v7 v9 v11 v13 v15 : Mat 512 512) (v17 v19 v21 v23 : Mat 1 512) (xt : Mat 1023 512) (p : Mat 1024 512 × Mat 1024 512) :
    k5_pay28 (F := Ideal) v1 v3 v5 v7 v9 v11 v13 v15 v17 v19 v21 v23 (T9 ⟨v1, v3, v5, v7, v9, v11, v13, v15, v17, v19, v21, v23⟩ xt p).2 (T9 ⟨v1, v3, v5, v7, v9, v11, v13, v15, v17, v19, v21, v23⟩ xt p).1 (rows 255 (by norm_num : 255 + 256 ≤ 1023) xt)
      = (T8 ⟨v1, v3, v5, v7, v9, v11, v13, v15, v17, v19, v21, v23⟩ xt p).1 :=
  hid_256 ⟨v1, v3, v5, v7, v9, v11, v13, v15, v17, v19, v21, v23⟩ xt (T9 ⟨v1, v3, v5, v7, v9, v11, v13, v15, v17, v19, v21, v23⟩ xt p)

/-! ## The level of 128 nodes (rows 127 … 254 of the inputs) -/

/-- Its cell states, from the level below as a pair (h, c). -/
theorem cell_128 (q : KParams) (xt : Mat 1023 512) (prev : Mat 256 512 × Mat 256 512) :
    k5_pay34 (F := Ideal) q.wix q.wih q.wfx q.wfh q.wux q.wuh q.bi q.bf q.bu prev.2 prev.1 (rows 127 (by norm_num : 127 + 128 ≤ 1023) xt)
      = (level q (by norm_num : 256 = 2 * 128) 127 (by norm_num : 127 + 128 ≤ 1023) xt prev).2 := by
  unfold k5_pay34 k5_pay29 k5_pay33 k5_pay31 k5_pay32 k5_pay30
  simp only [shapeCast_self]
  exact kLevel_c (by norm_num : 256 = 2 * 128) 127 (by norm_num : 127 + 128 ≤ 1023) Facts₀.dot_S128x512_S512x512_S128x512_1_0_0_1_n_n_wf (fun b => broadcastTo S128x512 b Facts₀.broadcasts_S1x512_S128x512) (spread_bcast Facts₀.broadcasts_S1x512_S128x512) Facts₀.shapeCasts_S256x512_S128x2x512 Facts₀.slices_S128x2x512_o0_0_0_S128x1x512 Facts₀.slices_S128x2x512_o0_1_0_S128x1x512 Facts₀.shapeCasts_S128x1x512_S128x512 q xt prev

/-- Its hidden states. -/
theorem hid_128 (q : KParams) (xt : Mat 1023 512) (prev : Mat 256 512 × Mat 256 512) :
    k5_pay35 (F := Ideal) q.wix q.wih q.wfx q.wfh q.wox q.woh q.wux q.wuh q.bi q.bf q.bo q.bu prev.2 prev.1 (rows 127 (by norm_num : 127 + 128 ≤ 1023) xt)
      = (level q (by norm_num : 256 = 2 * 128) 127 (by norm_num : 127 + 128 ≤ 1023) xt prev).1 := by
  unfold k5_pay35
  rw [cell_128 q xt prev]
  unfold k5_pay29 k5_pay33 k5_pay31 k5_pay32 k5_pay30
  simp only [shapeCast_self]
  exact kLevel_h (by norm_num : 256 = 2 * 128) 127 (by norm_num : 127 + 128 ≤ 1023) Facts₀.dot_S128x512_S512x512_S128x512_1_0_0_1_n_n_wf (fun b => broadcastTo S128x512 b Facts₀.broadcasts_S1x512_S128x512) (spread_bcast Facts₀.broadcasts_S1x512_S128x512) Facts₀.shapeCasts_S256x512_S128x2x512 Facts₀.slices_S128x2x512_o0_0_0_S128x1x512 Facts₀.slices_S128x2x512_o0_1_0_S128x1x512 Facts₀.shapeCasts_S128x1x512_S128x512 q xt prev

/-- The same two over the level above it in the fused top: level 7 from level 8. -/
theorem cellT_128 (v1 v3 v5 v7 v9 v11 v13 v15 : Mat 512 512) (v17 v19 v21 v23 : Mat 1 512) (xt : Mat 1023 512) (p : Mat 1024 512 × Mat 1024 512) :
    k5_pay34 (F := Ideal) v1 v3 v5 v7 v13 v15 v17 v19 v23 (T8 ⟨v1, v3, v5, v7, v9, v11, v13, v15, v17, v19, v21, v23⟩ xt p).2 (T8 ⟨v1, v3, v5, v7, v9, v11, v13, v15, v17, v19, v21, v23⟩ xt p).1 (rows 127 (by norm_num : 127 + 128 ≤ 1023) xt)
      = (T7 ⟨v1, v3, v5, v7, v9, v11, v13, v15, v17, v19, v21, v23⟩ xt p).2 :=
  cell_128 ⟨v1, v3, v5, v7, v9, v11, v13, v15, v17, v19, v21, v23⟩ xt (T8 ⟨v1, v3, v5, v7, v9, v11, v13, v15, v17, v19, v21, v23⟩ xt p)
theorem hidT_128 (v1 v3 v5 v7 v9 v11 v13 v15 : Mat 512 512) (v17 v19 v21 v23 : Mat 1 512) (xt : Mat 1023 512) (p : Mat 1024 512 × Mat 1024 512) :
    k5_pay35 (F := Ideal) v1 v3 v5 v7 v9 v11 v13 v15 v17 v19 v21 v23 (T8 ⟨v1, v3, v5, v7, v9, v11, v13, v15, v17, v19, v21, v23⟩ xt p).2 (T8 ⟨v1, v3, v5, v7, v9, v11, v13, v15, v17, v19, v21, v23⟩ xt p).1 (rows 127 (by norm_num : 127 + 128 ≤ 1023) xt)
      = (T7 ⟨v1, v3, v5, v7, v9, v11, v13, v15, v17, v19, v21, v23⟩ xt p).1 :=
  hid_128 ⟨v1, v3, v5, v7, v9, v11, v13, v15, v17, v19, v21, v23⟩ xt (T8 ⟨v1, v3, v5, v7, v9, v11, v13, v15, v17, v19, v21, v23⟩ xt p)

/-! ## The level of 64 nodes (rows 63 … 126 of the inputs) -/

/-- Its cell states, from the level below as a pair (h, c). -/
theorem cell_64 (q : KParams) (xt : Mat 1023 512) (prev : Mat 128 512 × Mat 128 512) :
    k5_pay41 (F := Ideal) q.wix q.wih q.wfx q.wfh q.wux q.wuh q.bi q.bf q.bu prev.2 prev.1 (rows 63 (by norm_num : 63 + 64 ≤ 1023) xt)
      = (level q (by norm_num : 128 = 2 * 64) 63 (by norm_num : 63 + 64 ≤ 1023) xt prev).2 := by
  unfold k5_pay41 k5_pay36 k5_pay40 k5_pay38 k5_pay39 k5_pay37
  simp only [shapeCast_self]
  exact kLevel_c (by norm_num : 128 = 2 * 64) 63 (by norm_num : 63 + 64 ≤ 1023) Facts₀.dot_S64x512_S512x512_S64x512_1_0_0_1_n_n_wf (fun b => broadcastTo S64x512 b Facts₀.broadcasts_S1x512_S64x512) (spread_bcast Facts₀.broadcasts_S1x512_S64x512) Facts₀.shapeCasts_S128x512_S64x2x512 Facts₀.slices_S64x2x512_o0_0_0_S64x1x512 Facts₀.slices_S64x2x512_o0_1_0_S64x1x512 Facts₀.shapeCasts_S64x1x512_S64x512 q xt prev

/-- Its hidden states. -/
theorem hid_64 (q : KParams) (xt : Mat 1023 512) (prev : Mat 128 512 × Mat 128 512) :
    k5_pay42 (F := Ideal) q.wix q.wih q.wfx q.wfh q.wox q.woh q.wux q.wuh q.bi q.bf q.bo q.bu prev.2 prev.1 (rows 63 (by norm_num : 63 + 64 ≤ 1023) xt)
      = (level q (by norm_num : 128 = 2 * 64) 63 (by norm_num : 63 + 64 ≤ 1023) xt prev).1 := by
  unfold k5_pay42
  rw [cell_64 q xt prev]
  unfold k5_pay36 k5_pay40 k5_pay38 k5_pay39 k5_pay37
  simp only [shapeCast_self]
  exact kLevel_h (by norm_num : 128 = 2 * 64) 63 (by norm_num : 63 + 64 ≤ 1023) Facts₀.dot_S64x512_S512x512_S64x512_1_0_0_1_n_n_wf (fun b => broadcastTo S64x512 b Facts₀.broadcasts_S1x512_S64x512) (spread_bcast Facts₀.broadcasts_S1x512_S64x512) Facts₀.shapeCasts_S128x512_S64x2x512 Facts₀.slices_S64x2x512_o0_0_0_S64x1x512 Facts₀.slices_S64x2x512_o0_1_0_S64x1x512 Facts₀.shapeCasts_S64x1x512_S64x512 q xt prev

/-- The same two over the level above it in the fused top: level 6 from level 7. -/
theorem cellT_64 (v1 v3 v5 v7 v9 v11 v13 v15 : Mat 512 512) (v17 v19 v21 v23 : Mat 1 512) (xt : Mat 1023 512) (p : Mat 1024 512 × Mat 1024 512) :
    k5_pay41 (F := Ideal) v1 v3 v5 v7 v13 v15 v17 v19 v23 (T7 ⟨v1, v3, v5, v7, v9, v11, v13, v15, v17, v19, v21, v23⟩ xt p).2 (T7 ⟨v1, v3, v5, v7, v9, v11, v13, v15, v17, v19, v21, v23⟩ xt p).1 (rows 63 (by norm_num : 63 + 64 ≤ 1023) xt)
      = (T6 ⟨v1, v3, v5, v7, v9, v11, v13, v15, v17, v19, v21, v23⟩ xt p).2 :=
  cell_64 ⟨v1, v3, v5, v7, v9, v11, v13, v15, v17, v19, v21, v23⟩ xt (T7 ⟨v1, v3, v5, v7, v9, v11, v13, v15, v17, v19, v21, v23⟩ xt p)
theorem hidT_64 (v1 v3 v5 v7 v9 v11 v13 v15 : Mat 512 512) (v17 v19 v21 v23 : Mat 1 512) (xt : Mat 1023 512) (p : Mat 1024 512 × Mat 1024 512) :
    k5_pay42 (F := Ideal) v1 v3 v5 v7 v9 v11 v13 v15 v17 v19 v21 v23 (T7 ⟨v1, v3, v5, v7, v9, v11, v13, v15, v17, v19, v21, v23⟩ xt p).2 (T7 ⟨v1, v3, v5, v7, v9, v11, v13, v15, v17, v19, v21, v23⟩ xt p).1 (rows 63 (by norm_num : 63 + 64 ≤ 1023) xt)
      = (T6 ⟨v1, v3, v5, v7, v9, v11, v13, v15, v17, v19, v21, v23⟩ xt p).1 :=
  hid_64 ⟨v1, v3, v5, v7, v9, v11, v13, v15, v17, v19, v21, v23⟩ xt (T7 ⟨v1, v3, v5, v7, v9, v11, v13, v15, v17, v19, v21, v23⟩ xt p)

/-! ## The level of 32 nodes (rows 31 … 62 of the inputs) -/

/-- Its cell states, from the level below as a pair (h, c). -/
theorem cell_32 (q : KParams) (xt : Mat 1023 512) (prev : Mat 64 512 × Mat 64 512) :
    k5_pay48 (F := Ideal) q.wix q.wih q.wfx q.wfh q.wux q.wuh q.bi q.bf q.bu prev.2 prev.1 (rows 31 (by norm_num : 31 + 32 ≤ 1023) xt)
      = (level q (by norm_num : 64 = 2 * 32) 31 (by norm_num : 31 + 32 ≤ 1023) xt prev).2 := by
  unfold k5_pay48 k5_pay43 k5_pay47 k5_pay45 k5_pay46 k5_pay44
  simp only [shapeCast_self]
  exact kLevel_c (by norm_num : 64 = 2 * 32) 31 (by norm_num : 31 + 32 ≤ 1023) Facts₀.dot_S32x512_S512x512_S32x512_1_0_0_1_n_n_wf (fun b => broadcastTo S32x512 b Facts₀.broadcasts_S1x512_S32x512) (spread_bcast Facts₀.broadcasts_S1x512_S32x512) Facts₀.shapeCasts_S64x512_S32x2x512 Facts₀.slices_S32x2x512_o0_0_0_S32x1x512 Facts₀.slices_S32x2x512_o0_1_0_S32x1x512 Facts₀.shapeCasts_S32x1x512_S32x512 q xt prev

/-- Its hidden states. -/
theorem hid_32 (q : KParams) (xt : Mat 1023 512) (prev : Mat 64 512 × Mat 64 512) :
    k5_pay49 (F := Ideal) q.wix q.wih q.wfx q.wfh q.wox q.woh q.wux q.wuh q.bi q.bf q.bo q.bu prev.2 prev.1 (rows 31 (by norm_num : 31 + 32 ≤ 1023) xt)
      = (level q (by norm_num : 64 = 2 * 32) 31 (by norm_num : 31 + 32 ≤ 1023) xt prev).1 := by
  unfold k5_pay49
  rw [cell_32 q xt prev]
  unfold k5_pay43 k5_pay47 k5_pay45 k5_pay46 k5_pay44
  simp only [shapeCast_self]
  exact kLevel_h (by norm_num : 64 = 2 * 32) 31 (by norm_num : 31 + 32 ≤ 1023) Facts₀.dot_S32x512_S512x512_S32x512_1_0_0_1_n_n_wf (fun b => broadcastTo S32x512 b Facts₀.broadcasts_S1x512_S32x512) (spread_bcast Facts₀.broadcasts_S1x512_S32x512) Facts₀.shapeCasts_S64x512_S32x2x512 Facts₀.slices_S32x2x512_o0_0_0_S32x1x512 Facts₀.slices_S32x2x512_o0_1_0_S32x1x512 Facts₀.shapeCasts_S32x1x512_S32x512 q xt prev

/-- The same two over the level above it in the fused top: level 5 from level 6. -/
theorem cellT_32 (v1 v3 v5 v7 v9 v11 v13 v15 : Mat 512 512) (v17 v19 v21 v23 : Mat 1 512) (xt : Mat 1023 512) (p : Mat 1024 512 × Mat 1024 512) :
    k5_pay48 (F := Ideal) v1 v3 v5 v7 v13 v15 v17 v19 v23 (T6 ⟨v1, v3, v5, v7, v9, v11, v13, v15, v17, v19, v21, v23⟩ xt p).2 (T6 ⟨v1, v3, v5, v7, v9, v11, v13, v15, v17, v19, v21, v23⟩ xt p).1 (rows 31 (by norm_num : 31 + 32 ≤ 1023) xt)
      = (T5 ⟨v1, v3, v5, v7, v9, v11, v13, v15, v17, v19, v21, v23⟩ xt p).2 :=
  cell_32 ⟨v1, v3, v5, v7, v9, v11, v13, v15, v17, v19, v21, v23⟩ xt (T6 ⟨v1, v3, v5, v7, v9, v11, v13, v15, v17, v19, v21, v23⟩ xt p)
theorem hidT_32 (v1 v3 v5 v7 v9 v11 v13 v15 : Mat 512 512) (v17 v19 v21 v23 : Mat 1 512) (xt : Mat 1023 512) (p : Mat 1024 512 × Mat 1024 512) :
    k5_pay49 (F := Ideal) v1 v3 v5 v7 v9 v11 v13 v15 v17 v19 v21 v23 (T6 ⟨v1, v3, v5, v7, v9, v11, v13, v15, v17, v19, v21, v23⟩ xt p).2 (T6 ⟨v1, v3, v5, v7, v9, v11, v13, v15, v17, v19, v21, v23⟩ xt p).1 (rows 31 (by norm_num : 31 + 32 ≤ 1023) xt)
      = (T5 ⟨v1, v3, v5, v7, v9, v11, v13, v15, v17, v19, v21, v23⟩ xt p).1 :=
  hid_32 ⟨v1, v3, v5, v7, v9, v11, v13, v15, v17, v19, v21, v23⟩ xt (T6 ⟨v1, v3, v5, v7, v9, v11, v13, v15, v17, v19, v21, v23⟩ xt p)

end Cert.KTree

end
-- ==== Proof.TailPaysB.lean ====
/-
  The fused top's levels 4 … 0 (16 … 1 nodes): what the body's stores of each level hold, as the specification's level
  over the level below. Each is the general level at the level's own extents; the last level, of one node, adds the
  bias rows as they are.
-/
import proofs.«132239_j37117107372689_2_alg».proof.Proof.Gen.KernelIdeal.Skeleton
import proofs.«132239_j37117107372689_2_alg».proof.Proof.TailLevel

noncomputable section

namespace Cert.KTree

open Idealize.ShloMosaic Idealize.ShloMosaic.ValueIdx Idealize.ShloMosaic.TileMatmul Cert.SplitLinear Cert.TreeSpec
open Cert.KernelIdeal Cert.KernelIdeal.Gen

/-! ## The level of 16 nodes (rows 15 … 30 of the inputs) -/

/-- Its cell states, from the level below as a pair (h, c). -/
theorem cell_16 (q : KParams) (xt : Mat 1023 512) (prev : Mat 32 512 × Mat 32 512) :
    k5_pay55 (F := Ideal) q.wix q.wih q.wfx q.wfh q.wux q.wuh q.bi q.bf q.bu prev.2 prev.1 (rows 15 (by norm_num : 15 + 16 ≤ 1023) xt)
      = (level q (by norm_num : 32 = 2 * 16) 15 (by norm_num : 15 + 16 ≤ 1023) xt prev).2 := by
  unfold k5_pay55 k5_pay50 k5_pay54 k5_pay52 k5_pay53 k5_pay51
  simp only [shapeCast_self]
  exact kLevel_c (by norm_num : 32 = 2 * 16) 15 (by norm_num : 15 + 16 ≤ 1023) Facts₀.dot_S16x512_S512x512_S16x512_1_0_0_1_n_n_wf (fun b => broadcastTo S16x512 b Facts₀.broadcasts_S1x512_S16x512) (spread_bcast Facts₀.broadcasts_S1x512_S16x512) Facts₀.shapeCasts_S32x512_S16x2x512 Facts₀.slices_S16x2x512_o0_0_0_S16x1x512 Facts₀.slices_S16x2x512_o0_1_0_S16x1x512 Facts₀.shapeCasts_S16x1x512_S16x512 q xt prev

/-- Its hidden states. -/
theorem hid_16 (q : KParams) (xt : Mat 1023 512) (prev : Mat 32 512 × Mat 32 512) :
    k5_pay56 (F := Ideal) q.wix q.wih q.wfx q.wfh q.wox q.woh q.wux q.wuh q.bi q.bf q.bo q.bu prev.2 prev.1 (rows 15 (by norm_num : 15 + 16 ≤ 1023) xt)
      = (level q (by norm_num : 32 = 2 * 16) 15 (by norm_num : 15 + 16 ≤ 1023) xt prev).1 := by
  unfold k5_pay56
  rw [cell_16 q xt prev]
  unfold k5_pay50 k5_pay54 k5_pay52 k5_pay53 k5_pay51
  simp only [shapeCast_self]
  exact kLevel_h (by norm_num : 32 = 2 * 16) 15 (by norm_num : 15 + 16 ≤ 1023) Facts₀.dot_S16x512_S512x512_S16x512_1_0_0_1_n_n_wf (fun b => broadcastTo S16x512 b Facts₀.broadcasts_S1x512_S16x512) (spread_bcast Facts₀.broadcasts_S1x512_S16x512) Facts₀.shapeCasts_S32x512_S16x2x512 Facts₀.slices_S16x2x512_o0_0_0_S16x1x512 Facts₀.slices_S16x2x512_o0_1_0_S16x1x512 Facts₀.shapeCasts_S16x1x512_S16x512 q xt prev

/-- The same two over the level above it in the fused top: level 4 from level 5. -/
theorem cellT_16 (v1 v3 v5 v7 v9 v11 v13 v15 : Mat 512 512) (v17 v19 v21 v23 : Mat 1 512) (xt : Mat 1023 512) (p : Mat 1024 512 × Mat 1024 512) :
    k5_pay55 (F := Ideal) v1 v3 v5 v7 v13 v15 v17 v19 v23 (T5 ⟨v1, v3, v5, v7, v9, v11, v13, v15, v17, v19, v21, v23⟩ xt p).2 (T5 ⟨v1, v3, v5, v7, v9, v11, v13, v15, v17, v19, v21, v23⟩ xt p).1 (rows 15 (by norm_num : 15 + 16 ≤ 1023) xt)
      = (T4 ⟨v1, v3, v5, v7, v9, v11, v13, v15, v17, v19, v21, v23⟩ xt p).2 :=
  cell_16 ⟨v1, v3, v5, v7, v9, v11, v13, v15, v17, v19, v21, v23⟩ xt (T5 ⟨v1, v3, v5, v7, v9, v11, v13, v15, v17, v19, v21, v23⟩ xt p)
theorem hidT_16 (v1 v3 v5 v7 v9 v11 v13 v15 : Mat 512 512) (v17 v19 v21 v23 : Mat 1 512) (xt : Mat 1023 512) (p : Mat 1024 512 × Mat 1024 512) :
    k5_pay56 (F := Ideal) v1 v3 v5 v7 v9 v11 v13 v15 v17 v19 v21 v23 (T5 ⟨v1, v3, v5, v7, v9, v11, v13, v15, v17, v19, v21, v23⟩ xt p).2 (T5 ⟨v1, v3, v5, v7, v9, v11, v13, v15, v17, v19, v21, v23⟩ xt p).1 (rows 15 (by norm_num : 15 + 16 ≤ 1023) xt)
      = (T4 ⟨v1, v3, v5, v7, v9, v11, v13, v15, v17, v19, v21, v23⟩ xt p).1 :=
  hid_16 ⟨v1, v3, v5, v7, v9, v11, v13, v15, v17, v19, v21, v23⟩ xt (T5 ⟨v1, v3, v5, v7, v9, v11, v13, v15, v17, v19, v21, v23⟩ xt p)

/-! ## The level of 8 nodes (rows 7 … 14 of the inputs) -/

/-- Its cell states, from the level below as a pair (h, c). -/
theorem cell_8 (q : KParams) (xt : Mat 1023 512) (prev : Mat 16 512 × Mat 16 512) :
    k5_pay62 (F := Ideal) q.wix q.wih q.wfx q.wfh q.wux q.wuh q.bi q.bf q.bu prev.2 prev.1 (rows 7 (by norm_num : 7 + 8 ≤ 1023) xt)
      = (level q (by norm_num : 16 = 2 * 8) 7 (by norm_num : 7 + 8 ≤ 1023) xt prev).2 := by
  unfold k5_pay62 k5_pay57 k5_pay61 k5_pay59 k5_pay60 k5_pay58
  simp only [shapeCast_self]
  exact kLevel_c (by norm_num : 16 = 2 * 8) 7 (by norm_num : 7 + 8 ≤ 1023) Facts₀.dot_S8x512_S512x512_S8x512_1_0_0_1_n_n_wf (fun b => broadcastTo S8x512 b Facts₀.broadcasts_S1x512_S8x512) (spread_bcast Facts₀.broadcasts_S1x512_S8x512) Facts₀.shapeCasts_S16x512_S8x2x512 Facts₀.slices_S8x2x512_o0_0_0_S8x1x512 Facts₀.slices_S8x2x512_o0_1_0_S8x1x512 Facts₀.shapeCasts_S8x1x512_S8x512 q xt prev

/-- Its hidden states. -/
theorem hid_8 (q : KParams) (xt : Mat 1023 512) (prev : Mat 16 512 × Mat 16 512) :
    k5_pay63 (F := Ideal) q.wix q.wih q.wfx q.wfh q.wox q.woh q.wux q.wuh q.bi q.bf q.bo q.bu prev.2 prev.1 (rows 7 (by norm_num : 7 + 8 ≤ 1023) xt)
      = (level q (by norm_num : 16 = 2 * 8) 7 (by norm_num : 7 + 8 ≤ 1023) xt prev).1 := by
  unfold k5_pay63
  rw [cell_8 q xt prev]
  unfold k5_pay57 k5_pay61 k5_pay59 k5_pay60 k5_pay58
  simp only [shapeCast_self]
  exact kLevel_h (by norm_num : 16 = 2 * 8) 7 (by norm_num : 7 + 8 ≤ 1023) Facts₀.dot_S8x512_S512x512_S8x512_1_0_0_1_n_n_wf (fun b => broadcastTo S8x512 b Facts₀.broadcasts_S1x512_S8x512) (spread_bcast Facts₀.broadcasts_S1x512_S8x512) Facts₀.shapeCasts_S16x512_S8x2x512 Facts₀.slices_S8x2x512_o0_0_0_S8x1x512 Facts₀.slices_S8x2x512_o0_1_0_S8x1x512 Facts₀.shapeCasts_S8x1x512_S8x512 q xt prev

/-- The same two over the level above it in the fused top: level 3 from level 4. -/
theorem cellT_8 (v1 v3 v5 v7 v9 v11 v13 v15 : Mat 512 512) (v17 v19 v21 v23 : Mat 1 512) (xt : Mat 1023 512) (p : Mat 1024 512 × Mat 1024 512) :
    k5_pay62 (F := Ideal) v1 v3 v5 v7 v13 v15 v17 v19 v23 (T4 ⟨v1, v3, v5, v7, v9, v11, v13, v15, v17, v19, v21, v23⟩ xt p).2 (T4 ⟨v1, v3, v5, v7, v9, v11, v13, v15, v17, v19, v21, v23⟩ xt p).1 (rows 7 (by norm_num : 7 + 8 ≤ 1023) xt)
      = (T3 ⟨v1, v3, v5, v7, v9, v11, v13, v15, v17, v19, v21, v23⟩ xt p).2 :=
  cell_8 ⟨v1, v3, v5, v7, v9, v11, v13, v15, v17, v19, v21, v23⟩ xt (T4 ⟨v1, v3, v5, v7, v9, v11, v13, v15, v17, v19, v21, v23⟩ xt p)
theorem hidT_8 (v1 v3 v5 v7 v9 v11 v13 v15 : Mat 512 512) (v17 v19 v21 v23 : Mat 1 512) (xt : Mat 1023 512) (p : Mat 1024 512 × Mat 1024 512) :
    k5_pay63 (F := Ideal) v1 v3 v5 v7 v9 v11 v13 v15 v17 v19 v21 v23 (T4 ⟨v1, v3, v5, v7, v9, v11, v13, v15, v17, v19, v21, v23⟩ xt p).2 (T4 ⟨v1, v3, v5, v7, v9, v11, v13, v15, v17, v19, v21, v23⟩ xt p).1 (rows 7 (by norm_num : 7 + 8 ≤ 1023) xt)
      = (T3 ⟨v1, v3, v5, v7, v9, v11, v13, v15, v17, v19, v21, v23⟩ xt p).1 :=
  hid_8 ⟨v1, v3, v5, v7, v9, v11, v13, v15, v17, v19, v21, v23⟩ xt (T4 ⟨v1, v3, v5, v7, v9, v11, v13, v15, v17, v19, v21, v23⟩ xt p)

/-! ## The level of 4 nodes (rows 3 … 6 of the inputs) -/

/-- Its cell states, from the level below as a pair (h, c). -/
theorem cell_4 (q : KParams) (xt : Mat 1023 512) (prev : Mat 8 512 × Mat 8 512) :
    k5_pay69 (F := Ideal) q.wix q.wih q.wfx q.wfh q.wux q.wuh q.bi q.bf q.bu prev.2 prev.1 (rows 3 (by norm_num : 3 + 4 ≤ 1023) xt)
      = (level q (by norm_num : 8 = 2 * 4) 3 (by norm_num : 3 + 4 ≤ 1023) xt prev).2 := by
  unfold k5_pay69 k5_pay64 k5_pay68 k5_pay66 k5_pay67 k5_pay65
  simp only [shapeCast_self]
  exact kLevel_c (by norm_num : 8 = 2 * 4) 3 (by norm_num : 3 + 4 ≤ 1023) Facts₀.dot_S4x512_S512x512_S4x512_1_0_0_1_n_n_wf (fun b => broadcastTo S4x512 b Facts₀.broadcasts_S1x512_S4x512) (spread_bcast Facts₀.broadcasts_S1x512_S4x512) Facts₀.shapeCasts_S8x512_S4x2x512 Facts₀.slices_S4x2x512_o0_0_0_S4x1x512 Facts₀.slices_S4x2x512_o0_1_0_S4x1x512 Facts₀.shapeCasts_S4x1x512_S4x512 q xt prev

/-- Its hidden states. -/
theorem hid_4 (q : KParams) (xt : Mat 1023 512) (prev : Mat 8 512 × Mat 8 512) :
    k5_pay70 (F := Ideal) q.wix q.wih q.wfx q.wfh q.wox q.woh q.wux q.wuh q.bi q.bf q.bo q.bu prev.2 prev.1 (rows 3 (by norm_num : 3 + 4 ≤ 1023) xt)
      = (level q (by norm_num : 8 = 2 * 4) 3 (by norm_num : 3 + 4 ≤ 1023) xt prev).1 := by
  unfold k5_pay70
  rw [cell_4 q xt prev]
  unfold k5_pay64 k5_pay68 k5_pay66 k5_pay67 k5_pay65
  simp only [shapeCast_self]
  exact kLevel_h (by norm_num : 8 = 2 * 4) 3 (by norm_num : 3 + 4 ≤ 1023) Facts₀.dot_S4x512_S512x512_S4x512_1_0_0_1_n_n_wf (fun b => broadcastTo S4x512 b Facts₀.broadcasts_S1x512_S4x512) (spread_bcast Facts₀.broadcasts_S1x512_S4x512) Facts₀.shapeCasts_S8x512_S4x2x512 Facts₀.slices_S4x2x512_o0_0_0_S4x1x512 Facts₀.slices_S4x2x512_o0_1_0_S4x1x512 Facts₀.shapeCasts_S4x1x512_S4x512 q xt prev

/-- The same two over the level above it in the fused top: level 2 from level 3. -/
theorem cellT_4 (v1 v3 v5 v7 v9 v11 v13 v15 : Mat 512 512) (v17 v19 v21 v23 : Mat 1 512) (xt : Mat 1023 512) (p : Mat 1024 512 × Mat 1024 512) :
    k5_pay69 (F := Ideal) v1 v3 v5 v7 v13 v15 v17 v19 v23 (T3 ⟨v1, v3, v5, v7, v9, v11, v13, v15, v17, v19, v21, v23⟩ xt p).2 (T3 ⟨v1, v3, v5, v7, v9, v11, v13, v15, v17, v19, v21, v23⟩ xt p).1 (rows 3 (by norm_num : 3 + 4 ≤ 1023) xt)
      = (T2 ⟨v1, v3, v5, v7, v9, v11, v13, v15, v17, v19, v21, v23⟩ xt p).2 :=
  cell_4 ⟨v1, v3, v5, v7, v9, v11, v13, v15, v17, v19, v21, v23⟩ xt (T3 ⟨v1, v3, v5, v7, v9, v11, v13, v15, v17, v19, v21, v23⟩ xt p)
theorem hidT_4 (v1 v3 v5 v7 v9 v11 v13 v15 : Mat 512 512) (v17 v19 v21 v23 : Mat 1 512) (xt : Mat 1023 512) (p : Mat 1024 512 × Mat 1024 512) :
    k5_pay70 (F := Ideal) v1 v3 v5 v7 v9 v11 v13 v15 v17 v19 v21 v23 (T3 ⟨v1, v3, v5, v7, v9, v11, v13, v15, v17, v19, v21, v23⟩ xt p).2 (T3 ⟨v1, v3, v5, v7, v9, v11, v13, v15, v17, v19, v21, v23⟩ xt p).1 (rows 3 (by norm_num : 3 + 4 ≤ 1023) xt)
      = (T2 ⟨v1, v3, v5, v7, v9, v11, v13, v15, v17, v19, v21, v23⟩ xt p).1 :=
  hid_4 ⟨v1, v3, v5, v7, v9, v11, v13, v15, v17, v19, v21, v23⟩ xt (T3 ⟨v1, v3, v5, v7, v9, v11, v13, v15, v17, v19, v21, v23⟩ xt p)

/-! ## The level of 2 nodes (rows 1 … 2 of the inputs) -/

/-- Its cell states, from the level below as a pair (h, c). -/
theorem cell_2 (q : KParams) (xt : Mat 1023 512) (prev : Mat 4 512 × Mat 4 512) :
    k5_pay76 (F := Ideal) q.wix q.wih q.wfx q.wfh q.wux q.wuh q.bi q.bf q.bu prev.2 prev.1 (rows 1 (by norm_num : 1 + 2 ≤ 1023) xt)
      = (level q (by norm_num : 4 = 2 * 2) 1 (by norm_num : 1 + 2 ≤ 1023) xt prev).2 := by
  unfold k5_pay76 k5_pay71 k5_pay75 k5_pay73 k5_pay74 k5_pay72
  simp only [shapeCast_self]
  exact kLevel_c (by norm_num : 4 = 2 * 2) 1 (by norm_num : 1 + 2 ≤ 1023) Facts₀.dot_S2x512_S512x512_S2x512_1_0_0_1_n_n_wf (fun b => broadcastTo S2x512 b Facts₀.broadcasts_S1x512_S2x512) (spread_bcast Facts₀.broadcasts_S1x512_S2x512) Facts₀.shapeCasts_S4x512_S2x2x512 Facts₀.slices_S2x2x512_o0_0_0_S2x1x512 Facts₀.slices_S2x2x512_o0_1_0_S2x1x512 Facts₀.shapeCasts_S2x1x512_S2x512 q xt prev

/-- Its hidden states. -/
theorem hid_2 (q : KParams) (xt : Mat 1023 512) (prev : Mat 4 512 × Mat 4 512) :
    k5_pay77 (F := Ideal) q.wix q.wih q.wfx q.wfh q.wox q.woh q.wux q.wuh q.bi q.bf q.bo q.bu prev.2 prev.1 (rows 1 (by norm_num : 1 + 2 ≤ 1023) xt)
      = (level q (by norm_num : 4 = 2 * 2) 1 (by norm_num : 1 + 2 ≤ 1023) xt prev).1 := by
  unfold k5_pay77
  rw [cell_2 q xt prev]
  unfold k5_pay71 k5_pay75 k5_pay73 k5_pay74 k5_pay72
  simp only [shapeCast_self]
  exact kLevel_h (by norm_num : 4 = 2 * 2) 1 (by norm_num : 1 + 2 ≤ 1023) Facts₀.dot_S2x512_S512x512_S2x512_1_0_0_1_n_n_wf (fun b => broadcastTo S2x512 b Facts₀.broadcasts_S1x512_S2x512) (spread_bcast Facts₀.broadcasts_S1x512_S2x512) Facts₀.shapeCasts_S4x512_S2x2x512 Facts₀.slices_S2x2x512_o0_0_0_S2x1x512 Facts₀.slices_S2x2x512_o0_1_0_S2x1x512 Facts₀.shapeCasts_S2x1x512_S2x512 q xt prev

/-- The same two over the level above it in the fused top: level 1 from level 2. -/
theorem cellT_2 (v1 v3 v5 v7 v9 v11 v13 v15 : Mat 512 512) (v17 v19 v21 v23 : Mat 1 512) (xt : Mat 1023 512) (p : Mat 1024 512 × Mat 1024 512) :
    k5_pay76 (F := Ideal) v1 v3 v5 v7 v13 v15 v17 v19 v23 (T2 ⟨v1, v3, v5, v7, v9, v11, v13, v15, v17, v19, v21, v23⟩ xt p).2 (T2 ⟨v1, v3, v5, v7, v9, v11, v13, v15, v17, v19, v21, v23⟩ xt p).1 (rows 1 (by norm_num : 1 + 2 ≤ 1023) xt)
      = (T1 ⟨v1, v3, v5, v7, v9, v11, v13, v15, v17, v19, v21, v23⟩ xt p).2 :=
  cell_2 ⟨v1, v3, v5, v7, v9, v11, v13, v15, v17, v19, v21, v23⟩ xt (T2 ⟨v1, v3, v5, v7, v9, v11, v13, v15, v17, v19, v21, v23⟩ xt p)
theorem hidT_2 (v1 v3 v5 v7 v9 v11 v13 v15 : Mat 512 512) (v17 v19 v21 v23 : Mat 1 512) (xt : Mat 1023 512) (p : Mat 1024 512 × Mat 1024 512) :
    k5_pay77 (F := Ideal) v1 v3 v5 v7 v9 v11 v13 v15 v17 v19 v21 v23 (T2 ⟨v1, v3, v5, v7, v9, v11, v13, v15, v17, v19, v21, v23⟩ xt p).2 (T2 ⟨v1, v3, v5, v7, v9, v11, v13, v15, v17, v19, v21, v23⟩ xt p).1 (rows 1 (by norm_num : 1 + 2 ≤ 1023) xt)
      = (T1 ⟨v1, v3, v5, v7, v9, v11, v13, v15, v17, v19, v21, v23⟩ xt p).1 :=
  hid_2 ⟨v1, v3, v5, v7, v9, v11, v13, v15, v17, v19, v21, v23⟩ xt (T2 ⟨v1, v3, v5, v7, v9, v11, v13, v15, v17, v19, v21, v23⟩ xt p)

/-! ## The level of 1 node (rows 0 … 0 of the inputs) -/

/-- Its cell states, from the level below as a pair (h, c). -/
theorem cell_1 (q : KParams) (xt : Mat 1023 512) (prev : Mat 2 512 × Mat 2 512) :
    k5_pay83 (F := Ideal) q.wix q.wih q.wfx q.wfh q.wux q.wuh q.bi q.bf q.bu prev.2 prev.1 (rows 0 (by norm_num : 0 + 1 ≤ 1023) xt)
      = (level q (by norm_num : 2 = 2 * 1) 0 (by norm_num : 0 + 1 ≤ 1023) xt prev).2 := by
  unfold k5_pay83 k5_pay78 k5_pay82 k5_pay80 k5_pay81 k5_pay79
  simp only [shapeCast_self]
  exact kLevel_c (by norm_num : 2 = 2 * 1) 0 (by norm_num : 0 + 1 ≤ 1023) Facts₀.dot_S1x512_S512x512_S1x512_1_0_0_1_n_n_wf (fun b => b) spread_one Facts₀.shapeCasts_S2x512_S1x2x512 Facts₀.slices_S1x2x512_o0_0_0_S1x1x512 Facts₀.slices_S1x2x512_o0_1_0_S1x1x512 Facts₀.shapeCasts_S1x1x512_S1x512 q xt prev

/-- Its hidden states. -/
theorem hid_1 (q : KParams) (xt : Mat 1023 512) (prev : Mat 2 512 × Mat 2 512) :
    k5_pay84 (F := Ideal) q.wix q.wih q.wfx q.wfh q.wox q.woh q.wux q.wuh q.bi q.bf q.bo q.bu prev.2 prev.1 (rows 0 (by norm_num : 0 + 1 ≤ 1023) xt)
      = (level q (by norm_num : 2 = 2 * 1) 0 (by norm_num : 0 + 1 ≤ 1023) xt prev).1 := by
  unfold k5_pay84
  rw [cell_1 q xt prev]
  unfold k5_pay78 k5_pay82 k5_pay80 k5_pay81 k5_pay79
  simp only [shapeCast_self]
  exact kLevel_h (by norm_num : 2 = 2 * 1) 0 (by norm_num : 0 + 1 ≤ 1023) Facts₀.dot_S1x512_S512x512_S1x512_1_0_0_1_n_n_wf (fun b => b) spread_one Facts₀.shapeCasts_S2x512_S1x2x512 Facts₀.slices_S1x2x512_o0_0_0_S1x1x512 Facts₀.slices_S1x2x512_o0_1_0_S1x1x512 Facts₀.shapeCasts_S1x1x512_S1x512 q xt prev

/-- The same two over the level above it in the fused top: level 0 from level 1. -/
theorem cellT_1 (v1 v3 v5 v7 v9 v11 v13 v15 : Mat 512 512) (v17 v19 v21 v23 : Mat 1 512) (xt : Mat 1023 512) (p : Mat 1024 512 × Mat 1024 512) :
    k5_pay83 (F := Ideal) v1 v3 v5 v7 v13 v15 v17 v19 v23 (T1 ⟨v1, v3, v5, v7, v9, v11, v13, v15, v17, v19, v21, v23⟩ xt p).2 (T1 ⟨v1, v3, v5, v7, v9, v11, v13, v15, v17, v19, v21, v23⟩ xt p).1 (rows 0 (by norm_num : 0 + 1 ≤ 1023) xt)
      = (T0 ⟨v1, v3, v5, v7, v9, v11, v13, v15, v17, v19, v21, v23⟩ xt p).2 :=
  cell_1 ⟨v1, v3, v5, v7, v9, v11, v13, v15, v17, v19, v21, v23⟩ xt (T1 ⟨v1, v3, v5, v7, v9, v11, v13, v15, v17, v19, v21, v23⟩ xt p)
theorem hidT_1 (v1 v3 v5 v7 v9 v11 v13 v15 : Mat 512 512) (v17 v19 v21 v23 : Mat 1 512) (xt : Mat 1023 512) (p : Mat 1024 512 × Mat 1024 512) :
    k5_pay84 (F := Ideal) v1 v3 v5 v7 v9 v11 v13 v15 v17 v19 v21 v23 (T1 ⟨v1, v3, v5, v7, v9, v11, v13, v15, v17, v19, v21, v23⟩ xt p).2 (T1 ⟨v1, v3, v5, v7, v9, v11, v13, v15, v17, v19, v21, v23⟩ xt p).1 (rows 0 (by norm_num : 0 + 1 ≤ 1023) xt)
      = (T0 ⟨v1, v3, v5, v7, v9, v11, v13, v15, v17, v19, v21, v23⟩ xt p).1 :=
  hid_1 ⟨v1, v3, v5, v7, v9, v11, v13, v15, v17, v19, v21, v23⟩ xt (T1 ⟨v1, v3, v5, v7, v9, v11, v13, v15, v17, v19, v21, v23⟩ xt p)

end Cert.KTree

end
-- ==== Proof.TailOutA.lean ====
/-
  The fused top of the tree as the body leaves it in its two output blocks, over any contents of its fifteen input
  blocks: the root's cell state and hidden state are the specification's level 0 of the ten fused levels, computed from
  the first 1023 rows of the inputs, level 10's (h, c) and the twelve weight tables.

  The body's result is a tree of the per-level stores; read from the leaves up, each level's pair of stores is the
  specification's level over the pair below it.
-/
import proofs.«132239_j37117107372689_2_alg».proof.Proof.KernelIdealFrame
import proofs.«132239_j37117107372689_2_alg».proof.Proof.TailPaysA
import proofs.«132239_j37117107372689_2_alg».proof.Proof.TailPaysB

set_option maxRecDepth 16384

noncomputable section

namespace Cert.KTree

open Idealize.ShloMosaic Idealize.ShloMosaic.TcCoe Idealize.SL.Sem Idealize.ShloMosaic.ValueIdx
open Cert.KernelIdeal Cert.KernelIdeal.Gen Cert.KernelIdeal.GenP Cert.TreeSpec

/-- The zero offsets of a rank-2 access. -/
theorem hz2 : (![0, 0] : Fin 2 → Nat) = fun _ => 0 := funext fun a => by fin_cases a <;> rfl

/-! ## The loaded weight, bias and level-10 tables pass through a cast to their own shape -/

theorem pay1_eq (v : Vec Ideal S512x512 .f32) : k5_pay1 (F := Ideal) v = v := by unfold k5_pay1; exact shapeCast_self v _
theorem pay2_eq (v : Vec Ideal S512x512 .f32) : k5_pay2 (F := Ideal) v = v := by unfold k5_pay2; exact shapeCast_self v _
theorem pay3_eq (v : Vec Ideal S512x512 .f32) : k5_pay3 (F := Ideal) v = v := by unfold k5_pay3; exact shapeCast_self v _
theorem pay4_eq (v : Vec Ideal S512x512 .f32) : k5_pay4 (F := Ideal) v = v := by unfold k5_pay4; exact shapeCast_self v _
theorem pay5_eq (v : Vec Ideal S512x512 .f32) : k5_pay5 (F := Ideal) v = v := by unfold k5_pay5; exact shapeCast_self v _
theorem pay6_eq (v : Vec Ideal S512x512 .f32) : k5_pay6 (F := Ideal) v = v := by unfold k5_pay6; exact shapeCast_self v _
theorem pay7_eq (v : Vec Ideal S512x512 .f32) : k5_pay7 (F := Ideal) v = v := by unfold k5_pay7; exact shapeCast_self v _
theorem pay8_eq (v : Vec Ideal S512x512 .f32) : k5_pay8 (F := Ideal) v = v := by unfold k5_pay8; exact shapeCast_self v _
theorem pay9_eq (v : Vec Ideal S1x512 .f32) : k5_pay9 (F := Ideal) v = v := by unfold k5_pay9; exact shapeCast_self v _
theorem pay10_eq (v : Vec Ideal S1x512 .f32) : k5_pay10 (F := Ideal) v = v := by unfold k5_pay10; exact shapeCast_self v _
theorem pay11_eq (v : Vec Ideal S1x512 .f32) : k5_pay11 (F := Ideal) v = v := by unfold k5_pay11; exact shapeCast_self v _
theorem pay12_eq (v : Vec Ideal S1x512 .f32) : k5_pay12 (F := Ideal) v = v := by unfold k5_pay12; exact shapeCast_self v _
theorem pay13_eq (v : Vec Ideal S1024x512 .f32) : k5_pay13 (F := Ideal) v = v := by unfold k5_pay13; exact shapeCast_self v _
theorem pay14_eq (v : Vec Ideal S1024x512 .f32) : k5_pay14 (F := Ideal) v = v := by unfold k5_pay14; exact shapeCast_self v _

/-! ## The two outputs -/

/-- The root's cell state, as the body stores it. -/
theorem tail_c (x0 : Vec Ideal S1023x512 .f32) (x1 x2 : Vec Ideal S1024x512 .f32) (x3 x4 x5 x6 x7 x8 x9 x10 : Vec Ideal S512x512 .f32) (x11 x12 x13 x14 : Vec Ideal S1x512 .f32) :
    out5_16 (F := Ideal) x0 x1 x2 x3 x4 x5 x6 x7 x8 x9 x10 x11 x12 x13 x14 = (T0 ⟨x3, x4, x5, x6, x7, x8, x9, x10, x11, x12, x13, x14⟩ x0 (x1, x2)).2 := by
  unfold out5_16
  rw [View.canon_unit_zero hz2]
  simp only [View.ld_unit_zero (S := S512x512) hz2, View.ld_unit_zero (S := S1x512) hz2, View.ld_unit_zero (S := S1024x512) hz2,
    pay1_eq, pay2_eq, pay3_eq, pay4_eq, pay5_eq, pay6_eq, pay7_eq, pay8_eq, pay9_eq, pay10_eq, pay11_eq, pay12_eq, pay13_eq, pay14_eq]
  have e512 : (View.ld x0 r5_3 : Vec Ideal S512x512 .f32) = rows (n := 512) (N := 1023) 511 (by norm_num : 511 + 512 ≤ 1023) x0 :=
    ld_rows 511 (by norm_num : 511 + 512 ≤ 1023) x0 _
  have e256 : (View.ld x0 r5_4 : Vec Ideal S256x512 .f32) = rows (n := 256) (N := 1023) 255 (by norm_num : 255 + 256 ≤ 1023) x0 :=
    ld_rows 255 (by norm_num : 255 + 256 ≤ 1023) x0 _
  have e128 : (View.ld x0 r5_5 : Vec Ideal S128x512 .f32) = rows (n := 128) (N := 1023) 127 (by norm_num : 127 + 128 ≤ 1023) x0 :=
    ld_rows 127 (by norm_num : 127 + 128 ≤ 1023) x0 _
  have e64 : (View.ld x0 r5_6 : Vec Ideal S64x512 .f32) = rows (n := 64) (N := 1023) 63 (by norm_num : 63 + 64 ≤ 1023) x0 :=
    ld_rows 63 (by norm_num : 63 + 64 ≤ 1023) x0 _
  have e32 : (View.ld x0 r5_7 : Vec Ideal S32x512 .f32) = rows (n := 32) (N := 1023) 31 (by norm_num : 31 + 32 ≤ 1023) x0 :=
    ld_rows 31 (by norm_num : 31 + 32 ≤ 1023) x0 _
  have e16 : (View.ld x0 r5_8 : Vec Ideal S16x512 .f32) = rows (n := 16) (N := 1023) 15 (by norm_num : 15 + 16 ≤ 1023) x0 :=
    ld_rows 15 (by norm_num : 15 + 16 ≤ 1023) x0 _
  have e8 : (View.ld x0 r5_9 : Vec Ideal S8x512 .f32) = rows (n := 8) (N := 1023) 7 (by norm_num : 7 + 8 ≤ 1023) x0 :=
    ld_rows 7 (by norm_num : 7 + 8 ≤ 1023) x0 _
  have e4 : (View.ld x0 r5_10 : Vec Ideal S4x512 .f32) = rows (n := 4) (N := 1023) 3 (by norm_num : 3 + 4 ≤ 1023) x0 :=
    ld_rows 3 (by norm_num : 3 + 4 ≤ 1023) x0 _
  have e2 : (View.ld x0 r5_11 : Vec Ideal S2x512 .f32) = rows (n := 2) (N := 1023) 1 (by norm_num : 1 + 2 ≤ 1023) x0 :=
    ld_rows 1 (by norm_num : 1 + 2 ≤ 1023) x0 _
  have e1 : (View.ld x0 r5_12 : Vec Ideal S1x512 .f32) = rows (n := 1) (N := 1023) 0 (by norm_num : 0 + 1 ≤ 1023) x0 :=
    ld_rows 0 (by norm_num : 0 + 1 ≤ 1023) x0 _
  rw [e512, e256, e128, e64, e32, e16, e8, e4, e2, e1]
  rw [cellT_512 x3 x4 x5 x6 x7 x8 x9 x10 x11 x12 x13 x14 x0 x1 x2, hidT_512 x3 x4 x5 x6 x7 x8 x9 x10 x11 x12 x13 x14 x0 x1 x2]
  rw [cellT_256 x3 x4 x5 x6 x7 x8 x9 x10 x11 x12 x13 x14 x0 (x1, x2), hidT_256 x3 x4 x5 x6 x7 x8 x9 x10 x11 x12 x13 x14 x0 (x1, x2)]
  rw [cellT_128 x3 x4 x5 x6 x7 x8 x9 x10 x11 x12 x13 x14 x0 (x1, x2), hidT_128 x3 x4 x5 x6 x7 x8 x9 x10 x11 x12 x13 x14 x0 (x1, x2)]
  rw [cellT_64 x3 x4 x5 x6 x7 x8 x9 x10 x11 x12 x13 x14 x0 (x1, x2), hidT_64 x3 x4 x5 x6 x7 x8 x9 x10 x11 x12 x13 x14 x0 (x1, x2)]
  rw [cellT_32 x3 x4 x5 x6 x7 x8 x9 x10 x11 x12 x13 x14 x0 (x1, x2), hidT_32 x3 x4 x5 x6 x7 x8 x9 x10 x11 x12 x13 x14 x0 (x1, x2)]
  rw [cellT_16 x3 x4 x5 x6 x7 x8 x9 x10 x11 x12 x13 x14 x0 (x1, x2), hidT_16 x3 x4 x5 x6 x7 x8 x9 x10 x11 x12 x13 x14 x0 (x1, x2)]
  rw [cellT_8 x3 x4 x5 x6 x7 x8 x9 x10 x11 x12 x13 x14 x0 (x1, x2), hidT_8 x3 x4 x5 x6 x7 x8 x9 x10 x11 x12 x13 x14 x0 (x1, x2)]
  rw [cellT_4 x3 x4 x5 x6 x7 x8 x9 x10 x11 x12 x13 x14 x0 (x1, x2), hidT_4 x3 x4 x5 x6 x7 x8 x9 x10 x11 x12 x13 x14 x0 (x1, x2)]
  rw [cellT_2 x3 x4 x5 x6 x7 x8 x9 x10 x11 x12 x13 x14 x0 (x1, x2), hidT_2 x3 x4 x5 x6 x7 x8 x9 x10 x11 x12 x13 x14 x0 (x1, x2)]
  rw [cellT_1 x3 x4 x5 x6 x7 x8 x9 x10 x11 x12 x13 x14 x0 (x1, x2)]

/-- The root's hidden state, as the body stores it. -/
theorem tail_h (x0 : Vec Ideal S1023x512 .f32) (x1 x2 : Vec Ideal S1024x512 .f32) (x3 x4 x5 x6 x7 x8 x9 x10 : Vec Ideal S512x512 .f32) (x11 x12 x13 x14 : Vec Ideal S1x512 .f32) :
    out5_15 (F := Ideal) x0 x1 x2 x3 x4 x5 x6 x7 x8 x9 x10 x11 x12 x13 x14 = (T0 ⟨x3, x4, x5, x6, x7, x8, x9, x10, x11, x12, x13, x14⟩ x0 (x1, x2)).1 := by
  unfold out5_15
  rw [View.canon_unit_zero hz2]
  simp only [View.ld_unit_zero (S := S512x512) hz2, View.ld_unit_zero (S := S1x512) hz2, View.ld_unit_zero (S := S1024x512) hz2,
    pay1_eq, pay2_eq, pay3_eq, pay4_eq, pay5_eq, pay6_eq, pay7_eq, pay8_eq, pay9_eq, pay10_eq, pay11_eq, pay12_eq, pay13_eq, pay14_eq]
  have e512 : (View.ld x0 r5_3 : Vec Ideal S512x512 .f32) = rows (n := 512) (N := 1023) 511 (by norm_num : 511 + 512 ≤ 1023) x0 :=
    ld_rows 511 (by norm_num : 511 + 512 ≤ 1023) x0 _
  have e256 : (View.ld x0 r5_4 : Vec Ideal S256x512 .f32) = rows (n := 256) (N := 1023) 255 (by norm_num : 255 + 256 ≤ 1023) x0 :=
    ld_rows 255 (by norm_num : 255 + 256 ≤ 1023) x0 _
  have e128 : (View.ld x0 r5_5 : Vec Ideal S128x512 .f32) = rows (n := 128) (N := 1023) 127 (by norm_num : 127 + 128 ≤ 1023) x0 :=
    ld_rows 127 (by norm_num : 127 + 128 ≤ 1023) x0 _
  have e64 : (View.ld x0 r5_6 : Vec Ideal S64x512 .f32) = rows (n := 64) (N := 1023) 63 (by norm_num : 63 + 64 ≤ 1023) x0 :=
    ld_rows 63 (by norm_num : 63 + 64 ≤ 1023) x0 _
  have e32 : (View.ld x0 r5_7 : Vec Ideal S32x512 .f32) = rows (n := 32) (N := 1023) 31 (by norm_num : 31 + 32 ≤ 1023) x0 :=
    ld_rows 31 (by norm_num : 31 + 32 ≤ 1023) x0 _
  have e16 : (View.ld x0 r5_8 : Vec Ideal S16x512 .f32) = rows (n := 16) (N := 1023) 15 (by norm_num : 15 + 16 ≤ 1023) x0 :=
    ld_rows 15 (by norm_num : 15 + 16 ≤ 1023) x0 _
  have e8 : (View.ld x0 r5_9 : Vec Ideal S8x512 .f32) = rows (n := 8) (N := 1023) 7 (by norm_num : 7 + 8 ≤ 1023) x0 :=
    ld_rows 7 (by norm_num : 7 + 8 ≤ 1023) x0 _
  have e4 : (View.ld x0 r5_10 : Vec Ideal S4x512 .f32) = rows (n := 4) (N := 1023) 3 (by norm_num : 3 + 4 ≤ 1023) x0 :=
    ld_rows 3 (by norm_num : 3 + 4 ≤ 1023) x0 _
  have e2 : (View.ld x0 r5_11 : Vec Ideal S2x512 .f32) = rows (n := 2) (N := 1023) 1 (by norm_num : 1 + 2 ≤ 1023) x0 :=
    ld_rows 1 (by norm_num : 1 + 2 ≤ 1023) x0 _
  have e1 : (View.ld x0 r5_12 : Vec Ideal S1x512 .f32) = rows (n := 1) (N := 1023) 0 (by norm_num : 0 + 1 ≤ 1023) x0 :=
    ld_rows 0 (by norm_num : 0 + 1 ≤ 1023) x0 _
  rw [e512, e256, e128, e64, e32, e16, e8, e4, e2, e1]
  rw [cellT_512 x3 x4 x5 x6 x7 x8 x9 x10 x11 x12 x13 x14 x0 x1 x2, hidT_512 x3 x4 x5 x6 x7 x8 x9 x10 x11 x12 x13 x14 x0 x1 x2]
  rw [cellT_256 x3 x4 x5 x6 x7 x8 x9 x10 x11 x12 x13 x14 x0 (x1, x2), hidT_256 x3 x4 x5 x6 x7 x8 x9 x10 x11 x12 x13 x14 x0 (x1, x2)]
  rw [cellT_128 x3 x4 x5 x6 x7 x8 x9 x10 x11 x12 x13 x14 x0 (x1, x2), hidT_128 x3 x4 x5 x6 x7 x8 x9 x10 x11 x12 x13 x14 x0 (x1, x2)]
  rw [cellT_64 x3 x4 x5 x6 x7 x8 x9 x10 x11 x12 x13 x14 x0 (x1, x2), hidT_64 x3 x4 x5 x6 x7 x8 x9 x10 x11 x12 x13 x14 x0 (x1, x2)]
  rw [cellT_32 x3 x4 x5 x6 x7 x8 x9 x10 x11 x12 x13 x14 x0 (x1, x2), hidT_32 x3 x4 x5 x6 x7 x8 x9 x10 x11 x12 x13 x14 x0 (x1, x2)]
  rw [cellT_16 x3 x4 x5 x6 x7 x8 x9 x10 x11 x12 x13 x14 x0 (x1, x2), hidT_16 x3 x4 x5 x6 x7 x8 x9 x10 x11 x12 x13 x14 x0 (x1, x2)]
  rw [cellT_8 x3 x4 x5 x6 x7 x8 x9 x10 x11 x12 x13 x14 x0 (x1, x2), hidT_8 x3 x4 x5 x6 x7 x8 x9 x10 x11 x12 x13 x14 x0 (x1, x2)]
  rw [cellT_4 x3 x4 x5 x6 x7 x8 x9 x10 x11 x12 x13 x14 x0 (x1, x2), hidT_4 x3 x4 x5 x6 x7 x8 x9 x10 x11 x12 x13 x14 x0 (x1, x2)]
  rw [cellT_2 x3 x4 x5 x6 x7 x8 x9 x10 x11 x12 x13 x14 x0 (x1, x2), hidT_2 x3 x4 x5 x6 x7 x8 x9 x10 x11 x12 x13 x14 x0 (x1, x2)]
  rw [hidT_1 x3 x4 x5 x6 x7 x8 x9 x10 x11 x12 x13 x14 x0 (x1, x2)]

end Cert.KTree

end
-- ==== Proof.TailOutB.lean ====
/-
  The last region of the kernel, the fused top of the tree, on any contents `V` of a core's buffers at the region's
  entry: its grid has one point and every window's block is its whole array, so each input block is the array, and the
  two output arrays end holding what the body stores: the root's hidden state and cell state, the specification's
  level 0 of the ten fused levels over the first 1023 rows of the inputs, level 10's (h, c) and the weights.
-/
import proofs.«132239_j37117107372689_2_alg».proof.Proof.TailOutA
import proofs.«132239_j37117107372689_2_alg».proof.Proof.KTreeDefs
import Idealize.ShloMosaic.Lib.Pipeline.Value

set_option maxRecDepth 16384

noncomputable section

namespace Cert.KTree

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.TreeSpec

variable (V : (c : Dev nD) → (b : Ref sig .tc) → Buf (Elt Ideal) ((c : Thread nD τ).loc b))

/-- The root's (h, c) from the region's entry contents. -/
abbrev rootOf (c : Dev nD) : Mat 1 512 × Mat 1 512 :=
  T0 (kpOf V c) (V c main_call0_v38) (V c main_call0_v37_0, V c main_call0_v37_1)

/-! ## Each input window's one block is its array -/

theorem iblk5_0 (c : Dev nD) (t : Fin cfg5.N) :
    (iblk5 (F := Ideal) V c 0 t : Vec Ideal S1023x512 .f32) = (V c main_call0_v38 : Vec Ideal S1023x512 .f32) := by
  obtain rfl : t = t5_0 := fin_N5 t
  unfold iblk5
  have hz' : (fun a => win5_0.index t5_0 a * main_call0_v38.ty.shape.size a) = fun _ => 0 :=
    funext fun a => by fin_cases a <;> first | decide | decide +kernel
  exact Memref.read_access_unit_zero (Elt Ideal) main_call0_v38 hz' (fun a => by rw [congrFun hz' a]; simp) (V c main_call0_v38)
theorem iblk5_1 (c : Dev nD) (t : Fin cfg5.N) :
    (iblk5 (F := Ideal) V c 1 t : Vec Ideal S1024x512 .f32) = (V c main_call0_v37_0 : Vec Ideal S1024x512 .f32) := by
  obtain rfl : t = t5_0 := fin_N5 t
  unfold iblk5
  have hz' : (fun a => win5_1.index t5_0 a * main_call0_v37_0.ty.shape.size a) = fun _ => 0 :=
    funext fun a => by fin_cases a <;> first | decide | decide +kernel
  exact Memref.read_access_unit_zero (Elt Ideal) main_call0_v37_0 hz' (fun a => by rw [congrFun hz' a]; simp) (V c main_call0_v37_0)
theorem iblk5_2 (c : Dev nD) (t : Fin cfg5.N) :
    (iblk5 (F := Ideal) V c 2 t : Vec Ideal S1024x512 .f32) = (V c main_call0_v37_1 : Vec Ideal S1024x512 .f32) := by
  obtain rfl : t = t5_0 := fin_N5 t
  unfold iblk5
  have hz' : (fun a => win5_2.index t5_0 a * main_call0_v37_1.ty.shape.size a) = fun _ => 0 :=
    funext fun a => by fin_cases a <;> first | decide | decide +kernel
  exact Memref.read_access_unit_zero (Elt Ideal) main_call0_v37_1 hz' (fun a => by rw [congrFun hz' a]; simp) (V c main_call0_v37_1)
theorem iblk5_3 (c : Dev nD) (t : Fin cfg5.N) :
    (iblk5 (F := Ideal) V c 3 t : Vec Ideal S512x512 .f32) = (V c main_call0_v1 : Vec Ideal S512x512 .f32) := by
  obtain rfl : t = t5_0 := fin_N5 t
  unfold iblk5
  have hz' : (fun a => win5_3.index t5_0 a * main_call0_v1.ty.shape.size a) = fun _ => 0 :=
    funext fun a => by fin_cases a <;> first | decide | decide +kernel
  exact Memref.read_access_unit_zero (Elt Ideal) main_call0_v1 hz' (fun a => by rw [congrFun hz' a]; simp) (V c main_call0_v1)
theorem iblk5_4 (c : Dev nD) (t : Fin cfg5.N) :
    (iblk5 (F := Ideal) V c 4 t : Vec Ideal S512x512 .f32) = (V c main_call0_v3 : Vec Ideal S512x512 .f32) := by
  obtain rfl : t = t5_0 := fin_N5 t
  unfold iblk5
  have hz' : (fun a => win5_4.index t5_0 a * main_call0_v3.ty.shape.size a) = fun _ => 0 :=
    funext fun a => by fin_cases a <;> first | decide | decide +kernel
  exact Memref.read_access_unit_zero (Elt Ideal) main_call0_v3 hz' (fun a => by rw [congrFun hz' a]; simp) (V c main_call0_v3)
theorem iblk5_5 (c : Dev nD) (t : Fin cfg5.N) :
    (iblk5 (F := Ideal) V c 5 t : Vec Ideal S512x512 .f32) = (V c main_call0_v5 : Vec Ideal S512x512 .f32) := by
  obtain rfl : t = t5_0 := fin_N5 t
  unfold iblk5
  have hz' : (fun a => win5_5.index t5_0 a * main_call0_v5.ty.shape.size a) = fun _ => 0 :=
    funext fun a => by fin_cases a <;> first | decide | decide +kernel
  exact Memref.read_access_unit_zero (Elt Ideal) main_call0_v5 hz' (fun a => by rw [congrFun hz' a]; simp) (V c main_call0_v5)
theorem iblk5_6 (c : Dev nD) (t : Fin cfg5.N) :
    (iblk5 (F := Ideal) V c 6 t : Vec Ideal S512x512 .f32) = (V c main_call0_v7 : Vec Ideal S512x512 .f32) := by
  obtain rfl : t = t5_0 := fin_N5 t
  unfold iblk5
  have hz' : (fun a => win5_6.index t5_0 a * main_call0_v7.ty.shape.size a) = fun _ => 0 :=
    funext fun a => by fin_cases a <;> first | decide | decide +kernel
  exact Memref.read_access_unit_zero (Elt Ideal) main_call0_v7 hz' (fun a => by rw [congrFun hz' a]; simp) (V c main_call0_v7)
theorem iblk5_7 (c : Dev nD) (t : Fin cfg5.N) :
    (iblk5 (F := Ideal) V c 7 t : Vec Ideal S512x512 .f32) = (V c main_call0_v9 : Vec Ideal S512x512 .f32) := by
  obtain rfl : t = t5_0 := fin_N5 t
  unfold iblk5
  have hz' : (fun a => win5_7.index t5_0 a * main_call0_v9.ty.shape.size a) = fun _ => 0 :=
    funext fun a => by fin_cases a <;> first | decide | decide +kernel
  exact Memref.read_access_unit_zero (Elt Ideal) main_call0_v9 hz' (fun a => by rw [congrFun hz' a]; simp) (V c main_call0_v9)
theorem iblk5_8 (c : Dev nD) (t : Fin cfg5.N) :
    (iblk5 (F := Ideal) V c 8 t : Vec Ideal S512x512 .f32) = (V c main_call0_v11 : Vec Ideal S512x512 .f32) := by
  obtain rfl : t = t5_0 := fin_N5 t
  unfold iblk5
  have hz' : (fun a => win5_8.index t5_0 a * main_call0_v11.ty.shape.size a) = fun _ => 0 :=
    funext fun a => by fin_cases a <;> first | decide | decide +kernel
  exact Memref.read_access_unit_zero (Elt Ideal) main_call0_v11 hz' (fun a => by rw [congrFun hz' a]; simp) (V c main_call0_v11)
theorem iblk5_9 (c : Dev nD) (t : Fin cfg5.N) :
    (iblk5 (F := Ideal) V c 9 t : Vec Ideal S512x512 .f32) = (V c main_call0_v13 : Vec Ideal S512x512 .f32) := by
  obtain rfl : t = t5_0 := fin_N5 t
  unfold iblk5
  have hz' : (fun a => win5_9.index t5_0 a * main_call0_v13.ty.shape.size a) = fun _ => 0 :=
    funext fun a => by fin_cases a <;> first | decide | decide +kernel
  exact Memref.read_access_unit_zero (Elt Ideal) main_call0_v13 hz' (fun a => by rw [congrFun hz' a]; simp) (V c main_call0_v13)
theorem iblk5_10 (c : Dev nD) (t : Fin cfg5.N) :
    (iblk5 (F := Ideal) V c 10 t : Vec Ideal S512x512 .f32) = (V c main_call0_v15 : Vec Ideal S512x512 .f32) := by
  obtain rfl : t = t5_0 := fin_N5 t
  unfold iblk5
  have hz' : (fun a => win5_10.index t5_0 a * main_call0_v15.ty.shape.size a) = fun _ => 0 :=
    funext fun a => by fin_cases a <;> first | decide | decide +kernel
  exact Memref.read_access_unit_zero (Elt Ideal) main_call0_v15 hz' (fun a => by rw [congrFun hz' a]; simp) (V c main_call0_v15)
theorem iblk5_11 (c : Dev nD) (t : Fin cfg5.N) :
    (iblk5 (F := Ideal) V c 11 t : Vec Ideal S1x512 .f32) = (V c main_call0_v16 : Vec Ideal S1x512 .f32) := by
  obtain rfl : t = t5_0 := fin_N5 t
  unfold iblk5
  have hz' : (fun a => win5_11.index t5_0 a * main_call0_v16.ty.shape.size a) = fun _ => 0 :=
    funext fun a => by fin_cases a <;> first | decide | decide +kernel
  exact Memref.read_access_unit_zero (Elt Ideal) main_call0_v16 hz' (fun a => by rw [congrFun hz' a]; simp) (V c main_call0_v16)
theorem iblk5_12 (c : Dev nD) (t : Fin cfg5.N) :
    (iblk5 (F := Ideal) V c 12 t : Vec Ideal S1x512 .f32) = (V c main_call0_v17 : Vec Ideal S1x512 .f32) := by
  obtain rfl : t = t5_0 := fin_N5 t
  unfold iblk5
  have hz' : (fun a => win5_12.index t5_0 a * main_call0_v17.ty.shape.size a) = fun _ => 0 :=
    funext fun a => by fin_cases a <;> first | decide | decide +kernel
  exact Memref.read_access_unit_zero (Elt Ideal) main_call0_v17 hz' (fun a => by rw [congrFun hz' a]; simp) (V c main_call0_v17)
theorem iblk5_13 (c : Dev nD) (t : Fin cfg5.N) :
    (iblk5 (F := Ideal) V c 13 t : Vec Ideal S1x512 .f32) = (V c main_call0_v18 : Vec Ideal S1x512 .f32) := by
  obtain rfl : t = t5_0 := fin_N5 t
  unfold iblk5
  have hz' : (fun a => win5_13.index t5_0 a * main_call0_v18.ty.shape.size a) = fun _ => 0 :=
    funext fun a => by fin_cases a <;> first | decide | decide +kernel
  exact Memref.read_access_unit_zero (Elt Ideal) main_call0_v18 hz' (fun a => by rw [congrFun hz' a]; simp) (V c main_call0_v18)
theorem iblk5_14 (c : Dev nD) (t : Fin cfg5.N) :
    (iblk5 (F := Ideal) V c 14 t : Vec Ideal S1x512 .f32) = (V c main_call0_v19 : Vec Ideal S1x512 .f32) := by
  obtain rfl : t = t5_0 := fin_N5 t
  unfold iblk5
  have hz' : (fun a => win5_14.index t5_0 a * main_call0_v19.ty.shape.size a) = fun _ => 0 :=
    funext fun a => by fin_cases a <;> first | decide | decide +kernel
  exact Memref.read_access_unit_zero (Elt Ideal) main_call0_v19 hz' (fun a => by rw [congrFun hz' a]; simp) (V c main_call0_v19)

/-! ## The two write-backs and the arrays after the region -/

/-- What the one point writes back through output window 15: the root's hidden state. -/
theorem flushed5_15 (c : Dev nD) (t : Fin cfg5.N) :
    (dat5 (F := Ideal) V c).flushed 15 t = ((cfg5.win 15).blk t).view.read (Elt Ideal) ((rootOf V c).1 : Vec Ideal S1x512 .f32) := by
  obtain rfl : t = t5_0 := fin_N5 t
  show (cfg5.win 15).cut (grid5.coords t5_0) ((dat5 V c).after 15 t5_0) = _
  rw [after5_15, iblk5_0 V c, iblk5_1 V c, iblk5_2 V c, iblk5_3 V c, iblk5_4 V c, iblk5_5 V c, iblk5_6 V c, iblk5_7 V c, iblk5_8 V c, iblk5_9 V c, iblk5_10 V c, iblk5_11 V c, iblk5_12 V c, iblk5_13 V c, iblk5_14 V c, tail_h]
  have hz' : (fun a => win5_15.index t5_0 a * main_call0_v39_0.ty.shape.size a) = fun _ => 0 :=
    funext fun a => by fin_cases a <;> first | decide | decide +kernel
  exact (Memref.read_access_unit_zero (Elt Ideal) main_call0_v39_0 hz' (fun a => by rw [congrFun hz' a]; simp) _).symm

/-- The one point's block is the whole array. -/
theorem cover5_15' (c : Dev nD) (i : ((cfg5.win 15).arr.view.loc (c.tc : Thread nD τ)).2.ty.Idx) :
    ∃ t : Fin cfg5.N, (cfg5.win 15).flush t = true ∧ i ∈ ((cfg5.win 15).blk t).view.set := by
  refine ⟨t5_0, flush5_15 t5_0, ?_⟩
  show i ∈ ((View.whole main_call0_v39_0).slice (win5_15.rect t5_0)).set
  rw [View.set_slice_whole, Rect.mem_set_unit]
  intro a
  have h0 : (i 0 : Nat) < 1 := (i 0).isLt
  have h1 : (i 1 : Nat) < 512 := (i 1).isLt
  match a with
  | ⟨0, _⟩ =>
    show win5_15.index t5_0 0 * win5_15.size 0 ≤ (i 0 : Nat) ∧ (i 0 : Nat) < win5_15.index t5_0 0 * win5_15.size 0 + win5_15.xsize (grid5.coords t5_0) 0
    rw [show win5_15.index t5_0 0 * win5_15.size 0 = 0 from by decide +kernel, show win5_15.xsize (grid5.coords t5_0) 0 = 1 from by decide +kernel]; omega
  | ⟨1, _⟩ =>
    show win5_15.index t5_0 1 * win5_15.size 1 ≤ (i 1 : Nat) ∧ (i 1 : Nat) < win5_15.index t5_0 1 * win5_15.size 1 + win5_15.xsize (grid5.coords t5_0) 1
    rw [show win5_15.index t5_0 1 * win5_15.size 1 = 0 from by decide +kernel, show win5_15.xsize (grid5.coords t5_0) 1 = 512 from by decide +kernel]; omega

/-- What the one point writes back through output window 16: the root's cell state. -/
theorem flushed5_16 (c : Dev nD) (t : Fin cfg5.N) :
    (dat5 (F := Ideal) V c).flushed 16 t = ((cfg5.win 16).blk t).view.read (Elt Ideal) ((rootOf V c).2 : Vec Ideal S1x512 .f32) := by
  obtain rfl : t = t5_0 := fin_N5 t
  show (cfg5.win 16).cut (grid5.coords t5_0) ((dat5 V c).after 16 t5_0) = _
  rw [after5_16, iblk5_0 V c, iblk5_1 V c, iblk5_2 V c, iblk5_3 V c, iblk5_4 V c, iblk5_5 V c, iblk5_6 V c, iblk5_7 V c, iblk5_8 V c, iblk5_9 V c, iblk5_10 V c, iblk5_11 V c, iblk5_12 V c, iblk5_13 V c, iblk5_14 V c, tail_c]
  have hz' : (fun a => win5_16.index t5_0 a * main_call0_v39_1.ty.shape.size a) = fun _ => 0 :=
    funext fun a => by fin_cases a <;> first | decide | decide +kernel
  exact (Memref.read_access_unit_zero (Elt Ideal) main_call0_v39_1 hz' (fun a => by rw [congrFun hz' a]; simp) _).symm

/-- The one point's block is the whole array. -/
theorem cover5_16' (c : Dev nD) (i : ((cfg5.win 16).arr.view.loc (c.tc : Thread nD τ)).2.ty.Idx) :
    ∃ t : Fin cfg5.N, (cfg5.win 16).flush t = true ∧ i ∈ ((cfg5.win 16).blk t).view.set := by
  refine ⟨t5_0, flush5_16 t5_0, ?_⟩
  show i ∈ ((View.whole main_call0_v39_1).slice (win5_16.rect t5_0)).set
  rw [View.set_slice_whole, Rect.mem_set_unit]
  intro a
  have h0 : (i 0 : Nat) < 1 := (i 0).isLt
  have h1 : (i 1 : Nat) < 512 := (i 1).isLt
  match a with
  | ⟨0, _⟩ =>
    show win5_16.index t5_0 0 * win5_16.size 0 ≤ (i 0 : Nat) ∧ (i 0 : Nat) < win5_16.index t5_0 0 * win5_16.size 0 + win5_16.xsize (grid5.coords t5_0) 0
    rw [show win5_16.index t5_0 0 * win5_16.size 0 = 0 from by decide +kernel, show win5_16.xsize (grid5.coords t5_0) 0 = 1 from by decide +kernel]; omega
  | ⟨1, _⟩ =>
    show win5_16.index t5_0 1 * win5_16.size 1 ≤ (i 1 : Nat) ∧ (i 1 : Nat) < win5_16.index t5_0 1 * win5_16.size 1 + win5_16.xsize (grid5.coords t5_0) 1
    rw [show win5_16.index t5_0 1 * win5_16.size 1 = 0 from by decide +kernel, show win5_16.xsize (grid5.coords t5_0) 1 = 512 from by decide +kernel]; omega

/-- THE REGION: after it the two output arrays hold the root's hidden state and cell state. -/
theorem region5_out (c : Dev nD) :
    (dat5 (F := Ideal) V c).arrAt 15 cfg5.N = (TreeSpec.T0 (kpOf V c) (V c main_call0_v38) (V c main_call0_v37_0, V c main_call0_v37_1)).1
    ∧ (dat5 (F := Ideal) V c).arrAt 16 cfg5.N = (TreeSpec.T0 (kpOf V c) (V c main_call0_v38) (V c main_call0_v37_0, V c main_call0_v37_1)).2 :=
  ⟨(dat5 (F := Ideal) V c).arrAt_eq_of_cover 15 _ (fun t _ => flushed5_15 V c t) (cover5_15' c),
   (dat5 (F := Ideal) V c).arrAt_eq_of_cover 16 _ (fun t _ => flushed5_16 V c t) (cover5_16' c)⟩

end Cert.KTree

end
-- ==== Proof.KValue.lean ====
/-
  The idealized kernel's two results are the specification's root.

  Region by region: a region's two output arrays are the specification's level function of what the region finds in
  its entry buffers; those are the split weights of the launch memory, the level's rows of x, and the previous
  region's outputs laid n × 2 × 512, whose two halves are the left and the right children. So region 0 leaves level
  14, regions 1 … 4 the levels 13 … 10, and the last region, which computes ten levels in one body from level 10 and
  the first 1023 rows of x, leaves level 0: the root.
-/
import proofs.«132239_j37117107372689_2_alg».proof.Proof.KWalk
import proofs.«132239_j37117107372689_2_alg».proof.Proof.RegLeaf
import proofs.«132239_j37117107372689_2_alg».proof.Proof.RegInner1
import proofs.«132239_j37117107372689_2_alg».proof.Proof.RegInner2
import proofs.«132239_j37117107372689_2_alg».proof.Proof.RegInner3
import proofs.«132239_j37117107372689_2_alg».proof.Proof.RegInner4
import proofs.«132239_j37117107372689_2_alg».proof.Proof.TailOutB

set_option maxRecDepth 16384

noncomputable section

namespace Cert.KTree

open Idealize.ShloMosaic Idealize.ShloMosaic.TcCoe Idealize.SL.Sem
open Cert.KernelIdeal Cert.KernelIdeal.Gen Cert.KernelIdeal.GenP Cert.TreeSpec Cert.TreeLayout

variable (m : (ℓ : Loc nD τ sig) → Buf (Elt Ideal) ℓ) (ρ : Dev nD → PrngReg) (c : Dev nD)

/-- One inner level from its entry buffers: once the weights, the level's rows of x and the level below's (h, c)
    laid n × 2 × 512 are identified, the level function of the buffers is the level function of the specification's
    arguments, the two halves of the re-laid arrays being the left and the right children. -/
theorem inner_step (p p' : KParams) {n k : ℕ} (hk : k = 2 * n) (X X' : Mat n 512) (A B : Cube n) (P : Mat k 512 × Mat k 512)
    (hc : (⟨2, ![k, 512]⟩ : Shape).ShapeCasts ⟨3, ![n, 2, 512]⟩)
    (hp : p = p') (hX : X = X') (hA : A = shapeCast ⟨3, ![n, 2, 512]⟩ P.1 hc) (hB : B = shapeCast ⟨3, ![n, 2, 512]⟩ P.2 hc) :
    innerH p X (sel 0 A) (sel 1 A) (sel 0 B) (sel 1 B)
      = innerH p' X' (child 0 hk P.1) (child 1 hk P.1) (child 0 hk P.2) (child 1 hk P.2)
    ∧ innerC p X (sel 0 A) (sel 1 A) (sel 0 B) (sel 1 B)
      = innerC p' X' (child 0 hk P.1) (child 1 hk P.1) (child 0 hk P.2) (child 1 hk P.2) := by
  subst hp hX hA hB
  rw [sel_shapeCast 0 hk P.1 hc, sel_shapeCast 1 hk P.1 hc, sel_shapeCast 0 hk P.2 hc, sel_shapeCast 1 hk P.2 hc]
  exact ⟨rfl, rfl⟩

/-- The ten upper levels from their entry buffers, likewise. -/
theorem tail_step (p p' : KParams) (X X' : Mat 1023 512) (H H' C C' : Mat 1024 512)
    (hp : p = p') (hX : X = X') (hH : H = H') (hC : C = C') : T0 p X (H, C) = T0 p' X' (H', C') := by
  subst hp hX hH hC
  rfl

/-- Region 0 leaves level 14, the leaves. -/
theorem lvl14 : ((dat0 (V1 m ρ) c).arrAt 7 cfg0.N : Mat 16384 512) = (L14 (q m c) (xin m c)).1
    ∧ ((dat0 (V1 m ρ) c).arrAt 8 cfg0.N : Mat 16384 512) = (L14 (q m c) (xin m c)).2 := by
  have R := region0_out (V1 m ρ) c
  refine ⟨R.1.trans ?_, R.2.trans ?_⟩ <;>
  · rw [kp1 m ρ c, x0 m ρ c]
    rfl

/-- Region 1 leaves level 13. -/
theorem lvl13 : ((dat1 (V3 m ρ) c).arrAt 15 cfg1.N : Mat 8192 512) = (L13 (q m c) (xin m c)).1
    ∧ ((dat1 (V3 m ρ) c).arrAt 16 cfg1.N : Mat 8192 512) = (L13 (q m c) (xin m c)).2 := by
  have R := region1_out (V3 m ρ) c
  have S := inner_step (kpOf (V3 m ρ) c) (q m c) (by norm_num : 16384 = 2 * 8192) (V3 m ρ c main_call0_v22)
    (rows 8191 (by norm_num) (xin m c)) (V3 m ρ c main_call0_v23) (V3 m ρ c main_call0_v24) (L14 (q m c) (xin m c)) shapeCasts_S16384x512_S8192x2x512
    (kp3 m ρ c) (x1 m ρ c)
    ((h1 m ρ c).trans (congrArg (fun A => shapeCast _ A shapeCasts_S16384x512_S8192x2x512) (lvl14 m ρ c).1))
    ((c1 m ρ c).trans (congrArg (fun A => shapeCast _ A shapeCasts_S16384x512_S8192x2x512) (lvl14 m ρ c).2))
  exact ⟨R.1.trans S.1, R.2.trans S.2⟩

/-- Region 2 leaves level 12. -/
theorem lvl12 : ((dat2 (V5 m ρ) c).arrAt 15 cfg2.N : Mat 4096 512) = (L12 (q m c) (xin m c)).1
    ∧ ((dat2 (V5 m ρ) c).arrAt 16 cfg2.N : Mat 4096 512) = (L12 (q m c) (xin m c)).2 := by
  have R := region2_out (V5 m ρ) c
  have S := inner_step (kpOf (V5 m ρ) c) (q m c) (by norm_num : 8192 = 2 * 4096) (V5 m ρ c main_call0_v26)
    (rows 4095 (by norm_num) (xin m c)) (V5 m ρ c main_call0_v27) (V5 m ρ c main_call0_v28) (L13 (q m c) (xin m c)) shapeCasts_S8192x512_S4096x2x512
    (kp5 m ρ c) (x2 m ρ c)
    ((h2 m ρ c).trans (congrArg (fun A => shapeCast _ A shapeCasts_S8192x512_S4096x2x512) (lvl13 m ρ c).1))
    ((c2 m ρ c).trans (congrArg (fun A => shapeCast _ A shapeCasts_S8192x512_S4096x2x512) (lvl13 m ρ c).2))
  exact ⟨R.1.trans S.1, R.2.trans S.2⟩

/-- Region 3 leaves level 11. -/
theorem lvl11 : ((dat3 (V7 m ρ) c).arrAt 15 cfg3.N : Mat 2048 512) = (L11 (q m c) (xin m c)).1
    ∧ ((dat3 (V7 m ρ) c).arrAt 16 cfg3.N : Mat 2048 512) = (L11 (q m c) (xin m c)).2 := by
  have R := region3_out (V7 m ρ) c
  have S := inner_step (kpOf (V7 m ρ) c) (q m c) (by norm_num : 4096 = 2 * 2048) (V7 m ρ c main_call0_v30)
    (rows 2047 (by norm_num) (xin m c)) (V7 m ρ c main_call0_v31) (V7 m ρ c main_call0_v32) (L12 (q m c) (xin m c)) shapeCasts_S4096x512_S2048x2x512
    (kp7 m ρ c) (x3 m ρ c)
    ((h3 m ρ c).trans (congrArg (fun A => shapeCast _ A shapeCasts_S4096x512_S2048x2x512) (lvl12 m ρ c).1))
    ((c3 m ρ c).trans (congrArg (fun A => shapeCast _ A shapeCasts_S4096x512_S2048x2x512) (lvl12 m ρ c).2))
  exact ⟨R.1.trans S.1, R.2.trans S.2⟩

/-- Region 4 leaves level 10. -/
theorem lvl10 : ((dat4 (V9 m ρ) c).arrAt 15 cfg4.N : Mat 1024 512) = (L10 (q m c) (xin m c)).1
    ∧ ((dat4 (V9 m ρ) c).arrAt 16 cfg4.N : Mat 1024 512) = (L10 (q m c) (xin m c)).2 := by
  have R := region4_out (V9 m ρ) c
  have S := inner_step (kpOf (V9 m ρ) c) (q m c) (by norm_num : 2048 = 2 * 1024) (V9 m ρ c main_call0_v34)
    (rows 1023 (by norm_num) (xin m c)) (V9 m ρ c main_call0_v35) (V9 m ρ c main_call0_v36) (L11 (q m c) (xin m c)) shapeCasts_S2048x512_S1024x2x512
    (kp9 m ρ c) (x4 m ρ c)
    ((h4 m ρ c).trans (congrArg (fun A => shapeCast _ A shapeCasts_S2048x512_S1024x2x512) (lvl11 m ρ c).1))
    ((c4 m ρ c).trans (congrArg (fun A => shapeCast _ A shapeCasts_S2048x512_S1024x2x512) (lvl11 m ρ c).2))
  exact ⟨R.1.trans S.1, R.2.trans S.2⟩

/-- The last region leaves the root. -/
theorem lvl0 : ((dat5 (V11 m ρ) c).arrAt 15 cfg5.N : Mat 1 512) = (L0 (q m c) (xin m c)).1
    ∧ ((dat5 (V11 m ρ) c).arrAt 16 cfg5.N : Mat 1 512) = (L0 (q m c) (xin m c)).2 := by
  have R := region5_out (V11 m ρ) c
  have S := tail_step (kpOf (V11 m ρ) c) (q m c) (V11 m ρ c main_call0_v38) (rows 0 h1023 (xin m c))
    (V11 m ρ c main_call0_v37_0) (L10 (q m c) (xin m c)).1 (V11 m ρ c main_call0_v37_1) (L10 (q m c) (xin m c)).2
    (kp11 m ρ c) (x5 m ρ c) ((h5 m ρ c).trans (lvl10 m ρ c).1) ((c5 m ρ c).trans (lvl10 m ρ c).2)
  have E : T0 (q m c) (rows 0 h1023 (xin m c)) ((L10 (q m c) (xin m c)).1, (L10 (q m c) (xin m c)).2) = L0 (q m c) (xin m c) :=
    T0_eq _ _
  exact ⟨R.1.trans (congrArg Prod.fst (S.trans E)), R.2.trans (congrArg Prod.snd (S.trans E))⟩

/-- The first result is the root's hidden state. -/
theorem root_h : W13 m ρ c (Proc.devRef .tc main_v0_0) = rootH (q m c) (xin m c) := by
  rw [res_h m ρ c, (lvl0 m ρ c).1]
  exact vec_of_row _ _

/-- The second result is the root's cell state. -/
theorem root_c : W13 m ρ c (Proc.devRef .tc main_v0_1) = rootC (q m c) (xin m c) := by
  rw [res_c m ρ c, (lvl0 m ρ c).2]
  exact vec_of_row _ _

end Cert.KTree

end
-- ==== Proof.RefKp.lean ====
/-
  The node computation's weights as the reference's arguments give them: the four gates' [512, 1024] tables cut
  in the block that meets x and the block that meets h, and the four bias vectors as one-row tables.
-/
import proofs.«132239_j37117107372689_2_alg».proof.ReferenceIdeal
import proofs.«132239_j37117107372689_2_alg».proof.Proof.TreeSpec

noncomputable section

namespace Cert.RefTree

open Idealize.ShloMosaic Idealize.ShloMosaic.TcCoe Idealize.SL.Sem Cert.ReferenceIdeal

/-- The weights read off a valuation of the program's buffers. -/
abbrev kpV (V0 : Valuation τ sig (Elt Ideal)) : TreeSpec.KParams :=
  TreeSpec.split (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8))

/-- The weights read off a device's memory. -/
def kp (m : (ℓ : Loc nD τ sig) → Buf (Elt Ideal) ℓ) (c : Dev nD) : TreeSpec.KParams :=
  TreeSpec.split (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

end Cert.RefTree

end
-- ==== Proof.RefPointwise.lean ====
/-
  The pointwise host operations of the reference at the extended reals: the float word of 1, the host's
  sigmoid 1 / (1 + exp (-z)) as the logistic function entry by entry, and the host's tanh as the hyperbolic
  tangent entry by entry.
-/
import Idealize.ShloMosaic.PureOps.Ideal.Laws
import Idealize.ShloMosaic.Lib.ValueIdx
import Idealize.ShloMosaic.Lib.Pipeline.Value

noncomputable section

open scoped BigOperators

namespace Cert.RefTree

open Idealize.ShloMosaic Idealize.ShloMosaic.ValueIdx

/-- The f32 word 0x3F800000 is the number 1. -/
theorem one_word : Ideal.ofBits .f32 0x3F800000#32 = 1 := by
  simp [Ideal.ofBits, Ideal.ieee, -EReal.coe_mul]; norm_num

variable {s : Shape}

/-- The host's sigmoid, 1 / (1 + exp (-z)) with both ones the broadcast word of 1, is the logistic function at
    every entry. -/
theorem host_sigmoid_apply (hb : (⟨0, ![]⟩ : Shape).BroadcastsInDim s (![] : Fin 0 → Fin s.rank))
    (z : s.Idx → EReal) (i : s.Idx) :
    Host.divf (F := Ideal) (φ := .f32)
        (broadcastInDim s (![] : Fin 0 → Fin s.rank) hb (constant (F := Ideal) ⟨0, ![]⟩ .f32 0x3F800000#32))
        (addf (F := Ideal) (φ := .f32)
          (broadcastInDim s (![] : Fin 0 → Fin s.rank) hb (constant (F := Ideal) ⟨0, ![]⟩ .f32 0x3F800000#32))
          (Host.exp (F := Ideal) (φ := .f32) (Host.negf (F := Ideal) (φ := .f32) z))) i
      = Ideal.logistic (z i) := by
  show Ideal.div (Ideal.ofBits .f32 0x3F800000#32) (Ideal.ofBits .f32 0x3F800000#32 + Ideal.exp (-(z i))) = _
  rw [one_word]
  rfl

/-- The host's sigmoid as a whole array. -/
theorem host_sigmoid_eq (hb : (⟨0, ![]⟩ : Shape).BroadcastsInDim s (![] : Fin 0 → Fin s.rank))
    (z : s.Idx → EReal) :
    Host.divf (F := Ideal) (φ := .f32)
        (broadcastInDim s (![] : Fin 0 → Fin s.rank) hb (constant (F := Ideal) ⟨0, ![]⟩ .f32 0x3F800000#32))
        (addf (F := Ideal) (φ := .f32)
          (broadcastInDim s (![] : Fin 0 → Fin s.rank) hb (constant (F := Ideal) ⟨0, ![]⟩ .f32 0x3F800000#32))
          (Host.exp (F := Ideal) (φ := .f32) (Host.negf (F := Ideal) (φ := .f32) z)))
      = fun i => Ideal.logistic (z i) :=
  funext fun i => host_sigmoid_apply hb z i

/-- The host's tanh is the hyperbolic tangent at every entry. -/
theorem host_tanh_eq (z : s.Idx → EReal) :
    Host.tanh (F := Ideal) (φ := .f32) z = fun i => Ideal.tanh (z i) := rfl

end Cert.RefTree

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.LibSplitLinear.lean ====
/-
  The split linear layer is the linear layer of the joined input.

  A table of K1 + K2 columns is cut into its first K1 and its last K2 columns, x1 and x2, and a weight table W of
  K1 + K2 rows into its first K1 and its last K2 rows.  Then for every row p and column q

      (sum over c < K1 of x1 (p, c) * W (c, q)) + (sum over c < K2 of x2 (p, c) * W (K1 + c, q))
        = sum over c < K1 + K2 of (x1 joined with x2) (p, c) * W (c, q),

  because a finite sum over the first K1 + K2 naturals splits into the sum over the first K1 and the sum over the
  next K2; on the extended reals this is the algebra of a commutative additive monoid, no finiteness of the terms
  is asked.  The bias is the same number on both sides: a vector laid as a one-row table and read at row 0, against
  the same vector stretched first to one row and then to all rows.  The rectified layer takes the maximum with 0 on
  both sides.

  The small lemmas read one layout operation at one entry each; the two theorems at the end put them together as
  equalities of whole arrays.
-/
import proofs.«132239_j37117107372689_2_alg».proof.Proof.LibSplitLinearDef
import proofs.«132239_j37117107372689_2_alg».proof.Proof.LibTileMatmul
import proofs.«132239_j37117107372689_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SplitLinear

open Idealize.ShloMosaic Idealize.ShloMosaic.ValueIdx

variable {M K1 K2 K N : Nat} {α : Type}

/-- The first K1 rows of a table of K1 + K2 rows: row c of the block is row c of the table. -/
theorem slice_top_apply (W : (⟨2, ![K1 + K2, N]⟩ : Shape).Idx → α)
    (hs : (⟨2, ![K1 + K2, N]⟩ : Shape).Slices ![0, 0] ⟨2, ![K1, N]⟩) (c : Fin K1) (q : Fin N) :
    extractStridedSlice ⟨2, ![K1, N]⟩ ![0, 0] W hs (ix2 c q) = W (ix2 (Fin.castAdd K2 c) q) := by
  refine extractStridedSlice_apply _ W hs _ _ fun a => ?_
  match a with
  | ⟨0, _⟩ => show c.val = 0 + c.val; omega
  | ⟨1, _⟩ => show q.val = 0 + q.val; omega

/-- The last K2 rows of a table of K1 + K2 rows: row c of the block is row K1 + c of the table. -/
theorem slice_bot_apply (W : (⟨2, ![K1 + K2, N]⟩ : Shape).Idx → α)
    (hs : (⟨2, ![K1 + K2, N]⟩ : Shape).Slices ![K1, 0] ⟨2, ![K2, N]⟩) (c : Fin K2) (q : Fin N) :
    extractStridedSlice ⟨2, ![K2, N]⟩ ![K1, 0] W hs (ix2 c q) = W (ix2 (Fin.natAdd K1 c) q) := by
  refine extractStridedSlice_apply _ W hs _ _ fun a => ?_
  match a with
  | ⟨0, _⟩ => show K1 + c.val = K1 + c.val; rfl
  | ⟨1, _⟩ => show q.val = 0 + q.val; omega

/-- Two tables joined along their columns, read at one of the first K1 columns: the first table there. -/
theorem concat_left_apply (X1 : (⟨2, ![M, K1]⟩ : Shape).Idx → α) (X2 : (⟨2, ![M, K2]⟩ : Shape).Idx → α)
    (hc : Shape.Concatenates ([(⟨⟨2, ![M, K1]⟩, X1⟩ : (s : Shape) × (s.Idx → α)), ⟨⟨2, ![M, K2]⟩, X2⟩].map (·.1))
      ⟨2, ![M, K1 + K2]⟩ 1) (p : Fin M) (c : Fin K1) :
    concatenate ⟨2, ![M, K1 + K2]⟩ 1 [⟨⟨2, ![M, K1]⟩, X1⟩, ⟨⟨2, ![M, K2]⟩, X2⟩] hc (ix2 p (Fin.castAdd K2 c))
      = X1 (ix2 p c) := by
  refine concatenate_pair_apply_left (t := ⟨2, ![M, K1 + K2]⟩) (1 : Fin 2) X1 X2 hc _ rfl _ fun b => ?_
  match b with
  | ⟨0, _⟩ => rfl
  | ⟨1, _⟩ => rfl

/-- Two tables joined along their columns, read at one of the last K2 columns: the second table, K1 columns back. -/
theorem concat_right_apply (X1 : (⟨2, ![M, K1]⟩ : Shape).Idx → α) (X2 : (⟨2, ![M, K2]⟩ : Shape).Idx → α)
    (hc : Shape.Concatenates ([(⟨⟨2, ![M, K1]⟩, X1⟩ : (s : Shape) × (s.Idx → α)), ⟨⟨2, ![M, K2]⟩, X2⟩].map (·.1))
      ⟨2, ![M, K1 + K2]⟩ 1) (p : Fin M) (c : Fin K2) :
    concatenate ⟨2, ![M, K1 + K2]⟩ 1 [⟨⟨2, ![M, K1]⟩, X1⟩, ⟨⟨2, ![M, K2]⟩, X2⟩] hc (ix2 p (Fin.natAdd K1 c))
      = X2 (ix2 p c) := by
  refine concatenate_pair_apply_right (t := ⟨2, ![M, K1 + K2]⟩) (1 : Fin 2) X1 X2 hc _ rfl rfl _ (fun b hb => ?_) ?_
  · match b with
    | ⟨0, _⟩ => rfl
    | ⟨1, _⟩ => exact absurd rfl hb
  · show c.val + K1 = K1 + c.val
    omega

/-- A vector stretched to a one-row table and that row stretched to M rows reads, at (p, q), the vector's entry q. -/
theorem bias_bcast_apply (bias : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![M, N]⟩ ![0, 1]) (p : Fin M) (q : Fin N) :
    broadcastInDim ⟨2, ![M, N]⟩ ![0, 1] hb2 (broadcastInDim ⟨2, ![1, N]⟩ ![1] hb1 bias) (ix2 p q) = bias (ix1 q) := by
  refine (broadcastInDim_apply _ hb2 _ (ix2 p q) (ix2 (0 : Fin 1) q) fun a => ?_).trans
    (broadcastInDim_apply _ hb1 bias (ix2 (0 : Fin 1) q) (ix1 q) fun a => ?_)
  · match a with
    | ⟨0, _⟩ => exact (if_pos rfl).symm
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- The zero number stretched to a whole table reads 0 at every entry. -/
theorem zero_bcast_apply (hb0 : (⟨0, ![]⟩ : Shape).BroadcastsInDim ⟨2, ![M, N]⟩ ![]) (i : (⟨2, ![M, N]⟩ : Shape).Idx) :
    broadcastInDim ⟨2, ![M, N]⟩ ![] hb0 (constant (F := Ideal) ⟨0, ![]⟩ .f32 0x00000000#32) i = (0 : EReal) := by
  show Ideal.ofBits .f32 0x00000000#32 = 0
  exact Ideal.ofBits_zero_f32

/-- The split layer fed the two row blocks of one weight table, and the bias laid as a one-row table, is the
    product of the joined input with the whole table plus the bias stretched over all rows: entry (p, q) of both is
    (sum over c < K1 of x1 (p, c) * W (c, q)) + (sum over c < K2 of x2 (p, c) * W (K1 + c, q)) + bias q, the sum
    over K1 + K2 columns split at K1. -/
theorem lin_eq_host (hK : K1 + K2 = K)
    (X1 : (⟨2, ![M, K1]⟩ : Shape).Idx → EReal) (X2 : (⟨2, ![M, K2]⟩ : Shape).Idx → EReal)
    (W : (⟨2, ![K, N]⟩ : Shape).Idx → EReal) (bias : (⟨1, ![N]⟩ : Shape).Idx → EReal)
    (wd : DotDims.WF ⟨2, ![M, K]⟩ ⟨2, ![K, N]⟩ ⟨2, ![M, N]⟩ [1] [0] [0] [1] [] [])
    (hc : Shape.Concatenates ([(⟨⟨2, ![M, K1]⟩, X1⟩ : (s : Shape) × (s.Idx → EReal)), ⟨⟨2, ![M, K2]⟩, X2⟩].map (·.1))
      ⟨2, ![M, K]⟩ 1)
    (hs1 : (⟨2, ![K, N]⟩ : Shape).Slices ![0, 0] ⟨2, ![K1, N]⟩)
    (hs2 : (⟨2, ![K, N]⟩ : Shape).Slices ![K1, 0] ⟨2, ![K2, N]⟩)
    (hr : (⟨1, ![N]⟩ : Shape).ShapeCasts ⟨2, ![1, N]⟩)
    (hb1 : (⟨1, ![N]⟩ : Shape).BroadcastsInDim ⟨2, ![1, N]⟩ ![1])
    (hb2 : (⟨2, ![1, N]⟩ : Shape).BroadcastsInDim ⟨2, ![M, N]⟩ ![0, 1]) :
    lin X1 X2 (extractStridedSlice ⟨2, ![K1, N]⟩ ![0, 0] W hs1) (extractStridedSlice ⟨2, ![K2, N]⟩ ![K1, 0] W hs2)
        (shapeCast ⟨2, ![1, N]⟩ bias hr)
      = addf (F := Ideal) (φ := .f32)
          (Host.dotGeneral (F := Ideal) (φ₁ := .f32) (φ₂ := .f32) (TileMatmul.plainDims wd) none
            (concatenate ⟨2, ![M, K]⟩ 1 [⟨⟨2, ![M, K1]⟩, X1⟩, ⟨⟨2, ![M, K2]⟩, X2⟩] hc) W)
          (broadcastInDim ⟨2, ![M, N]⟩ ![0, 1] hb2 (broadcastInDim ⟨2, ![1, N]⟩ ![1] hb1 bias)) := by
  subst hK
  funext i
  obtain ⟨p, q, rfl⟩ : ∃ p q, i = ix2 p q := ⟨i 0, i 1, eq_ix2 i⟩
  refine (lin_apply _ _ _ _ _ p q).trans ?_
  refine Eq.trans ?_ (addf_apply _ _ _).symm
  refine congr (congrArg HAdd.hAdd ?_) ?_
  · refine Eq.trans ?_ (TileMatmul.dotGeneral_apply wd none _ W p q).symm
    refine Eq.trans ?_ (Fin.sum_univ_add _).symm
    refine congr (congrArg HAdd.hAdd ?_) ?_
    · refine Finset.sum_congr rfl fun c _ => ?_
      rw [slice_top_apply, concat_left_apply]
    · refine Finset.sum_congr rfl fun c _ => ?_
      rw [slice_bot_apply, concat_right_apply]
  · exact (LibRowBias.row_of_vec_apply bias hr q).trans (bias_bcast_apply bias hb1 hb2 p q).symm

/-- The rectified split layer, fed the same way, is the maximum of that product-plus-bias and the zero table. -/
theorem linRelu_eq_host (hK : K1 + K2 = K)
    (X1 : (⟨2, ![M, K1]⟩ : Shape).Idx → EReal) (X2 : (⟨2, ![M, K2]⟩ : Shape).Idx → EReal)
    (W : (⟨2, ![K, N]⟩ : Shape).Idx → EReal) (bias : (⟨1, ![N]⟩ : Shape).Idx → EReal)
    (wd : DotDims.WF ⟨2, ![M, K]⟩ ⟨2, ![K, N]⟩ ⟨2, ![M, N]⟩ [1] [0] [0] [1] [] [])
    (hc : Shape.Concatenates ([(⟨⟨2, ![M, K1]⟩, X1⟩ : (s : Shape) × (s.Idx → EReal)), ⟨⟨2, ![M, K2]⟩, X2⟩].map (·.1))
      ⟨2, ![M, K]⟩ 1)
    (hs1 : (⟨2, ![K, N]⟩ : Shape).Slices ![0, 0] ⟨2, ![K1, N]⟩)
    (hs2 : (⟨2, ![K, N]⟩ : Shape).Slices ![K1, 0] ⟨2, ![K2, N]⟩)
    (hr : (⟨1, ![N]⟩ : Shape).ShapeCasts ⟨2, ![1, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : (⟨0, ![]⟩ : Shape).BroadcastsInDim ⟨2, ![M, N]⟩ ![]) :
    linRelu X1 X2 (extractStridedSlice ⟨2, ![K1, N]⟩ ![0, 0] W hs1) (extractStridedSlice ⟨2, ![K2, N]⟩ ![K1, 0] W hs2)
        (shapeCast ⟨2, ![1, N]⟩ bias hr)
      = maximumf (F := Ideal) (φ := .f32)
          (addf (F := Ideal) (φ := .f32)
            (Host.dotGeneral (F := Ideal) (φ₁ := .f32) (φ₂ := .f32) (TileMatmul.plainDims wd) none
              (concatenate ⟨2, ![M, K]⟩ 1 [⟨⟨2, ![M, K1]⟩, X1⟩, ⟨⟨2, ![M, K2]⟩, X2⟩] hc) W)
            (broadcastInDim ⟨2, ![M, N]⟩ ![0, 1] hb2 (broadcastInDim ⟨2, ![1, N]⟩ ![1] hb1 bias)))
          (broadcastInDim ⟨2, ![M, N]⟩ ![] hb0 (constant (F := Ideal) ⟨0, ![]⟩ .f32 0x00000000#32)) := by
  funext i
  refine Eq.trans ?_ (maximumf_apply _ _ i).symm
  show max (lin X1 X2 _ _ _ i) 0 = _
  rw [zero_bcast_apply hb0 i, lin_eq_host hK X1 X2 W bias wd hc hs1 hs2 hr hb1 hb2]

end Cert.SplitLinear

end
-- ==== Proof.RefGate.lean ====
/-
  One gate of the reference, x·Wᵀ + b on the joined input [x, h], as the specification's split linear layer.

  The reference multiplies the joined table [x, h] (n rows, 512 + 512 columns) with the transpose of the gate's
  [512, 1024] weight table and adds the bias stretched over the rows.  Row c of the transposed table is column c
  of the weight table, so its first 512 rows are the block that meets x and its last 512 rows the block that
  meets h, both laid [input, output]; the sum over 1024 columns splits at 512.  At a leaf the h half is the zero
  table, whose products vanish.
-/
import proofs.«132239_j37117107372689_2_alg».proof.Proof.TreeSpec
import proofs.«132239_j37117107372689_2_alg».proof.Proof.LibSplitLinear
import Idealize.ShloMosaic.Lib.ValueLayout

noncomputable section

open scoped BigOperators

namespace Cert.RefTree

open Idealize.ShloMosaic Idealize.ShloMosaic.ValueIdx Cert.SplitLinear Cert.TreeSpec

variable {n : ℕ}

/-- The first 512 rows of the transposed weight table are the block that meets x. -/
theorem wx_eq (W : Mat 512 1024) (ht : (⟨2, ![512, 1024]⟩ : Shape).Transposes [1, 0] ⟨2, ![1024, 512]⟩)
    (hs1 : (⟨2, ![1024, 512]⟩ : Shape).Slices ![0, 0] ⟨2, ![512, 512]⟩) :
    extractStridedSlice ⟨2, ![512, 512]⟩ ![0, 0] (transpose ⟨2, ![1024, 512]⟩ [1, 0] W ht) hs1 = wx W := by
  funext i
  obtain ⟨c, q, rfl⟩ : ∃ c q, i = ix2 c q := ⟨i 0, i 1, eq_ix2 i⟩
  refine (slice_top_apply (K1 := 512) (K2 := 512) (N := 512) (transpose ⟨2, ![1024, 512]⟩ [1, 0] W ht) hs1 c q).trans ?_
  refine (transpose_ix2_apply W ht (Fin.castAdd 512 c) q).trans ?_
  rfl

/-- The last 512 rows of the transposed weight table are the block that meets h. -/
theorem wh_eq (W : Mat 512 1024) (ht : (⟨2, ![512, 1024]⟩ : Shape).Transposes [1, 0] ⟨2, ![1024, 512]⟩)
    (hs2 : (⟨2, ![1024, 512]⟩ : Shape).Slices ![512, 0] ⟨2, ![512, 512]⟩) :
    extractStridedSlice ⟨2, ![512, 512]⟩ ![512, 0] (transpose ⟨2, ![1024, 512]⟩ [1, 0] W ht) hs2 = wh W := by
  funext i
  obtain ⟨c, q, rfl⟩ : ∃ c q, i = ix2 c q := ⟨i 0, i 1, eq_ix2 i⟩
  refine (slice_bot_apply (K1 := 512) (K2 := 512) (N := 512) (transpose ⟨2, ![1024, 512]⟩ [1, 0] W ht) hs2 c q).trans ?_
  refine (transpose_ix2_apply W ht (Fin.natAdd 512 c) q).trans ?_
  rfl

/-- The bias vector laid as a one-row table. -/
theorem brow_eq (b : Row 512) (hr : (⟨1, ![512]⟩ : Shape).ShapeCasts ⟨2, ![1, 512]⟩) :
    shapeCast ⟨2, ![1, 512]⟩ b hr = brow b := by
  funext i
  obtain ⟨u, k, rfl⟩ : ∃ u k, i = ix2 u k := ⟨i 0, i 1, eq_ix2 i⟩
  exact LibRowBias.row_of_vec_apply_at b hr u k

/-- A gate of the reference on the joined input [X1, X2] is the split linear layer with the weight table's two
    blocks and the bias as a row. -/
theorem gate_eq (D : DotDims ⟨2, ![n, 1024]⟩ ⟨2, ![1024, 512]⟩ ⟨2, ![n, 512]⟩)
    (wd : DotDims.WF ⟨2, ![n, 1024]⟩ ⟨2, ![1024, 512]⟩ ⟨2, ![n, 512]⟩ [1] [0] [0] [1] [] [])
    (hD : D = TileMatmul.plainDims wd)
    (hc : Shape.Concatenates [(⟨2, ![n, 512]⟩ : Shape), ⟨2, ![n, 512]⟩] ⟨2, ![n, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (X1 X2 : Mat n 512) (W : Mat 512 1024) (b : Row 512) :
    (addf (F := Ideal) (φ := .f32) (Host.dotGeneral (F := Ideal) (φ₁ := .f32) (φ₂ := .f32) D none (concatenate ⟨2, ![n, 1024]⟩ 1 [⟨⟨2, ![n, 512]⟩, X1⟩, ⟨⟨2, ![n, 512]⟩, X2⟩] hc) (transpose ⟨2, ![1024, 512]⟩ [1, 0] W ht)) (broadcastInDim ⟨2, ![n, 512]⟩ ![0, 1] hb2 (broadcastInDim ⟨2, ![1, 512]⟩ ![1] hb1 b)))
      = lin X1 X2 (wx W) (wh W) (brow b) := by
  subst hD
  rw [← wx_eq W ht (by decide), ← wh_eq W ht (by decide), ← brow_eq b (by decide)]
  exact (lin_eq_host (K1 := 512) (K2 := 512) (K := 1024) rfl X1 X2 (transpose ⟨2, ![1024, 512]⟩ [1, 0] W ht) b wd hc
    _ _ _ hb1 hb2).symm

/-- A leaf's gate: the h half of the joined input is the zero table, so only the block that meets x is left. -/
theorem leaf_gate_eq (D : DotDims ⟨2, ![n, 1024]⟩ ⟨2, ![1024, 512]⟩ ⟨2, ![n, 512]⟩)
    (wd : DotDims.WF ⟨2, ![n, 1024]⟩ ⟨2, ![1024, 512]⟩ ⟨2, ![n, 512]⟩ [1] [0] [0] [1] [] [])
    (hD : D = TileMatmul.plainDims wd)
    (hc : Shape.Concatenates [(⟨2, ![n, 512]⟩ : Shape), ⟨2, ![n, 512]⟩] ⟨2, ![n, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (hz : (⟨0, ![]⟩ : Shape).BroadcastsInDim ⟨2, ![n, 512]⟩ (![] : Fin 0 → Fin 2))
    (X1 : Mat n 512) (W : Mat 512 1024) (b : Row 512) :
    (addf (F := Ideal) (φ := .f32) (Host.dotGeneral (F := Ideal) (φ₁ := .f32) (φ₂ := .f32) D none (concatenate ⟨2, ![n, 1024]⟩ 1 [⟨⟨2, ![n, 512]⟩, X1⟩, ⟨⟨2, ![n, 512]⟩, (broadcastInDim ⟨2, ![n, 512]⟩ (![] : Fin 0 → Fin 2) hz (constant (F := Ideal) ⟨0, ![]⟩ .f32 0x00000000#32))⟩] hc) (transpose ⟨2, ![1024, 512]⟩ [1, 0] W ht)) (broadcastInDim ⟨2, ![n, 512]⟩ ![0, 1] hb2 (broadcastInDim ⟨2, ![1, 512]⟩ ![1] hb1 b)))
      = linLeaf X1 (wx W) (brow b) := by
  rw [gate_eq D wd hD hc ht hb1 hb2 X1 _ W b]
  funext i
  have h0 : (∑ c : Fin 512, (broadcastInDim ⟨2, ![n, 512]⟩ (![] : Fin 0 → Fin 2) hz
      (constant (F := Ideal) ⟨0, ![]⟩ .f32 0x00000000#32)) (ix2 (i 0) c) * wh W (ix2 c (i 1))) = 0 :=
    Finset.sum_eq_zero fun c _ => by
      rw [zero_bcast_apply hz]
      exact zero_mul _
  show (∑ c : Fin 512, X1 (ix2 (i 0) c) * wx W (ix2 c (i 1)))
      + (∑ c : Fin 512, (broadcastInDim ⟨2, ![n, 512]⟩ (![] : Fin 0 → Fin 2) hz
          (constant (F := Ideal) ⟨0, ![]⟩ .f32 0x00000000#32)) (ix2 (i 0) c) * wh W (ix2 c (i 1)))
      + brow b (ix2 (0 : Fin 1) (i 1)) = _
  rw [h0, add_zero]
  rfl

end Cert.RefTree

end
-- ==== Proof.RefChild.lean ====
/-
  The layout steps of one level of the reference, read as the specification's rows and children.

  A level's inputs are n consecutive rows of x.  The level below, a table of m = 2n rows, is laid n × 2 × 512
  without moving an element, so entry (p, s, q) of the laid table is entry (2p + s, q) of the flat one; cutting
  the middle axis at s and dropping it leaves, at (p, q), the flat table's entry (2p + s, q): child s of node p.
-/
import proofs.«132239_j37117107372689_2_alg».proof.Proof.TreeSpec
import Idealize.ShloMosaic.Lib.Pipeline.Value
import Idealize.ShloMosaic.Lib.ValueLayout

noncomputable section

open scoped BigOperators

namespace Cert.RefTree

open Idealize.ShloMosaic Idealize.ShloMosaic.ValueIdx Cert.SplitLinear Cert.TreeSpec

variable {n m N : ℕ}

/-- The level's rows of x: n rows cut from row s on. -/
theorem rows_eq (s : ℕ) (hs' : s + n ≤ N) (X : Mat N 512)
    (hs : (⟨2, ![N, 512]⟩ : Shape).Slices ![s, 0] ⟨2, ![n, 512]⟩) :
    extractStridedSlice ⟨2, ![n, 512]⟩ ![s, 0] X hs = rows s hs' X := by
  funext i
  obtain ⟨p, q, rfl⟩ : ∃ p q, i = ix2 p q := ⟨i 0, i 1, eq_ix2 i⟩
  exact slice2_axis0_eq s X hs p q

/-- The level below laid n × 2 × 512, cut at position o = s of the middle axis and flattened: the children s. -/
theorem child_eq (s : Fin 2) (o : ℕ) (ho : o = s.val) (hm : m = 2 * n) (H : Mat m 512)
    (h1 : (⟨2, ![m, 512]⟩ : Shape).ShapeCasts ⟨3, ![n, 2, 512]⟩)
    (h2 : (⟨3, ![n, 2, 512]⟩ : Shape).Slices ![0, o, 0] ⟨3, ![n, 1, 512]⟩)
    (h3 : (⟨3, ![n, 1, 512]⟩ : Shape).ShapeCasts ⟨2, ![n, 512]⟩) :
    shapeCast ⟨2, ![n, 512]⟩
        (extractStridedSlice ⟨3, ![n, 1, 512]⟩ ![0, o, 0] (shapeCast ⟨3, ![n, 2, 512]⟩ H h1) h2) h3
      = child s hm H := by
  funext i
  obtain ⟨p, q, rfl⟩ : ∃ p q, i = ix2 p q := ⟨i 0, i 1, eq_ix2 i⟩
  refine (shapeCast_apply _ h3 (ix2 p q) (ix3 p (0 : Fin 1) q) ?_).trans ?_
  · rw [Shape.rowMajor_val_three, Shape.rowMajor_val_two]
    show (p.val * 1 + 0) * 512 + q.val = p.val * 512 + q.val
    omega
  refine (extractStridedSlice_apply _ _ h2 (ix3 p (0 : Fin 1) q) (ix3 p s q) fun a => ?_).trans ?_
  · match a with
    | ⟨0, _⟩ => show p.val = 0 + p.val; omega
    | ⟨1, _⟩ => show s.val = o + 0; omega
    | ⟨2, _⟩ => show q.val = 0 + q.val; omega
  have hlt : 2 * p.val + s.val < m := by have := p.isLt; have := s.isLt; omega
  refine (shapeCast_apply H h1 (ix3 p s q) (ix2 ⟨2 * p.val + s.val, hlt⟩ q) ?_).trans ?_
  · rw [Shape.rowMajor_val_three, Shape.rowMajor_val_two]
    show (2 * p.val + s.val) * 512 + q.val = (p.val * 2 + s.val) * 512 + q.val
    omega
  rfl

end Cert.RefTree

end
-- ==== Proof.RefCell.lean ====
/-
  One level of the reference as the specification's level.

  An inner level takes its n rows of x and the level below (2n rows of hidden and of cell states), picks the two
  children of every node, and computes the five gates, the cell state c = (i * u + f_l * c_l) + f_r * c_r and
  the hidden state h = o * tanh c, every gate a product of a joined table with a transposed weight table plus a
  bias, every sigmoid written 1 / (1 + exp (-z)).  Read entry by entry this is the specification's level; the
  leaf level is the same with the h half of the joined input zero and no forget gates.
-/
import proofs.«132239_j37117107372689_2_alg».proof.Proof.TreeSpec
import proofs.«132239_j37117107372689_2_alg».proof.Proof.RefPointwise
import proofs.«132239_j37117107372689_2_alg».proof.Proof.RefGate
import proofs.«132239_j37117107372689_2_alg».proof.Proof.RefChild

noncomputable section

open scoped BigOperators

namespace Cert.RefTree

open Idealize.ShloMosaic Idealize.ShloMosaic.ValueIdx Cert.SplitLinear Cert.TreeSpec

variable {n m N : ℕ}

set_option maxRecDepth 8192

/-- An inner level's cell states. -/
theorem inner_c (D : DotDims ⟨2, ![n, 1024]⟩ ⟨2, ![1024, 512]⟩ ⟨2, ![n, 512]⟩)
    (wd : DotDims.WF ⟨2, ![n, 1024]⟩ ⟨2, ![1024, 512]⟩ ⟨2, ![n, 512]⟩ [1] [0] [0] [1] [] [])
    (hD : D = TileMatmul.plainDims wd)
    (hc : Shape.Concatenates [(⟨2, ![n, 512]⟩ : Shape), ⟨2, ![n, 512]⟩] ⟨2, ![n, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (hb0 : (⟨0, ![]⟩ : Shape).BroadcastsInDim ⟨2, ![n, 512]⟩ (![] : Fin 0 → Fin 2))
    (s : ℕ) (hs' : s + n ≤ N) (X : Mat N 512)
    (hs : (⟨2, ![N, 512]⟩ : Shape).Slices ![s, 0] ⟨2, ![n, 512]⟩)
    (hm : m = 2 * n) (Hp Cp : Mat m 512)
    (h1 : (⟨2, ![m, 512]⟩ : Shape).ShapeCasts ⟨3, ![n, 2, 512]⟩)
    (h20 : (⟨3, ![n, 2, 512]⟩ : Shape).Slices ![0, 0, 0] ⟨3, ![n, 1, 512]⟩)
    (h21 : (⟨3, ![n, 2, 512]⟩ : Shape).Slices ![0, 1, 0] ⟨3, ![n, 1, 512]⟩)
    (h3 : (⟨3, ![n, 1, 512]⟩ : Shape).ShapeCasts ⟨2, ![n, 512]⟩)
    (Wi : Mat 512 1024) (bi : Row 512) (Wf : Mat 512 1024) (bf : Row 512) (Wo : Mat 512 1024) (bo : Row 512)
    (Wu : Mat 512 1024) (bu : Row 512) :
    (addf (F := Ideal) (φ := .f32) (addf (F := Ideal) (φ := .f32) (mulf (F := Ideal) (φ := .f32) (Host.divf (F := Ideal) (φ := .f32) (broadcastInDim ⟨2, ![n, 512]⟩ (![] : Fin 0 → Fin 2) hb0 (constant (F := Ideal) ⟨0, ![]⟩ .f32 0x3F800000#32)) (addf (F := Ideal) (φ := .f32) (broadcastInDim ⟨2, ![n, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (addf (F := Ideal) (φ := .f32) (shapeCast ⟨2, ![n, 512]⟩ (extractStridedSlice ⟨3, ![n, 1, 512]⟩ ![0, 0, 0] (shapeCast ⟨3, ![n, 2, 512]⟩ Hp h1) h20) h3) (shapeCast ⟨2, ![n, 512]⟩ (extractStridedSlice ⟨3, ![n, 1, 512]⟩ ![0, 1, 0] (shapeCast ⟨3, ![n, 2, 512]⟩ Hp h1) h21) h3))⟩] hc) (transpose ⟨2, ![1024, 512]⟩ [1, 0] Wi ht)) (broadcastInDim ⟨2, ![n, 512]⟩ ![0, 1] hb2 (broadcastInDim ⟨2, ![1, 512]⟩ ![1] hb1 bi))))))) (Host.tanh (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (addf (F := Ideal) (φ := .f32) (shapeCast ⟨2, ![n, 512]⟩ (extractStridedSlice ⟨3, ![n, 1, 512]⟩ ![0, 0, 0] (shapeCast ⟨3, ![n, 2, 512]⟩ Hp h1) h20) h3) (shapeCast ⟨2, ![n, 512]⟩ (extractStridedSlice ⟨3, ![n, 1, 512]⟩ ![0, 1, 0] (shapeCast ⟨3, ![n, 2, 512]⟩ Hp h1) h21) h3))⟩] hc) (transpose ⟨2, ![1024, 512]⟩ [1, 0] Wu ht)) (broadcastInDim ⟨2, ![n, 512]⟩ ![0, 1] hb2 (broadcastInDim ⟨2, ![1, 512]⟩ ![1] hb1 bu))))) (mulf (F := Ideal) (φ := .f32) (Host.divf (F := Ideal) (φ := .f32) (broadcastInDim ⟨2, ![n, 512]⟩ (![] : Fin 0 → Fin 2) hb0 (constant (F := Ideal) ⟨0, ![]⟩ .f32 0x3F800000#32)) (addf (F := Ideal) (φ := .f32) (broadcastInDim ⟨2, ![n, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (shapeCast ⟨2, ![n, 512]⟩ (extractStridedSlice ⟨3, ![n, 1, 512]⟩ ![0, 0, 0] (shapeCast ⟨3, ![n, 2, 512]⟩ Hp h1) h20) h3)⟩] hc) (transpose ⟨2, ![1024, 512]⟩ [1, 0] Wf ht)) (broadcastInDim ⟨2, ![n, 512]⟩ ![0, 1] hb2 (broadcastInDim ⟨2, ![1, 512]⟩ ![1] hb1 bf))))))) (shapeCast ⟨2, ![n, 512]⟩ (extractStridedSlice ⟨3, ![n, 1, 512]⟩ ![0, 0, 0] (shapeCast ⟨3, ![n, 2, 512]⟩ Cp h1) h20) h3))) (mulf (F := Ideal) (φ := .f32) (Host.divf (F := Ideal) (φ := .f32) (broadcastInDim ⟨2, ![n, 512]⟩ (![] : Fin 0 → Fin 2) hb0 (constant (F := Ideal) ⟨0, ![]⟩ .f32 0x3F800000#32)) (addf (F := Ideal) (φ := .f32) (broadcastInDim ⟨2, ![n, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (shapeCast ⟨2, ![n, 512]⟩ (extractStridedSlice ⟨3, ![n, 1, 512]⟩ ![0, 1, 0] (shapeCast ⟨3, ![n, 2, 512]⟩ Hp h1) h21) h3)⟩] hc) (transpose ⟨2, ![1024, 512]⟩ [1, 0] Wf ht)) (broadcastInDim ⟨2, ![n, 512]⟩ ![0, 1] hb2 (broadcastInDim ⟨2, ![1, 512]⟩ ![1] hb1 bf))))))) (shapeCast ⟨2, ![n, 512]⟩ (extractStridedSlice ⟨3, ![n, 1, 512]⟩ ![0, 1, 0] (shapeCast ⟨3, ![n, 2, 512]⟩ Cp h1) h21) h3)))
      = (level (split Wi bi Wf bf Wo bo Wu bu) hm s hs' X (Hp, Cp)).2 := by
  rw [rows_eq s hs' X hs, child_eq 0 0 rfl hm Hp h1 h20 h3, child_eq 1 1 rfl hm Hp h1 h21 h3,
    child_eq 0 0 rfl hm Cp h1 h20 h3, child_eq 1 1 rfl hm Cp h1 h21 h3]
  simp only [gate_eq D wd hD hc ht hb1 hb2, host_sigmoid_eq hb0, host_tanh_eq]
  rfl

/-- An inner level's hidden states, from its cell states. -/
theorem inner_h (D : DotDims ⟨2, ![n, 1024]⟩ ⟨2, ![1024, 512]⟩ ⟨2, ![n, 512]⟩)
    (wd : DotDims.WF ⟨2, ![n, 1024]⟩ ⟨2, ![1024, 512]⟩ ⟨2, ![n, 512]⟩ [1] [0] [0] [1] [] [])
    (hD : D = TileMatmul.plainDims wd)
    (hc : Shape.Concatenates [(⟨2, ![n, 512]⟩ : Shape), ⟨2, ![n, 512]⟩] ⟨2, ![n, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (hb0 : (⟨0, ![]⟩ : Shape).BroadcastsInDim ⟨2, ![n, 512]⟩ (![] : Fin 0 → Fin 2))
    (s : ℕ) (hs' : s + n ≤ N) (X : Mat N 512)
    (hs : (⟨2, ![N, 512]⟩ : Shape).Slices ![s, 0] ⟨2, ![n, 512]⟩)
    (hm : m = 2 * n) (Hp Cp : Mat m 512)
    (h1 : (⟨2, ![m, 512]⟩ : Shape).ShapeCasts ⟨3, ![n, 2, 512]⟩)
    (h20 : (⟨3, ![n, 2, 512]⟩ : Shape).Slices ![0, 0, 0] ⟨3, ![n, 1, 512]⟩)
    (h21 : (⟨3, ![n, 2, 512]⟩ : Shape).Slices ![0, 1, 0] ⟨3, ![n, 1, 512]⟩)
    (h3 : (⟨3, ![n, 1, 512]⟩ : Shape).ShapeCasts ⟨2, ![n, 512]⟩)
    (Wi : Mat 512 1024) (bi : Row 512) (Wf : Mat 512 1024) (bf : Row 512) (Wo : Mat 512 1024) (bo : Row 512)
    (Wu : Mat 512 1024) (bu : Row 512) :
    (mulf (F := Ideal) (φ := .f32) (Host.divf (F := Ideal) (φ := .f32) (broadcastInDim ⟨2, ![n, 512]⟩ (![] : Fin 0 → Fin 2) hb0 (constant (F := Ideal) ⟨0, ![]⟩ .f32 0x3F800000#32)) (addf (F := Ideal) (φ := .f32) (broadcastInDim ⟨2, ![n, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (addf (F := Ideal) (φ := .f32) (shapeCast ⟨2, ![n, 512]⟩ (extractStridedSlice ⟨3, ![n, 1, 512]⟩ ![0, 0, 0] (shapeCast ⟨3, ![n, 2, 512]⟩ Hp h1) h20) h3) (shapeCast ⟨2, ![n, 512]⟩ (extractStridedSlice ⟨3, ![n, 1, 512]⟩ ![0, 1, 0] (shapeCast ⟨3, ![n, 2, 512]⟩ Hp h1) h21) h3))⟩] hc) (transpose ⟨2, ![1024, 512]⟩ [1, 0] Wo ht)) (broadcastInDim ⟨2, ![n, 512]⟩ ![0, 1] hb2 (broadcastInDim ⟨2, ![1, 512]⟩ ![1] hb1 bo))))))) (Host.tanh (F := Ideal) (φ := .f32) (level (split Wi bi Wf bf Wo bo Wu bu) hm s hs' X (Hp, Cp)).2))
      = (level (split Wi bi Wf bf Wo bo Wu bu) hm s hs' X (Hp, Cp)).1 := by
  rw [rows_eq s hs' X hs, child_eq 0 0 rfl hm Hp h1 h20 h3, child_eq 1 1 rfl hm Hp h1 h21 h3]
  simp only [gate_eq D wd hD hc ht hb1 hb2, host_sigmoid_eq hb0, host_tanh_eq]
  rfl

/-- The leaf level's cell states. -/
theorem leaf_c (D : DotDims ⟨2, ![n, 1024]⟩ ⟨2, ![1024, 512]⟩ ⟨2, ![n, 512]⟩)
    (wd : DotDims.WF ⟨2, ![n, 1024]⟩ ⟨2, ![1024, 512]⟩ ⟨2, ![n, 512]⟩ [1] [0] [0] [1] [] [])
    (hD : D = TileMatmul.plainDims wd)
    (hc : Shape.Concatenates [(⟨2, ![n, 512]⟩ : Shape), ⟨2, ![n, 512]⟩] ⟨2, ![n, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (hb0 : (⟨0, ![]⟩ : Shape).BroadcastsInDim ⟨2, ![n, 512]⟩ (![] : Fin 0 → Fin 2))
    (s : ℕ) (hs' : s + n ≤ N) (X : Mat N 512)
    (hs : (⟨2, ![N, 512]⟩ : Shape).Slices ![s, 0] ⟨2, ![n, 512]⟩)
    (Wi : Mat 512 1024) (bi : Row 512) (Wf : Mat 512 1024) (bf : Row 512) (Wo : Mat 512 1024) (bo : Row 512)
    (Wu : Mat 512 1024) (bu : Row 512) :
    (mulf (F := Ideal) (φ := .f32) (Host.divf (F := Ideal) (φ := .f32) (broadcastInDim ⟨2, ![n, 512]⟩ (![] : Fin 0 → Fin 2) hb0 (constant (F := Ideal) ⟨0, ![]⟩ .f32 0x3F800000#32)) (addf (F := Ideal) (φ := .f32) (broadcastInDim ⟨2, ![n, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (broadcastInDim ⟨2, ![n, 512]⟩ (![] : Fin 0 → Fin 2) hb0 (constant (F := Ideal) ⟨0, ![]⟩ .f32 0x00000000#32))⟩] hc) (transpose ⟨2, ![1024, 512]⟩ [1, 0] Wi ht)) (broadcastInDim ⟨2, ![n, 512]⟩ ![0, 1] hb2 (broadcastInDim ⟨2, ![1, 512]⟩ ![1] hb1 bi))))))) (Host.tanh (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (broadcastInDim ⟨2, ![n, 512]⟩ (![] : Fin 0 → Fin 2) hb0 (constant (F := Ideal) ⟨0, ![]⟩ .f32 0x00000000#32))⟩] hc) (transpose ⟨2, ![1024, 512]⟩ [1, 0] Wu ht)) (broadcastInDim ⟨2, ![n, 512]⟩ ![0, 1] hb2 (broadcastInDim ⟨2, ![1, 512]⟩ ![1] hb1 bu)))))
      = (leaf (split Wi bi Wf bf Wo bo Wu bu) s hs' X).2 := by
  rw [rows_eq s hs' X hs]
  simp only [leaf_gate_eq D wd hD hc ht hb1 hb2 hb0, host_sigmoid_eq hb0, host_tanh_eq]
  rfl

/-- The leaf level's hidden states, from its cell states. -/
theorem leaf_h (D : DotDims ⟨2, ![n, 1024]⟩ ⟨2, ![1024, 512]⟩ ⟨2, ![n, 512]⟩)
    (wd : DotDims.WF ⟨2, ![n, 1024]⟩ ⟨2, ![1024, 512]⟩ ⟨2, ![n, 512]⟩ [1] [0] [0] [1] [] [])
    (hD : D = TileMatmul.plainDims wd)
    (hc : Shape.Concatenates [(⟨2, ![n, 512]⟩ : Shape), ⟨2, ![n, 512]⟩] ⟨2, ![n, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (hb0 : (⟨0, ![]⟩ : Shape).BroadcastsInDim ⟨2, ![n, 512]⟩ (![] : Fin 0 → Fin 2))
    (s : ℕ) (hs' : s + n ≤ N) (X : Mat N 512)
    (hs : (⟨2, ![N, 512]⟩ : Shape).Slices ![s, 0] ⟨2, ![n, 512]⟩)
    (Wi : Mat 512 1024) (bi : Row 512) (Wf : Mat 512 1024) (bf : Row 512) (Wo : Mat 512 1024) (bo : Row 512)
    (Wu : Mat 512 1024) (bu : Row 512) :
    (mulf (F := Ideal) (φ := .f32) (Host.divf (F := Ideal) (φ := .f32) (broadcastInDim ⟨2, ![n, 512]⟩ (![] : Fin 0 → Fin 2) hb0 (constant (F := Ideal) ⟨0, ![]⟩ .f32 0x3F800000#32)) (addf (F := Ideal) (φ := .f32) (broadcastInDim ⟨2, ![n, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![n, 1024]⟩ 1 [⟨⟨2, ![n, 512]⟩, (extractStridedSlice ⟨2, ![n, 512]⟩ ![s, 0] X hs)⟩, ⟨⟨2, ![n, 512]⟩, (broadcastInDim ⟨2, ![n, 512]⟩ (![] : Fin 0 → Fin 2) hb0 (constant (F := Ideal) ⟨0, ![]⟩ .f32 0x00000000#32))⟩] hc) (transpose ⟨2, ![1024, 512]⟩ [1, 0] Wo ht)) (broadcastInDim ⟨2, ![n, 512]⟩ ![0, 1] hb2 (broadcastInDim ⟨2, ![1, 512]⟩ ![1] hb1 bo))))))) (Host.tanh (F := Ideal) (φ := .f32) (leaf (split Wi bi Wf bf Wo bo Wu bu) s hs' X).2))
      = (leaf (split Wi bi Wf bf Wo bo Wu bu) s hs' X).1 := by
  rw [rows_eq s hs' X hs]
  simp only [leaf_gate_eq D wd hD hc ht hb1 hb2 hb0, host_sigmoid_eq hb0, host_tanh_eq]
  rfl

end Cert.RefTree

end
-- ==== Proof.LibScatterSet.lean ====
/-
  Reading a scatter whose body returns the update ("set") at one index of its result.

  A scatter walks over the update indices in row-major order; each one either lands on an index of the
  operand (its start, read off the scatter indices, plus its window coordinate) and overwrites the element
  there, or falls outside the operand and is dropped. For the body that returns the update, the element
  found at an index of the result is therefore

    * the operand's own element, when no update index lands there (a miss), and
    * the update of the LAST update index, in row-major order, that lands there (a hit) - in particular of
      the only one, when landing is injective.

  Both are instances of a statement about a left fold of "overwrite one place" steps over a list, proved
  first. The last theorem says when an update index lands on a given index of the operand, coordinate by
  coordinate, so that landing can be computed in a proof from the start and the window coordinate alone.
-/
import Idealize.ShloMosaic.PureOps
import Idealize.ShloMosaic.Lib.ValueIdx

namespace Cert.ScatterSet

open Idealize.ShloMosaic

section Fold

variable {ι κ α : Type}

/-- A left fold of steps none of which touches the place `i'` leaves the element at `i'` as it was:
    `land n` is the place step `n` writes (if any), and a step that does not write `i'` keeps it. -/
theorem foldl_miss (g : (κ → α) → ι → (κ → α)) (land : ι → Option κ) (i' : κ)
    (hmiss : ∀ r n, land n ≠ some i' → g r n i' = r i') :
    ∀ (l : List ι) (x : κ → α), (∀ n ∈ l, land n ≠ some i') → l.foldl g x i' = x i' := by
  intro l
  induction l with
  | nil => intro x _; rfl
  | cons n l ih =>
    intro x h
    rw [List.foldl_cons, ih (g x n) (fun m hm => h m (List.mem_cons_of_mem _ hm))]
    exact hmiss x n (h n (by simp))

/-- A left fold of overwriting steps, read at the place `i'`: if step `n` writes `val n` at `i'` and no
    step after it writes `i'`, the fold ends with `val n` there, whatever happened before. -/
theorem foldl_hit_last (g : (κ → α) → ι → (κ → α)) (land : ι → Option κ) (val : ι → α) (i' : κ)
    (hmiss : ∀ r n, land n ≠ some i' → g r n i' = r i')
    (hhit : ∀ r n, land n = some i' → g r n i' = val n)
    (l₁ l₂ : List ι) (n : ι) (x : κ → α) (hn : land n = some i')
    (hl : ∀ m ∈ l₂, land m ≠ some i') :
    (l₁ ++ n :: l₂).foldl g x i' = val n := by
  rw [List.foldl_append, List.foldl_cons, foldl_miss g land i' hmiss l₂ _ hl]
  exact hhit _ n hn

/-- The same over a list sorted by a relation `lt`: it is enough that no step `m` with `lt n m` writes
    the place `i'`. -/
theorem foldl_hit_of_pairwise (g : (κ → α) → ι → (κ → α)) (land : ι → Option κ) (val : ι → α) (i' : κ)
    (hmiss : ∀ r n, land n ≠ some i' → g r n i' = r i')
    (hhit : ∀ r n, land n = some i' → g r n i' = val n)
    (lt : ι → ι → Prop) (l : List ι) (hp : l.Pairwise lt) (n : ι) (hmem : n ∈ l) (x : κ → α)
    (hn : land n = some i') (hlater : ∀ m, lt n m → land m ≠ some i') :
    l.foldl g x i' = val n := by
  obtain ⟨l₁, l₂, rfl⟩ := List.append_of_mem hmem
  refine foldl_hit_last g land val i' hmiss hhit l₁ l₂ n x hn ?_
  intro m hm
  have h2 : (n :: l₂).Pairwise lt := (List.pairwise_append.1 hp).2.1
  exact hlater m ((List.pairwise_cons.1 h2).1 m hm)

end Fold

section Scatter

variable {s si u : Shape} {α : Type} {w : Nat}

/-- A MISS: an index of the operand on which no update index lands keeps the operand's element. -/
theorem scatter_set_miss (d : ScatterDims s si u) (x : s.Idx → α) (idx : IVec si w) (upd : u.Idx → α)
    (i' : s.Idx) (h : ∀ j, d.resultIdx? j idx ≠ some i') :
    Host.scatter d (fun _ b => b) x idx upd i' = x i' := by
  unfold Host.scatter
  refine foldl_miss _ (fun n => d.resultIdx? (u.rowMajor.symm n) idx) i' ?_ _ x (fun n _ => h _)
  intro r n hn
  dsimp only at hn ⊢
  generalize d.resultIdx? (u.rowMajor.symm n) idx = o at hn ⊢
  cases o with
  | none => rfl
  | some i =>
    have hne : i' ≠ i := fun e => hn (e ▸ rfl)
    dsimp only
    rw [if_neg hne]

/-- A HIT: if update index `j` lands on `i'` and no update index after `j` in row-major order does,
    the result holds `upd j` at `i'` (the later of two updates of one place wins). -/
theorem scatter_set_hit_last (d : ScatterDims s si u) (x : s.Idx → α) (idx : IVec si w) (upd : u.Idx → α)
    (i' : s.Idx) (j : u.Idx) (hj : d.resultIdx? j idx = some i')
    (hlater : ∀ j', u.rowMajor j < u.rowMajor j' → d.resultIdx? j' idx ≠ some i') :
    Host.scatter d (fun _ b => b) x idx upd i' = upd j := by
  unfold Host.scatter
  refine (foldl_hit_of_pairwise _ (fun n => d.resultIdx? (u.rowMajor.symm n) idx)
    (fun n => upd (u.rowMajor.symm n)) i' ?_ ?_ (· < ·) (List.finRange u.numel)
    (List.pairwise_lt_finRange _) (u.rowMajor j) (List.mem_finRange _) x ?_ ?_).trans ?_
  · intro r n hn
    dsimp only at hn ⊢
    generalize d.resultIdx? (u.rowMajor.symm n) idx = o at hn ⊢
    cases o with
    | none => rfl
    | some i =>
      have hne : i' ≠ i := fun e => hn (e ▸ rfl)
      dsimp only
      rw [if_neg hne]
  · intro r n hn
    dsimp only at hn ⊢
    rw [hn]
    dsimp only
    rw [if_pos rfl]
  · rw [Equiv.symm_apply_apply]
    exact hj
  · intro m hm
    refine hlater (u.rowMajor.symm m) ?_
    rw [Equiv.apply_symm_apply]
    exact hm
  · rw [Equiv.symm_apply_apply]

/-- A HIT when landing on `i'` is injective: the one update index that lands there supplies the element. -/
theorem scatter_set_hit (d : ScatterDims s si u) (x : s.Idx → α) (idx : IVec si w) (upd : u.Idx → α)
    (i' : s.Idx) (j : u.Idx) (hj : d.resultIdx? j idx = some i')
    (hinj : ∀ j', d.resultIdx? j' idx = some i' → j' = j) :
    Host.scatter d (fun _ b => b) x idx upd i' = upd j := by
  refine scatter_set_hit_last d x idx upd i' j hj ?_
  intro j' hlt hland
  rw [hinj j' hland] at hlt
  exact lt_irrefl _ hlt

/-- Where an update index lands, coordinate by coordinate: `j` lands on `i` exactly when on every axis
    the coordinate of `i` is the start of `j`'s window plus `j`'s window coordinate (both inside the
    operand then, because `i` is). -/
theorem resultIdx?_eq_some_iff (d : ScatterDims s si u) (j : u.Idx) (idx : IVec si w) (i : s.Idx) :
    d.resultIdx? j idx = some i ↔ ∀ a, ((i a).val : Int) = d.start j idx a + (d.window j a : Int) := by
  unfold ScatterDims.resultIdx?
  by_cases hc : ∀ a, 0 ≤ d.start j idx a + d.window j a ∧ d.start j idx a + d.window j a < s.size a
  · rw [dif_pos hc]
    constructor
    · intro h a
      have h1 := congrFun (Option.some.inj h) a
      have hv := congrArg Fin.val h1
      simp only at hv
      have := hc a
      omega
    · intro h
      congr 1
      funext a
      apply Fin.ext
      have := h a
      have := hc a
      simp only
      omega
  · rw [dif_neg hc]
    constructor
    · intro h; cases h
    · intro h
      exfalso
      apply hc
      intro a
      have := h a
      have := (i a).isLt
      omega

/-- No update index lands on `i` as soon as, for every update index, some coordinate of `i` differs from
    start plus window coordinate there. -/
theorem resultIdx?_ne_some (d : ScatterDims s si u) (j : u.Idx) (idx : IVec si w) (i : s.Idx) (a : Fin s.rank)
    (h : ((i a).val : Int) ≠ d.start j idx a + (d.window j a : Int)) : d.resultIdx? j idx ≠ some i :=
  fun e => h ((resultIdx?_eq_some_iff d j idx i).1 e a)

end Scatter

end Cert.ScatterSet
-- ==== Proof.RefScatter.lean ====
/-
  A slab written into a table of rows by the host's scatter with the "set" body, read back.

  The scatter takes one start row s (the same 32-bit word at every position of its index vector), a slab of n
  rows and 512 columns, and overwrites rows s .. s + n - 1 of an N-row table with the slab: update index (p, q)
  lands on row s + p, column q, and no other update index lands there.  So cutting rows s .. s + n - 1 out of the
  result gives the slab back, whatever the table held before.
-/
import proofs.«132239_j37117107372689_2_alg».proof.Proof.LibScatterSet
import Idealize.ShloMosaic.Lib.Pipeline.Value
import Idealize.ShloMosaic.Lib.ValueLayout

noncomputable section

namespace Cert.RefTree

open Idealize.ShloMosaic Idealize.ShloMosaic.ValueIdx

variable {N n : ℕ} {α : Type}

/-- The scatter's dimension numbers: the slab's two axes are window axes, the one index component is a row. -/
abbrev rowDims (w : ScatterDims.WF ⟨2, ![N, 512]⟩ ⟨1, ![1]⟩ ⟨2, ![n, 512]⟩ [0, 1] [] [0] 0) :
    ScatterDims ⟨2, ![N, 512]⟩ ⟨1, ![1]⟩ ⟨2, ![n, 512]⟩ := ⟨[0, 1], [], [0], 0, w⟩

/-- On the row axis the window starts at the index word read as a signed integer. -/
theorem rowDims_start0 (w : ScatterDims.WF ⟨2, ![N, 512]⟩ ⟨1, ![1]⟩ ⟨2, ![n, 512]⟩ [0, 1] [] [0] 0)
    (j : (⟨2, ![n, 512]⟩ : Shape).Idx) (idx : IVec ⟨1, ![1]⟩ 32) (s : Int) (hidx : ∀ k, (idx k).toInt = s) :
    (rowDims w).start j idx 0 = s := by
  unfold ScatterDims.start
  rw [dif_pos (show (0 : Fin 2) ∈ ([0] : List (Fin 2)) by decide)]
  exact hidx _

/-- On the column axis the window starts at 0. -/
theorem rowDims_start1 (w : ScatterDims.WF ⟨2, ![N, 512]⟩ ⟨1, ![1]⟩ ⟨2, ![n, 512]⟩ [0, 1] [] [0] 0)
    (j : (⟨2, ![n, 512]⟩ : Shape).Idx) (idx : IVec ⟨1, ![1]⟩ 32) :
    (rowDims w).start j idx 1 = 0 := by
  unfold ScatterDims.start
  rw [dif_neg (show (1 : Fin 2) ∉ ([0] : List (Fin 2)) by decide)]

/-- The window coordinate on the row axis is the update's row. -/
theorem rowDims_window0 (w : ScatterDims.WF ⟨2, ![N, 512]⟩ ⟨1, ![1]⟩ ⟨2, ![n, 512]⟩ [0, 1] [] [0] 0)
    (j : (⟨2, ![n, 512]⟩ : Shape).Idx) : (rowDims w).window j 0 = (j 0).val := by
  unfold ScatterDims.window
  have h : (0 : Fin 2) ∈ (rowDims w).sKept := by
    show (0 : Fin 2) ∈ (List.finRange 2).filter (· ∉ ([] : List (Fin 2)))
    decide
  exact (dif_pos h).trans rfl

/-- The window coordinate on the column axis is the update's column. -/
theorem rowDims_window1 (w : ScatterDims.WF ⟨2, ![N, 512]⟩ ⟨1, ![1]⟩ ⟨2, ![n, 512]⟩ [0, 1] [] [0] 0)
    (j : (⟨2, ![n, 512]⟩ : Shape).Idx) : (rowDims w).window j 1 = (j 1).val := by
  unfold ScatterDims.window
  have h : (1 : Fin 2) ∈ (rowDims w).sKept := by
    show (1 : Fin 2) ∈ (List.finRange 2).filter (· ∉ ([] : List (Fin 2)))
    decide
  exact (dif_pos h).trans rfl

/-- Where an update index lands: row start + its row, its own column. -/
theorem rowDims_lands (w : ScatterDims.WF ⟨2, ![N, 512]⟩ ⟨1, ![1]⟩ ⟨2, ![n, 512]⟩ [0, 1] [] [0] 0)
    (j : (⟨2, ![n, 512]⟩ : Shape).Idx) (idx : IVec ⟨1, ![1]⟩ 32) (s : ℕ) (hidx : ∀ k, (idx k).toInt = (s : Int))
    (i : (⟨2, ![N, 512]⟩ : Shape).Idx) :
    (rowDims w).resultIdx? j idx = some i ↔ (i 0).val = s + (j 0).val ∧ (i 1).val = (j 1).val := by
  rw [ScatterSet.resultIdx?_eq_some_iff]
  constructor
  · intro h
    have h0 := h 0
    have h1 := h 1
    rw [rowDims_start0 w j idx s hidx, rowDims_window0] at h0
    rw [rowDims_start1, rowDims_window1] at h1
    constructor <;> omega
  · intro h a
    match a with
    | ⟨0, _⟩ =>
      show (((i 0).val : ℕ) : Int) = (rowDims w).start j idx 0 + ((rowDims w).window j 0 : Int)
      rw [rowDims_start0 w j idx s hidx, rowDims_window0]
      omega
    | ⟨1, _⟩ =>
      show (((i 1).val : ℕ) : Int) = (rowDims w).start j idx 1 + ((rowDims w).window j 1 : Int)
      rw [rowDims_start1, rowDims_window1]
      omega

/-- Rows s .. s + n - 1 of the table after the slab is written at row s are the slab. -/
theorem scatter_set_slice (s : ℕ)
    (d : ScatterDims ⟨2, ![N, 512]⟩ ⟨1, ![1]⟩ ⟨2, ![n, 512]⟩)
    (w : ScatterDims.WF ⟨2, ![N, 512]⟩ ⟨1, ![1]⟩ ⟨2, ![n, 512]⟩ [0, 1] [] [0] 0) (hd : d = rowDims w)
    (carry : (⟨2, ![N, 512]⟩ : Shape).Idx → α) (idx : IVec ⟨1, ![1]⟩ 32) (hidx : ∀ k, (idx k).toInt = (s : Int))
    (upd : (⟨2, ![n, 512]⟩ : Shape).Idx → α)
    (hs : (⟨2, ![N, 512]⟩ : Shape).Slices ![s, 0] ⟨2, ![n, 512]⟩) :
    extractStridedSlice ⟨2, ![n, 512]⟩ ![s, 0] (Host.scatter d (fun _ b => b) carry idx upd) hs = upd := by
  subst hd
  funext i
  obtain ⟨p, q, rfl⟩ : ∃ p q, i = ix2 p q := ⟨i 0, i 1, eq_ix2 i⟩
  rw [slice2_axis0_eq s _ hs p q]
  refine ScatterSet.scatter_set_hit (rowDims w) carry idx upd _ (ix2 p q) ?_ ?_
  · rw [rowDims_lands w _ idx s hidx]
    exact ⟨rfl, rfl⟩
  · intro j' hj'
    rw [rowDims_lands w _ idx s hidx] at hj'
    obtain ⟨h0, h1⟩ := hj'
    funext a
    apply Fin.ext
    match a with
    | ⟨0, _⟩ =>
      have : s + p.val = s + (j' 0).val := h0
      show (j' 0).val = p.val
      omega
    | ⟨1, _⟩ =>
      have : q.val = (j' 1).val := h1
      show (j' 1).val = q.val
      omega

/-- The index vector the reference scatters with, one start word stretched to length 1, holds that word. -/
theorem start_word_apply (hb : (⟨0, ![]⟩ : Shape).BroadcastsInDim ⟨1, ![1]⟩ (![] : Fin 0 → Fin 1)) (v : BitVec 32)
    (k : (⟨1, ![1]⟩ : Shape).Idx) :
    broadcastInDim ⟨1, ![1]⟩ (![] : Fin 0 → Fin 1) hb (constantI ⟨0, ![]⟩ 32 v) k = v := rfl

end Cert.RefTree

end
-- ==== Proof.RefL14.lean ====
/-
  Level 14 of the tree in the reference: the 16384 leaves 16383 … 32766.  After the level's two writes the rows
  16383 … 32766 of the two tables of states hold the specification's leaf level.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level14 (V0 : Valuation τ sig (Elt Ideal)) :
    extractStridedSlice S16384x512 ![16383, 0] (ValueP.res_main_v37 V0) slices_S32767x512_S16384x512_16383_0 = (leaf (kpV V0) 16383 (by norm_num : 16383 + 16384 ≤ 32767) (V0 (Proc.devRef .tc main_arg0))).1
    ∧ extractStridedSlice S16384x512 ![16383, 0] (ValueP.res_main_v39 V0) slices_S32767x512_S16384x512_16383_0 = (leaf (kpV V0) 16383 (by norm_num : 16383 + 16384 ≤ 32767) (V0 (Proc.devRef .tc main_arg0))).2 := by
  have hc : ValueP.res_main_v33 V0 = (leaf (kpV V0) 16383 (by norm_num : 16383 + 16384 ≤ 32767) (V0 (Proc.devRef .tc main_arg0))).2 := by
    unfold ValueP.res_main_v33 ValueP.res_main_v4
    exact leaf_c (n := 16384) (N := 32767) dot_S16384x1024_S1024x512_S16384x512_1_0_0_1_n_n
      dot_S16384x1024_S1024x512_S16384x512_1_0_0_1_n_n_wf rfl concatenates_S16384x512_S16384x512_S16384x1024_d1
      transposes_S512x1024_S1024x512_1_0 bcast_S512_S1x512_1 bcast_S1x512_S16384x512_0_1 bcast_S_S16384x512
      16383 (by norm_num : 16383 + 16384 ≤ 32767) (V0 (Proc.devRef .tc main_arg0)) slices_S32767x512_S16384x512_16383_0
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v37
    refine Eq.trans (scatter_set_slice 16383 scatter_S32767x512_S1_S16384x512_01_n_0_0 scatter_S32767x512_S1_S16384x512_01_n_0_0_wf rfl _ _ (fun _ => ?_) _ slices_S32767x512_S16384x512_16383_0) ?_
    · rfl
    rw [hc]
    unfold ValueP.res_main_v4
    exact leaf_h (n := 16384) (N := 32767) dot_S16384x1024_S1024x512_S16384x512_1_0_0_1_n_n
      dot_S16384x1024_S1024x512_S16384x512_1_0_0_1_n_n_wf rfl concatenates_S16384x512_S16384x512_S16384x1024_d1
      transposes_S512x1024_S1024x512_1_0 bcast_S512_S1x512_1 bcast_S1x512_S16384x512_0_1 bcast_S_S16384x512
      16383 (by norm_num : 16383 + 16384 ≤ 32767) (V0 (Proc.devRef .tc main_arg0)) slices_S32767x512_S16384x512_16383_0
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v39
    refine Eq.trans (scatter_set_slice 16383 scatter_S32767x512_S1_S16384x512_01_n_0_0 scatter_S32767x512_S1_S16384x512_01_n_0_0_wf rfl _ _ (fun _ => ?_) _ slices_S32767x512_S16384x512_16383_0) hc
    rfl

end Cert.RefTree

end
-- ==== Proof.RefL13.lean ====
/-
  Level 13 of the tree in the reference: the 8192 nodes 8191 … 16382.  Whatever the two tables of states hold in the
  rows of level 14 (a pair P), after this level's two writes their rows 8191 … 16382 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level13 (V0 : Valuation τ sig (Elt Ideal)) (P : Mat 16384 512 × Mat 16384 512)
    (hH : extractStridedSlice S16384x512 ![16383, 0] (ValueP.res_main_v37 V0) slices_S32767x512_S16384x512_16383_0 = P.1)
    (hC : extractStridedSlice S16384x512 ![16383, 0] (ValueP.res_main_v39 V0) slices_S32767x512_S16384x512_16383_0 = P.2) :
    extractStridedSlice S8192x512 ![8191, 0] (ValueP.res_main_v115 V0) slices_S32767x512_S8192x512_8191_0 = (level (kpV V0) (by norm_num : 16384 = 2 * 8192) 8191 (by norm_num : 8191 + 8192 ≤ 32767) (V0 (Proc.devRef .tc main_arg0)) P).1
    ∧ extractStridedSlice S8192x512 ![8191, 0] (ValueP.res_main_v117 V0) slices_S32767x512_S8192x512_8191_0 = (level (kpV V0) (by norm_num : 16384 = 2 * 8192) 8191 (by norm_num : 8191 + 8192 ≤ 32767) (V0 (Proc.devRef .tc main_arg0)) P).2 := by
  have hc : ValueP.res_main_v111 V0 = (level (kpV V0) (by norm_num : 16384 = 2 * 8192) 8191 (by norm_num : 8191 + 8192 ≤ 32767) (V0 (Proc.devRef .tc main_arg0)) P).2 := by
    unfold ValueP.res_main_v111 ValueP.res_main_v50 ValueP.res_main_v46 ValueP.res_main_v48 ValueP.res_main_v42 ValueP.res_main_v44 ValueP.res_main_v40
    rw [hH, hC]
    exact inner_c (n := 8192) (m := 16384) (N := 32767) dot_S8192x1024_S1024x512_S8192x512_1_0_0_1_n_n
      dot_S8192x1024_S1024x512_S8192x512_1_0_0_1_n_n_wf rfl concatenates_S8192x512_S8192x512_S8192x1024_d1
      transposes_S512x1024_S1024x512_1_0 bcast_S512_S1x512_1 bcast_S1x512_S8192x512_0_1 bcast_S_S8192x512
      8191 (by norm_num : 8191 + 8192 ≤ 32767) (V0 (Proc.devRef .tc main_arg0)) slices_S32767x512_S8192x512_8191_0
      (by norm_num : 16384 = 2 * 8192) P.1 P.2 shapeCasts_S16384x512_S8192x2x512 slices_S8192x2x512_S8192x1x512_0_0_0 slices_S8192x2x512_S8192x1x512_0_1_0
      shapeCasts_S8192x1x512_S8192x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v115
    refine Eq.trans (scatter_set_slice 8191 scatter_S32767x512_S1_S8192x512_01_n_0_0 scatter_S32767x512_S1_S8192x512_01_n_0_0_wf rfl _ _ (fun _ => ?_) _ slices_S32767x512_S8192x512_8191_0) ?_
    · rfl
    rw [hc]
    unfold ValueP.res_main_v50 ValueP.res_main_v46 ValueP.res_main_v48 ValueP.res_main_v42 ValueP.res_main_v40
    rw [hH]
    exact inner_h (n := 8192) (m := 16384) (N := 32767) dot_S8192x1024_S1024x512_S8192x512_1_0_0_1_n_n
      dot_S8192x1024_S1024x512_S8192x512_1_0_0_1_n_n_wf rfl concatenates_S8192x512_S8192x512_S8192x1024_d1
      transposes_S512x1024_S1024x512_1_0 bcast_S512_S1x512_1 bcast_S1x512_S8192x512_0_1 bcast_S_S8192x512
      8191 (by norm_num : 8191 + 8192 ≤ 32767) (V0 (Proc.devRef .tc main_arg0)) slices_S32767x512_S8192x512_8191_0
      (by norm_num : 16384 = 2 * 8192) P.1 P.2 shapeCasts_S16384x512_S8192x2x512 slices_S8192x2x512_S8192x1x512_0_0_0 slices_S8192x2x512_S8192x1x512_0_1_0
      shapeCasts_S8192x1x512_S8192x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v117
    refine Eq.trans (scatter_set_slice 8191 scatter_S32767x512_S1_S8192x512_01_n_0_0 scatter_S32767x512_S1_S8192x512_01_n_0_0_wf rfl _ _ (fun _ => ?_) _ slices_S32767x512_S8192x512_8191_0) hc
    rfl

end Cert.RefTree

end
-- ==== Proof.RefL12.lean ====
/-
  Level 12 of the tree in the reference: the 4096 nodes 4095 … 8190.  Whatever the two tables of states hold in the
  rows of level 13 (a pair P), after this level's two writes their rows 4095 … 8190 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level12 (V0 : Valuation τ sig (Elt Ideal)) (P : Mat 8192 512 × Mat 8192 512)
    (hH : extractStridedSlice S8192x512 ![8191, 0] (ValueP.res_main_v115 V0) slices_S32767x512_S8192x512_8191_0 = P.1)
    (hC : extractStridedSlice S8192x512 ![8191, 0] (ValueP.res_main_v117 V0) slices_S32767x512_S8192x512_8191_0 = P.2) :
    extractStridedSlice S4096x512 ![4095, 0] (ValueP.res_main_v193 V0) slices_S32767x512_S4096x512_4095_0 = (level (kpV V0) (by norm_num : 8192 = 2 * 4096) 4095 (by norm_num : 4095 + 4096 ≤ 32767) (V0 (Proc.devRef .tc main_arg0)) P).1
    ∧ extractStridedSlice S4096x512 ![4095, 0] (ValueP.res_main_v195 V0) slices_S32767x512_S4096x512_4095_0 = (level (kpV V0) (by norm_num : 8192 = 2 * 4096) 4095 (by norm_num : 4095 + 4096 ≤ 32767) (V0 (Proc.devRef .tc main_arg0)) P).2 := by
  have hc : ValueP.res_main_v189 V0 = (level (kpV V0) (by norm_num : 8192 = 2 * 4096) 4095 (by norm_num : 4095 + 4096 ≤ 32767) (V0 (Proc.devRef .tc main_arg0)) P).2 := by
    unfold ValueP.res_main_v189 ValueP.res_main_v128 ValueP.res_main_v124 ValueP.res_main_v126 ValueP.res_main_v120 ValueP.res_main_v122 ValueP.res_main_v118
    rw [hH, hC]
    exact inner_c (n := 4096) (m := 8192) (N := 32767) dot_S4096x1024_S1024x512_S4096x512_1_0_0_1_n_n
      dot_S4096x1024_S1024x512_S4096x512_1_0_0_1_n_n_wf rfl concatenates_S4096x512_S4096x512_S4096x1024_d1
      transposes_S512x1024_S1024x512_1_0 bcast_S512_S1x512_1 bcast_S1x512_S4096x512_0_1 bcast_S_S4096x512
      4095 (by norm_num : 4095 + 4096 ≤ 32767) (V0 (Proc.devRef .tc main_arg0)) slices_S32767x512_S4096x512_4095_0
      (by norm_num : 8192 = 2 * 4096) P.1 P.2 shapeCasts_S8192x512_S4096x2x512 slices_S4096x2x512_S4096x1x512_0_0_0 slices_S4096x2x512_S4096x1x512_0_1_0
      shapeCasts_S4096x1x512_S4096x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v193
    refine Eq.trans (scatter_set_slice 4095 scatter_S32767x512_S1_S4096x512_01_n_0_0 scatter_S32767x512_S1_S4096x512_01_n_0_0_wf rfl _ _ (fun _ => ?_) _ slices_S32767x512_S4096x512_4095_0) ?_
    · rfl
    rw [hc]
    unfold ValueP.res_main_v128 ValueP.res_main_v124 ValueP.res_main_v126 ValueP.res_main_v120 ValueP.res_main_v118
    rw [hH]
    exact inner_h (n := 4096) (m := 8192) (N := 32767) dot_S4096x1024_S1024x512_S4096x512_1_0_0_1_n_n
      dot_S4096x1024_S1024x512_S4096x512_1_0_0_1_n_n_wf rfl concatenates_S4096x512_S4096x512_S4096x1024_d1
      transposes_S512x1024_S1024x512_1_0 bcast_S512_S1x512_1 bcast_S1x512_S4096x512_0_1 bcast_S_S4096x512
      4095 (by norm_num : 4095 + 4096 ≤ 32767) (V0 (Proc.devRef .tc main_arg0)) slices_S32767x512_S4096x512_4095_0
      (by norm_num : 8192 = 2 * 4096) P.1 P.2 shapeCasts_S8192x512_S4096x2x512 slices_S4096x2x512_S4096x1x512_0_0_0 slices_S4096x2x512_S4096x1x512_0_1_0
      shapeCasts_S4096x1x512_S4096x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v195
    refine Eq.trans (scatter_set_slice 4095 scatter_S32767x512_S1_S4096x512_01_n_0_0 scatter_S32767x512_S1_S4096x512_01_n_0_0_wf rfl _ _ (fun _ => ?_) _ slices_S32767x512_S4096x512_4095_0) hc
    rfl

end Cert.RefTree

end
-- ==== Proof.RefL11.lean ====
/-
  Level 11 of the tree in the reference: the 2048 nodes 2047 … 4094.  Whatever the two tables of states hold in the
  rows of level 12 (a pair P), after this level's two writes their rows 2047 … 4094 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level11 (V0 : Valuation τ sig (Elt Ideal)) (P : Mat 4096 512 × Mat 4096 512)
    (hH : extractStridedSlice S4096x512 ![4095, 0] (ValueP.res_main_v193 V0) slices_S32767x512_S4096x512_4095_0 = P.1)
    (hC : extractStridedSlice S4096x512 ![4095, 0] (ValueP.res_main_v195 V0) slices_S32767x512_S4096x512_4095_0 = P.2) :
    extractStridedSlice S2048x512 ![2047, 0] (ValueP.res_main_v271 V0) slices_S32767x512_S2048x512_2047_0 = (level (kpV V0) (by norm_num : 4096 = 2 * 2048) 2047 (by norm_num : 2047 + 2048 ≤ 32767) (V0 (Proc.devRef .tc main_arg0)) P).1
    ∧ extractStridedSlice S2048x512 ![2047, 0] (ValueP.res_main_v273 V0) slices_S32767x512_S2048x512_2047_0 = (level (kpV V0) (by norm_num : 4096 = 2 * 2048) 2047 (by norm_num : 2047 + 2048 ≤ 32767) (V0 (Proc.devRef .tc main_arg0)) P).2 := by
  have hc : ValueP.res_main_v267 V0 = (level (kpV V0) (by norm_num : 4096 = 2 * 2048) 2047 (by norm_num : 2047 + 2048 ≤ 32767) (V0 (Proc.devRef .tc main_arg0)) P).2 := by
    unfold ValueP.res_main_v267 ValueP.res_main_v206 ValueP.res_main_v202 ValueP.res_main_v204 ValueP.res_main_v198 ValueP.res_main_v200 ValueP.res_main_v196
    rw [hH, hC]
    exact inner_c (n := 2048) (m := 4096) (N := 32767) dot_S2048x1024_S1024x512_S2048x512_1_0_0_1_n_n
      dot_S2048x1024_S1024x512_S2048x512_1_0_0_1_n_n_wf rfl concatenates_S2048x512_S2048x512_S2048x1024_d1
      transposes_S512x1024_S1024x512_1_0 bcast_S512_S1x512_1 bcast_S1x512_S2048x512_0_1 bcast_S_S2048x512
      2047 (by norm_num : 2047 + 2048 ≤ 32767) (V0 (Proc.devRef .tc main_arg0)) slices_S32767x512_S2048x512_2047_0
      (by norm_num : 4096 = 2 * 2048) P.1 P.2 shapeCasts_S4096x512_S2048x2x512 slices_S2048x2x512_S2048x1x512_0_0_0 slices_S2048x2x512_S2048x1x512_0_1_0
      shapeCasts_S2048x1x512_S2048x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v271
    refine Eq.trans (scatter_set_slice 2047 scatter_S32767x512_S1_S2048x512_01_n_0_0 scatter_S32767x512_S1_S2048x512_01_n_0_0_wf rfl _ _ (fun _ => ?_) _ slices_S32767x512_S2048x512_2047_0) ?_
    · rfl
    rw [hc]
    unfold ValueP.res_main_v206 ValueP.res_main_v202 ValueP.res_main_v204 ValueP.res_main_v198 ValueP.res_main_v196
    rw [hH]
    exact inner_h (n := 2048) (m := 4096) (N := 32767) dot_S2048x1024_S1024x512_S2048x512_1_0_0_1_n_n
      dot_S2048x1024_S1024x512_S2048x512_1_0_0_1_n_n_wf rfl concatenates_S2048x512_S2048x512_S2048x1024_d1
      transposes_S512x1024_S1024x512_1_0 bcast_S512_S1x512_1 bcast_S1x512_S2048x512_0_1 bcast_S_S2048x512
      2047 (by norm_num : 2047 + 2048 ≤ 32767) (V0 (Proc.devRef .tc main_arg0)) slices_S32767x512_S2048x512_2047_0
      (by norm_num : 4096 = 2 * 2048) P.1 P.2 shapeCasts_S4096x512_S2048x2x512 slices_S2048x2x512_S2048x1x512_0_0_0 slices_S2048x2x512_S2048x1x512_0_1_0
      shapeCasts_S2048x1x512_S2048x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v273
    refine Eq.trans (scatter_set_slice 2047 scatter_S32767x512_S1_S2048x512_01_n_0_0 scatter_S32767x512_S1_S2048x512_01_n_0_0_wf rfl _ _ (fun _ => ?_) _ slices_S32767x512_S2048x512_2047_0) hc
    rfl

end Cert.RefTree

end
-- ==== Proof.RefL10.lean ====
/-
  Level 10 of the tree in the reference: the 1024 nodes 1023 … 2046.  Whatever the two tables of states hold in the
  rows of level 11 (a pair P), after this level's two writes their rows 1023 … 2046 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level10 (V0 : Valuation τ sig (Elt Ideal)) (P : Mat 2048 512 × Mat 2048 512)
    (hH : extractStridedSlice S2048x512 ![2047, 0] (ValueP.res_main_v271 V0) slices_S32767x512_S2048x512_2047_0 = P.1)
    (hC : extractStridedSlice S2048x512 ![2047, 0] (ValueP.res_main_v273 V0) slices_S32767x512_S2048x512_2047_0 = P.2) :
    extractStridedSlice S1024x512 ![1023, 0] (ValueP.res_main_v349 V0) slices_S32767x512_S1024x512_1023_0 = (level (kpV V0) (by norm_num : 2048 = 2 * 1024) 1023 (by norm_num : 1023 + 1024 ≤ 32767) (V0 (Proc.devRef .tc main_arg0)) P).1
    ∧ extractStridedSlice S1024x512 ![1023, 0] (ValueP.res_main_v351 V0) slices_S32767x512_S1024x512_1023_0 = (level (kpV V0) (by norm_num : 2048 = 2 * 1024) 1023 (by norm_num : 1023 + 1024 ≤ 32767) (V0 (Proc.devRef .tc main_arg0)) P).2 := by
  have hc : ValueP.res_main_v345 V0 = (level (kpV V0) (by norm_num : 2048 = 2 * 1024) 1023 (by norm_num : 1023 + 1024 ≤ 32767) (V0 (Proc.devRef .tc main_arg0)) P).2 := by
    unfold ValueP.res_main_v345 ValueP.res_main_v284 ValueP.res_main_v280 ValueP.res_main_v282 ValueP.res_main_v276 ValueP.res_main_v278 ValueP.res_main_v274
    rw [hH, hC]
    exact inner_c (n := 1024) (m := 2048) (N := 32767) dot_S1024x1024_S1024x512_S1024x512_1_0_0_1_n_n
      dot_S1024x1024_S1024x512_S1024x512_1_0_0_1_n_n_wf rfl concatenates_S1024x512_S1024x512_S1024x1024_d1
      transposes_S512x1024_S1024x512_1_0 bcast_S512_S1x512_1 bcast_S1x512_S1024x512_0_1 bcast_S_S1024x512
      1023 (by norm_num : 1023 + 1024 ≤ 32767) (V0 (Proc.devRef .tc main_arg0)) slices_S32767x512_S1024x512_1023_0
      (by norm_num : 2048 = 2 * 1024) P.1 P.2 shapeCasts_S2048x512_S1024x2x512 slices_S1024x2x512_S1024x1x512_0_0_0 slices_S1024x2x512_S1024x1x512_0_1_0
      shapeCasts_S1024x1x512_S1024x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v349
    refine Eq.trans (scatter_set_slice 1023 scatter_S32767x512_S1_S1024x512_01_n_0_0 scatter_S32767x512_S1_S1024x512_01_n_0_0_wf rfl _ _ (fun _ => ?_) _ slices_S32767x512_S1024x512_1023_0) ?_
    · rfl
    rw [hc]
    unfold ValueP.res_main_v284 ValueP.res_main_v280 ValueP.res_main_v282 ValueP.res_main_v276 ValueP.res_main_v274
    rw [hH]
    exact inner_h (n := 1024) (m := 2048) (N := 32767) dot_S1024x1024_S1024x512_S1024x512_1_0_0_1_n_n
      dot_S1024x1024_S1024x512_S1024x512_1_0_0_1_n_n_wf rfl concatenates_S1024x512_S1024x512_S1024x1024_d1
      transposes_S512x1024_S1024x512_1_0 bcast_S512_S1x512_1 bcast_S1x512_S1024x512_0_1 bcast_S_S1024x512
      1023 (by norm_num : 1023 + 1024 ≤ 32767) (V0 (Proc.devRef .tc main_arg0)) slices_S32767x512_S1024x512_1023_0
      (by norm_num : 2048 = 2 * 1024) P.1 P.2 shapeCasts_S2048x512_S1024x2x512 slices_S1024x2x512_S1024x1x512_0_0_0 slices_S1024x2x512_S1024x1x512_0_1_0
      shapeCasts_S1024x1x512_S1024x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v351
    refine Eq.trans (scatter_set_slice 1023 scatter_S32767x512_S1_S1024x512_01_n_0_0 scatter_S32767x512_S1_S1024x512_01_n_0_0_wf rfl _ _ (fun _ => ?_) _ slices_S32767x512_S1024x512_1023_0) hc
    rfl

end Cert.RefTree

end
-- ==== Proof.RefL9.lean ====
/-
  Level 9 of the tree in the reference: the 512 nodes 511 … 1022.  Whatever the two tables of states hold in the
  rows of level 10 (a pair P), after this level's two writes their rows 511 … 1022 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level9 (V0 : Valuation τ sig (Elt Ideal)) (P : Mat 1024 512 × Mat 1024 512)
    (hH : extractStridedSlice S1024x512 ![1023, 0] (ValueP.res_main_v349 V0) slices_S32767x512_S1024x512_1023_0 = P.1)
    (hC : extractStridedSlice S1024x512 ![1023, 0] (ValueP.res_main_v351 V0) slices_S32767x512_S1024x512_1023_0 = P.2) :
    extractStridedSlice S512x512 ![511, 0] (ValueP.res_main_v427 V0) slices_S32767x512_S512x512_511_0 = (level (kpV V0) (by norm_num : 1024 = 2 * 512) 511 (by norm_num : 511 + 512 ≤ 32767) (V0 (Proc.devRef .tc main_arg0)) P).1
    ∧ extractStridedSlice S512x512 ![511, 0] (ValueP.res_main_v429 V0) slices_S32767x512_S512x512_511_0 = (level (kpV V0) (by norm_num : 1024 = 2 * 512) 511 (by norm_num : 511 + 512 ≤ 32767) (V0 (Proc.devRef .tc main_arg0)) P).2 := by
  have hc : ValueP.res_main_v423 V0 = (level (kpV V0) (by norm_num : 1024 = 2 * 512) 511 (by norm_num : 511 + 512 ≤ 32767) (V0 (Proc.devRef .tc main_arg0)) P).2 := by
    unfold ValueP.res_main_v423 ValueP.res_main_v362 ValueP.res_main_v358 ValueP.res_main_v360 ValueP.res_main_v354 ValueP.res_main_v356 ValueP.res_main_v352
    rw [hH, hC]
    exact inner_c (n := 512) (m := 1024) (N := 32767) dot_S512x1024_S1024x512_S512x512_1_0_0_1_n_n
      dot_S512x1024_S1024x512_S512x512_1_0_0_1_n_n_wf rfl concatenates_S512x512_S512x512_S512x1024_d1
      transposes_S512x1024_S1024x512_1_0 bcast_S512_S1x512_1 bcast_S1x512_S512x512_0_1 bcast_S_S512x512
      511 (by norm_num : 511 + 512 ≤ 32767) (V0 (Proc.devRef .tc main_arg0)) slices_S32767x512_S512x512_511_0
      (by norm_num : 1024 = 2 * 512) P.1 P.2 shapeCasts_S1024x512_S512x2x512 slices_S512x2x512_S512x1x512_0_0_0 slices_S512x2x512_S512x1x512_0_1_0
      shapeCasts_S512x1x512_S512x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v427
    refine Eq.trans (scatter_set_slice 511 scatter_S32767x512_S1_S512x512_01_n_0_0 scatter_S32767x512_S1_S512x512_01_n_0_0_wf rfl _ _ (fun _ => ?_) _ slices_S32767x512_S512x512_511_0) ?_
    · rfl
    rw [hc]
    unfold ValueP.res_main_v362 ValueP.res_main_v358 ValueP.res_main_v360 ValueP.res_main_v354 ValueP.res_main_v352
    rw [hH]
    exact inner_h (n := 512) (m := 1024) (N := 32767) dot_S512x1024_S1024x512_S512x512_1_0_0_1_n_n
      dot_S512x1024_S1024x512_S512x512_1_0_0_1_n_n_wf rfl concatenates_S512x512_S512x512_S512x1024_d1
      transposes_S512x1024_S1024x512_1_0 bcast_S512_S1x512_1 bcast_S1x512_S512x512_0_1 bcast_S_S512x512
      511 (by norm_num : 511 + 512 ≤ 32767) (V0 (Proc.devRef .tc main_arg0)) slices_S32767x512_S512x512_511_0
      (by norm_num : 1024 = 2 * 512) P.1 P.2 shapeCasts_S1024x512_S512x2x512 slices_S512x2x512_S512x1x512_0_0_0 slices_S512x2x512_S512x1x512_0_1_0
      shapeCasts_S512x1x512_S512x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v429
    refine Eq.trans (scatter_set_slice 511 scatter_S32767x512_S1_S512x512_01_n_0_0 scatter_S32767x512_S1_S512x512_01_n_0_0_wf rfl _ _ (fun _ => ?_) _ slices_S32767x512_S512x512_511_0) hc
    rfl

end Cert.RefTree

end
-- ==== Proof.RefL8.lean ====
/-
  Level 8 of the tree in the reference: the 256 nodes 255 … 510.  Whatever the two tables of states hold in the
  rows of level 9 (a pair P), after this level's two writes their rows 255 … 510 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level8 (V0 : Valuation τ sig (Elt Ideal)) (P : Mat 512 512 × Mat 512 512)
    (hH : extractStridedSlice S512x512 ![511, 0] (ValueP.res_main_v427 V0) slices_S32767x512_S512x512_511_0 = P.1)
    (hC : extractStridedSlice S512x512 ![511, 0] (ValueP.res_main_v429 V0) slices_S32767x512_S512x512_511_0 = P.2) :
    extractStridedSlice S256x512 ![255, 0] (ValueP.res_main_v505 V0) slices_S32767x512_S256x512_255_0 = (level (kpV V0) (by norm_num : 512 = 2 * 256) 255 (by norm_num : 255 + 256 ≤ 32767) (V0 (Proc.devRef .tc main_arg0)) P).1
    ∧ extractStridedSlice S256x512 ![255, 0] (ValueP.res_main_v507 V0) slices_S32767x512_S256x512_255_0 = (level (kpV V0) (by norm_num : 512 = 2 * 256) 255 (by norm_num : 255 + 256 ≤ 32767) (V0 (Proc.devRef .tc main_arg0)) P).2 := by
  have hc : ValueP.res_main_v501 V0 = (level (kpV V0) (by norm_num : 512 = 2 * 256) 255 (by norm_num : 255 + 256 ≤ 32767) (V0 (Proc.devRef .tc main_arg0)) P).2 := by
    unfold ValueP.res_main_v501 ValueP.res_main_v440 ValueP.res_main_v436 ValueP.res_main_v438 ValueP.res_main_v432 ValueP.res_main_v434 ValueP.res_main_v430
    rw [hH, hC]
    exact inner_c (n := 256) (m := 512) (N := 32767) dot_S256x1024_S1024x512_S256x512_1_0_0_1_n_n
      dot_S256x1024_S1024x512_S256x512_1_0_0_1_n_n_wf rfl concatenates_S256x512_S256x512_S256x1024_d1
      transposes_S512x1024_S1024x512_1_0 bcast_S512_S1x512_1 bcast_S1x512_S256x512_0_1 bcast_S_S256x512
      255 (by norm_num : 255 + 256 ≤ 32767) (V0 (Proc.devRef .tc main_arg0)) slices_S32767x512_S256x512_255_0
      (by norm_num : 512 = 2 * 256) P.1 P.2 shapeCasts_S512x512_S256x2x512 slices_S256x2x512_S256x1x512_0_0_0 slices_S256x2x512_S256x1x512_0_1_0
      shapeCasts_S256x1x512_S256x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v505
    refine Eq.trans (scatter_set_slice 255 scatter_S32767x512_S1_S256x512_01_n_0_0 scatter_S32767x512_S1_S256x512_01_n_0_0_wf rfl _ _ (fun _ => ?_) _ slices_S32767x512_S256x512_255_0) ?_
    · rfl
    rw [hc]
    unfold ValueP.res_main_v440 ValueP.res_main_v436 ValueP.res_main_v438 ValueP.res_main_v432 ValueP.res_main_v430
    rw [hH]
    exact inner_h (n := 256) (m := 512) (N := 32767) dot_S256x1024_S1024x512_S256x512_1_0_0_1_n_n
      dot_S256x1024_S1024x512_S256x512_1_0_0_1_n_n_wf rfl concatenates_S256x512_S256x512_S256x1024_d1
      transposes_S512x1024_S1024x512_1_0 bcast_S512_S1x512_1 bcast_S1x512_S256x512_0_1 bcast_S_S256x512
      255 (by norm_num : 255 + 256 ≤ 32767) (V0 (Proc.devRef .tc main_arg0)) slices_S32767x512_S256x512_255_0
      (by norm_num : 512 = 2 * 256) P.1 P.2 shapeCasts_S512x512_S256x2x512 slices_S256x2x512_S256x1x512_0_0_0 slices_S256x2x512_S256x1x512_0_1_0
      shapeCasts_S256x1x512_S256x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v507
    refine Eq.trans (scatter_set_slice 255 scatter_S32767x512_S1_S256x512_01_n_0_0 scatter_S32767x512_S1_S256x512_01_n_0_0_wf rfl _ _ (fun _ => ?_) _ slices_S32767x512_S256x512_255_0) hc
    rfl

end Cert.RefTree

end
-- ==== Proof.RefL7.lean ====
/-
  Level 7 of the tree in the reference: the 128 nodes 127 … 254.  Whatever the two tables of states hold in the
  rows of level 8 (a pair P), after this level's two writes their rows 127 … 254 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level7 (V0 : Valuation τ sig (Elt Ideal)) (P : Mat 256 512 × Mat 256 512)
    (hH : extractStridedSlice S256x512 ![255, 0] (ValueP.res_main_v505 V0) slices_S32767x512_S256x512_255_0 = P.1)
    (hC : extractStridedSlice S256x512 ![255, 0] (ValueP.res_main_v507 V0) slices_S32767x512_S256x512_255_0 = P.2) :
    extractStridedSlice S128x512 ![127, 0] (ValueP.res_main_v583 V0) slices_S32767x512_S128x512_127_0 = (level (kpV V0) (by norm_num : 256 = 2 * 128) 127 (by norm_num : 127 + 128 ≤ 32767) (V0 (Proc.devRef .tc main_arg0)) P).1
    ∧ extractStridedSlice S128x512 ![127, 0] (ValueP.res_main_v585 V0) slices_S32767x512_S128x512_127_0 = (level (kpV V0) (by norm_num : 256 = 2 * 128) 127 (by norm_num : 127 + 128 ≤ 32767) (V0 (Proc.devRef .tc main_arg0)) P).2 := by
  have hc : ValueP.res_main_v579 V0 = (level (kpV V0) (by norm_num : 256 = 2 * 128) 127 (by norm_num : 127 + 128 ≤ 32767) (V0 (Proc.devRef .tc main_arg0)) P).2 := by
    unfold ValueP.res_main_v579 ValueP.res_main_v518 ValueP.res_main_v514 ValueP.res_main_v516 ValueP.res_main_v510 ValueP.res_main_v512 ValueP.res_main_v508
    rw [hH, hC]
    exact inner_c (n := 128) (m := 256) (N := 32767) dot_S128x1024_S1024x512_S128x512_1_0_0_1_n_n
      dot_S128x1024_S1024x512_S128x512_1_0_0_1_n_n_wf rfl concatenates_S128x512_S128x512_S128x1024_d1
      transposes_S512x1024_S1024x512_1_0 bcast_S512_S1x512_1 bcast_S1x512_S128x512_0_1 bcast_S_S128x512
      127 (by norm_num : 127 + 128 ≤ 32767) (V0 (Proc.devRef .tc main_arg0)) slices_S32767x512_S128x512_127_0
      (by norm_num : 256 = 2 * 128) P.1 P.2 shapeCasts_S256x512_S128x2x512 slices_S128x2x512_S128x1x512_0_0_0 slices_S128x2x512_S128x1x512_0_1_0
      shapeCasts_S128x1x512_S128x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v583
    refine Eq.trans (scatter_set_slice 127 scatter_S32767x512_S1_S128x512_01_n_0_0 scatter_S32767x512_S1_S128x512_01_n_0_0_wf rfl _ _ (fun _ => ?_) _ slices_S32767x512_S128x512_127_0) ?_
    · rfl
    rw [hc]
    unfold ValueP.res_main_v518 ValueP.res_main_v514 ValueP.res_main_v516 ValueP.res_main_v510 ValueP.res_main_v508
    rw [hH]
    exact inner_h (n := 128) (m := 256) (N := 32767) dot_S128x1024_S1024x512_S128x512_1_0_0_1_n_n
      dot_S128x1024_S1024x512_S128x512_1_0_0_1_n_n_wf rfl concatenates_S128x512_S128x512_S128x1024_d1
      transposes_S512x1024_S1024x512_1_0 bcast_S512_S1x512_1 bcast_S1x512_S128x512_0_1 bcast_S_S128x512
      127 (by norm_num : 127 + 128 ≤ 32767) (V0 (Proc.devRef .tc main_arg0)) slices_S32767x512_S128x512_127_0
      (by norm_num : 256 = 2 * 128) P.1 P.2 shapeCasts_S256x512_S128x2x512 slices_S128x2x512_S128x1x512_0_0_0 slices_S128x2x512_S128x1x512_0_1_0
      shapeCasts_S128x1x512_S128x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v585
    refine Eq.trans (scatter_set_slice 127 scatter_S32767x512_S1_S128x512_01_n_0_0 scatter_S32767x512_S1_S128x512_01_n_0_0_wf rfl _ _ (fun _ => ?_) _ slices_S32767x512_S128x512_127_0) hc
    rfl

end Cert.RefTree

end
-- ==== Proof.RefL6.lean ====
/-
  Level 6 of the tree in the reference: the 64 nodes 63 … 126.  Whatever the two tables of states hold in the
  rows of level 7 (a pair P), after this level's two writes their rows 63 … 126 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level6 (V0 : Valuation τ sig (Elt Ideal)) (P : Mat 128 512 × Mat 128 512)
    (hH : extractStridedSlice S128x512 ![127, 0] (ValueP.res_main_v583 V0) slices_S32767x512_S128x512_127_0 = P.1)
    (hC : extractStridedSlice S128x512 ![127, 0] (ValueP.res_main_v585 V0) slices_S32767x512_S128x512_127_0 = P.2) :
    extractStridedSlice S64x512 ![63, 0] (ValueP.res_main_v661 V0) slices_S32767x512_S64x512_63_0 = (level (kpV V0) (by norm_num : 128 = 2 * 64) 63 (by norm_num : 63 + 64 ≤ 32767) (V0 (Proc.devRef .tc main_arg0)) P).1
    ∧ extractStridedSlice S64x512 ![63, 0] (ValueP.res_main_v663 V0) slices_S32767x512_S64x512_63_0 = (level (kpV V0) (by norm_num : 128 = 2 * 64) 63 (by norm_num : 63 + 64 ≤ 32767) (V0 (Proc.devRef .tc main_arg0)) P).2 := by
  have hc : ValueP.res_main_v657 V0 = (level (kpV V0) (by norm_num : 128 = 2 * 64) 63 (by norm_num : 63 + 64 ≤ 32767) (V0 (Proc.devRef .tc main_arg0)) P).2 := by
    unfold ValueP.res_main_v657 ValueP.res_main_v596 ValueP.res_main_v592 ValueP.res_main_v594 ValueP.res_main_v588 ValueP.res_main_v590 ValueP.res_main_v586
    rw [hH, hC]
    exact inner_c (n := 64) (m := 128) (N := 32767) dot_S64x1024_S1024x512_S64x512_1_0_0_1_n_n
      dot_S64x1024_S1024x512_S64x512_1_0_0_1_n_n_wf rfl concatenates_S64x512_S64x512_S64x1024_d1
      transposes_S512x1024_S1024x512_1_0 bcast_S512_S1x512_1 bcast_S1x512_S64x512_0_1 bcast_S_S64x512
      63 (by norm_num : 63 + 64 ≤ 32767) (V0 (Proc.devRef .tc main_arg0)) slices_S32767x512_S64x512_63_0
      (by norm_num : 128 = 2 * 64) P.1 P.2 shapeCasts_S128x512_S64x2x512 slices_S64x2x512_S64x1x512_0_0_0 slices_S64x2x512_S64x1x512_0_1_0
      shapeCasts_S64x1x512_S64x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v661
    refine Eq.trans (scatter_set_slice 63 scatter_S32767x512_S1_S64x512_01_n_0_0 scatter_S32767x512_S1_S64x512_01_n_0_0_wf rfl _ _ (fun _ => ?_) _ slices_S32767x512_S64x512_63_0) ?_
    · rfl
    rw [hc]
    unfold ValueP.res_main_v596 ValueP.res_main_v592 ValueP.res_main_v594 ValueP.res_main_v588 ValueP.res_main_v586
    rw [hH]
    exact inner_h (n := 64) (m := 128) (N := 32767) dot_S64x1024_S1024x512_S64x512_1_0_0_1_n_n
      dot_S64x1024_S1024x512_S64x512_1_0_0_1_n_n_wf rfl concatenates_S64x512_S64x512_S64x1024_d1
      transposes_S512x1024_S1024x512_1_0 bcast_S512_S1x512_1 bcast_S1x512_S64x512_0_1 bcast_S_S64x512
      63 (by norm_num : 63 + 64 ≤ 32767) (V0 (Proc.devRef .tc main_arg0)) slices_S32767x512_S64x512_63_0
      (by norm_num : 128 = 2 * 64) P.1 P.2 shapeCasts_S128x512_S64x2x512 slices_S64x2x512_S64x1x512_0_0_0 slices_S64x2x512_S64x1x512_0_1_0
      shapeCasts_S64x1x512_S64x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v663
    refine Eq.trans (scatter_set_slice 63 scatter_S32767x512_S1_S64x512_01_n_0_0 scatter_S32767x512_S1_S64x512_01_n_0_0_wf rfl _ _ (fun _ => ?_) _ slices_S32767x512_S64x512_63_0) hc
    rfl

end Cert.RefTree

end
-- ==== Proof.RefL5.lean ====
/-
  Level 5 of the tree in the reference: the 32 nodes 31 … 62.  Whatever the two tables of states hold in the
  rows of level 6 (a pair P), after this level's two writes their rows 31 … 62 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level5 (V0 : Valuation τ sig (Elt Ideal)) (P : Mat 64 512 × Mat 64 512)
    (hH : extractStridedSlice S64x512 ![63, 0] (ValueP.res_main_v661 V0) slices_S32767x512_S64x512_63_0 = P.1)
    (hC : extractStridedSlice S64x512 ![63, 0] (ValueP.res_main_v663 V0) slices_S32767x512_S64x512_63_0 = P.2) :
    extractStridedSlice S32x512 ![31, 0] (ValueP.res_main_v739 V0) slices_S32767x512_S32x512_31_0 = (level (kpV V0) (by norm_num : 64 = 2 * 32) 31 (by norm_num : 31 + 32 ≤ 32767) (V0 (Proc.devRef .tc main_arg0)) P).1
    ∧ extractStridedSlice S32x512 ![31, 0] (ValueP.res_main_v741 V0) slices_S32767x512_S32x512_31_0 = (level (kpV V0) (by norm_num : 64 = 2 * 32) 31 (by norm_num : 31 + 32 ≤ 32767) (V0 (Proc.devRef .tc main_arg0)) P).2 := by
  have hc : ValueP.res_main_v735 V0 = (level (kpV V0) (by norm_num : 64 = 2 * 32) 31 (by norm_num : 31 + 32 ≤ 32767) (V0 (Proc.devRef .tc main_arg0)) P).2 := by
    unfold ValueP.res_main_v735 ValueP.res_main_v674 ValueP.res_main_v670 ValueP.res_main_v672 ValueP.res_main_v666 ValueP.res_main_v668 ValueP.res_main_v664
    rw [hH, hC]
    exact inner_c (n := 32) (m := 64) (N := 32767) dot_S32x1024_S1024x512_S32x512_1_0_0_1_n_n
      dot_S32x1024_S1024x512_S32x512_1_0_0_1_n_n_wf rfl concatenates_S32x512_S32x512_S32x1024_d1
      transposes_S512x1024_S1024x512_1_0 bcast_S512_S1x512_1 bcast_S1x512_S32x512_0_1 bcast_S_S32x512
      31 (by norm_num : 31 + 32 ≤ 32767) (V0 (Proc.devRef .tc main_arg0)) slices_S32767x512_S32x512_31_0
      (by norm_num : 64 = 2 * 32) P.1 P.2 shapeCasts_S64x512_S32x2x512 slices_S32x2x512_S32x1x512_0_0_0 slices_S32x2x512_S32x1x512_0_1_0
      shapeCasts_S32x1x512_S32x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v739
    refine Eq.trans (scatter_set_slice 31 scatter_S32767x512_S1_S32x512_01_n_0_0 scatter_S32767x512_S1_S32x512_01_n_0_0_wf rfl _ _ (fun _ => ?_) _ slices_S32767x512_S32x512_31_0) ?_
    · rfl
    rw [hc]
    unfold ValueP.res_main_v674 ValueP.res_main_v670 ValueP.res_main_v672 ValueP.res_main_v666 ValueP.res_main_v664
    rw [hH]
    exact inner_h (n := 32) (m := 64) (N := 32767) dot_S32x1024_S1024x512_S32x512_1_0_0_1_n_n
      dot_S32x1024_S1024x512_S32x512_1_0_0_1_n_n_wf rfl concatenates_S32x512_S32x512_S32x1024_d1
      transposes_S512x1024_S1024x512_1_0 bcast_S512_S1x512_1 bcast_S1x512_S32x512_0_1 bcast_S_S32x512
      31 (by norm_num : 31 + 32 ≤ 32767) (V0 (Proc.devRef .tc main_arg0)) slices_S32767x512_S32x512_31_0
      (by norm_num : 64 = 2 * 32) P.1 P.2 shapeCasts_S64x512_S32x2x512 slices_S32x2x512_S32x1x512_0_0_0 slices_S32x2x512_S32x1x512_0_1_0
      shapeCasts_S32x1x512_S32x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v741
    refine Eq.trans (scatter_set_slice 31 scatter_S32767x512_S1_S32x512_01_n_0_0 scatter_S32767x512_S1_S32x512_01_n_0_0_wf rfl _ _ (fun _ => ?_) _ slices_S32767x512_S32x512_31_0) hc
    rfl

end Cert.RefTree

end
-- ==== Proof.RefL4.lean ====
/-
  Level 4 of the tree in the reference: the 16 nodes 15 … 30.  Whatever the two tables of states hold in the
  rows of level 5 (a pair P), after this level's two writes their rows 15 … 30 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level4 (V0 : Valuation τ sig (Elt Ideal)) (P : Mat 32 512 × Mat 32 512)
    (hH : extractStridedSlice S32x512 ![31, 0] (ValueP.res_main_v739 V0) slices_S32767x512_S32x512_31_0 = P.1)
    (hC : extractStridedSlice S32x512 ![31, 0] (ValueP.res_main_v741 V0) slices_S32767x512_S32x512_31_0 = P.2) :
    extractStridedSlice S16x512 ![15, 0] (ValueP.res_main_v817 V0) slices_S32767x512_S16x512_15_0 = (level (kpV V0) (by norm_num : 32 = 2 * 16) 15 (by norm_num : 15 + 16 ≤ 32767) (V0 (Proc.devRef .tc main_arg0)) P).1
    ∧ extractStridedSlice S16x512 ![15, 0] (ValueP.res_main_v819 V0) slices_S32767x512_S16x512_15_0 = (level (kpV V0) (by norm_num : 32 = 2 * 16) 15 (by norm_num : 15 + 16 ≤ 32767) (V0 (Proc.devRef .tc main_arg0)) P).2 := by
  have hc : ValueP.res_main_v813 V0 = (level (kpV V0) (by norm_num : 32 = 2 * 16) 15 (by norm_num : 15 + 16 ≤ 32767) (V0 (Proc.devRef .tc main_arg0)) P).2 := by
    unfold ValueP.res_main_v813 ValueP.res_main_v752 ValueP.res_main_v748 ValueP.res_main_v750 ValueP.res_main_v744 ValueP.res_main_v746 ValueP.res_main_v742
    rw [hH, hC]
    exact inner_c (n := 16) (m := 32) (N := 32767) dot_S16x1024_S1024x512_S16x512_1_0_0_1_n_n
      dot_S16x1024_S1024x512_S16x512_1_0_0_1_n_n_wf rfl concatenates_S16x512_S16x512_S16x1024_d1
      transposes_S512x1024_S1024x512_1_0 bcast_S512_S1x512_1 bcast_S1x512_S16x512_0_1 bcast_S_S16x512
      15 (by norm_num : 15 + 16 ≤ 32767) (V0 (Proc.devRef .tc main_arg0)) slices_S32767x512_S16x512_15_0
      (by norm_num : 32 = 2 * 16) P.1 P.2 shapeCasts_S32x512_S16x2x512 slices_S16x2x512_S16x1x512_0_0_0 slices_S16x2x512_S16x1x512_0_1_0
      shapeCasts_S16x1x512_S16x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v817
    refine Eq.trans (scatter_set_slice 15 scatter_S32767x512_S1_S16x512_01_n_0_0 scatter_S32767x512_S1_S16x512_01_n_0_0_wf rfl _ _ (fun _ => ?_) _ slices_S32767x512_S16x512_15_0) ?_
    · rfl
    rw [hc]
    unfold ValueP.res_main_v752 ValueP.res_main_v748 ValueP.res_main_v750 ValueP.res_main_v744 ValueP.res_main_v742
    rw [hH]
    exact inner_h (n := 16) (m := 32) (N := 32767) dot_S16x1024_S1024x512_S16x512_1_0_0_1_n_n
      dot_S16x1024_S1024x512_S16x512_1_0_0_1_n_n_wf rfl concatenates_S16x512_S16x512_S16x1024_d1
      transposes_S512x1024_S1024x512_1_0 bcast_S512_S1x512_1 bcast_S1x512_S16x512_0_1 bcast_S_S16x512
      15 (by norm_num : 15 + 16 ≤ 32767) (V0 (Proc.devRef .tc main_arg0)) slices_S32767x512_S16x512_15_0
      (by norm_num : 32 = 2 * 16) P.1 P.2 shapeCasts_S32x512_S16x2x512 slices_S16x2x512_S16x1x512_0_0_0 slices_S16x2x512_S16x1x512_0_1_0
      shapeCasts_S16x1x512_S16x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v819
    refine Eq.trans (scatter_set_slice 15 scatter_S32767x512_S1_S16x512_01_n_0_0 scatter_S32767x512_S1_S16x512_01_n_0_0_wf rfl _ _ (fun _ => ?_) _ slices_S32767x512_S16x512_15_0) hc
    rfl

end Cert.RefTree

end
-- ==== Proof.RefL3.lean ====
/-
  Level 3 of the tree in the reference: the 8 nodes 7 … 14.  Whatever the two tables of states hold in the
  rows of level 4 (a pair P), after this level's two writes their rows 7 … 14 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level3 (V0 : Valuation τ sig (Elt Ideal)) (P : Mat 16 512 × Mat 16 512)
    (hH : extractStridedSlice S16x512 ![15, 0] (ValueP.res_main_v817 V0) slices_S32767x512_S16x512_15_0 = P.1)
    (hC : extractStridedSlice S16x512 ![15, 0] (ValueP.res_main_v819 V0) slices_S32767x512_S16x512_15_0 = P.2) :
    extractStridedSlice S8x512 ![7, 0] (ValueP.res_main_v895 V0) slices_S32767x512_S8x512_7_0 = (level (kpV V0) (by norm_num : 16 = 2 * 8) 7 (by norm_num : 7 + 8 ≤ 32767) (V0 (Proc.devRef .tc main_arg0)) P).1
    ∧ extractStridedSlice S8x512 ![7, 0] (ValueP.res_main_v897 V0) slices_S32767x512_S8x512_7_0 = (level (kpV V0) (by norm_num : 16 = 2 * 8) 7 (by norm_num : 7 + 8 ≤ 32767) (V0 (Proc.devRef .tc main_arg0)) P).2 := by
  have hc : ValueP.res_main_v891 V0 = (level (kpV V0) (by norm_num : 16 = 2 * 8) 7 (by norm_num : 7 + 8 ≤ 32767) (V0 (Proc.devRef .tc main_arg0)) P).2 := by
    unfold ValueP.res_main_v891 ValueP.res_main_v830 ValueP.res_main_v826 ValueP.res_main_v828 ValueP.res_main_v822 ValueP.res_main_v824 ValueP.res_main_v820
    rw [hH, hC]
    exact inner_c (n := 8) (m := 16) (N := 32767) dot_S8x1024_S1024x512_S8x512_1_0_0_1_n_n
      dot_S8x1024_S1024x512_S8x512_1_0_0_1_n_n_wf rfl concatenates_S8x512_S8x512_S8x1024_d1
      transposes_S512x1024_S1024x512_1_0 bcast_S512_S1x512_1 bcast_S1x512_S8x512_0_1 bcast_S_S8x512
      7 (by norm_num : 7 + 8 ≤ 32767) (V0 (Proc.devRef .tc main_arg0)) slices_S32767x512_S8x512_7_0
      (by norm_num : 16 = 2 * 8) P.1 P.2 shapeCasts_S16x512_S8x2x512 slices_S8x2x512_S8x1x512_0_0_0 slices_S8x2x512_S8x1x512_0_1_0
      shapeCasts_S8x1x512_S8x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v895
    refine Eq.trans (scatter_set_slice 7 scatter_S32767x512_S1_S8x512_01_n_0_0 scatter_S32767x512_S1_S8x512_01_n_0_0_wf rfl _ _ (fun _ => ?_) _ slices_S32767x512_S8x512_7_0) ?_
    · rfl
    rw [hc]
    unfold ValueP.res_main_v830 ValueP.res_main_v826 ValueP.res_main_v828 ValueP.res_main_v822 ValueP.res_main_v820
    rw [hH]
    exact inner_h (n := 8) (m := 16) (N := 32767) dot_S8x1024_S1024x512_S8x512_1_0_0_1_n_n
      dot_S8x1024_S1024x512_S8x512_1_0_0_1_n_n_wf rfl concatenates_S8x512_S8x512_S8x1024_d1
      transposes_S512x1024_S1024x512_1_0 bcast_S512_S1x512_1 bcast_S1x512_S8x512_0_1 bcast_S_S8x512
      7 (by norm_num : 7 + 8 ≤ 32767) (V0 (Proc.devRef .tc main_arg0)) slices_S32767x512_S8x512_7_0
      (by norm_num : 16 = 2 * 8) P.1 P.2 shapeCasts_S16x512_S8x2x512 slices_S8x2x512_S8x1x512_0_0_0 slices_S8x2x512_S8x1x512_0_1_0
      shapeCasts_S8x1x512_S8x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v897
    refine Eq.trans (scatter_set_slice 7 scatter_S32767x512_S1_S8x512_01_n_0_0 scatter_S32767x512_S1_S8x512_01_n_0_0_wf rfl _ _ (fun _ => ?_) _ slices_S32767x512_S8x512_7_0) hc
    rfl

end Cert.RefTree

end
-- ==== Proof.RefL2.lean ====
/-
  Level 2 of the tree in the reference: the 4 nodes 3 … 6.  Whatever the two tables of states hold in the
  rows of level 3 (a pair P), after this level's two writes their rows 3 … 6 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level2 (V0 : Valuation τ sig (Elt Ideal)) (P : Mat 8 512 × Mat 8 512)
    (hH : extractStridedSlice S8x512 ![7, 0] (ValueP.res_main_v895 V0) slices_S32767x512_S8x512_7_0 = P.1)
    (hC : extractStridedSlice S8x512 ![7, 0] (ValueP.res_main_v897 V0) slices_S32767x512_S8x512_7_0 = P.2) :
    extractStridedSlice S4x512 ![3, 0] (ValueP.res_main_v973 V0) slices_S32767x512_S4x512_3_0 = (level (kpV V0) (by norm_num : 8 = 2 * 4) 3 (by norm_num : 3 + 4 ≤ 32767) (V0 (Proc.devRef .tc main_arg0)) P).1
    ∧ extractStridedSlice S4x512 ![3, 0] (ValueP.res_main_v975 V0) slices_S32767x512_S4x512_3_0 = (level (kpV V0) (by norm_num : 8 = 2 * 4) 3 (by norm_num : 3 + 4 ≤ 32767) (V0 (Proc.devRef .tc main_arg0)) P).2 := by
  have hc : ValueP.res_main_v969 V0 = (level (kpV V0) (by norm_num : 8 = 2 * 4) 3 (by norm_num : 3 + 4 ≤ 32767) (V0 (Proc.devRef .tc main_arg0)) P).2 := by
    unfold ValueP.res_main_v969 ValueP.res_main_v908 ValueP.res_main_v904 ValueP.res_main_v906 ValueP.res_main_v900 ValueP.res_main_v902 ValueP.res_main_v898
    rw [hH, hC]
    exact inner_c (n := 4) (m := 8) (N := 32767) dot_S4x1024_S1024x512_S4x512_1_0_0_1_n_n
      dot_S4x1024_S1024x512_S4x512_1_0_0_1_n_n_wf rfl concatenates_S4x512_S4x512_S4x1024_d1
      transposes_S512x1024_S1024x512_1_0 bcast_S512_S1x512_1 bcast_S1x512_S4x512_0_1 bcast_S_S4x512
      3 (by norm_num : 3 + 4 ≤ 32767) (V0 (Proc.devRef .tc main_arg0)) slices_S32767x512_S4x512_3_0
      (by norm_num : 8 = 2 * 4) P.1 P.2 shapeCasts_S8x512_S4x2x512 slices_S4x2x512_S4x1x512_0_0_0 slices_S4x2x512_S4x1x512_0_1_0
      shapeCasts_S4x1x512_S4x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v973
    refine Eq.trans (scatter_set_slice 3 scatter_S32767x512_S1_S4x512_01_n_0_0 scatter_S32767x512_S1_S4x512_01_n_0_0_wf rfl _ _ (fun _ => ?_) _ slices_S32767x512_S4x512_3_0) ?_
    · rfl
    rw [hc]
    unfold ValueP.res_main_v908 ValueP.res_main_v904 ValueP.res_main_v906 ValueP.res_main_v900 ValueP.res_main_v898
    rw [hH]
    exact inner_h (n := 4) (m := 8) (N := 32767) dot_S4x1024_S1024x512_S4x512_1_0_0_1_n_n
      dot_S4x1024_S1024x512_S4x512_1_0_0_1_n_n_wf rfl concatenates_S4x512_S4x512_S4x1024_d1
      transposes_S512x1024_S1024x512_1_0 bcast_S512_S1x512_1 bcast_S1x512_S4x512_0_1 bcast_S_S4x512
      3 (by norm_num : 3 + 4 ≤ 32767) (V0 (Proc.devRef .tc main_arg0)) slices_S32767x512_S4x512_3_0
      (by norm_num : 8 = 2 * 4) P.1 P.2 shapeCasts_S8x512_S4x2x512 slices_S4x2x512_S4x1x512_0_0_0 slices_S4x2x512_S4x1x512_0_1_0
      shapeCasts_S4x1x512_S4x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v975
    refine Eq.trans (scatter_set_slice 3 scatter_S32767x512_S1_S4x512_01_n_0_0 scatter_S32767x512_S1_S4x512_01_n_0_0_wf rfl _ _ (fun _ => ?_) _ slices_S32767x512_S4x512_3_0) hc
    rfl

end Cert.RefTree

end
-- ==== Proof.RefL1.lean ====
/-
  Level 1 of the tree in the reference: the 2 nodes 1 … 2.  Whatever the two tables of states hold in the
  rows of level 2 (a pair P), after this level's two writes their rows 1 … 2 hold the specification's level
  computed from P and the level's rows of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

theorem level1 (V0 : Valuation τ sig (Elt Ideal)) (P : Mat 4 512 × Mat 4 512)
    (hH : extractStridedSlice S4x512 ![3, 0] (ValueP.res_main_v973 V0) slices_S32767x512_S4x512_3_0 = P.1)
    (hC : extractStridedSlice S4x512 ![3, 0] (ValueP.res_main_v975 V0) slices_S32767x512_S4x512_3_0 = P.2) :
    extractStridedSlice S2x512 ![1, 0] (ValueP.res_main_v1051 V0) slices_S32767x512_S2x512_1_0 = (level (kpV V0) (by norm_num : 4 = 2 * 2) 1 (by norm_num : 1 + 2 ≤ 32767) (V0 (Proc.devRef .tc main_arg0)) P).1
    ∧ extractStridedSlice S2x512 ![1, 0] (ValueP.res_main_v1053 V0) slices_S32767x512_S2x512_1_0 = (level (kpV V0) (by norm_num : 4 = 2 * 2) 1 (by norm_num : 1 + 2 ≤ 32767) (V0 (Proc.devRef .tc main_arg0)) P).2 := by
  have hc : ValueP.res_main_v1047 V0 = (level (kpV V0) (by norm_num : 4 = 2 * 2) 1 (by norm_num : 1 + 2 ≤ 32767) (V0 (Proc.devRef .tc main_arg0)) P).2 := by
    unfold ValueP.res_main_v1047 ValueP.res_main_v986 ValueP.res_main_v982 ValueP.res_main_v984 ValueP.res_main_v978 ValueP.res_main_v980 ValueP.res_main_v976
    rw [hH, hC]
    exact inner_c (n := 2) (m := 4) (N := 32767) dot_S2x1024_S1024x512_S2x512_1_0_0_1_n_n
      dot_S2x1024_S1024x512_S2x512_1_0_0_1_n_n_wf rfl concatenates_S2x512_S2x512_S2x1024_d1
      transposes_S512x1024_S1024x512_1_0 bcast_S512_S1x512_1 bcast_S1x512_S2x512_0_1 bcast_S_S2x512
      1 (by norm_num : 1 + 2 ≤ 32767) (V0 (Proc.devRef .tc main_arg0)) slices_S32767x512_S2x512_1_0
      (by norm_num : 4 = 2 * 2) P.1 P.2 shapeCasts_S4x512_S2x2x512 slices_S2x2x512_S2x1x512_0_0_0 slices_S2x2x512_S2x1x512_0_1_0
      shapeCasts_S2x1x512_S2x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold ValueP.res_main_v1051
    refine Eq.trans (scatter_set_slice 1 scatter_S32767x512_S1_S2x512_01_n_0_0 scatter_S32767x512_S1_S2x512_01_n_0_0_wf rfl _ _ (fun _ => ?_) _ slices_S32767x512_S2x512_1_0) ?_
    · rfl
    rw [hc]
    unfold ValueP.res_main_v986 ValueP.res_main_v982 ValueP.res_main_v984 ValueP.res_main_v978 ValueP.res_main_v976
    rw [hH]
    exact inner_h (n := 2) (m := 4) (N := 32767) dot_S2x1024_S1024x512_S2x512_1_0_0_1_n_n
      dot_S2x1024_S1024x512_S2x512_1_0_0_1_n_n_wf rfl concatenates_S2x512_S2x512_S2x1024_d1
      transposes_S512x1024_S1024x512_1_0 bcast_S512_S1x512_1 bcast_S1x512_S2x512_0_1 bcast_S_S2x512
      1 (by norm_num : 1 + 2 ≤ 32767) (V0 (Proc.devRef .tc main_arg0)) slices_S32767x512_S2x512_1_0
      (by norm_num : 4 = 2 * 2) P.1 P.2 shapeCasts_S4x512_S2x2x512 slices_S2x2x512_S2x1x512_0_0_0 slices_S2x2x512_S2x1x512_0_1_0
      shapeCasts_S2x1x512_S2x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold ValueP.res_main_v1053
    refine Eq.trans (scatter_set_slice 1 scatter_S32767x512_S1_S2x512_01_n_0_0 scatter_S32767x512_S1_S2x512_01_n_0_0_wf rfl _ _ (fun _ => ?_) _ slices_S32767x512_S2x512_1_0) hc
    rfl

end Cert.RefTree

end
-- ==== Proof.RefRoot.lean ====
/-
  The top of the tree in the reference.  At the root level there is one row, so the bias, already a one-row
  table, is added without being stretched over rows; stretching a one-row table to one row changes nothing.
  The root's states leave the program as the single row of a one-row table read as a vector.
-/
import proofs.«132239_j37117107372689_2_alg».proof.Proof.TreeSpec
import proofs.«132239_j37117107372689_2_alg».proof.Proof.RefCell
import proofs.«132239_j37117107372689_2_alg».proof.Proof.LibSplitLinear

noncomputable section

open scoped BigOperators

namespace Cert.RefTree

open Idealize.ShloMosaic Idealize.ShloMosaic.ValueIdx Cert.SplitLinear Cert.TreeSpec

variable {m N : ℕ}

set_option maxRecDepth 8192

/-- A bias laid as a one-row table is that table stretched to one row. -/
theorem bias1_eq (b : Row 512) (hb1 : (⟨1, ![512]⟩ : Shape).BroadcastsInDim ⟨2, ![1, 512]⟩ ![1])
    (hb2 : (⟨2, ![1, 512]⟩ : Shape).BroadcastsInDim ⟨2, ![1, 512]⟩ ![0, 1]) :
    broadcastInDim ⟨2, ![1, 512]⟩ ![1] hb1 b
      = broadcastInDim ⟨2, ![1, 512]⟩ ![0, 1] hb2 (broadcastInDim ⟨2, ![1, 512]⟩ ![1] hb1 b) := by
  funext i
  obtain ⟨p, q, rfl⟩ : ∃ p q, i = ix2 p q := ⟨i 0, i 1, eq_ix2 i⟩
  refine Eq.trans ?_ (bias_bcast_apply b hb1 hb2 p q).symm
  refine broadcastInDim_apply _ hb1 b (ix2 p q) (ix1 q) fun a => ?_
  match a with
  | ⟨0, _⟩ =>
    show q.val = if 512 = 1 then 0 else q.val
    exact (if_neg (show ¬ (512 : ℕ) = 1 by decide)).symm

/-- The root level's cell state. -/
theorem root_c (D : DotDims ⟨2, ![1, 1024]⟩ ⟨2, ![1024, 512]⟩ ⟨2, ![1, 512]⟩)
    (wd : DotDims.WF ⟨2, ![1, 1024]⟩ ⟨2, ![1024, 512]⟩ ⟨2, ![1, 512]⟩ [1] [0] [0] [1] [] [])
    (hD : D = TileMatmul.plainDims wd)
    (hc : Shape.Concatenates [(⟨2, ![1, 512]⟩ : Shape), ⟨2, ![1, 512]⟩] ⟨2, ![1, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb0 : (⟨0, ![]⟩ : Shape).BroadcastsInDim ⟨2, ![1, 512]⟩ (![] : Fin 0 → Fin 2))
    (s : ℕ) (hs' : s + 1 ≤ N) (X : Mat N 512)
    (hs : (⟨2, ![N, 512]⟩ : Shape).Slices ![s, 0] ⟨2, ![1, 512]⟩)
    (hm : m = 2 * 1) (Hp Cp : Mat m 512)
    (h1 : (⟨2, ![m, 512]⟩ : Shape).ShapeCasts ⟨3, ![1, 2, 512]⟩)
    (h20 : (⟨3, ![1, 2, 512]⟩ : Shape).Slices ![0, 0, 0] ⟨3, ![1, 1, 512]⟩)
    (h21 : (⟨3, ![1, 2, 512]⟩ : Shape).Slices ![0, 1, 0] ⟨3, ![1, 1, 512]⟩)
    (h3 : (⟨3, ![1, 1, 512]⟩ : Shape).ShapeCasts ⟨2, ![1, 512]⟩)
    (Wi : Mat 512 1024) (bi : Row 512) (Wf : Mat 512 1024) (bf : Row 512) (Wo : Mat 512 1024) (bo : Row 512)
    (Wu : Mat 512 1024) (bu : Row 512) :
    (addf (F := Ideal) (φ := .f32) (addf (F := Ideal) (φ := .f32) (mulf (F := Ideal) (φ := .f32) (Host.divf (F := Ideal) (φ := .f32) (broadcastInDim ⟨2, ![1, 512]⟩ (![] : Fin 0 → Fin 2) hb0 (constant (F := Ideal) ⟨0, ![]⟩ .f32 0x3F800000#32)) (addf (F := Ideal) (φ := .f32) (broadcastInDim ⟨2, ![1, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![1, 1024]⟩ 1 [⟨⟨2, ![1, 512]⟩, (extractStridedSlice ⟨2, ![1, 512]⟩ ![s, 0] X hs)⟩, ⟨⟨2, ![1, 512]⟩, (addf (F := Ideal) (φ := .f32) (shapeCast ⟨2, ![1, 512]⟩ (extractStridedSlice ⟨3, ![1, 1, 512]⟩ ![0, 0, 0] (shapeCast ⟨3, ![1, 2, 512]⟩ Hp h1) h20) h3) (shapeCast ⟨2, ![1, 512]⟩ (extractStridedSlice ⟨3, ![1, 1, 512]⟩ ![0, 1, 0] (shapeCast ⟨3, ![1, 2, 512]⟩ Hp h1) h21) h3))⟩] hc) (transpose ⟨2, ![1024, 512]⟩ [1, 0] Wi ht)) (broadcastInDim ⟨2, ![1, 512]⟩ ![1] hb1 bi)))))) (Host.tanh (F := Ideal) (φ := .f32) (addf (F := Ideal) (φ := .f32) (Host.dotGeneral (F := Ideal) (φ₁ := .f32) (φ₂ := .f32) D none (concatenate ⟨2, ![1, 1024]⟩ 1 [⟨⟨2, ![1, 512]⟩, (extractStridedSlice ⟨2, ![1, 512]⟩ ![s, 0] X hs)⟩, ⟨⟨2, ![1, 512]⟩, (addf (F := Ideal) (φ := .f32) (shapeCast ⟨2, ![1, 512]⟩ (extractStridedSlice ⟨3, ![1, 1, 512]⟩ ![0, 0, 0] (shapeCast ⟨3, ![1, 2, 512]⟩ Hp h1) h20) h3) (shapeCast ⟨2, ![1, 512]⟩ (extractStridedSlice ⟨3, ![1, 1, 512]⟩ ![0, 1, 0] (shapeCast ⟨3, ![1, 2, 512]⟩ Hp h1) h21) h3))⟩] hc) (transpose ⟨2, ![1024, 512]⟩ [1, 0] Wu ht)) (broadcastInDim ⟨2, ![1, 512]⟩ ![1] hb1 bu)))) (mulf (F := Ideal) (φ := .f32) (Host.divf (F := Ideal) (φ := .f32) (broadcastInDim ⟨2, ![1, 512]⟩ (![] : Fin 0 → Fin 2) hb0 (constant (F := Ideal) ⟨0, ![]⟩ .f32 0x3F800000#32)) (addf (F := Ideal) (φ := .f32) (broadcastInDim ⟨2, ![1, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![1, 1024]⟩ 1 [⟨⟨2, ![1, 512]⟩, (extractStridedSlice ⟨2, ![1, 512]⟩ ![s, 0] X hs)⟩, ⟨⟨2, ![1, 512]⟩, (shapeCast ⟨2, ![1, 512]⟩ (extractStridedSlice ⟨3, ![1, 1, 512]⟩ ![0, 0, 0] (shapeCast ⟨3, ![1, 2, 512]⟩ Hp h1) h20) h3)⟩] hc) (transpose ⟨2, ![1024, 512]⟩ [1, 0] Wf ht)) (broadcastInDim ⟨2, ![1, 512]⟩ ![1] hb1 bf)))))) (shapeCast ⟨2, ![1, 512]⟩ (extractStridedSlice ⟨3, ![1, 1, 512]⟩ ![0, 0, 0] (shapeCast ⟨3, ![1, 2, 512]⟩ Cp h1) h20) h3))) (mulf (F := Ideal) (φ := .f32) (Host.divf (F := Ideal) (φ := .f32) (broadcastInDim ⟨2, ![1, 512]⟩ (![] : Fin 0 → Fin 2) hb0 (constant (F := Ideal) ⟨0, ![]⟩ .f32 0x3F800000#32)) (addf (F := Ideal) (φ := .f32) (broadcastInDim ⟨2, ![1, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![1, 1024]⟩ 1 [⟨⟨2, ![1, 512]⟩, (extractStridedSlice ⟨2, ![1, 512]⟩ ![s, 0] X hs)⟩, ⟨⟨2, ![1, 512]⟩, (shapeCast ⟨2, ![1, 512]⟩ (extractStridedSlice ⟨3, ![1, 1, 512]⟩ ![0, 1, 0] (shapeCast ⟨3, ![1, 2, 512]⟩ Hp h1) h21) h3)⟩] hc) (transpose ⟨2, ![1024, 512]⟩ [1, 0] Wf ht)) (broadcastInDim ⟨2, ![1, 512]⟩ ![1] hb1 bf)))))) (shapeCast ⟨2, ![1, 512]⟩ (extractStridedSlice ⟨3, ![1, 1, 512]⟩ ![0, 1, 0] (shapeCast ⟨3, ![1, 2, 512]⟩ Cp h1) h21) h3)))
      = (level (split Wi bi Wf bf Wo bo Wu bu) hm s hs' X (Hp, Cp)).2 := by
  have hb2 : (⟨2, ![1, 512]⟩ : Shape).BroadcastsInDim ⟨2, ![1, 512]⟩ ![0, 1] := by decide
  rw [bias1_eq bi hb1 hb2, bias1_eq bu hb1 hb2, bias1_eq bf hb1 hb2]
  exact inner_c D wd hD hc ht hb1 hb2 hb0 s hs' X hs hm Hp Cp h1 h20 h21 h3 Wi bi Wf bf Wo bo Wu bu

/-- The root level's hidden state, from its cell state. -/
theorem root_h (D : DotDims ⟨2, ![1, 1024]⟩ ⟨2, ![1024, 512]⟩ ⟨2, ![1, 512]⟩)
    (wd : DotDims.WF ⟨2, ![1, 1024]⟩ ⟨2, ![1024, 512]⟩ ⟨2, ![1, 512]⟩ [1] [0] [0] [1] [] [])
    (hD : D = TileMatmul.plainDims wd)
    (hc : Shape.Concatenates [(⟨2, ![1, 512]⟩ : Shape), ⟨2, ![1, 512]⟩] ⟨2, ![1, 1024]⟩ 1)
    (ht : (⟨2, ![512, 1024]⟩ : Shape).Transposes [1, 0] ⟨2, ![1024, 512]⟩)
    (hb1 : (⟨1, ![512]⟩ : Shape).BroadcastsInDim ⟨2, ![1, 512]⟩ ![1])
    (hb0 : (⟨0, ![]⟩ : Shape).BroadcastsInDim ⟨2, ![1, 512]⟩ (![] : Fin 0 → Fin 2))
    (s : ℕ) (hs' : s + 1 ≤ N) (X : Mat N 512)
    (hs : (⟨2, ![N, 512]⟩ : Shape).Slices ![s, 0] ⟨2, ![1, 512]⟩)
    (hm : m = 2 * 1) (Hp Cp : Mat m 512)
    (h1 : (⟨2, ![m, 512]⟩ : Shape).ShapeCasts ⟨3, ![1, 2, 512]⟩)
    (h20 : (⟨3, ![1, 2, 512]⟩ : Shape).Slices ![0, 0, 0] ⟨3, ![1, 1, 512]⟩)
    (h21 : (⟨3, ![1, 2, 512]⟩ : Shape).Slices ![0, 1, 0] ⟨3, ![1, 1, 512]⟩)
    (h3 : (⟨3, ![1, 1, 512]⟩ : Shape).ShapeCasts ⟨2, ![1, 512]⟩)
    (Wi : Mat 512 1024) (bi : Row 512) (Wf : Mat 512 1024) (bf : Row 512) (Wo : Mat 512 1024) (bo : Row 512)
    (Wu : Mat 512 1024) (bu : Row 512) :
    (mulf (F := Ideal) (φ := .f32) (Host.divf (F := Ideal) (φ := .f32) (broadcastInDim ⟨2, ![1, 512]⟩ (![] : Fin 0 → Fin 2) hb0 (constant (F := Ideal) ⟨0, ![]⟩ .f32 0x3F800000#32)) (addf (F := Ideal) (φ := .f32) (broadcastInDim ⟨2, ![1, 512]⟩ (![] : Fin 0 → Fin 2) hb0 (constant (F := Ideal) ⟨0, ![]⟩ .f32 0x3F800000#32)) (Host.exp (F := Ideal) (φ := .f32) (Host.negf (F := Ideal) (φ := .f32) (addf (F := Ideal) (φ := .f32) (Host.dotGeneral (F := Ideal) (φ₁ := .f32) (φ₂ := .f32) D none (concatenate ⟨2, ![1, 1024]⟩ 1 [⟨⟨2, ![1, 512]⟩, (extractStridedSlice ⟨2, ![1, 512]⟩ ![s, 0] X hs)⟩, ⟨⟨2, ![1, 512]⟩, (addf (F := Ideal) (φ := .f32) (shapeCast ⟨2, ![1, 512]⟩ (extractStridedSlice ⟨3, ![1, 1, 512]⟩ ![0, 0, 0] (shapeCast ⟨3, ![1, 2, 512]⟩ Hp h1) h20) h3) (shapeCast ⟨2, ![1, 512]⟩ (extractStridedSlice ⟨3, ![1, 1, 512]⟩ ![0, 1, 0] (shapeCast ⟨3, ![1, 2, 512]⟩ Hp h1) h21) h3))⟩] hc) (transpose ⟨2, ![1024, 512]⟩ [1, 0] Wo ht)) (broadcastInDim ⟨2, ![1, 512]⟩ ![1] hb1 bo)))))) (Host.tanh (F := Ideal) (φ := .f32) (level (split Wi bi Wf bf Wo bo Wu bu) hm s hs' X (Hp, Cp)).2))
      = (level (split Wi bi Wf bf Wo bo Wu bu) hm s hs' X (Hp, Cp)).1 := by
  have hb2 : (⟨2, ![1, 512]⟩ : Shape).BroadcastsInDim ⟨2, ![1, 512]⟩ ![0, 1] := by decide
  rw [bias1_eq bo hb1 hb2]
  exact inner_h D wd hD hc ht hb1 hb2 hb0 s hs' X hs hm Hp Cp h1 h20 h21 h3 Wi bi Wf bf Wo bo Wu bu

/-- A one-row table read as a vector: entry k is the row's entry k. -/
theorem row_read (Y : Mat 1 512) (h : (⟨2, ![1, 512]⟩ : Shape).ShapeCasts ⟨1, ![512]⟩) :
    shapeCast ⟨1, ![512]⟩ Y h = fun i => Y (ix2 (0 : Fin 1) (i 0)) := by
  funext i
  obtain ⟨k, rfl⟩ : ∃ k, i = ix1 k := ⟨i 0, eq_ix1 i⟩
  exact shapeCast_1a_a_apply Y h k

/-- The same with the table replaced by an equal one. -/
theorem row_read_congr (Y Z : Mat 1 512) (h : (⟨2, ![1, 512]⟩ : Shape).ShapeCasts ⟨1, ![512]⟩) (e : Y = Z) :
    shapeCast ⟨1, ![512]⟩ Y h = fun i => Z (ix2 (0 : Fin 1) (i 0)) := by
  subst e
  exact row_read Y h

end Cert.RefTree

end
-- ==== Proof.RefL0.lean ====
/-
  Level 0 of the tree in the reference: the root.  Whatever the two tables of states hold in the rows 1 … 2 of
  level 1 (a pair P), the two results of the program, the root's row of each table read as a vector, are the
  specification's level computed from P and row 0 of x.
-/
import proofs.«132239_j37117107372689_2_alg».proof.Proof.RefRunBase
import proofs.«132239_j37117107372689_2_alg».proof.Proof.RefKp
import proofs.«132239_j37117107372689_2_alg».proof.Proof.RefCell
import proofs.«132239_j37117107372689_2_alg».proof.Proof.RefScatter
import proofs.«132239_j37117107372689_2_alg».proof.Proof.RefRoot

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

section
variable {F : FTy → Type} [FloatOps F]

/-- The program's first result as a term of a valuation of its buffers: the root's row of the table of hidden
    states, read as a vector. -/
def outH (V0 : Valuation τ sig (Elt F)) : (⟨S512, .f32⟩ : BufTy).Contents (Elt F) :=
  shapeCast _ (extractStridedSlice S1x512 ![0, 0] (Host.scatter scatter_S32767x512_S1_S1x512_01_n_0_0 (fun _ b => b) (ValueP.res_main_v1051 V0) (broadcastInDim S1 ![] bcast_S_S1 (constantI S_ 32 0#32)) (mulf (Host.divf (broadcastInDim S1x512 ![] bcast_S_S1x512 (constant S_ .f32 0x3F800000#32)) (addf (broadcastInDim S1x512 ![] bcast_S_S1x512 (constant S_ .f32 0x3F800000#32)) (Host.exp (Host.negf (addf (Host.dotGeneral dot_S1x1024_S1024x512_S1x512_1_0_0_1_n_n none (ValueP.res_main_v1064 V0) (transpose S1024x512 [1, 0] (V0 (Proc.devRef .tc main_arg5)) transposes_S512x1024_S1024x512_1_0)) (broadcastInDim S1x512 ![1] bcast_S512_S1x512_1 (V0 (Proc.devRef .tc main_arg6)))))))) (Host.tanh (ValueP.res_main_v1120 V0)))) slices_S32767x512_S1x512_0_0) shapeCasts_S1x512_S512

/-- The program's second result: the root's row of the table of cell states, read as a vector. -/
def outC (V0 : Valuation τ sig (Elt F)) : (⟨S512, .f32⟩ : BufTy).Contents (Elt F) :=
  shapeCast _ (extractStridedSlice S1x512 ![0, 0] (Host.scatter scatter_S32767x512_S1_S1x512_01_n_0_0 (fun _ b => b) (ValueP.res_main_v1053 V0) (broadcastInDim S1 ![] bcast_S_S1 (constantI S_ 32 0#32)) (ValueP.res_main_v1120 V0)) slices_S32767x512_S1x512_0_0) shapeCasts_S1x512_S512

end

theorem level0 (V0 : Valuation τ sig (Elt Ideal)) (P : Mat 2 512 × Mat 2 512)
    (hH : extractStridedSlice S2x512 ![1, 0] (ValueP.res_main_v1051 V0) slices_S32767x512_S2x512_1_0 = P.1)
    (hC : extractStridedSlice S2x512 ![1, 0] (ValueP.res_main_v1053 V0) slices_S32767x512_S2x512_1_0 = P.2) :
    outH V0
        = (fun i : (⟨1, ![512]⟩ : Shape).Idx => (level (kpV V0) (by norm_num : 2 = 2 * 1) 0 (by norm_num : 0 + 1 ≤ 32767) (V0 (Proc.devRef .tc main_arg0)) P).1 (ix2 (0 : Fin 1) (i 0)))
    ∧ outC V0
        = (fun i : (⟨1, ![512]⟩ : Shape).Idx => (level (kpV V0) (by norm_num : 2 = 2 * 1) 0 (by norm_num : 0 + 1 ≤ 32767) (V0 (Proc.devRef .tc main_arg0)) P).2 (ix2 (0 : Fin 1) (i 0))) := by
  have hc : ValueP.res_main_v1120 V0 = (level (kpV V0) (by norm_num : 2 = 2 * 1) 0 (by norm_num : 0 + 1 ≤ 32767) (V0 (Proc.devRef .tc main_arg0)) P).2 := by
    unfold ValueP.res_main_v1120 ValueP.res_main_v1064 ValueP.res_main_v1060 ValueP.res_main_v1062 ValueP.res_main_v1056 ValueP.res_main_v1058 ValueP.res_main_v1054
    rw [hH, hC]
    exact root_c (m := 2) (N := 32767) dot_S1x1024_S1024x512_S1x512_1_0_0_1_n_n
      dot_S1x1024_S1024x512_S1x512_1_0_0_1_n_n_wf rfl concatenates_S1x512_S1x512_S1x1024_d1
      transposes_S512x1024_S1024x512_1_0 bcast_S512_S1x512_1 bcast_S_S1x512
      0 (by norm_num : 0 + 1 ≤ 32767) (V0 (Proc.devRef .tc main_arg0)) slices_S32767x512_S1x512_0_0
      (by norm_num : 2 = 2 * 1) P.1 P.2 shapeCasts_S2x512_S1x2x512 slices_S1x2x512_S1x1x512_0_0_0 slices_S1x2x512_S1x1x512_0_1_0
      shapeCasts_S1x1x512_S1x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  refine ⟨?_, ?_⟩
  · unfold outH
    refine row_read_congr _ _ shapeCasts_S1x512_S512 ?_
    refine Eq.trans (scatter_set_slice 0 scatter_S32767x512_S1_S1x512_01_n_0_0 scatter_S32767x512_S1_S1x512_01_n_0_0_wf rfl _ _ (fun _ => ?_) _ slices_S32767x512_S1x512_0_0) ?_
    · rfl
    rw [hc]
    unfold ValueP.res_main_v1064 ValueP.res_main_v1060 ValueP.res_main_v1062 ValueP.res_main_v1056 ValueP.res_main_v1054
    rw [hH]
    exact root_h (m := 2) (N := 32767) dot_S1x1024_S1024x512_S1x512_1_0_0_1_n_n
      dot_S1x1024_S1024x512_S1x512_1_0_0_1_n_n_wf rfl concatenates_S1x512_S1x512_S1x1024_d1
      transposes_S512x1024_S1024x512_1_0 bcast_S512_S1x512_1 bcast_S_S1x512
      0 (by norm_num : 0 + 1 ≤ 32767) (V0 (Proc.devRef .tc main_arg0)) slices_S32767x512_S1x512_0_0
      (by norm_num : 2 = 2 * 1) P.1 P.2 shapeCasts_S2x512_S1x2x512 slices_S1x2x512_S1x1x512_0_0_0 slices_S1x2x512_S1x1x512_0_1_0
      shapeCasts_S1x1x512_S1x512
      (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  · unfold outC
    refine row_read_congr _ _ shapeCasts_S1x512_S512 ?_
    refine Eq.trans (scatter_set_slice 0 scatter_S32767x512_S1_S1x512_01_n_0_0 scatter_S32767x512_S1_S1x512_01_n_0_0_wf rfl _ _ (fun _ => ?_) _ slices_S32767x512_S1x512_0_0) hc
    rfl

end Cert.RefTree

end
-- ==== Proof.RefRun.lean ====
/-
  The reference program's run ends with the root's hidden state and cell state of the specification.

  The fifteen levels are chained bottom-up: after level l's two writes the rows of level l in the two tables of
  states hold the specification's level l, which is what level l - 1 reads as its children.  The two results are
  the root's row of each table.
-/
import proofs.«132239_j37117107372689_2_alg».proof.Proof.RefRunTop
import proofs.«132239_j37117107372689_2_alg».proof.Proof.RefKp
import proofs.«132239_j37117107372689_2_alg».proof.Proof.RefL14
import proofs.«132239_j37117107372689_2_alg».proof.Proof.RefL13
import proofs.«132239_j37117107372689_2_alg».proof.Proof.RefL12
import proofs.«132239_j37117107372689_2_alg».proof.Proof.RefL11
import proofs.«132239_j37117107372689_2_alg».proof.Proof.RefL10
import proofs.«132239_j37117107372689_2_alg».proof.Proof.RefL9
import proofs.«132239_j37117107372689_2_alg».proof.Proof.RefL8
import proofs.«132239_j37117107372689_2_alg».proof.Proof.RefL7
import proofs.«132239_j37117107372689_2_alg».proof.Proof.RefL6
import proofs.«132239_j37117107372689_2_alg».proof.Proof.RefL5
import proofs.«132239_j37117107372689_2_alg».proof.Proof.RefL4
import proofs.«132239_j37117107372689_2_alg».proof.Proof.RefL3
import proofs.«132239_j37117107372689_2_alg».proof.Proof.RefL2
import proofs.«132239_j37117107372689_2_alg».proof.Proof.RefL1
import proofs.«132239_j37117107372689_2_alg».proof.Proof.RefL0

set_option maxRecDepth 16384

noncomputable section

namespace Cert.RefTree

open Cert.ReferenceIdeal Cert.ReferenceIdeal.Gen Idealize.ShloMosaic Idealize.ShloMosaic.TcCoe Idealize.SL.Sem Idealize.ShloMosaic.StableHlo Idealize.ShloMosaic.ValueIdx Cert.TreeSpec

/-- The program's two results, as terms of a valuation of its buffers, are the specification's root states. -/
theorem results (V0 : Valuation τ sig (Elt Ideal)) :
    outH V0
        = TreeSpec.rootH (kpV V0) (V0 (Proc.devRef .tc main_arg0))
    ∧ outC V0
        = TreeSpec.rootC (kpV V0) (V0 (Proc.devRef .tc main_arg0)) := by
  have h14 := level14 V0
  have h13 := level13 V0 (L14 (kpV V0) (V0 (Proc.devRef .tc main_arg0))) h14.1 h14.2
  have h12 := level12 V0 (L13 (kpV V0) (V0 (Proc.devRef .tc main_arg0))) h13.1 h13.2
  have h11 := level11 V0 (L12 (kpV V0) (V0 (Proc.devRef .tc main_arg0))) h12.1 h12.2
  have h10 := level10 V0 (L11 (kpV V0) (V0 (Proc.devRef .tc main_arg0))) h11.1 h11.2
  have h9 := level9 V0 (L10 (kpV V0) (V0 (Proc.devRef .tc main_arg0))) h10.1 h10.2
  have h8 := level8 V0 (L9 (kpV V0) (V0 (Proc.devRef .tc main_arg0))) h9.1 h9.2
  have h7 := level7 V0 (L8 (kpV V0) (V0 (Proc.devRef .tc main_arg0))) h8.1 h8.2
  have h6 := level6 V0 (L7 (kpV V0) (V0 (Proc.devRef .tc main_arg0))) h7.1 h7.2
  have h5 := level5 V0 (L6 (kpV V0) (V0 (Proc.devRef .tc main_arg0))) h6.1 h6.2
  have h4 := level4 V0 (L5 (kpV V0) (V0 (Proc.devRef .tc main_arg0))) h5.1 h5.2
  have h3 := level3 V0 (L4 (kpV V0) (V0 (Proc.devRef .tc main_arg0))) h4.1 h4.2
  have h2 := level2 V0 (L3 (kpV V0) (V0 (Proc.devRef .tc main_arg0))) h3.1 h3.2
  have h1 := level1 V0 (L2 (kpV V0) (V0 (Proc.devRef .tc main_arg0))) h2.1 h2.2
  exact level0 V0 (L1 (kpV V0) (V0 (Proc.devRef .tc main_arg0))) h1.1 h1.2

/-- On every device, from any memory with zero counters, every weakly fair execution of the reference's @main
    terminates with its two results the root's hidden and cell state of the specification, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1128) = TreeSpec.rootH (kp m c) (m ((c.tc : Thread nD τ).loc main_arg0))
        ∧ r.2.mem ((c.tc : Thread nD τ).loc main_v1130) = TreeSpec.rootC (kp m c) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) :=
  (θ_run (defs (F := Ideal)) _ _).mono (fun r h c =>
      ⟨(h c).1.trans (results (launchContents m c)).1, (h c).2.1.trans (results (launchContents m c)).2, (h c).2.2⟩)
    (Cert.ReferenceIdeal.ValueP.run (F := Ideal) m ρ)

end Cert.RefTree

end
-- ==== Proof.lean ====
/-
  The certificate of a Child-Sum Tree-LSTM over a complete binary tree of 15 levels in heap layout: a kernel program
  of six regions — the leaf level, four inner levels, and the ten upper levels fused in one kernel body — against a
  reference that carries (N, H) arrays of hidden and cell states and updates one level's slab at a time.

  At the ideal values both programs compute the same function of the arguments, the specification's root (h, c):
  every gate's pre-activation is [x ; h]·Wᵀ + b, which the reference computes as one product over the concatenated
  1024 columns and the kernel as the sum of the two 512-column halves — a finite sum split in two —, the sigmoid is
  one function on both sides, and every other sum is grouped alike. A level's slab written into the carry array and
  cut out again is the slab, and the children of a level's nodes are the even and odd rows of the level below. No
  law used needs the inputs finite, so the precondition is never opened.

  The three frames: each kernel program's run is its six regions' launch among the host stretches; the reference's
  run is its host operations in order. The idealized kernel has no rewritten operation, so it preserves the kernel.
-/
import proofs.«132239_j37117107372689_2_alg».proof.Defs
import proofs.«132239_j37117107372689_2_alg».proof.Proof.Gen.Kernel
import proofs.«132239_j37117107372689_2_alg».proof.Proof.Gen.KernelIdeal
import proofs.«132239_j37117107372689_2_alg».proof.Proof.Gen.ReferenceIdeal
import proofs.«132239_j37117107372689_2_alg».proof.Proof.Gen.Pre_finite_inputs
import proofs.«132239_j37117107372689_2_alg».proof.Proof.KernelFrame
import proofs.«132239_j37117107372689_2_alg».proof.Proof.KRun
import proofs.«132239_j37117107372689_2_alg».proof.Proof.KValue
import proofs.«132239_j37117107372689_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run with its two results dropped. -/
theorem frame_ri : Cert.frame_ReferenceIdeal := fun m ρ _ =>
  (θ_run Cert.ReferenceIdeal.defs _ _).mono (fun _ h c => (h c).2.2) (Cert.RefTree.run m ρ)

theorem preserves : Cert.preserves_Kernel_KernelIdeal := trivial

/-- Both programs end at the specification's root of the arguments; the two memories agree on the arguments. -/
theorem algebraic : Cert.algebraic_KernelIdeal_ReferenceIdeal := by
  intro m ρ m' ρ' _ hagree
  refine ⟨fun c => Cert.TreeSpec.rootH (Cert.KTree.q m c) (Cert.KTree.xin m c),
    fun c => Cert.TreeSpec.rootC (Cert.KTree.q m c) (Cert.KTree.xin m c), ?_, ?_⟩
  · exact (θ_run Cert.KernelIdeal.defs _ _).mono
      (fun _ h c => ⟨(h c).1.trans (Cert.KTree.root_h m ρ c), (h c).2.1.trans (Cert.KTree.root_c m ρ c), (h c).2.2⟩)
      (Cert.KernelIdeal.GenP.run_named m ρ)
  · refine (θ_run Cert.ReferenceIdeal.defs _ _).mono (fun _ h c => ⟨(h c).1.trans ?_, (h c).2.1.trans ?_, (h c).2.2⟩)
      (Cert.RefTree.run m' ρ')
    · unfold Cert.RefTree.kp Cert.KTree.q Cert.KTree.xin
      rw [(hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]
    · unfold Cert.RefTree.kp Cert.KTree.q Cert.KTree.xin
      rw [(hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
